-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)) →
    ∃ (v0 : (c : Dev Cert.KernelIdeal.nD) → Buf (Elt Ideal) ((c.tc : Thread Cert.KernelIdeal.nD Cert.KernelIdeal.τ).loc Cert.KernelIdeal.main_v101)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v101) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v157) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x4 : Shape := ⟨2, ![100000, 4]⟩
abbrev S3200000 : Shape := ⟨1, ![3200000]⟩
abbrev S4x64 : Shape := ⟨2, ![4, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S_ : Shape := ⟨0, ![]⟩

class Facts : Prop where
  bcast_S_S100000x4 : S_.BroadcastsInDim S100000x4 (![] : Fin 0 → Fin S100000x4.rank)
  reducesTo_S100000x4_S_d0_1 : S100000x4.ReducesTo [0, 1] S_
  h_S_ : 0 < S_.numel
  bcast_S_S4x64 : S_.BroadcastsInDim S4x64 (![] : Fin 0 → Fin S4x64.rank)
  reducesTo_S4x64_S_d0_1 : S4x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x1 : S_.BroadcastsInDim S32x1 (![] : Fin 0 → Fin S32x1.rank)
  reducesTo_S32x1_S_d0_1 : S32x1.ReducesTo [0, 1] S_
  bcast_S_S1 : S_.BroadcastsInDim S1 (![] : Fin 0 → Fin S1.rank)
  reducesTo_S1_S_d0 : S1.ReducesTo [0] S_

variable [Facts]

def fn_part4 {F : FTy → Type} [FloatOps F] (main_arg16 : FVec F S1 .f32) (main_v63 : IVec S_ 1) (main_v67 : IVec S_ 1) : IVec S_ 1 :=
  let main_v68 : IVec S_ 1 := andi main_v63 main_v67
  let main_v69 : FVec F S1 .f32 := Host.absf main_arg16
  let main_cst_26 : FVec F S_ .f32 := constant S_ .f32 0x7F800000#32
  let main_v70 : FVec F S1 .f32 := broadcastInDim S1 ![] bcast_S_S1 main_cst_26
  let main_v71 : IVec S1 1 := cmpf .olt main_v69 main_v70
  let main_c_27 : IVec S_ 1 := constantI S_ 1 1#1
  let main_v72 : IVec S_ 1 := (fun x v => Host.reduce IntOp.andi x v reducesTo_S1_S_d0 h_S_) main_v71 main_c_27
  let main_v73 : IVec S_ 1 := andi main_v68 main_v72
  main_v73

def fn_part3 {F : FTy → Type} [FloatOps F] (main_arg13 : FVec F S64x32 .f32) (main_arg14 : FVec F S32 .f32) (main_arg15 : FVec F S32x1 .f32) (main_arg16 : FVec F S1 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x32 .f32 := Host.absf main_arg13
  let main_cst_20 : FVec F S_ .f32 := constant S_ .f32 0x7F800000#32
  let main_v55 : FVec F S64x32 .f32 := broadcastInDim S64x32 ![] bcast_S_S64x32 main_cst_20
  let main_v56 : IVec S64x32 1 := cmpf .olt main_v54 main_v55
  let main_c_21 : IVec S_ 1 := constantI S_ 1 1#1
  let main_v57 : IVec S_ 1 := (fun x v => Host.reduce IntOp.andi x v reducesTo_S64x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32x1 .f32 := Host.absf main_arg15
  let main_cst_24 : FVec F S_ .f32 := constant S_ .f32 0x7F800000#32
  let main_v65 : FVec F S32x1 .f32 := broadcastInDim S32x1 ![] bcast_S_S32x1 main_cst_24
  let main_v66 : IVec S32x1 1 := cmpf .olt main_v64 main_v65
  let main_c_25 : IVec S_ 1 := constantI S_ 1 1#1
  let main_v67 : IVec S_ 1 := (fun x v => Host.reduce IntOp.andi x v reducesTo_S32x1_S_d0_1 h_S_) main_v66 main_c_25
  fn_part4 (F := F) main_arg16 main_v63 main_v67

def fn_part2 {F : FTy → Type} [FloatOps F] (main_arg9 : FVec F S64 .f32) (main_arg10 : FVec F S64 .f32) (main_arg11 : FVec F S64x64 .f32) (main_arg12 : FVec F S64 .f32) (main_arg13 : FVec F S64x32 .f32) (main_arg14 : FVec F S32 .f32) (main_arg15 : FVec F S32x1 .f32) (main_arg16 : FVec F S1 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64 .f32 := Host.absf main_arg10
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg11
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_arg15 main_arg16 main_v48 main_v49 main_v50

def fn_part1 {F : FTy → Type} [FloatOps F] (main_arg6 : FVec F S64 .f32) (main_arg7 : FVec F S64 .f32) (main_arg8 : FVec F S64 .f32) (main_arg9 : FVec F S64 .f32) (main_arg10 : FVec F S64 .f32) (main_arg11 : FVec F S64x64 .f32) (main_arg12 : FVec F S64 .f32) (main_arg13 : FVec F S64x32 .f32) (main_arg14 : FVec F S32 .f32) (main_arg15 : FVec F S32x1 .f32) (main_arg16 : FVec F S1 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg7
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg9 main_arg10 main_arg11 main_arg12 main_arg13 main_arg14 main_arg15 main_arg16 main_v33

def fn {F : FTy → Type} [FloatOps F] (main_arg0 : FVec F S100000x4 .f32) (main_arg1 : IVec S3200000 32) (main_arg2 : IVec S3200000 32) (main_arg3 : FVec F S4x64 .f32) (main_arg4 : FVec F S64 .f32) (main_arg5 : FVec F S64x64 .f32) (main_arg6 : FVec F S64 .f32) (main_arg7 : FVec F S64 .f32) (main_arg8 : FVec F S64 .f32) (main_arg9 : FVec F S64 .f32) (main_arg10 : FVec F S64 .f32) (main_arg11 : FVec F S64x64 .f32) (main_arg12 : FVec F S64 .f32) (main_arg13 : FVec F S64x32 .f32) (main_arg14 : FVec F S32 .f32) (main_arg15 : FVec F S32x1 .f32) (main_arg16 : FVec F S1 .f32) : IVec S_ 1 :=
  let main_v0 : FVec F S100000x4 .f32 := Host.absf main_arg0
  let main_cst : FVec F S_ .f32 := constant S_ .f32 0x7F800000#32
  let main_v1 : FVec F S100000x4 .f32 := broadcastInDim S100000x4 ![] bcast_S_S100000x4 main_cst
  let main_v2 : IVec S100000x4 1 := cmpf .olt main_v0 main_v1
  let main_c : IVec S_ 1 := constantI S_ 1 1#1
  let main_v3 : IVec S_ 1 := (fun x v => Host.reduce IntOp.andi x v reducesTo_S100000x4_S_d0_1 h_S_) main_v2 main_c
  let main_v4 : FVec F S4x64 .f32 := Host.absf main_arg3
  let main_cst_0 : FVec F S_ .f32 := constant S_ .f32 0x7F800000#32
  let main_v5 : FVec F S4x64 .f32 := broadcastInDim S4x64 ![] bcast_S_S4x64 main_cst_0
  let main_v6 : IVec S4x64 1 := cmpf .olt main_v4 main_v5
  let main_c_1 : IVec S_ 1 := constantI S_ 1 1#1
  let main_v7 : IVec S_ 1 := (fun x v => Host.reduce IntOp.andi x v reducesTo_S4x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg5
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg6 main_arg7 main_arg8 main_arg9 main_arg10 main_arg11 main_arg12 main_arg13 main_arg14 main_arg15 main_arg16 main_v13 main_v16
-- ==== Kernel.lean ====
abbrev S100000x4 : Shape := ⟨2, ![100000, 4]⟩
abbrev S3200000 : Shape := ⟨1, ![3200000]⟩
abbrev S4x64 : Shape := ⟨2, ![4, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x64 : Shape := ⟨2, ![100000, 64]⟩
abbrev S5000x4 : Shape := ⟨2, ![5000, 4]⟩
abbrev S5000x64 : Shape := ⟨2, ![5000, 64]⟩
abbrev S3300000x64 : Shape := ⟨2, ![3300000, 64]⟩
abbrev S1x64 : Shape := ⟨2, ![1, 64]⟩
abbrev S1x32 : Shape := ⟨2, ![1, 32]⟩
abbrev S1x1 : Shape := ⟨2, ![1, 1]⟩
abbrev S100000x1 : Shape := ⟨2, ![100000, 1]⟩
abbrev S5000x1 : Shape := ⟨2, ![5000, 1]⟩
abbrev S5000x32 : Shape := ⟨2, ![5000, 32]⟩

abbrev nBuf : Space → Nat
  | .hbm => 143
  | .vmem => 48
  | .smem => 0
  | _ => 0

abbrev hbmTy0_0 (i : Nat) : BufTy := match i % 128 with
  | 0 => ⟨S100000x4, .f32⟩
  | 1 => ⟨S3200000, .i32⟩
  | 2 => ⟨S3200000, .i32⟩
  | 3 => ⟨S4x64, .f32⟩
  | 4 => ⟨S64, .f32⟩
  | 5 => ⟨S64x64, .f32⟩
  | 6 => ⟨S64, .f32⟩
  | 7 => ⟨S64, .f32⟩
  | 8 => ⟨S64, .f32⟩
  | 9 => ⟨S64, .f32⟩
  | 10 => ⟨S64, .f32⟩
  | 11 => ⟨S64x64, .f32⟩
  | 12 => ⟨S64, .f32⟩
  | 13 => ⟨S64x32, .f32⟩
  | 14 => ⟨S32, .f32⟩
  | 15 => ⟨S32x1, .f32⟩
  | 16 => ⟨S1, .f32⟩
  | 17 => ⟨S100000, .i32⟩
  | 18 => ⟨S3300000, .i32⟩
  | 19 => ⟨S3300000, .i32⟩
  | 20 => ⟨S_, .f32⟩
  | 21 => ⟨S3300000, .f32⟩
  | 22 => ⟨S_, .f32⟩
  | 23 => ⟨S100000, .f32⟩
  | 24 => ⟨S3300000x1, .i32⟩
  | 25 => ⟨S100000, .f32⟩
  | 26 => ⟨S_, .f32⟩
  | 27 => ⟨S100000, .f32⟩
  | 28 => ⟨S100000, .i1⟩
  | 29 => ⟨S100000, .f32⟩
  | 30 => ⟨S_, .f32⟩
  | 31 => ⟨S_, .f32⟩
  | 32 => ⟨S100000, .f32⟩
  | 33 => ⟨S100000, .f32⟩
  | 34 => ⟨S_, .i32⟩
  | 35 => ⟨S3300000, .i32⟩
  | 36 => ⟨S3300000, .i1⟩
  | 37 => ⟨S_, .i32⟩
  | 38 => ⟨S3300000, .i32⟩
  | 39 => ⟨S3300000, .i32⟩
  | 40 => ⟨S3300000, .i32⟩
  | 41 => ⟨S3300000x1, .i32⟩
  | 42 => ⟨S3300000, .f32⟩
  | 43 => ⟨S_, .i32⟩
  | 44 => ⟨S3300000, .i32⟩
  | 45 => ⟨S3300000, .i1⟩
  | 46 => ⟨S_, .i32⟩
  | 47 => ⟨S3300000, .i32⟩
  | 48 => ⟨S3300000, .i32⟩
  | 49 => ⟨S3300000, .i32⟩
  | 50 => ⟨S3300000x1, .i32⟩
  | 51 => ⟨S3300000, .f32⟩
  | 52 => ⟨S3300000, .f32⟩
  | 53 => ⟨S100000x64, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x64, .f32⟩
  | 63 => ⟨S3300000x1, .f32⟩
  | 64 => ⟨S3300000x64, .f32⟩
  | 65 => ⟨S3300000x64, .f32⟩
  | 66 => ⟨S_, .f32⟩
  | 67 => ⟨S100000x64, .f32⟩
  | 68 => ⟨S3300000x1, .i32⟩
  | 69 => ⟨S100000x64, .f32⟩
  | 70 => ⟨S1x64, .f32⟩
  | 71 => ⟨S1x64, .f32⟩
  | 72 => ⟨S1x64, .f32⟩
  | 73 => ⟨S_, .f32⟩
  | 74 => ⟨S1x64, .f32⟩
  | 75 => ⟨S1x64, .f32⟩
  | 76 => ⟨S_, .f32⟩
  | 77 => ⟨S1x64, .f32⟩
  | 78 => ⟨S1x64, .f32⟩
  | 79 => ⟨S1x64, .f32⟩
  | 80 => ⟨S1x64, .f32⟩
  | 81 => ⟨S_, .f32⟩
  | 82 => ⟨S1x64, .f32⟩
  | 83 => ⟨S1x64, .f32⟩
  | 84 => ⟨S1x64, .f32⟩
  | 85 => ⟨S1x64, .f32⟩
  | 86 => ⟨S1x64, .f32⟩
  | 87 => ⟨S1x64, .f32⟩
  | 88 => ⟨S1x64, .f32⟩
  | 89 => ⟨S1x64, .f32⟩
  | 90 => ⟨S64, .f32⟩
  | 91 => ⟨S64, .f32⟩
  | 92 => ⟨S1x64, .f32⟩
  | 93 => ⟨S1x64, .f32⟩
  | 94 => ⟨S1x64, .f32⟩
  | 95 => ⟨S100000x64, .f32⟩
  | 96 => ⟨S100000x64, .f32⟩
  | 97 => ⟨S_, .i32⟩
  | 98 => ⟨S3300000, .i32⟩
  | 99 => ⟨S3300000, .i1⟩
  | 100 => ⟨S_, .i32⟩
  | 101 => ⟨S3300000, .i32⟩
  | 102 => ⟨S3300000, .i32⟩
  | 103 => ⟨S3300000, .i32⟩
  | 104 => ⟨S3300000x1, .i32⟩
  | 105 => ⟨S3300000x64, .f32⟩
  | 106 => ⟨S3300000x1, .f32⟩
  | 107 => ⟨S3300000x64, .f32⟩
  | 108 => ⟨S3300000x64, .f32⟩
  | 109 => ⟨S_, .f32⟩
  | 110 => ⟨S100000x64, .f32⟩
  | 111 => ⟨S3300000x1, .i32⟩
  | 112 => ⟨S100000x64, .f32⟩
  | 113 => ⟨S1x64, .f32⟩
  | 114 => ⟨S1x64, .f32⟩
  | 115 => ⟨S1x64, .f32⟩
  | 116 => ⟨S_, .f32⟩
  | 117 => ⟨S1x64, .f32⟩
  | 118 => ⟨S1x64, .f32⟩
  | 119 => ⟨S_, .f32⟩
  | 120 => ⟨S1x64, .f32⟩
  | 121 => ⟨S1x64, .f32⟩
  | 122 => ⟨S1x64, .f32⟩
  | 123 => ⟨S1x64, .f32⟩
  | 124 => ⟨S_, .f32⟩
  | 125 => ⟨S1x64, .f32⟩
  | 126 => ⟨S1x64, .f32⟩
  | 127 => ⟨S1x64, .f32⟩
  | _ => ⟨S100000x4, .f32⟩

abbrev hbmTy0_1 (i : Nat) : BufTy := match i % 128 with
  | 0 => ⟨S1x64, .f32⟩
  | 1 => ⟨S1x64, .f32⟩
  | 2 => ⟨S1x64, .f32⟩
  | 3 => ⟨S1x64, .f32⟩
  | 4 => ⟨S1x64, .f32⟩
  | 5 => ⟨S64, .f32⟩
  | 6 => ⟨S64, .f32⟩
  | 7 => ⟨S1x64, .f32⟩
  | 8 => ⟨S1x64, .f32⟩
  | 9 => ⟨S1x64, .f32⟩
  | 10 => ⟨S100000x64, .f32⟩
  | 11 => ⟨S1x64, .f32⟩
  | 12 => ⟨S1x32, .f32⟩
  | 13 => ⟨S1x1, .f32⟩
  | 14 => ⟨S100000x1, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | .local _ .vmem, ⟨0, _⟩ => ⟨S5000x4, .f32⟩
  | .local _ .vmem, ⟨1, _⟩ => ⟨S5000x4, .f32⟩
  | .local _ .vmem, ⟨2, _⟩ => ⟨S4x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S5000x64, .f32⟩
  | .local _ .vmem, ⟨13, _⟩ => ⟨S5000x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S5000x64, .f32⟩
  | .local _ .vmem, ⟨18, _⟩ => ⟨S5000x64, .f32⟩
  | .local _ .vmem, ⟨19, _⟩ => ⟨S5000x64, .f32⟩
  | .local _ .vmem, ⟨20, _⟩ => ⟨S5000x64, .f32⟩
  | .local _ .vmem, ⟨21, _⟩ => ⟨S64x64, .f32⟩
  | .local _ .vmem, ⟨22, _⟩ => ⟨S5000x64, .f32⟩
  | .local _ .vmem, ⟨23, _⟩ => ⟨S5000x64, .f32⟩
  | .local _ .vmem, ⟨24, _⟩ => ⟨S5000x64, .f32⟩
  | .local _ .vmem, ⟨25, _⟩ => ⟨S5000x64, .f32⟩
  | .local _ .vmem, ⟨26, _⟩ => ⟨S1x64, .f32⟩
  | .local _ .vmem, ⟨27, _⟩ => ⟨S1x64, .f32⟩
  | .local _ .vmem, ⟨28, _⟩ => ⟨S1x64, .f32⟩
  | .local _ .vmem, ⟨29, _⟩ => ⟨S1x64, .f32⟩
  | .local _ .vmem, ⟨30, _⟩ => ⟨S1x64, .f32⟩
  | .local _ .vmem, ⟨31, _⟩ => ⟨S5000x64, .f32⟩
  | .local _ .vmem, ⟨32, _⟩ => ⟨S5000x64, .f32⟩
  | .local _ .vmem, ⟨33, _⟩ => ⟨S1x64, .f32⟩
  | .local _ .vmem, ⟨34, _⟩ => ⟨S1x64, .f32⟩
  | .local _ .vmem, ⟨35, _⟩ => ⟨S1x64, .f32⟩
  | .local _ .vmem, ⟨36, _⟩ => ⟨S5000x64, .f32⟩
  | .local _ .vmem, ⟨37, _⟩ => ⟨S5000x64, .f32⟩
  | .local _ .vmem, ⟨38, _⟩ => ⟨S5000x64, .f32⟩
  | .local _ .vmem, ⟨39, _⟩ => ⟨S5000x64, .f32⟩
  | .local _ .vmem, ⟨40, _⟩ => ⟨S64x64, .f32⟩
  | .local _ .vmem, ⟨41, _⟩ => ⟨S1x64, .f32⟩
  | .local _ .vmem, ⟨42, _⟩ => ⟨S64x32, .f32⟩
  | .local _ .vmem, ⟨43, _⟩ => ⟨S1x32, .f32⟩
  | .local _ .vmem, ⟨44, _⟩ => ⟨S32x1, .f32⟩
  | .local _ .vmem, ⟨45, _⟩ => ⟨S1x1, .f32⟩
  | .local _ .vmem, ⟨46, _⟩ => ⟨S5000x1, .f32⟩
  | .local _ .vmem, ⟨47, _⟩ => ⟨S5000x1, .f32⟩
  | _, _ => ⟨S100000x4, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_cst : Ref sig .tc := ⟨.hbm, 20, rfl⟩
abbrev main_v3 : Ref sig .tc := ⟨.hbm, 21, rfl⟩
abbrev main_cst_0 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_cst_1 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_cst_2 : Ref sig .tc := ⟨.hbm, 30, rfl⟩
abbrev main_call0_v0 : Ref sig .tc := ⟨.hbm, 31, rfl⟩
abbrev main_call0_v1 : Ref sig .tc := ⟨.hbm, 32, rfl⟩
abbrev main_v10 : Ref sig .tc := ⟨.hbm, 33, rfl⟩
abbrev main_c : Ref sig .tc := ⟨.hbm, 34, rfl⟩
abbrev main_v11 : Ref sig .tc := ⟨.hbm, 35, rfl⟩
abbrev main_v12 : Ref sig .tc := ⟨.hbm, 36, rfl⟩
abbrev main_c_3 : Ref sig .tc := ⟨.hbm, 37, rfl⟩
abbrev main_v13 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_c_4 : Ref sig .tc := ⟨.hbm, 43, rfl⟩
abbrev main_v18 : Ref sig .tc := ⟨.hbm, 44, rfl⟩
abbrev main_v19 : Ref sig .tc := ⟨.hbm, 45, rfl⟩
abbrev main_c_5 : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_6 : Ref sig .tc := ⟨.hbm, 54, rfl⟩
abbrev main_v27 : Ref sig .tc := ⟨.hbm, 55, rfl⟩
abbrev main_v28 : Ref sig .tc := ⟨.hbm, 56, rfl⟩
abbrev main_c_7 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_8 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41_0 : Ref sig .tc := ⟨.hbm, 71, rfl⟩
abbrev main_v41_1 : Ref sig .tc := ⟨.hbm, 72, rfl⟩
abbrev main_cst_9 : Ref sig .tc := ⟨.hbm, 73, rfl⟩
abbrev main_v42 : Ref sig .tc := ⟨.hbm, 74, rfl⟩
abbrev main_v43 : Ref sig .tc := ⟨.hbm, 75, rfl⟩
abbrev main_cst_10 : Ref sig .tc := ⟨.hbm, 76, rfl⟩
abbrev main_v44 : Ref sig .tc := ⟨.hbm, 77, rfl⟩
abbrev main_v45 : Ref sig .tc := ⟨.hbm, 78, rfl⟩
abbrev main_v46 : Ref sig .tc := ⟨.hbm, 79, rfl⟩
abbrev main_v47 : Ref sig .tc := ⟨.hbm, 80, rfl⟩
abbrev main_cst_11 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_c_12 : Ref sig .tc := ⟨.hbm, 97, rfl⟩
abbrev main_v63 : Ref sig .tc := ⟨.hbm, 98, rfl⟩
abbrev main_v64 : Ref sig .tc := ⟨.hbm, 99, rfl⟩
abbrev main_c_13 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_v72 : Ref sig .tc := ⟨.hbm, 108, rfl⟩
abbrev main_cst_14 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77_0 : Ref sig .tc := ⟨.hbm, 114, rfl⟩
abbrev main_v77_1 : Ref sig .tc := ⟨.hbm, 115, rfl⟩
abbrev main_cst_15 : Ref sig .tc := ⟨.hbm, 116, rfl⟩
abbrev main_v78 : Ref sig .tc := ⟨.hbm, 117, rfl⟩
abbrev main_v79 : Ref sig .tc := ⟨.hbm, 118, rfl⟩
abbrev main_cst_16 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_cst_17 : Ref sig .tc := ⟨.hbm, 124, rfl⟩
abbrev main_v84 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_v88 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_scratch0 : Ref sig .tc := ⟨.vmem, 10, rfl⟩
abbrev cc1_scratch1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg4_0 : Ref sig .tc := ⟨.vmem, 17, rfl⟩
abbrev cc2_stg4_1 : Ref sig .tc := ⟨.vmem, 18, rfl⟩
abbrev cc3_stg0_0 : Ref sig .tc := ⟨.vmem, 19, rfl⟩
abbrev cc3_stg0_1 : Ref sig .tc := ⟨.vmem, 20, rfl⟩
abbrev cc3_stg1_0 : Ref sig .tc := ⟨.vmem, 21, rfl⟩
abbrev cc3_stg2_0 : Ref sig .tc := ⟨.vmem, 22, rfl⟩
abbrev cc3_stg2_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg2_0 : Ref sig .tc := ⟨.vmem, 27, rfl⟩
abbrev cc4_stg3_0 : Ref sig .tc := ⟨.vmem, 28, rfl⟩
abbrev cc4_scratch0 : Ref sig .tc := ⟨.vmem, 29, rfl⟩
abbrev cc4_scratch1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg2_0 : Ref sig .tc := ⟨.vmem, 34, rfl⟩
abbrev cc5_stg3_0 : Ref sig .tc := ⟨.vmem, 35, rfl⟩
abbrev cc5_stg4_0 : Ref sig .tc := ⟨.vmem, 36, rfl⟩
abbrev cc5_stg4_1 : Ref sig .tc := ⟨.vmem, 37, rfl⟩
abbrev cc6_stg0_0 : Ref sig .tc := ⟨.vmem, 38, rfl⟩
abbrev cc6_stg0_1 : Ref sig .tc := ⟨.vmem, 39, rfl⟩
abbrev cc6_stg1_0 : Ref sig .tc := ⟨.vmem, 40, rfl⟩
abbrev cc6_stg2_0 : Ref sig .tc := ⟨.vmem, 41, rfl⟩
abbrev cc6_stg3_0 : Ref sig .tc := ⟨.vmem, 42, rfl⟩
abbrev cc6_stg4_0 : Ref sig .tc := ⟨.vmem, 43, rfl⟩
abbrev cc6_stg5_0 : Ref sig .tc := ⟨.vmem, 44, rfl⟩
abbrev cc6_stg6_0 : Ref sig .tc := ⟨.vmem, 45, rfl⟩
abbrev cc6_stg7_0 : Ref sig .tc := ⟨.vmem, 46, rfl⟩
abbrev cc6_stg7_1 : Ref sig .tc := ⟨.vmem, 47, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem3_0 : DmaSem sig := 14
abbrev cc2_sem4_0 : DmaSem sig := 15
abbrev cc2_sem4_1 : DmaSem sig := 16
abbrev cc3_sem0_0 : DmaSem sig := 17
abbrev cc3_sem0_1 : DmaSem sig := 18
abbrev cc3_sem1_0 : DmaSem sig := 19
abbrev cc3_sem2_0 : DmaSem sig := 20
abbrev cc3_sem2_1 : DmaSem sig := 21
abbrev cc4_sem0_0 : DmaSem sig := 22
abbrev cc4_sem0_1 : DmaSem sig := 23
abbrev cc4_sem1_0 : DmaSem sig := 24
abbrev cc4_sem2_0 : DmaSem sig := 25
abbrev cc4_sem3_0 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem3_0 : DmaSem sig := 31
abbrev cc5_sem4_0 : DmaSem sig := 32
abbrev cc5_sem4_1 : DmaSem sig := 33
abbrev cc6_sem0_0 : DmaSem sig := 34
abbrev cc6_sem0_1 : DmaSem sig := 35
abbrev cc6_sem1_0 : DmaSem sig := 36
abbrev cc6_sem2_0 : DmaSem sig := 37
abbrev cc6_sem3_0 : DmaSem sig := 38
abbrev cc6_sem4_0 : DmaSem sig := 39
abbrev cc6_sem5_0 : DmaSem sig := 40
abbrev cc6_sem6_0 : DmaSem sig := 41
abbrev cc6_sem7_0 : DmaSem sig := 42
abbrev cc6_sem7_1 : DmaSem sig := 43

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x4 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v24 : BitVec 1 := Scalar.cmpi .eq arg0 c19_i32
  let v25 : BitVec 32 := Scalar.extui v24
  let c0_i32_13 : BitVec 32 := 0#32
  let v26 : BitVec 1 := Scalar.cmpi .ne v25 c0_i32_13
  v26

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S5000x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S64x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![20], ![false]⟩

def k4_cond2 (i : grid4.Coords) : BitVec 1 :=
  let arg0 : BitVec 32 := BitVec.ofNat 32 (i 0).val
  let c19_i32 : BitVec 32 := 19#32
  let v24 : BitVec 1 := Scalar.cmpi .eq arg0 c19_i32
  let v25 : BitVec 32 := Scalar.extui v24
  let c0_i32_13 : BitVec 32 := 0#32
  let v26 : BitVec 1 := Scalar.cmpi .ne v25 c0_i32_13
  v26

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x64 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x64 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x64 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S64x64 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S64x32 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S1x32 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S32x1 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S1x1 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 2 → Memref sig .tc .vmem S5000x1 .f32 := fun | 0 => Memref.whole cc6_stg7_0 | 1 => Memref.whole cc6_stg7_1 | ⟨_ + 2, h⟩ => absurd h (Nat.not_lt.2 (Nat.le_add_left _ _))
abbrev sem6_7 : Fin 2 → DmaSem sig := fun | 0 => cc6_sem7_0 | 1 => cc6_sem7_1 | ⟨_ + 2, h⟩ => absurd h (Nat.not_lt.2 (Nat.le_add_left _ _))
abbrev reads6_7 : Fin grid6.rank → Bool := ![true]

class Facts₀ : Prop where
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x4_S5000x4_0_0 : ∀ a, (![0, 0] : Fin 2 → Nat) a + S5000x4.size a ≤ S5000x4.size a
  h_S5000x4 : 0 < S5000x4.numel
  bitsLt_bf16_f32 : FTy.bits .bf16 < FTy.bits .f32
  inb_S4x64_S4x64_0_0 : ∀ a, (![0, 0] : Fin 2 → Nat) a + S4x64.size a ≤ S4x64.size a
  h_S4x64 : 0 < S4x64.numel
  inb_S5000x64_S5000x64_0_0 : ∀ a, (![0, 0] : Fin 2 → Nat) a + S5000x64.size a ≤ S5000x64.size a
  h_S5000x64 : 0 < S5000x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x64_S5000x64 : S5000x64.ShapeCasts S5000x64
  broadcasts_S1x64_S5000x64 : S1x64.Broadcasts S5000x64
  reduces_S5000x64_S64 : S5000x64.Reduces [0] S64
  bcast_S_S1x64 : S_.BroadcastsInDim S1x64 (![] : Fin 0 → Fin S1x64.rank)
  shapeCasts_S1x64_S64 : S1x64.ShapeCasts S64
  inb_S64x64_S64x64_0_0 : ∀ a, (![0, 0] : Fin 2 → Nat) a + S64x64.size a ≤ S64x64.size a
  h_S64x64 : 0 < S64x64.numel
  shapeCasts_S32_S1x32 : S32.ShapeCasts S1x32
  shapeCasts_S1_S1x1 : S1.ShapeCasts S1x1
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S5000x32 : S1x32.Broadcasts S5000x32
  inb_S32x1_S32x1_0_0 : ∀ a, (![0, 0] : Fin 2 → Nat) a + S32x1.size a ≤ S32x1.size a
  h_S32x1 : 0 < S32x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S5000x1 : S1x1.Broadcasts S5000x1
  inb_S5000x1_S5000x1_0_0 : ∀ a, (![0, 0] : Fin 2 → Nat) a + S5000x1.size a ≤ S5000x1.size a
  h_S5000x1 : 0 < S5000x1.numel
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x4_S4x64_S5000x64_1_0_0_1_n_n_wf : DotDims.WF S5000x4 S4x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S5000x64_S64x64_S5000x64_1_0_0_1_n_n_wf : DotDims.WF S5000x64 S64x64 S5000x64 [1] [0] [0] [1] [] []
  dot_S5000x64_S64x32_S5000x32_1_0_0_1_n_n_wf : DotDims.WF S5000x64 S64x32 S5000x32 [1] [0] [0] [1] [] []
  dot_S5000x32_S32x1_S5000x1_1_0_0_1_n_n_wf : DotDims.WF S5000x32 S32x1 S5000x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x4.size a ≤ S100000x4.size a
  hwx0_0 : ∀ i : grid0.Coords, EltTy.bits .f32 = 32 ∨ (Rect.block (s := S100000x4) S5000x4.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4x64.size a ≤ S4x64.size a
  hwx0_1 : ∀ i : grid0.Coords, EltTy.bits .f32 = 32 ∨ (Rect.block (s := S4x64) S4x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S5000x64.size a ≤ S100000x64.size a
  hwx2_4 : ∀ i : grid2.Coords, EltTy.bits .f32 = 32 ∨ (Rect.block (s := S100000x64) S5000x64.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S64x64.size a ≤ S64x64.size a
  hwx3_1 : ∀ i : grid3.Coords, EltTy.bits .f32 = 32 ∨ (Rect.block (s := S64x64) S64x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x64.size a ≤ S100000x64.size a
  hwx4_0 : ∀ i : grid4.Coords, EltTy.bits .f32 = 32 ∨ (Rect.block (s := S100000x64) S5000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x64.size a ≤ S1x64.size a
  hwx4_1 : ∀ i : grid4.Coords, EltTy.bits .f32 = 32 ∨ (Rect.block (s := S1x64) S1x64.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x64.size a ≤ S1x64.size a
  hwx4_2 : ∀ i : grid4.Coords, EltTy.bits .f32 = 32 ∨ (Rect.block (s := S1x64) S1x64.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x64.size a ≤ S1x64.size a
  hwx4_3 : ∀ i : grid4.Coords, EltTy.bits .f32 = 32 ∨ (Rect.block (s := S1x64) S1x64.size (cc4_transform_3 i) (hinb4_3 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S100000x64.size a
  hwx5_0 : ∀ i : grid5.Coords, EltTy.bits .f32 = 32 ∨ (Rect.block (s := S100000x64) S5000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x64.size a ≤ S1x64.size a
  hwx5_2 : ∀ i : grid5.Coords, EltTy.bits .f32 = 32 ∨ (Rect.block (s := S1x64) S1x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x64.size a ≤ S1x64.size a
  hwx5_3 : ∀ i : grid5.Coords, EltTy.bits .f32 = 32 ∨ (Rect.block (s := S1x64) S1x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S100000x64.size a
  hwx5_4 : ∀ i : grid5.Coords, EltTy.bits .f32 = 32 ∨ (Rect.block (s := S100000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x64.size a ≤ S100000x64.size a
  hwx6_0 : ∀ i : grid6.Coords, EltTy.bits .f32 = 32 ∨ (Rect.block (s := S100000x64) S5000x64.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S64x64.size a ≤ S64x64.size a
  hwx6_1 : ∀ i : grid6.Coords, EltTy.bits .f32 = 32 ∨ (Rect.block (s := S64x64) S64x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x64.size a ≤ S1x64.size a
  hwx6_2 : ∀ i : grid6.Coords, EltTy.bits .f32 = 32 ∨ (Rect.block (s := S1x64) S1x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S64x32.size a ≤ S64x32.size a
  hwx6_3 : ∀ i : grid6.Coords, EltTy.bits .f32 = 32 ∨ (Rect.block (s := S64x32) S64x32.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x32.size a ≤ S1x32.size a
  hwx6_4 : ∀ i : grid6.Coords, EltTy.bits .f32 = 32 ∨ (Rect.block (s := S1x32) S1x32.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S32x1.size a ≤ S32x1.size a
  hwx6_5 : ∀ i : grid6.Coords, EltTy.bits .f32 = 32 ∨ (Rect.block (s := S32x1) S32x1.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S1x1.size a ≤ S1x1.size a
  hwx6_6 : ∀ i : grid6.Coords, EltTy.bits .f32 = 32 ∨ (Rect.block (s := S1x1) S1x1.size (cc6_transform_6 i) (hinb6_6 i)).WholeWords (EltTy.packing .f32)
  hstage6_7 : ∀ j, (stage6_7 j).IsWhole
  nbuf6_7 : grid6.bufCount reads6_7 false = 2
  hreads6_7 : ∀ i i' : grid6.Coords, (∀ a, reads6_7 a = true → i a = i' a) → cc6_transform_7 i = cc6_transform_7 i'
  hinb6_7 : ∀ (i : grid6.Coords) a, (cc6_transform_7 i a + 1) * S5000x1.size a ≤ S100000x1.size a
  hwx6_7 : ∀ i : grid6.Coords, EltTy.bits .f32 = 32 ∨ (Rect.block (s := S100000x1) S5000x1.size (cc6_transform_7 i) (hinb6_7 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x4_S4x64_S5000x64_1_0_0_1_n_n : DotDims S5000x4 S4x64 S5000x64 where
  lhsContracting := [1]
  rhsContracting := [0]
  lhsNonContracting := [0]
  rhsNonContracting := [1]
  lhsBatch := []
  rhsBatch := []
  wf := dot_S5000x4_S4x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def dot_S5000x64_S64x32_S5000x32_1_0_0_1_n_n : DotDims S5000x64 S64x32 S5000x32 where
  lhsContracting := [1]
  rhsContracting := [0]
  lhsNonContracting := [0]
  rhsNonContracting := [1]
  lhsBatch := []
  rhsBatch := []
  wf := dot_S5000x64_S64x32_S5000x32_1_0_0_1_n_n_wf
def dot_S5000x32_S32x1_S5000x1_1_0_0_1_n_n : DotDims S5000x32 S32x1 S5000x1 where
  lhsContracting := [1]
  rhsContracting := [0]
  lhsNonContracting := [0]
  rhsNonContracting := [1]
  lhsBatch := []
  rhsBatch := []
  wf := dot_S5000x32_S32x1_S5000x1_1_0_0_1_n_n_wf

abbrev win0_0 : Pipeline.Window sig grid0 :=
  Pipeline.Window.ofSpec (Memref.whole main_arg0) S5000x4.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S4x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v26) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v40) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v41_0) S1x64.size cc1_transform_2 reads1_2 true true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41_1) S1x64.size cc1_transform_3 reads1_3 true true 1 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v39) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v58) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v59) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v61) S5000x64.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg5) S64x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v62) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v75) S5000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v76) S1x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v77_0) S1x64.size cc4_transform_2 reads4_2 true true 1 stage4_2 sem4_2
    hrank4 hreads4_2 hinb4_2 nbuf4_2 (Memref.isWhole_whole _) hwx4_2 hstage4_2

abbrev win4_3 : Pipeline.Window sig grid4 :=
  Pipeline.Window.ofSpec (Memref.whole main_v77_1) S1x64.size cc4_transform_3 reads4_3 true true 1 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev idle4 : Fin 4 → grid4.Coords → Bool := fun | 0 => fun _ => false | 1 => fun _ => false | 2 => fun i => !(k4_cond2 i == 1#1) | 3 => fun i => !(k4_cond2 i == 1#1) | ⟨_ + 4, h⟩ => absurd h (Nat.not_lt.2 (Nat.le_add_left _ _))

abbrev win5_0 : Pipeline.Window sig grid5 :=
  Pipeline.Window.ofSpec (Memref.whole main_v75) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v94) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v95) S1x64.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v96) S1x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v97) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v97) S5000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg11) S64x64.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v98) S1x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_arg13) S64x32.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_v99) S1x32.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_arg15) S32x1.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_v100) S1x1.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v101) S5000x1.size cc6_transform_7 reads6_7 true false 2 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

class Facts : Prop extends Facts₀ where

variable [Facts]
-- ==== ReferenceIdeal.lean ====
abbrev S100000x4 : Shape := ⟨2, ![100000, 4]⟩
abbrev S3200000 : Shape := ⟨1, ![3200000]⟩
abbrev S4x64 : Shape := ⟨2, ![4, 64]⟩
abbrev S64 : Shape := ⟨1, ![64]⟩
abbrev S64x64 : Shape := ⟨2, ![64, 64]⟩
abbrev S64x32 : Shape := ⟨2, ![64, 32]⟩
abbrev S32 : Shape := ⟨1, ![32]⟩
abbrev S32x1 : Shape := ⟨2, ![32, 1]⟩
abbrev S1 : Shape := ⟨1, ![1]⟩
abbrev S100000x64 : Shape := ⟨2, ![100000, 64]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩
abbrev S100000x32 : Shape := ⟨2, ![100000, 32]⟩
abbrev S1x32 : Shape := ⟨2, ![1, 32]⟩
abbrev S100000x1 : Shape := ⟨2, ![100000, 1]⟩
abbrev S1x1 : Shape := ⟨2, ![1, 1]⟩

abbrev nBuf : Space → Nat
  | .hbm => 221
  | .vmem => 0
  | .smem => 0
  | _ => 0

abbrev hbmTy0_0 (i : Nat) : BufTy := match i % 128 with
  | 0 => ⟨S100000x4, .f32⟩
  | 1 => ⟨S3200000, .i32⟩
  | 2 => ⟨S3200000, .i32⟩
  | 3 => ⟨S4x64, .f32⟩
  | 4 => ⟨S64, .f32⟩
  | 5 => ⟨S64x64, .f32⟩
  | 6 => ⟨S64, .f32⟩
  | 7 => ⟨S64, .f32⟩
  | 8 => ⟨S64, .f32⟩
  | 9 => ⟨S64, .f32⟩
  | 10 => ⟨S64, .f32⟩
  | 11 => ⟨S64x64, .f32⟩
  | 12 => ⟨S64, .f32⟩
  | 13 => ⟨S64x32, .f32⟩
  | 14 => ⟨S32, .f32⟩
  | 15 => ⟨S32x1, .f32⟩
  | 16 => ⟨S1, .f32⟩
  | 17 => ⟨S100000x64, .f32⟩
  | 18 => ⟨S100000, .i32⟩
  | 19 => ⟨S3300000, .i32⟩
  | 20 => ⟨S3300000, .i32⟩
  | 21 => ⟨S_, .f32⟩
  | 22 => ⟨S3300000, .f32⟩
  | 23 => ⟨S_, .f32⟩
  | 24 => ⟨S100000, .f32⟩
  | 25 => ⟨S3300000x1, .i32⟩
  | 26 => ⟨S100000, .f32⟩
  | 27 => ⟨S_, .f32⟩
  | 28 => ⟨S100000, .f32⟩
  | 29 => ⟨S100000, .i1⟩
  | 30 => ⟨S100000, .f32⟩
  | 31 => ⟨S_, .f32⟩
  | 32 => ⟨S_, .f32⟩
  | 33 => ⟨S100000, .f32⟩
  | 34 => ⟨S100000, .f32⟩
  | 35 => ⟨S_, .i32⟩
  | 36 => ⟨S3300000, .i32⟩
  | 37 => ⟨S3300000, .i1⟩
  | 38 => ⟨S_, .i32⟩
  | 39 => ⟨S3300000, .i32⟩
  | 40 => ⟨S3300000, .i32⟩
  | 41 => ⟨S3300000, .i32⟩
  | 42 => ⟨S3300000x1, .i32⟩
  | 43 => ⟨S3300000, .f32⟩
  | 44 => ⟨S_, .i32⟩
  | 45 => ⟨S3300000, .i32⟩
  | 46 => ⟨S3300000, .i1⟩
  | 47 => ⟨S_, .i32⟩
  | 48 => ⟨S3300000, .i32⟩
  | 49 => ⟨S3300000, .i32⟩
  | 50 => ⟨S3300000, .i32⟩
  | 51 => ⟨S3300000x1, .i32⟩
  | 52 => ⟨S3300000, .f32⟩
  | 53 => ⟨S3300000, .f32⟩
  | 54 => ⟨S_, .i32⟩
  | 55 => ⟨S3300000, .i32⟩
  | 56 => ⟨S3300000, .i1⟩
  | 57 => ⟨S_, .i32⟩
  | 58 => ⟨S3300000, .i32⟩
  | 59 => ⟨S3300000, .i32⟩
  | 60 => ⟨S3300000, .i32⟩
  | 61 => ⟨S3300000x1, .i32⟩
  | 62 => ⟨S3300000x64, .f32⟩
  | 63 => ⟨S3300000x1, .f32⟩
  | 64 => ⟨S3300000x64, .f32⟩
  | 65 => ⟨S3300000x64, .f32⟩
  | 66 => ⟨S_, .f32⟩
  | 67 => ⟨S100000x64, .f32⟩
  | 68 => ⟨S3300000x1, .i32⟩
  | 69 => ⟨S100000x64, .f32⟩
  | 70 => ⟨S1x64, .f32⟩
  | 71 => ⟨S100000x64, .f32⟩
  | 72 => ⟨S100000x64, .f32⟩
  | 73 => ⟨S_, .f32⟩
  | 74 => ⟨S64, .f32⟩
  | 75 => ⟨S_, .f32⟩
  | 76 => ⟨S64, .f32⟩
  | 77 => ⟨S64, .f32⟩
  | 78 => ⟨S1x64, .f32⟩
  | 79 => ⟨S100000x64, .f32⟩
  | 80 => ⟨S100000x64, .f32⟩
  | 81 => ⟨S100000x64, .f32⟩
  | 82 => ⟨S_, .f32⟩
  | 83 => ⟨S64, .f32⟩
  | 84 => ⟨S_, .f32⟩
  | 85 => ⟨S64, .f32⟩
  | 86 => ⟨S64, .f32⟩
  | 87 => ⟨S1x64, .f32⟩
  | 88 => ⟨S100000x64, .f32⟩
  | 89 => ⟨S100000x64, .f32⟩
  | 90 => ⟨S1x64, .f32⟩
  | 91 => ⟨S100000x64, .f32⟩
  | 92 => ⟨S100000x64, .f32⟩
  | 93 => ⟨S_, .f32⟩
  | 94 => ⟨S64, .f32⟩
  | 95 => ⟨S64, .f32⟩
  | 96 => ⟨S64, .f32⟩
  | 97 => ⟨S1x64, .f32⟩
  | 98 => ⟨S100000x64, .f32⟩
  | 99 => ⟨S100000x64, .f32⟩
  | 100 => ⟨S1x64, .f32⟩
  | 101 => ⟨S100000x64, .f32⟩
  | 102 => ⟨S100000x64, .f32⟩
  | 103 => ⟨S_, .f32⟩
  | 104 => ⟨S100000x64, .f32⟩
  | 105 => ⟨S100000x64, .f32⟩
  | 106 => ⟨S100000x64, .f32⟩
  | 107 => ⟨S100000, .i32⟩
  | 108 => ⟨S3300000, .i32⟩
  | 109 => ⟨S3300000, .i32⟩
  | 110 => ⟨S_, .f32⟩
  | 111 => ⟨S3300000, .f32⟩
  | 112 => ⟨S_, .f32⟩
  | 113 => ⟨S100000, .f32⟩
  | 114 => ⟨S3300000x1, .i32⟩
  | 115 => ⟨S100000, .f32⟩
  | 116 => ⟨S_, .f32⟩
  | 117 => ⟨S100000, .f32⟩
  | 118 => ⟨S100000, .i1⟩
  | 119 => ⟨S100000, .f32⟩
  | 120 => ⟨S_, .f32⟩
  | 121 => ⟨S_, .f32⟩
  | 122 => ⟨S100000, .f32⟩
  | 123 => ⟨S100000, .f32⟩
  | 124 => ⟨S_, .i32⟩
  | 125 => ⟨S3300000, .i32⟩
  | 126 => ⟨S3300000, .i1⟩
  | 127 => ⟨S_, .i32⟩
  | _ => ⟨S100000x4, .f32⟩

abbrev hbmTy0_1 (i : Nat) : BufTy := match i % 128 with
  | 0 => ⟨S3300000, .i32⟩
  | 1 => ⟨S3300000, .i32⟩
  | 2 => ⟨S3300000, .i32⟩
  | 3 => ⟨S3300000x1, .i32⟩
  | 4 => ⟨S3300000, .f32⟩
  | 5 => ⟨S_, .i32⟩
  | 6 => ⟨S3300000, .i32⟩
  | 7 => ⟨S3300000, .i1⟩
  | 8 => ⟨S_, .i32⟩
  | 9 => ⟨S3300000, .i32⟩
  | 10 => ⟨S3300000, .i32⟩
  | 11 => ⟨S3300000, .i32⟩
  | 12 => ⟨S3300000x1, .i32⟩
  | 13 => ⟨S3300000, .f32⟩
  | 14 => ⟨S3300000, .f32⟩
  | 15 => ⟨S_, .i32⟩
  | 16 => ⟨S3300000, .i32⟩
  | 17 => ⟨S3300000, .i1⟩
  | 18 => ⟨S_, .i32⟩
  | 19 => ⟨S3300000, .i32⟩
  | 20 => ⟨S3300000, .i32⟩
  | 21 => ⟨S3300000, .i32⟩
  | 22 => ⟨S3300000x1, .i32⟩
  | 23 => ⟨S3300000x64, .f32⟩
  | 24 => ⟨S3300000x1, .f32⟩
  | 25 => ⟨S3300000x64, .f32⟩
  | 26 => ⟨S3300000x64, .f32⟩
  | 27 => ⟨S_, .f32⟩
  | 28 => ⟨S100000x64, .f32⟩
  | 29 => ⟨S3300000x1, .i32⟩
  | 30 => ⟨S100000x64, .f32⟩
  | 31 => ⟨S1x64, .f32⟩
  | 32 => ⟨S100000x64, .f32⟩
  | 33 => ⟨S100000x64, .f32⟩
  | 34 => ⟨S_, .f32⟩
  | 35 => ⟨S64, .f32⟩
  | 36 => ⟨S_, .f32⟩
  | 37 => ⟨S64, .f32⟩
  | 38 => ⟨S64, .f32⟩
  | 39 => ⟨S1x64, .f32⟩
  | 40 => ⟨S100000x64, .f32⟩
  | 41 => ⟨S100000x64, .f32⟩
  | 42 => ⟨S100000x64, .f32⟩
  | 43 => ⟨S_, .f32⟩
  | 44 => ⟨S64, .f32⟩
  | 45 => ⟨S_, .f32⟩
  | 46 => ⟨S64, .f32⟩
  | 47 => ⟨S64, .f32⟩
  | 48 => ⟨S1x64, .f32⟩
  | 49 => ⟨S100000x64, .f32⟩
  | 50 => ⟨S100000x64, .f32⟩
  | 51 => ⟨S1x64, .f32⟩
  | 52 => ⟨S100000x64, .f32⟩
  | 53 => ⟨S100000x64, .f32⟩
  | 54 => ⟨S_, .f32⟩
  | 55 => ⟨S64, .f32⟩
  | 56 => ⟨S64, .f32⟩
  | 57 => ⟨S64, .f32⟩
  | 58 => ⟨S1x64, .f32⟩
  | 59 => ⟨S100000x64, .f32⟩
  | 60 => ⟨S100000x64, .f32⟩
  | 61 => ⟨S1x64, .f32⟩
  | 62 => ⟨S100000x64, .f32⟩
  | 63 => ⟨S100000x64, .f32⟩
  | 64 => ⟨S_, .f32⟩
  | 65 => ⟨S100000x64, .f32⟩
  | 66 => ⟨S100000x64, .f32⟩
  | 67 => ⟨S100000x64, .f32⟩
  | 68 => ⟨S1x64, .f32⟩
  | 69 => ⟨S100000x64, .f32⟩
  | 70 => ⟨S100000x64, .f32⟩
  | 71 => ⟨S_, .f32⟩
  | 72 => ⟨S100000x64, .f32⟩
  | 73 => ⟨S100000x64, .f32⟩
  | 74 => ⟨S100000x32, .f32⟩
  | 75 => ⟨S1x32, .f32⟩
  | 76 => ⟨S100000x32, .f32⟩
  | 77 => ⟨S100000x32, .f32⟩
  | 78 => ⟨S_, .f32⟩
  | 79 => ⟨S100000x32, .f32⟩
  | 80 => ⟨S100000x32, .f32⟩
  | 81 => ⟨S100000x1, .f32⟩
  | 82 => ⟨S1x1, .f32⟩
  | 83 => ⟨S100000x1, .f32⟩
  | 84 => ⟨S100000x1, .f32⟩
  | 85 => ⟨S100000x1, .f32⟩
  | 86 => ⟨S100000x1, .f32⟩
  | 87 => ⟨S_, .f32⟩
  | 88 => ⟨S100000x1, .f32⟩
  | 89 => ⟨S100000x1, .f32⟩
  | 90 => ⟨S_, .f32⟩
  | 91 => ⟨S100000x1, .f32⟩
  | 92 => ⟨S100000x1, .f32⟩
  | _ => ⟨S100000x4, .f32⟩

abbrev hbmTy (i : Nat) : BufTy := match i / 128 with
  | 0 => hbmTy0_0 i
  | 1 => hbmTy0_1 i
  | _ => ⟨S100000x4, .f32⟩

abbrev bufTy : (tb : Table) → Fin (tcTables nBuf tb) → BufTy
  | .hbm, ⟨i, _⟩ => hbmTy i
  | _, _ => ⟨S100000x4, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_cst : Ref sig .tc := ⟨.hbm, 21, rfl⟩
abbrev main_v4 : Ref sig .tc := ⟨.hbm, 22, rfl⟩
abbrev main_cst_0 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_cst_1 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v11 : Ref sig .tc := ⟨.hbm, 34, rfl⟩
abbrev main_c : Ref sig .tc := ⟨.hbm, 35, rfl⟩
abbrev main_v12 : Ref sig .tc := ⟨.hbm, 36, rfl⟩
abbrev main_v13 : Ref sig .tc := ⟨.hbm, 37, rfl⟩
abbrev main_c_3 : Ref sig .tc := ⟨.hbm, 38, rfl⟩
abbrev main_v14 : Ref sig .tc := ⟨.hbm, 39, rfl⟩
abbrev main_v15 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_c_4 : Ref sig .tc := ⟨.hbm, 44, rfl⟩
abbrev main_v19 : Ref sig .tc := ⟨.hbm, 45, rfl⟩
abbrev main_v20 : Ref sig .tc := ⟨.hbm, 46, rfl⟩
abbrev main_c_5 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_c_6 : Ref sig .tc := ⟨.hbm, 54, rfl⟩
abbrev main_v27 : Ref sig .tc := ⟨.hbm, 55, rfl⟩
abbrev main_v28 : Ref sig .tc := ⟨.hbm, 56, rfl⟩
abbrev main_c_7 : Ref sig .tc := ⟨.hbm, 57, rfl⟩
abbrev main_v29 : Ref sig .tc := ⟨.hbm, 58, rfl⟩
abbrev main_v30 : Ref sig .tc := ⟨.hbm, 59, rfl⟩
abbrev main_v31 : Ref sig .tc := ⟨.hbm, 60, rfl⟩
abbrev main_v32 : Ref sig .tc := ⟨.hbm, 61, rfl⟩
abbrev main_v33 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_cst_8 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_cst_9 : Ref sig .tc := ⟨.hbm, 73, rfl⟩
abbrev main_v43 : Ref sig .tc := ⟨.hbm, 74, rfl⟩
abbrev main_cst_10 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_cst_11 : Ref sig .tc := ⟨.hbm, 82, rfl⟩
abbrev main_v50 : Ref sig .tc := ⟨.hbm, 83, rfl⟩
abbrev main_cst_12 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_cst_13 : Ref sig .tc := ⟨.hbm, 93, rfl⟩
abbrev main_v59 : Ref sig .tc := ⟨.hbm, 94, rfl⟩
abbrev main_v60 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩
abbrev main_v65 : Ref sig .tc := ⟨.hbm, 100, rfl⟩
abbrev main_v66 : Ref sig .tc := ⟨.hbm, 101, rfl⟩
abbrev main_v67 : Ref sig .tc := ⟨.hbm, 102, rfl⟩
abbrev main_call1_cst : Ref sig .tc := ⟨.hbm, 103, rfl⟩
abbrev main_call1_v0 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_cst_14 : Ref sig .tc := ⟨.hbm, 110, rfl⟩
abbrev main_v73 : Ref sig .tc := ⟨.hbm, 111, rfl⟩
abbrev main_cst_15 : Ref sig .tc := ⟨.hbm, 112, rfl⟩
abbrev main_v74 : Ref sig .tc := ⟨.hbm, 113, rfl⟩
abbrev main_v75 : Ref sig .tc := ⟨.hbm, 114, rfl⟩
abbrev main_v76 : Ref sig .tc := ⟨.hbm, 115, rfl⟩
abbrev main_cst_16 : Ref sig .tc := ⟨.hbm, 116, rfl⟩
abbrev main_v77 : Ref sig .tc := ⟨.hbm, 117, rfl⟩
abbrev main_v78 : Ref sig .tc := ⟨.hbm, 118, rfl⟩
abbrev main_v79 : Ref sig .tc := ⟨.hbm, 119, rfl⟩
abbrev main_cst_17 : Ref sig .tc := ⟨.hbm, 120, rfl⟩
abbrev main_call2_v0 : Ref sig .tc := ⟨.hbm, 121, rfl⟩
abbrev main_call2_v1 : Ref sig .tc := ⟨.hbm, 122, rfl⟩
abbrev main_v80 : Ref sig .tc := ⟨.hbm, 123, rfl⟩
abbrev main_c_18 : Ref sig .tc := ⟨.hbm, 124, rfl⟩
abbrev main_v81 : Ref sig .tc := ⟨.hbm, 125, rfl⟩
abbrev main_v82 : Ref sig .tc := ⟨.hbm, 126, rfl⟩
abbrev main_c_19 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_v87 : Ref sig .tc := ⟨.hbm, 132, rfl⟩
abbrev main_c_20 : Ref sig .tc := ⟨.hbm, 133, rfl⟩
abbrev main_v88 : Ref sig .tc := ⟨.hbm, 134, rfl⟩
abbrev main_v89 : Ref sig .tc := ⟨.hbm, 135, rfl⟩
abbrev main_c_21 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_c_22 : Ref sig .tc := ⟨.hbm, 143, rfl⟩
abbrev main_v96 : Ref sig .tc := ⟨.hbm, 144, rfl⟩
abbrev main_v97 : Ref sig .tc := ⟨.hbm, 145, rfl⟩
abbrev main_c_23 : Ref sig .tc := ⟨.hbm, 146, rfl⟩
abbrev main_v98 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_cst_24 : Ref sig .tc := ⟨.hbm, 155, rfl⟩
abbrev main_v106 : Ref sig .tc := ⟨.hbm, 156, rfl⟩
abbrev main_v107 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_cst_25 : Ref sig .tc := ⟨.hbm, 162, rfl⟩
abbrev main_v112 : Ref sig .tc := ⟨.hbm, 163, rfl⟩
abbrev main_cst_26 : Ref sig .tc := ⟨.hbm, 164, rfl⟩
abbrev main_v113 : Ref sig .tc := ⟨.hbm, 165, rfl⟩
abbrev main_v114 : Ref sig .tc := ⟨.hbm, 166, rfl⟩
abbrev main_v115 : Ref sig .tc := ⟨.hbm, 167, rfl⟩
abbrev main_v116 : Ref sig .tc := ⟨.hbm, 168, rfl⟩
abbrev main_v117 : Ref sig .tc := ⟨.hbm, 169, rfl⟩
abbrev main_v118 : Ref sig .tc := ⟨.hbm, 170, rfl⟩
abbrev main_cst_27 : Ref sig .tc := ⟨.hbm, 171, rfl⟩
abbrev main_v119 : Ref sig .tc := ⟨.hbm, 172, rfl⟩
abbrev main_cst_28 : Ref sig .tc := ⟨.hbm, 173, rfl⟩
abbrev main_v120 : Ref sig .tc := ⟨.hbm, 174, rfl⟩
abbrev main_v121 : Ref sig .tc := ⟨.hbm, 175, rfl⟩
abbrev main_v122 : Ref sig .tc := ⟨.hbm, 176, rfl⟩
abbrev main_v123 : Ref sig .tc := ⟨.hbm, 177, rfl⟩
abbrev main_v124 : Ref sig .tc := ⟨.hbm, 178, rfl⟩
abbrev main_v125 : Ref sig .tc := ⟨.hbm, 179, rfl⟩
abbrev main_v126 : Ref sig .tc := ⟨.hbm, 180, rfl⟩
abbrev main_v127 : Ref sig .tc := ⟨.hbm, 181, rfl⟩
abbrev main_cst_29 : Ref sig .tc := ⟨.hbm, 182, rfl⟩
abbrev main_v128 : Ref sig .tc := ⟨.hbm, 183, rfl⟩
abbrev main_v129 : Ref sig .tc := ⟨.hbm, 184, rfl⟩
abbrev main_v130 : Ref sig .tc := ⟨.hbm, 185, rfl⟩
abbrev main_v131 : Ref sig .tc := ⟨.hbm, 186, rfl⟩
abbrev main_v132 : Ref sig .tc := ⟨.hbm, 187, rfl⟩
abbrev main_v133 : Ref sig .tc := ⟨.hbm, 188, rfl⟩
abbrev main_v134 : Ref sig .tc := ⟨.hbm, 189, rfl⟩
abbrev main_v135 : Ref sig .tc := ⟨.hbm, 190, rfl⟩
abbrev main_v136 : Ref sig .tc := ⟨.hbm, 191, rfl⟩
abbrev main_call3_cst : Ref sig .tc := ⟨.hbm, 192, rfl⟩
abbrev main_call3_v0 : Ref sig .tc := ⟨.hbm, 193, rfl⟩
abbrev main_v137 : Ref sig .tc := ⟨.hbm, 194, rfl⟩
abbrev main_v138 : Ref sig .tc := ⟨.hbm, 195, rfl⟩
abbrev main_v139 : Ref sig .tc := ⟨.hbm, 196, rfl⟩
abbrev main_v140 : Ref sig .tc := ⟨.hbm, 197, rfl⟩
abbrev main_v141 : Ref sig .tc := ⟨.hbm, 198, rfl⟩
abbrev main_call4_cst : Ref sig .tc := ⟨.hbm, 199, rfl⟩
abbrev main_call4_v0 : Ref sig .tc := ⟨.hbm, 200, rfl⟩
abbrev main_v142 : Ref sig .tc := ⟨.hbm, 201, rfl⟩
abbrev main_v143 : Ref sig .tc := ⟨.hbm, 202, rfl⟩
abbrev main_v144 : Ref sig .tc := ⟨.hbm, 203, rfl⟩
abbrev main_v145 : Ref sig .tc := ⟨.hbm, 204, rfl⟩
abbrev main_v146 : Ref sig .tc := ⟨.hbm, 205, rfl⟩
abbrev main_call5_cst : Ref sig .tc := ⟨.hbm, 206, rfl⟩
abbrev main_call5_v0 : Ref sig .tc := ⟨.hbm, 207, rfl⟩
abbrev main_v147 : Ref sig .tc := ⟨.hbm, 208, rfl⟩
abbrev main_v148 : Ref sig .tc := ⟨.hbm, 209, rfl⟩
abbrev main_v149 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_cst_30 : Ref sig .tc := ⟨.hbm, 215, rfl⟩
abbrev main_v154 : Ref sig .tc := ⟨.hbm, 216, rfl⟩
abbrev main_v155 : Ref sig .tc := ⟨.hbm, 217, rfl⟩
abbrev main_cst_31 : Ref sig .tc := ⟨.hbm, 218, rfl⟩
abbrev main_v156 : Ref sig .tc := ⟨.hbm, 219, rfl⟩
abbrev main_v157 : Ref sig .tc := ⟨.hbm, 220, rfl⟩

abbrev nD : Nat := 1
abbrev τ : Topo := Topo.v7x

variable {F : FTy → Type} [FloatOps F]

class Facts₀ : Prop where
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S1_S1x1_1 : S1.BroadcastsInDim S1x1 (![1] : Fin 1 → Fin S1x1.rank)
  bcast_S1x1_S100000x1_0_1 : S1x1.BroadcastsInDim S100000x1 (![0, 1] : Fin 2 → Fin S100000x1.rank)
  bcast_S_S100000x1 : S_.BroadcastsInDim S100000x1 (![] : Fin 0 → Fin S100000x1.rank)
  dot_S100000x4_S4x64_S100000x64_1_0_0_1_n_n_wf : DotDims.WF S100000x4 S4x64 S100000x64 [1] [0] [0] [1] [] []
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  dot_S100000x64_S64x64_S100000x64_1_0_0_1_n_n_wf : DotDims.WF S100000x64 S64x64 S100000x64 [1] [0] [0] [1] [] []
  dot_S100000x64_S64x32_S100000x32_1_0_0_1_n_n_wf : DotDims.WF S100000x64 S64x32 S100000x32 [1] [0] [0] [1] [] []
  dot_S100000x32_S32x1_S100000x1_1_0_0_1_n_n_wf : DotDims.WF S100000x32 S32x1 S100000x1 [1] [0] [0] [1] [] []

variable [Facts₀]

def dot_S100000x4_S4x64_S100000x64_1_0_0_1_n_n : DotDims S100000x4 S4x64 S100000x64 where
  lhsContracting := [1]
  rhsContracting := [0]
  lhsNonContracting := [0]
  rhsNonContracting := [1]
  lhsBatch := []
  rhsBatch := []
  wf := dot_S100000x4_S4x64_S100000x64_1_0_0_1_n_n_wf
def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def dot_S100000x64_S64x32_S100000x32_1_0_0_1_n_n : DotDims S100000x64 S64x32 S100000x32 where
  lhsContracting := [1]
  rhsContracting := [0]
  lhsNonContracting := [0]
  rhsNonContracting := [1]
  lhsBatch := []
  rhsBatch := []
  wf := dot_S100000x64_S64x32_S100000x32_1_0_0_1_n_n_wf
def dot_S100000x32_S32x1_S100000x1_1_0_0_1_n_n : DotDims S100000x32 S32x1 S100000x1 where
  lhsContracting := [1]
  rhsContracting := [0]
  lhsNonContracting := [0]
  rhsNonContracting := [1]
  lhsBatch := []
  rhsBatch := []
  wf := dot_S100000x32_S32x1_S100000x1_1_0_0_1_n_n_wf

class Facts : Prop extends Facts₀ where

variable [Facts]
-- ==== Proof.K.R0.lean ====
import proofs.«119403_j19189913878709_1_alg».proof.Proof.Gen.Kernel.Launch
import proofs.«119403_j19189913878709_1_alg».proof.Proof.Gen.Kernel.Skeleton
import proofs.«119403_j19189913878709_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided structurally, one step per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: `cc0__matmul_kernel` (pipeline 0), at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each memref is read or written whole -/

abbrev r0_0 : Rect S5000x4 := Rect.unit (s := S5000x4) ![0, 0] S5000x4.size inb_S5000x4_S5000x4_0_0
abbrev r0_1 : Rect S4x64 := Rect.unit (s := S4x64) ![0, 0] S4x64.size inb_S4x64_S4x64_0_0
abbrev r0_2 : Rect S5000x64 := Rect.unit (s := S5000x64) ![0, 0] S5000x64.size inb_S5000x64_S5000x64_0_0

/-- The output window's staging buffer after the body, from the input windows' blocks: the product of the row block by the weight matrix, both rounded to bf16, accumulated in f32. -/
def out0_2 (x0 : Vec F S5000x4 .f32) (x1 : Vec F S4x64 .f32) : Vec F S5000x64 .f32 :=
  View.canon [⟨r0_2, k0_pay1 (View.ld x0 r0_0) (View.ld x1 r0_1)⟩]

/-- The single store is the whole buffer, so it covers it. -/
theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

/-! ## The body's triple -/

set_option maxHeartbeats 1000000 in
/-- The kernel body on whole staging memrefs, the inputs' at contents `xW` and the output's at anything, runs to
    the continuation holding the inputs' as they were and the output's at `out0_2` of the inputs'. -/
theorem sound_kernel0 (c : Dev nD) (E : Set ℕ) (i : grid0.Coords) (arg0 : Memref sig .tc .vmem S5000x4 .f32) (harg0 : arg0.IsWhole) (arg1 : Memref sig .tc .vmem S4x64 .f32) (harg1 : arg1.IsWhole) (arg2 : Memref sig .tc .vmem S5000x64 .f32) (harg2 : arg2.IsWhole)
    (x0 : Vec F S5000x4 .f32) (x1 : Vec F S4x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t`
    each input's buffer at its block and the output's at `out0_2` of the input blocks; the invariant keeps the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the kernel's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Fr

end
-- ==== Proof.K.R1Runs.lean ====
import proofs.«119403_j19189913878709_1_alg».proof.Proof.Gen.Kernel.Launch
import proofs.«119403_j19189913878709_1_alg».proof.Proof.Gen.Kernel.Skeleton
import proofs.«119403_j19189913878709_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array at the contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block input's current buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The bias row's buffer holds the whole row at every point (its block index never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-- The first branch condition: the grid coordinate is 0. -/
abbrev cond1_0 (i : grid1.Coords) : Prop := (Scalar.cmpi .ne (Scalar.extui (Scalar.cmpi .eq (BitVec.ofNat 32 (i 0).val) 0#32)) 0#32) = 1#1
/-- It holds exactly at the first point. -/
theorem hcond1_0 : ∀ t : Fin cfg1.N, cond1_0 (grid1.coords t) ↔ t.val = 0 :=
  (by decide +kernel : ∀ t : Fin grid1.N, cond1_0 (grid1.coords t) ↔ t.val = 0)

/-- The second branch condition: the grid coordinate is 19. -/
abbrev cond1_1 (i : grid1.Coords) : Prop := k1_cond2 i = 1#1
/-- It holds exactly at the last point. -/
theorem hcond1_1 : ∀ t : Fin cfg1.N, cond1_1 (grid1.coords t) ↔ t.val = 19 :=
  (by decide +kernel : ∀ t : Fin grid1.N, cond1_1 (grid1.coords t) ↔ t.val = 19)

/-- The two inputs are stored into nowhere and read everywhere: never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point nothing is stored into the two sums' outputs, and they are not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last point both outputs are stored into. -/
theorem liveAt1_2_C : ∀ t : Fin cfg1.N, ¬cond1_0 (grid1.coords t) → cond1_1 (grid1.coords t) → cfg1.idle 2 (grid1.coords t) = false := by decide +kernel
theorem liveAt1_3_C : ∀ t : Fin cfg1.N, ¬cond1_0 (grid1.coords t) → cond1_1 (grid1.coords t) → cfg1.idle 3 (grid1.coords t) = false := by decide +kernel

/-- A buffer of each output window, through whose view its contents are stated. -/
abbrev VO1_2 : View sig .tc .vmem S1x64 .f32 := (Memref.whole cc1_stg2_0 : Memref sig .tc .vmem S1x64 .f32).view
abbrev VO1_3 : View sig .tc .vmem S1x64 .f32 := (Memref.whole cc1_stg3_0 : Memref sig .tc .vmem S1x64 .f32).view
/-- Each window's current buffer at point `t` and its wholeness. -/
abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
/-- The two accumulators (column sums and column sums of squares), whole buffers, and their views. -/
abbrev scM1_0 : Memref sig .tc .vmem S1x64 .f32 := Memref.whole cc1_scratch0
abbrev scM1_1 : Memref sig .tc .vmem S1x64 .f32 := Memref.whole cc1_scratch1
abbrev VS1_0 : View sig .tc .vmem S1x64 .f32 := scM1_0.view
abbrev VS1_1 : View sig .tc .vmem S1x64 .f32 := scM1_1.view

/-- The invariant the region is entered with: both accumulators owned at some contents, the other scoped buffers
    as one unopened factor, and the generator register at some state. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.Kernel.Fr

end
-- ==== Proof.K.R1A.lean ====
import proofs.«119403_j19189913878709_1_alg».proof.Proof.K.R1Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point (both accumulators zeroed, then the first block's column sums added): the pieces its stores leave in each output and accumulator buffer,
    with the triple that from whole buffers it runs to a continuation holding the inputs unchanged and each stored
    buffer with those pieces written. -/
noncomputable def kernelRun1_A (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond1_0 i) (hc1 : ¬cond1_1 i)
    (x0 : Vec F S5000x64 .f32) (x1 : Vec F S1x64 .f32) :
    Σ' (L2 : List (View.Piece (Elt F) S1x64 .f32)) (L3 : List (View.Piece (Elt F) S1x64 .f32)) (LS0 : List (View.Piece (Elt F) S1x64 .f32)), { LS1 : List (View.Piece (Elt F) S1x64 .f32) //
      ∀ (xi2 : Vec F S1x64 .f32) (xi3 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨[], [], ?_, ?_, fun xi2 xi3 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Fr

end
-- ==== Proof.K.R1B.lean ====
import proofs.«119403_j19189913878709_1_alg».proof.Proof.K.R1A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle point (the block's column sums added to the running sums): the pieces its stores leave in each output and accumulator buffer,
    with the triple that from whole buffers it runs to a continuation holding the inputs unchanged and each stored
    buffer with those pieces written. -/
noncomputable def kernelRun1_B (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : ¬cond1_1 i)
    (x0 : Vec F S5000x64 .f32) (x1 : Vec F S1x64 .f32) (xs0 : Vec F S1x64 .f32) (xs1 : Vec F S1x64 .f32) :
    Σ' (L2 : List (View.Piece (Elt F) S1x64 .f32)) (L3 : List (View.Piece (Elt F) S1x64 .f32)) (LS0 : List (View.Piece (Elt F) S1x64 .f32)), { LS1 : List (View.Piece (Elt F) S1x64 .f32) //
      ∀ (xi2 : Vec F S1x64 .f32) (xi3 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨[], [], ?_, ?_, fun xi2 xi3 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Fr

end
-- ==== Proof.K.R1C.lean ====
import proofs.«119403_j19189913878709_1_alg».proof.Proof.K.R1B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point (the block's column sums added, then both totals copied to the outputs): the pieces its stores leave in each output and accumulator buffer,
    with the triple that from whole buffers it runs to a continuation holding the inputs unchanged and each stored
    buffer with those pieces written. -/
noncomputable def kernelRun1_C (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : cond1_1 i)
    (x0 : Vec F S5000x64 .f32) (x1 : Vec F S1x64 .f32) (xs0 : Vec F S1x64 .f32) (xs1 : Vec F S1x64 .f32) :
    Σ' (L2 : List (View.Piece (Elt F) S1x64 .f32)) (L3 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, ?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Fr

end
-- ==== Proof.K.R1.lean ====
import proofs.«119403_j19189913878709_1_alg».proof.Proof.K.R1C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the first point leaves in output 2's buffer: its stored pieces read back (none: a placeholder nothing consults). -/
def out1_A_2 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond1_0 i) (hc1 : ¬cond1_1 i)
    (x0 : Vec F S5000x64 .f32) (x1 : Vec F S1x64 .f32) : Vec F S1x64 .f32 :=
  VO1_2.read (Elt F) (VO1_2.writes (Elt F) VO1_2.junk (kernelRun1_A c i arg1 harg1 arg2 harg2 arg3 harg3 arg4 harg4 arg5 harg5 arg6 harg6 hc0 hc1 x0 x1).1)

/-- What the first point leaves in output 3's buffer: its stored pieces read back (none: a placeholder nothing consults). -/
def out1_A_3 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond1_0 i) (hc1 : ¬cond1_1 i)
    (x0 : Vec F S5000x64 .f32) (x1 : Vec F S1x64 .f32) : Vec F S1x64 .f32 :=
  VO1_3.read (Elt F) (VO1_3.writes (Elt F) VO1_3.junk (kernelRun1_A c i arg1 harg1 arg2 harg2 arg3 harg3 arg4 harg4 arg5 harg5 arg6 harg6 hc0 hc1 x0 x1).2.1)

/-- The stores of the first point into accumulator 0 cover it (each is a whole-row store). -/
theorem scover1_A_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond1_0 i) (hc1 : ¬cond1_1 i)
    (x0 : Vec F S5000x64 .f32) (x1 : Vec F S1x64 .f32) (y : S1x64.Idx) :
    ∃ pc ∈ (kernelRun1_A c i arg1 harg1 arg2 harg2 arg3 harg3 arg4 harg4 arg5 harg5 arg6 harg6 hc0 hc1 x0 x1).2.2.1, y ∈ pc.1.set :=
  View.cover_of_tiledL (kernelRun1_A c i arg1 harg1 arg2 harg2 arg3 harg3 arg4 harg4 arg5 harg5 arg6 harg6 hc0 hc1 x0 x1).2.2.1 S1x64.size (by sl_kernel_rfl) y

/-- What the first point leaves in accumulator 0: the running column sum through this block. -/
def sout1_A_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond1_0 i) (hc1 : ¬cond1_1 i)
    (x0 : Vec F S5000x64 .f32) (x1 : Vec F S1x64 .f32) : Vec F S1x64 .f32 :=
  VS1_0.read (Elt F) (VS1_0.writes (Elt F) VS1_0.junk (kernelRun1_A c i arg1 harg1 arg2 harg2 arg3 harg3 arg4 harg4 arg5 harg5 arg6 harg6 hc0 hc1 x0 x1).2.2.1)

/-- The stores of the first point into accumulator 1 cover it (each is a whole-row store). -/
theorem scover1_A_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond1_0 i) (hc1 : ¬cond1_1 i)
    (x0 : Vec F S5000x64 .f32) (x1 : Vec F S1x64 .f32) (y : S1x64.Idx) :
    ∃ pc ∈ (kernelRun1_A c i arg1 harg1 arg2 harg2 arg3 harg3 arg4 harg4 arg5 harg5 arg6 harg6 hc0 hc1 x0 x1).2.2.2.1, y ∈ pc.1.set :=
  View.cover_of_tiledL (kernelRun1_A c i arg1 harg1 arg2 harg2 arg3 harg3 arg4 harg4 arg5 harg5 arg6 harg6 hc0 hc1 x0 x1).2.2.2.1 S1x64.size (by sl_kernel_rfl) y

/-- What the first point leaves in accumulator 1: the running column sum of squares through this block. -/
def sout1_A_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond1_0 i) (hc1 : ¬cond1_1 i)
    (x0 : Vec F S5000x64 .f32) (x1 : Vec F S1x64 .f32) : Vec F S1x64 .f32 :=
  VS1_1.read (Elt F) (VS1_1.writes (Elt F) VS1_1.junk (kernelRun1_A c i arg1 harg1 arg2 harg2 arg3 harg3 arg4 harg4 arg5 harg5 arg6 harg6 hc0 hc1 x0 x1).2.2.2.1)

/-- What a middle point leaves in output 2's buffer: its stored pieces read back (none: a placeholder nothing consults). -/
def out1_B_2 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : ¬cond1_1 i)
    (x0 : Vec F S5000x64 .f32) (x1 : Vec F S1x64 .f32) (xs0 : Vec F S1x64 .f32) (xs1 : Vec F S1x64 .f32) : Vec F S1x64 .f32 :=
  VO1_2.read (Elt F) (VO1_2.writes (Elt F) VO1_2.junk (kernelRun1_B c i arg1 harg1 arg2 harg2 arg3 harg3 arg4 harg4 arg5 harg5 arg6 harg6 hc0 hc1 x0 x1 xs0 xs1).1)

/-- What a middle point leaves in output 3's buffer: its stored pieces read back (none: a placeholder nothing consults). -/
def out1_B_3 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : ¬cond1_1 i)
    (x0 : Vec F S5000x64 .f32) (x1 : Vec F S1x64 .f32) (xs0 : Vec F S1x64 .f32) (xs1 : Vec F S1x64 .f32) : Vec F S1x64 .f32 :=
  VO1_3.read (Elt F) (VO1_3.writes (Elt F) VO1_3.junk (kernelRun1_B c i arg1 harg1 arg2 harg2 arg3 harg3 arg4 harg4 arg5 harg5 arg6 harg6 hc0 hc1 x0 x1 xs0 xs1).2.1)

/-- The stores of a middle point into accumulator 0 cover it (each is a whole-row store). -/
theorem scover1_B_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : ¬cond1_1 i)
    (x0 : Vec F S5000x64 .f32) (x1 : Vec F S1x64 .f32) (xs0 : Vec F S1x64 .f32) (xs1 : Vec F S1x64 .f32) (y : S1x64.Idx) :
    ∃ pc ∈ (kernelRun1_B c i arg1 harg1 arg2 harg2 arg3 harg3 arg4 harg4 arg5 harg5 arg6 harg6 hc0 hc1 x0 x1 xs0 xs1).2.2.1, y ∈ pc.1.set :=
  View.cover_of_tiledL (kernelRun1_B c i arg1 harg1 arg2 harg2 arg3 harg3 arg4 harg4 arg5 harg5 arg6 harg6 hc0 hc1 x0 x1 xs0 xs1).2.2.1 S1x64.size (by sl_kernel_rfl) y

/-- What a middle point leaves in accumulator 0: the running column sum through this block. -/
def sout1_B_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : ¬cond1_1 i)
    (x0 : Vec F S5000x64 .f32) (x1 : Vec F S1x64 .f32) (xs0 : Vec F S1x64 .f32) (xs1 : Vec F S1x64 .f32) : Vec F S1x64 .f32 :=
  VS1_0.read (Elt F) (VS1_0.writes (Elt F) VS1_0.junk (kernelRun1_B c i arg1 harg1 arg2 harg2 arg3 harg3 arg4 harg4 arg5 harg5 arg6 harg6 hc0 hc1 x0 x1 xs0 xs1).2.2.1)

/-- The stores of a middle point into accumulator 1 cover it (each is a whole-row store). -/
theorem scover1_B_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : ¬cond1_1 i)
    (x0 : Vec F S5000x64 .f32) (x1 : Vec F S1x64 .f32) (xs0 : Vec F S1x64 .f32) (xs1 : Vec F S1x64 .f32) (y : S1x64.Idx) :
    ∃ pc ∈ (kernelRun1_B c i arg1 harg1 arg2 harg2 arg3 harg3 arg4 harg4 arg5 harg5 arg6 harg6 hc0 hc1 x0 x1 xs0 xs1).2.2.2.1, y ∈ pc.1.set :=
  View.cover_of_tiledL (kernelRun1_B c i arg1 harg1 arg2 harg2 arg3 harg3 arg4 harg4 arg5 harg5 arg6 harg6 hc0 hc1 x0 x1 xs0 xs1).2.2.2.1 S1x64.size (by sl_kernel_rfl) y

/-- What a middle point leaves in accumulator 1: the running column sum of squares through this block. -/
def sout1_B_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : ¬cond1_1 i)
    (x0 : Vec F S5000x64 .f32) (x1 : Vec F S1x64 .f32) (xs0 : Vec F S1x64 .f32) (xs1 : Vec F S1x64 .f32) : Vec F S1x64 .f32 :=
  VS1_1.read (Elt F) (VS1_1.writes (Elt F) VS1_1.junk (kernelRun1_B c i arg1 harg1 arg2 harg2 arg3 harg3 arg4 harg4 arg5 harg5 arg6 harg6 hc0 hc1 x0 x1 xs0 xs1).2.2.2.1)

/-- At the last point the single whole-row store into output 2 covers it. -/
theorem cover1_C_2 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : cond1_1 i)
    (x0 : Vec F S5000x64 .f32) (x1 : Vec F S1x64 .f32) (xs0 : Vec F S1x64 .f32) (xs1 : Vec F S1x64 .f32) (y : S1x64.Idx) :
    ∃ pc ∈ (kernelRun1_C c i arg1 harg1 arg2 harg2 arg3 harg3 arg4 harg4 arg5 harg5 arg6 harg6 hc0 hc1 x0 x1 xs0 xs1).1, y ∈ pc.1.set :=
  View.cover_of_tiledL (kernelRun1_C c i arg1 harg1 arg2 harg2 arg3 harg3 arg4 harg4 arg5 harg5 arg6 harg6 hc0 hc1 x0 x1 xs0 xs1).1 S1x64.size (by sl_kernel_rfl) y

/-- What the last point leaves in output 2's buffer: its stored pieces read back. -/
def out1_C_2 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : cond1_1 i)
    (x0 : Vec F S5000x64 .f32) (x1 : Vec F S1x64 .f32) (xs0 : Vec F S1x64 .f32) (xs1 : Vec F S1x64 .f32) : Vec F S1x64 .f32 :=
  VO1_2.read (Elt F) (VO1_2.writes (Elt F) VO1_2.junk (kernelRun1_C c i arg1 harg1 arg2 harg2 arg3 harg3 arg4 harg4 arg5 harg5 arg6 harg6 hc0 hc1 x0 x1 xs0 xs1).1)

/-- At the last point the single whole-row store into output 3 covers it. -/
theorem cover1_C_3 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : cond1_1 i)
    (x0 : Vec F S5000x64 .f32) (x1 : Vec F S1x64 .f32) (xs0 : Vec F S1x64 .f32) (xs1 : Vec F S1x64 .f32) (y : S1x64.Idx) :
    ∃ pc ∈ (kernelRun1_C c i arg1 harg1 arg2 harg2 arg3 harg3 arg4 harg4 arg5 harg5 arg6 harg6 hc0 hc1 x0 x1 xs0 xs1).2.1, y ∈ pc.1.set :=
  View.cover_of_tiledL (kernelRun1_C c i arg1 harg1 arg2 harg2 arg3 harg3 arg4 harg4 arg5 harg5 arg6 harg6 hc0 hc1 x0 x1 xs0 xs1).2.1 S1x64.size (by sl_kernel_rfl) y

/-- What the last point leaves in output 3's buffer: its stored pieces read back. -/
def out1_C_3 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : cond1_1 i)
    (x0 : Vec F S5000x64 .f32) (x1 : Vec F S1x64 .f32) (xs0 : Vec F S1x64 .f32) (xs1 : Vec F S1x64 .f32) : Vec F S1x64 .f32 :=
  VO1_3.read (Elt F) (VO1_3.writes (Elt F) VO1_3.junk (kernelRun1_C c i arg1 harg1 arg2 harg2 arg3 harg3 arg4 harg4 arg5 harg5 arg6 harg6 hc0 hc1 x0 x1 xs0 xs1).2.1)

/-- The stores of the last point into accumulator 0 cover it (each is a whole-row store). -/
theorem scover1_C_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : cond1_1 i)
    (x0 : Vec F S5000x64 .f32) (x1 : Vec F S1x64 .f32) (xs0 : Vec F S1x64 .f32) (xs1 : Vec F S1x64 .f32) (y : S1x64.Idx) :
    ∃ pc ∈ (kernelRun1_C c i arg1 harg1 arg2 harg2 arg3 harg3 arg4 harg4 arg5 harg5 arg6 harg6 hc0 hc1 x0 x1 xs0 xs1).2.2.1, y ∈ pc.1.set :=
  View.cover_of_tiledL (kernelRun1_C c i arg1 harg1 arg2 harg2 arg3 harg3 arg4 harg4 arg5 harg5 arg6 harg6 hc0 hc1 x0 x1 xs0 xs1).2.2.1 S1x64.size (by sl_kernel_rfl) y

/-- What the last point leaves in accumulator 0: the running column sum through this block. -/
def sout1_C_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : cond1_1 i)
    (x0 : Vec F S5000x64 .f32) (x1 : Vec F S1x64 .f32) (xs0 : Vec F S1x64 .f32) (xs1 : Vec F S1x64 .f32) : Vec F S1x64 .f32 :=
  VS1_0.read (Elt F) (VS1_0.writes (Elt F) VS1_0.junk (kernelRun1_C c i arg1 harg1 arg2 harg2 arg3 harg3 arg4 harg4 arg5 harg5 arg6 harg6 hc0 hc1 x0 x1 xs0 xs1).2.2.1)

/-- The stores of the last point into accumulator 1 cover it (each is a whole-row store). -/
theorem scover1_C_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : cond1_1 i)
    (x0 : Vec F S5000x64 .f32) (x1 : Vec F S1x64 .f32) (xs0 : Vec F S1x64 .f32) (xs1 : Vec F S1x64 .f32) (y : S1x64.Idx) :
    ∃ pc ∈ (kernelRun1_C c i arg1 harg1 arg2 harg2 arg3 harg3 arg4 harg4 arg5 harg5 arg6 harg6 hc0 hc1 x0 x1 xs0 xs1).2.2.2.1, y ∈ pc.1.set :=
  View.cover_of_tiledL (kernelRun1_C c i arg1 harg1 arg2 harg2 arg3 harg3 arg4 harg4 arg5 harg5 arg6 harg6 hc0 hc1 x0 x1 xs0 xs1).2.2.2.1 S1x64.size (by sl_kernel_rfl) y

/-- What the last point leaves in accumulator 1: the running column sum of squares through this block. -/
def sout1_C_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : cond1_1 i)
    (x0 : Vec F S5000x64 .f32) (x1 : Vec F S1x64 .f32) (xs0 : Vec F S1x64 .f32) (xs1 : Vec F S1x64 .f32) : Vec F S1x64 .f32 :=
  VS1_1.read (Elt F) (VS1_1.writes (Elt F) VS1_1.junk (kernelRun1_C c i arg1 harg1 arg2 harg2 arg3 harg3 arg4 harg4 arg5 harg5 arg6 harg6 hc0 hc1 x0 x1 xs0 xs1).2.2.2.1)

section
variable (V : (c : Dev nD) → (b : Ref sig .tc) → Buf (Elt F) ((c : Thread nD τ).loc b))

/-- THE ACCUMULATION. What the two outputs' buffers and the two accumulators hold after the body at position `n`
    (outputs 2 and 3, then accumulators 0 and 1): the first point zeroes the accumulators and adds the first block's
    column sums; each later point adds its block's to what the point before left; the last also copies the totals out. -/
def outsAt1 (c : Dev nD) : (n : ℕ) → n < cfg1.N → Vec F S1x64 .f32 × Vec F S1x64 .f32 × Vec F S1x64 .f32 × Vec F S1x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩), out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩))
  | n + 1, hn =>
    if h1 : n + 1 = 19 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2)
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2, out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2)

/-- `outsAt1` at the first point. -/
theorem outsAt1_A (c : Dev nD) (t : Fin cfg1.N) (h0 : t.val = 0) (h1 : ¬t.val = 19) :
    outsAt1 V c t.val t.isLt = (out1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact absurd h0 (Nat.succ_ne_zero n)

/-- `outsAt1` at a middle point: over what the point before left. -/
theorem outsAt1_B (c : Dev nD) (t : Fin cfg1.N) (h0 : ¬t.val = 0) (h1 : ¬t.val = 19) :
    outsAt1 V c t.val t.isLt = (out1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt1` at the last point: over what the point before left. -/
theorem outsAt1_C (c : Dev nD) (t : Fin cfg1.N) (h0 : ¬t.val = 0) (h1 : t.val = 19) :
    outsAt1 V c t.val t.isLt = (out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_pos h1).trans rfl

/-- The region invariant before position `n`: at entry the class's; afterwards both accumulators at the running
    sums the point before left, the other scoped buffers unopened, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.2.1 ∗ owns (c : Thread nD τ) scM1_1 fullShare (outsAt1 V c n hn).2.2.2) ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

/-- After point `n`: the accumulators at that point's running sums. -/
theorem PhiS1_succ (c : Dev nD) (n : ℕ) (hn : n < cfg1.N) :
    PhiS1 V c (n + 1) hn = iprop(iprop(iprop(owns (c : Thread nD τ) scM1_0 fullShare (outsAt1 V c n hn).2.2.1 ∗ owns (c : Thread nD τ) scM1_1 fullShare (outsAt1 V c n hn).2.2.2) ∗ Pipeline.scopedRestBut (Ix := Unit) (Name := ℕ) (U := UR sig nD τ) (Lvl := ℕ) (Val := Elt F) spec1 c [cc1_scratch0, cc1_scratch1]) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.2.1 ∗ owns (c : Thread nD τ) scM1_1 fullShare (outsAt1 V c (n - 1) (by omega)).2.2.2) ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-- The proof data of the pipeline on core `c`: arrays at `V`; after the body each input's buffer at its block, each
    output's at `outsAt1`'s component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

/-- The proof data's arrays are `V`'s. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the point is the first, a middle one or the last;
    the invariant hands the body both accumulators (at anything at the first point, else at the running sums the point
    before left) and takes them back at this point's running sums; away from the last point the outputs' buffers are
    handed back untouched, at the last they hold the totals. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  by_cases h0 : t.val = 0
  · have h1 : ¬t.val = 19 := by omega
    rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A_0 sout1_A_1; (try dsimp only)
    have hz : t.val = 0 := h0
    rw [PhiS1_castSucc V c t, PhiS1_zero V c _ _ hz, PhiA1_eq]
    iintro ⟨⟨⟨⟨HS0, HS1⟩, Hr⟩, Hg⟩, Ho, ⟨%d0, H0⟩, ⟨%d1, H1⟩, ⟨%d2, H2⟩, ⟨%d3, H3⟩⟩
    iapply ((kernelRun1_A c (grid1.coords t) _ _ _ _ _ _ _ _ _ _ _ _ ((hcond1_0 t).mpr h0) (fun h => h1 ((hcond1_1 t).mp h)) (iblk1 V c 0 t) (iblk1 V c 1 t)).2.2.2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _)
          · unfold owns; iexists _; isplitr
            swap; · iexact HS1
            ipureintro; exact View.read_writes_of_cover _ _ _ _ _ (scover1_A_1 c _ _ _ _ _ _ _ _ _ _ _ _ _ _ _ _ _)
        iexact Hr
      iexact Hg
    isplitl [Ho]; · iexact Ho
    isplitl [H0]; · iexact H0
    isplitl [H1]; · iexact H1
    isplitl [H2]; · iexists _; iexact H2
    iexists _; iexact H3
  · have hz : t.val ≠ 0 := h0
    by_cases h1 : t.val = 19
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_2 out1_C_3 sout1_C_0 sout1_C_1; (try dsimp only)
      rw [PhiS1_castSucc V c t, PhiS1_pos V c _ _ hz]
      iintro ⟨⟨⟨⟨HS0, HS1⟩, Hr⟩, Hg⟩, Ho, ⟨%d0, H0⟩, ⟨%d1, H1⟩, ⟨%d2, H2⟩, ⟨%d3, H3⟩⟩
      iapply ((kernelRun1_C c (grid1.coords t) _ _ _ _ _ _ _ _ _ _ _ _ (fun h => h0 ((hcond1_0 t).mp h)) ((hcond1_1 t).mpr h1) (iblk1 V c 0 t) (iblk1 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _)
            · unfold owns; iexists _; isplitr
              swap; · iexact HS1
              ipureintro; exact View.read_writes_of_cover _ _ _ _ _ (scover1_C_1 c _ _ _ _ _ _ _ _ _ _ _ _ _ _ _ _ _ _ _)
          iexact Hr
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1; (try dsimp only)
      rw [PhiS1_castSucc V c t, PhiS1_pos V c _ _ hz]
      iintro ⟨⟨⟨⟨HS0, HS1⟩, Hr⟩, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _)
            · unfold owns; iexists _; isplitr
              swap; · iexact HS1
              ipureintro; exact View.read_writes_of_cover _ _ _ _ _ (scover1_B_1 c _ _ _ _ _ _ _ _ _ _ _ _ _ _ _ _ _ _ _)
          iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end

end Cert.Kernel.Fr

end
-- ==== Proof.K.R2.lean ====
import proofs.«119403_j19189913878709_1_alg».proof.Proof.Gen.Kernel.Launch
import proofs.«119403_j19189913878709_1_alg».proof.Proof.Gen.Kernel.Skeleton
import proofs.«119403_j19189913878709_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided structurally, one step per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: `cc2__affine_relu_kernel` (pipeline 2), at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each memref is read or written whole -/

abbrev r2_0 : Rect S5000x64 := Rect.unit (s := S5000x64) ![0, 0] S5000x64.size inb_S5000x64_S5000x64_0_0
abbrev r2_1 : Rect S1x64 := Rect.unit (s := S1x64) ![0, 0] S1x64.size inb_S1x64_S1x64_0_0

/-- The output window's staging buffer after the body, from the input windows' blocks: max(((x + b) * scale) + shift, 0), the three rows broadcast along the block's rows. -/
def out2_4 (x0 : Vec F S5000x64 .f32) (x1 : Vec F S1x64 .f32) (x2 : Vec F S1x64 .f32) (x3 : Vec F S1x64 .f32) : Vec F S5000x64 .f32 :=
  View.canon [⟨r2_0, k2_pay1 (View.ld x0 r2_0) (View.ld x1 r2_1) (View.ld x2 r2_1) (View.ld x3 r2_1)⟩]

/-- The single store is the whole buffer, so it covers it. -/
theorem cover2_4 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-! ## The body's triple -/

set_option maxHeartbeats 1000000 in
/-- The kernel body on whole staging memrefs, the inputs' at contents `xW` and the output's at anything, runs to
    the continuation holding the inputs' as they were and the output's at `out2_4` of the inputs'. -/
theorem sound_kernel2 (c : Dev nD) (E : Set ℕ) (i : grid2.Coords) (arg0 : Memref sig .tc .vmem S5000x64 .f32) (harg0 : arg0.IsWhole) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x64 .f32) (x1 : Vec F S1x64 .f32) (x2 : Vec F S1x64 .f32) (x3 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__affine_relu_kernel i arg0 harg0 arg1 harg1 arg2 harg2 arg3 harg3 arg4 harg4) K := by
  simp only [cc2__affine_relu_kernel_eq_skeleton]; unfold cc2__affine_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them; after the body at point `t`
    each input's buffer at its block and the output's at `out2_4` of the input blocks; the invariant keeps the
    scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the kernel's triple applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Fr

end
-- ==== Proof.K.R3.lean ====
import proofs.«119403_j19189913878709_1_alg».proof.Proof.Gen.Kernel.Launch
import proofs.«119403_j19189913878709_1_alg».proof.Proof.Gen.Kernel.Skeleton
import proofs.«119403_j19189913878709_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided structurally, one step per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 3: `cc3__matmul_kernel` (pipeline 3), at the entry contents `V` -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each memref is read or written whole -/

abbrev r3_0 : Rect S5000x64 := Rect.unit (s := S5000x64) ![0, 0] S5000x64.size inb_S5000x64_S5000x64_0_0
abbrev r3_1 : Rect S64x64 := Rect.unit (s := S64x64) ![0, 0] S64x64.size inb_S64x64_S64x64_0_0

/-- The output window's staging buffer after the body, from the input windows' blocks: the product of the row block by the weight matrix, both rounded to bf16, accumulated in f32. -/
def out3_2 (x0 : Vec F S5000x64 .f32) (x1 : Vec F S64x64 .f32) : Vec F S5000x64 .f32 :=
  View.canon [⟨r3_0, k3_pay1 (View.ld x0 r3_0) (View.ld x1 r3_1)⟩]

/-- The single store is the whole buffer, so it covers it. -/
theorem cover3_2 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

/-! ## The body's triple -/

set_option maxHeartbeats 1000000 in
/-- The kernel body on whole staging memrefs, the inputs' at contents `xW` and the output's at anything, runs to
    the continuation holding the inputs' as they were and the output's at `out3_2` of the inputs'. -/
theorem sound_kernel3 (c : Dev nD) (E : Set ℕ) (i : grid3.Coords) (arg0 : Memref sig .tc .vmem S5000x64 .f32) (harg0 : arg0.IsWhole) (arg1 : Memref sig .tc .vmem S64x64 .f32) (harg1 : arg1.IsWhole) (arg2 : Memref sig .tc .vmem S5000x64 .f32) (harg2 : arg2.IsWhole)
    (x0 : Vec F S5000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__matmul_kernel i arg0 harg0 arg1 harg1 arg2 harg2) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them; after the body at point `t`
    each input's buffer at its block and the output's at `out3_2` of the input blocks; the invariant keeps the
    scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the kernel's triple applies; the invariant and
    the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Fr

end
-- ==== Proof.K.R4Runs.lean ====
import proofs.«119403_j19189913878709_1_alg».proof.Proof.Gen.Kernel.Launch
import proofs.«119403_j19189913878709_1_alg».proof.Proof.Gen.Kernel.Skeleton
import proofs.«119403_j19189913878709_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array at the contents `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row-block input's current buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The bias row's buffer holds the whole row at every point (its block index never moves). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

end

/-- The first branch condition: the grid coordinate is 0. -/
abbrev cond4_0 (i : grid4.Coords) : Prop := (Scalar.cmpi .ne (Scalar.extui (Scalar.cmpi .eq (BitVec.ofNat 32 (i 0).val) 0#32)) 0#32) = 1#1
/-- It holds exactly at the first point. -/
theorem hcond4_0 : ∀ t : Fin cfg4.N, cond4_0 (grid4.coords t) ↔ t.val = 0 :=
  (by decide +kernel : ∀ t : Fin grid4.N, cond4_0 (grid4.coords t) ↔ t.val = 0)

/-- The second branch condition: the grid coordinate is 19. -/
abbrev cond4_1 (i : grid4.Coords) : Prop := k4_cond2 i = 1#1
/-- It holds exactly at the last point. -/
theorem hcond4_1 : ∀ t : Fin cfg4.N, cond4_1 (grid4.coords t) ↔ t.val = 19 :=
  (by decide +kernel : ∀ t : Fin grid4.N, cond4_1 (grid4.coords t) ↔ t.val = 19)

/-- The two inputs are stored into nowhere and read everywhere: never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- Away from the last point nothing is stored into the two sums' outputs, and they are not written back. -/
theorem idleAt4_2_A : ∀ t : Fin cfg4.N, cond4_0 (grid4.coords t) → ¬cond4_1 (grid4.coords t) → cfg4.idle 2 (grid4.coords t) = true := by decide +kernel
theorem noFlush4_2_A : ∀ t : Fin cfg4.N, cond4_0 (grid4.coords t) → ¬cond4_1 (grid4.coords t) → (cfg4.win 2).flush t = false := by decide +kernel
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
theorem idleAt4_2_B : ∀ t : Fin cfg4.N, ¬cond4_0 (grid4.coords t) → ¬cond4_1 (grid4.coords t) → cfg4.idle 2 (grid4.coords t) = true := by decide +kernel
theorem noFlush4_2_B : ∀ t : Fin cfg4.N, ¬cond4_0 (grid4.coords t) → ¬cond4_1 (grid4.coords t) → (cfg4.win 2).flush t = false := by decide +kernel
theorem idleAt4_3_B : ∀ t : Fin cfg4.N, ¬cond4_0 (grid4.coords t) → ¬cond4_1 (grid4.coords t) → cfg4.idle 3 (grid4.coords t) = true := by decide +kernel
theorem noFlush4_3_B : ∀ t : Fin cfg4.N, ¬cond4_0 (grid4.coords t) → ¬cond4_1 (grid4.coords t) → (cfg4.win 3).flush t = false := by decide +kernel
/-- At the last point both outputs are stored into. -/
theorem liveAt4_2_C : ∀ t : Fin cfg4.N, ¬cond4_0 (grid4.coords t) → cond4_1 (grid4.coords t) → cfg4.idle 2 (grid4.coords t) = false := by decide +kernel
theorem liveAt4_3_C : ∀ t : Fin cfg4.N, ¬cond4_0 (grid4.coords t) → cond4_1 (grid4.coords t) → cfg4.idle 3 (grid4.coords t) = false := by decide +kernel

/-- A buffer of each output window, through whose view its contents are stated. -/
abbrev VO4_2 : View sig .tc .vmem S1x64 .f32 := (Memref.whole cc4_stg2_0 : Memref sig .tc .vmem S1x64 .f32).view
abbrev VO4_3 : View sig .tc .vmem S1x64 .f32 := (Memref.whole cc4_stg3_0 : Memref sig .tc .vmem S1x64 .f32).view
/-- Each window's current buffer at point `t` and its wholeness. -/
abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
/-- The two accumulators (column sums and column sums of squares), whole buffers, and their views. -/
abbrev scM4_0 : Memref sig .tc .vmem S1x64 .f32 := Memref.whole cc4_scratch0
abbrev scM4_1 : Memref sig .tc .vmem S1x64 .f32 := Memref.whole cc4_scratch1
abbrev VS4_0 : View sig .tc .vmem S1x64 .f32 := scM4_0.view
abbrev VS4_1 : View sig .tc .vmem S1x64 .f32 := scM4_1.view

/-- The invariant the region is entered with: both accumulators owned at some contents, the other scoped buffers
    as one unopened factor, and the generator register at some state. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.Kernel.Fr

end
-- ==== Proof.K.R4A.lean ====
import proofs.«119403_j19189913878709_1_alg».proof.Proof.K.R4Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point (both accumulators zeroed, then the first block's column sums added): the pieces its stores leave in each output and accumulator buffer,
    with the triple that from whole buffers it runs to a continuation holding the inputs unchanged and each stored
    buffer with those pieces written. -/
noncomputable def kernelRun4_A (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond4_0 i) (hc1 : ¬cond4_1 i)
    (x0 : Vec F S5000x64 .f32) (x1 : Vec F S1x64 .f32) :
    Σ' (L2 : List (View.Piece (Elt F) S1x64 .f32)) (L3 : List (View.Piece (Elt F) S1x64 .f32)) (LS0 : List (View.Piece (Elt F) S1x64 .f32)), { LS1 : List (View.Piece (Elt F) S1x64 .f32) //
      ∀ (xi2 : Vec F S1x64 .f32) (xi3 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__bn_stats_kernel i arg1 harg1 arg2 harg2 arg3 harg3 arg4 harg4 arg5 harg5 arg6 harg6) K } := by
  refine ⟨[], [], ?_, ?_, fun xi2 xi3 E K => ?run⟩
  case run =>
    simp only [cc4__bn_stats_kernel_eq_skeleton]; unfold cc4__bn_stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Fr

end
-- ==== Proof.K.R4B.lean ====
import proofs.«119403_j19189913878709_1_alg».proof.Proof.K.R4A

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle point (the block's column sums added to the running sums): the pieces its stores leave in each output and accumulator buffer,
    with the triple that from whole buffers it runs to a continuation holding the inputs unchanged and each stored
    buffer with those pieces written. -/
noncomputable def kernelRun4_B (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : ¬cond4_1 i)
    (x0 : Vec F S5000x64 .f32) (x1 : Vec F S1x64 .f32) (xs0 : Vec F S1x64 .f32) (xs1 : Vec F S1x64 .f32) :
    Σ' (L2 : List (View.Piece (Elt F) S1x64 .f32)) (L3 : List (View.Piece (Elt F) S1x64 .f32)) (LS0 : List (View.Piece (Elt F) S1x64 .f32)), { LS1 : List (View.Piece (Elt F) S1x64 .f32) //
      ∀ (xi2 : Vec F S1x64 .f32) (xi3 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__bn_stats_kernel i arg1 harg1 arg2 harg2 arg3 harg3 arg4 harg4 arg5 harg5 arg6 harg6) K } := by
  refine ⟨[], [], ?_, ?_, fun xi2 xi3 E K => ?run⟩
  case run =>
    simp only [cc4__bn_stats_kernel_eq_skeleton]; unfold cc4__bn_stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.Kernel.Fr

end
-- ==== Proof.K.R4C.lean ====
import proofs.«119403_j19189913878709_1_alg».proof.Proof.K.R4B

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point (the block's column sums added, then both totals copied to the outputs): the pieces its stores leave in each output and accumulator buffer,
    with the triple that from whole buffers it runs to a continuation holding the inputs unchanged and each stored
    buffer with those pieces written. -/
noncomputable def kernelRun4_C (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : cond4_1 i)
    (x0 : Vec F S5000x64 .f32) (x1 : Vec F S1x64 .f32) (xs0 : Vec F S1x64 .f32) (xs1 : Vec F S1x64 .f32) :
    Σ' (L2 : List (View.Piece (Elt F) S1x64 .f32)) (L3 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__bn_stats_kernel i arg1 harg1 arg2 harg2 arg3 harg3 arg4 harg4 arg5 harg5 arg6 harg6) K } := by
  refine ⟨?_, ?_, ?_, ?_, fun E K => ?run⟩
  case run =>
    simp only [cc4__bn_stats_kernel_eq_skeleton]; unfold cc4__bn_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.Kernel.Fr

end
-- ==== Proof.K.R4.lean ====
import proofs.«119403_j19189913878709_1_alg».proof.Proof.K.R4C

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the first point leaves in output 2's buffer: its stored pieces read back (none: a placeholder nothing consults). -/
def out4_A_2 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond4_0 i) (hc1 : ¬cond4_1 i)
    (x0 : Vec F S5000x64 .f32) (x1 : Vec F S1x64 .f32) : Vec F S1x64 .f32 :=
  VO4_2.read (Elt F) (VO4_2.writes (Elt F) VO4_2.junk (kernelRun4_A c i arg1 harg1 arg2 harg2 arg3 harg3 arg4 harg4 arg5 harg5 arg6 harg6 hc0 hc1 x0 x1).1)

/-- What the first point leaves in output 3's buffer: its stored pieces read back (none: a placeholder nothing consults). -/
def out4_A_3 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond4_0 i) (hc1 : ¬cond4_1 i)
    (x0 : Vec F S5000x64 .f32) (x1 : Vec F S1x64 .f32) : Vec F S1x64 .f32 :=
  VO4_3.read (Elt F) (VO4_3.writes (Elt F) VO4_3.junk (kernelRun4_A c i arg1 harg1 arg2 harg2 arg3 harg3 arg4 harg4 arg5 harg5 arg6 harg6 hc0 hc1 x0 x1).2.1)

/-- The stores of the first point into accumulator 0 cover it (each is a whole-row store). -/
theorem scover4_A_0 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond4_0 i) (hc1 : ¬cond4_1 i)
    (x0 : Vec F S5000x64 .f32) (x1 : Vec F S1x64 .f32) (y : S1x64.Idx) :
    ∃ pc ∈ (kernelRun4_A c i arg1 harg1 arg2 harg2 arg3 harg3 arg4 harg4 arg5 harg5 arg6 harg6 hc0 hc1 x0 x1).2.2.1, y ∈ pc.1.set :=
  View.cover_of_tiledL (kernelRun4_A c i arg1 harg1 arg2 harg2 arg3 harg3 arg4 harg4 arg5 harg5 arg6 harg6 hc0 hc1 x0 x1).2.2.1 S1x64.size (by sl_kernel_rfl) y

/-- What the first point leaves in accumulator 0: the running column sum through this block. -/
def sout4_A_0 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond4_0 i) (hc1 : ¬cond4_1 i)
    (x0 : Vec F S5000x64 .f32) (x1 : Vec F S1x64 .f32) : Vec F S1x64 .f32 :=
  VS4_0.read (Elt F) (VS4_0.writes (Elt F) VS4_0.junk (kernelRun4_A c i arg1 harg1 arg2 harg2 arg3 harg3 arg4 harg4 arg5 harg5 arg6 harg6 hc0 hc1 x0 x1).2.2.1)

/-- The stores of the first point into accumulator 1 cover it (each is a whole-row store). -/
theorem scover4_A_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond4_0 i) (hc1 : ¬cond4_1 i)
    (x0 : Vec F S5000x64 .f32) (x1 : Vec F S1x64 .f32) (y : S1x64.Idx) :
    ∃ pc ∈ (kernelRun4_A c i arg1 harg1 arg2 harg2 arg3 harg3 arg4 harg4 arg5 harg5 arg6 harg6 hc0 hc1 x0 x1).2.2.2.1, y ∈ pc.1.set :=
  View.cover_of_tiledL (kernelRun4_A c i arg1 harg1 arg2 harg2 arg3 harg3 arg4 harg4 arg5 harg5 arg6 harg6 hc0 hc1 x0 x1).2.2.2.1 S1x64.size (by sl_kernel_rfl) y

/-- What the first point leaves in accumulator 1: the running column sum of squares through this block. -/
def sout4_A_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond4_0 i) (hc1 : ¬cond4_1 i)
    (x0 : Vec F S5000x64 .f32) (x1 : Vec F S1x64 .f32) : Vec F S1x64 .f32 :=
  VS4_1.read (Elt F) (VS4_1.writes (Elt F) VS4_1.junk (kernelRun4_A c i arg1 harg1 arg2 harg2 arg3 harg3 arg4 harg4 arg5 harg5 arg6 harg6 hc0 hc1 x0 x1).2.2.2.1)

/-- What a middle point leaves in output 2's buffer: its stored pieces read back (none: a placeholder nothing consults). -/
def out4_B_2 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : ¬cond4_1 i)
    (x0 : Vec F S5000x64 .f32) (x1 : Vec F S1x64 .f32) (xs0 : Vec F S1x64 .f32) (xs1 : Vec F S1x64 .f32) : Vec F S1x64 .f32 :=
  VO4_2.read (Elt F) (VO4_2.writes (Elt F) VO4_2.junk (kernelRun4_B c i arg1 harg1 arg2 harg2 arg3 harg3 arg4 harg4 arg5 harg5 arg6 harg6 hc0 hc1 x0 x1 xs0 xs1).1)

/-- What a middle point leaves in output 3's buffer: its stored pieces read back (none: a placeholder nothing consults). -/
def out4_B_3 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : ¬cond4_1 i)
    (x0 : Vec F S5000x64 .f32) (x1 : Vec F S1x64 .f32) (xs0 : Vec F S1x64 .f32) (xs1 : Vec F S1x64 .f32) : Vec F S1x64 .f32 :=
  VO4_3.read (Elt F) (VO4_3.writes (Elt F) VO4_3.junk (kernelRun4_B c i arg1 harg1 arg2 harg2 arg3 harg3 arg4 harg4 arg5 harg5 arg6 harg6 hc0 hc1 x0 x1 xs0 xs1).2.1)

/-- The stores of a middle point into accumulator 0 cover it (each is a whole-row store). -/
theorem scover4_B_0 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : ¬cond4_1 i)
    (x0 : Vec F S5000x64 .f32) (x1 : Vec F S1x64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 hc0 hc1 x0 x1 xs0 xs1).2.2.1, y ∈ pc.1.set :=
  View.cover_of_tiledL (kernelRun4_B c i arg1 harg1 arg2 harg2 arg3 harg3 arg4 harg4 arg5 harg5 arg6 harg6 hc0 hc1 x0 x1 xs0 xs1).2.2.1 S1x64.size (by sl_kernel_rfl) y

/-- What a middle point leaves in accumulator 0: the running column sum through this block. -/
def sout4_B_0 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : ¬cond4_1 i)
    (x0 : Vec F S5000x64 .f32) (x1 : Vec F S1x64 .f32) (xs0 : Vec F S1x64 .f32) (xs1 : Vec F S1x64 .f32) : Vec F S1x64 .f32 :=
  VS4_0.read (Elt F) (VS4_0.writes (Elt F) VS4_0.junk (kernelRun4_B c i arg1 harg1 arg2 harg2 arg3 harg3 arg4 harg4 arg5 harg5 arg6 harg6 hc0 hc1 x0 x1 xs0 xs1).2.2.1)

/-- The stores of a middle point into accumulator 1 cover it (each is a whole-row store). -/
theorem scover4_B_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : ¬cond4_1 i)
    (x0 : Vec F S5000x64 .f32) (x1 : Vec F S1x64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 hc0 hc1 x0 x1 xs0 xs1).2.2.2.1, y ∈ pc.1.set :=
  View.cover_of_tiledL (kernelRun4_B c i arg1 harg1 arg2 harg2 arg3 harg3 arg4 harg4 arg5 harg5 arg6 harg6 hc0 hc1 x0 x1 xs0 xs1).2.2.2.1 S1x64.size (by sl_kernel_rfl) y

/-- What a middle point leaves in accumulator 1: the running column sum of squares through this block. -/
def sout4_B_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : ¬cond4_1 i)
    (x0 : Vec F S5000x64 .f32) (x1 : Vec F S1x64 .f32) (xs0 : Vec F S1x64 .f32) (xs1 : Vec F S1x64 .f32) : Vec F S1x64 .f32 :=
  VS4_1.read (Elt F) (VS4_1.writes (Elt F) VS4_1.junk (kernelRun4_B c i arg1 harg1 arg2 harg2 arg3 harg3 arg4 harg4 arg5 harg5 arg6 harg6 hc0 hc1 x0 x1 xs0 xs1).2.2.2.1)

/-- At the last point the single whole-row store into output 2 covers it. -/
theorem cover4_C_2 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : cond4_1 i)
    (x0 : Vec F S5000x64 .f32) (x1 : Vec F S1x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 hc0 hc1 x0 x1 xs0 xs1).1, y ∈ pc.1.set :=
  View.cover_of_tiledL (kernelRun4_C c i arg1 harg1 arg2 harg2 arg3 harg3 arg4 harg4 arg5 harg5 arg6 harg6 hc0 hc1 x0 x1 xs0 xs1).1 S1x64.size (by sl_kernel_rfl) y

/-- What the last point leaves in output 2's buffer: its stored pieces read back. -/
def out4_C_2 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : cond4_1 i)
    (x0 : Vec F S5000x64 .f32) (x1 : Vec F S1x64 .f32) (xs0 : Vec F S1x64 .f32) (xs1 : Vec F S1x64 .f32) : Vec F S1x64 .f32 :=
  VO4_2.read (Elt F) (VO4_2.writes (Elt F) VO4_2.junk (kernelRun4_C c i arg1 harg1 arg2 harg2 arg3 harg3 arg4 harg4 arg5 harg5 arg6 harg6 hc0 hc1 x0 x1 xs0 xs1).1)

/-- At the last point the single whole-row store into output 3 covers it. -/
theorem cover4_C_3 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : cond4_1 i)
    (x0 : Vec F S5000x64 .f32) (x1 : Vec F S1x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 hc0 hc1 x0 x1 xs0 xs1).2.1, y ∈ pc.1.set :=
  View.cover_of_tiledL (kernelRun4_C c i arg1 harg1 arg2 harg2 arg3 harg3 arg4 harg4 arg5 harg5 arg6 harg6 hc0 hc1 x0 x1 xs0 xs1).2.1 S1x64.size (by sl_kernel_rfl) y

/-- What the last point leaves in output 3's buffer: its stored pieces read back. -/
def out4_C_3 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : cond4_1 i)
    (x0 : Vec F S5000x64 .f32) (x1 : Vec F S1x64 .f32) (xs0 : Vec F S1x64 .f32) (xs1 : Vec F S1x64 .f32) : Vec F S1x64 .f32 :=
  VO4_3.read (Elt F) (VO4_3.writes (Elt F) VO4_3.junk (kernelRun4_C c i arg1 harg1 arg2 harg2 arg3 harg3 arg4 harg4 arg5 harg5 arg6 harg6 hc0 hc1 x0 x1 xs0 xs1).2.1)

/-- The stores of the last point into accumulator 0 cover it (each is a whole-row store). -/
theorem scover4_C_0 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : cond4_1 i)
    (x0 : Vec F S5000x64 .f32) (x1 : Vec F S1x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 hc0 hc1 x0 x1 xs0 xs1).2.2.1, y ∈ pc.1.set :=
  View.cover_of_tiledL (kernelRun4_C c i arg1 harg1 arg2 harg2 arg3 harg3 arg4 harg4 arg5 harg5 arg6 harg6 hc0 hc1 x0 x1 xs0 xs1).2.2.1 S1x64.size (by sl_kernel_rfl) y

/-- What the last point leaves in accumulator 0: the running column sum through this block. -/
def sout4_C_0 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : cond4_1 i)
    (x0 : Vec F S5000x64 .f32) (x1 : Vec F S1x64 .f32) (xs0 : Vec F S1x64 .f32) (xs1 : Vec F S1x64 .f32) : Vec F S1x64 .f32 :=
  VS4_0.read (Elt F) (VS4_0.writes (Elt F) VS4_0.junk (kernelRun4_C c i arg1 harg1 arg2 harg2 arg3 harg3 arg4 harg4 arg5 harg5 arg6 harg6 hc0 hc1 x0 x1 xs0 xs1).2.2.1)

/-- The stores of the last point into accumulator 1 cover it (each is a whole-row store). -/
theorem scover4_C_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : cond4_1 i)
    (x0 : Vec F S5000x64 .f32) (x1 : Vec F S1x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 hc0 hc1 x0 x1 xs0 xs1).2.2.2.1, y ∈ pc.1.set :=
  View.cover_of_tiledL (kernelRun4_C c i arg1 harg1 arg2 harg2 arg3 harg3 arg4 harg4 arg5 harg5 arg6 harg6 hc0 hc1 x0 x1 xs0 xs1).2.2.2.1 S1x64.size (by sl_kernel_rfl) y

/-- What the last point leaves in accumulator 1: the running column sum of squares through this block. -/
def sout4_C_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : cond4_1 i)
    (x0 : Vec F S5000x64 .f32) (x1 : Vec F S1x64 .f32) (xs0 : Vec F S1x64 .f32) (xs1 : Vec F S1x64 .f32) : Vec F S1x64 .f32 :=
  VS4_1.read (Elt F) (VS4_1.writes (Elt F) VS4_1.junk (kernelRun4_C c i arg1 harg1 arg2 harg2 arg3 harg3 arg4 harg4 arg5 harg5 arg6 harg6 hc0 hc1 x0 x1 xs0 xs1).2.2.2.1)

section
variable (V : (c : Dev nD) → (b : Ref sig .tc) → Buf (Elt F) ((c : Thread nD τ).loc b))

/-- THE ACCUMULATION. What the two outputs' buffers and the two accumulators hold after the body at position `n`
    (outputs 2 and 3, then accumulators 0 and 1): the first point zeroes the accumulators and adds the first block's
    column sums; each later point adds its block's to what the point before left; the last also copies the totals out. -/
def outsAt4 (c : Dev nD) : (n : ℕ) → n < cfg4.N → Vec F S1x64 .f32 × Vec F S1x64 .f32 × Vec F S1x64 .f32 × Vec F S1x64 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩), out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩))
  | n + 1, hn =>
    if h1 : n + 1 = 19 then
      (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2, out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2)
    else
      (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2, out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2)

/-- `outsAt4` at the first point. -/
theorem outsAt4_A (c : Dev nD) (t : Fin cfg4.N) (h0 : t.val = 0) (h1 : ¬t.val = 19) :
    outsAt4 V c t.val t.isLt = (out4_A_2 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t), out4_A_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t), sout4_A_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact absurd h0 (Nat.succ_ne_zero n)

/-- `outsAt4` at a middle point: over what the point before left. -/
theorem outsAt4_B (c : Dev nD) (t : Fin cfg4.N) (h0 : ¬t.val = 0) (h1 : ¬t.val = 19) :
    outsAt4 V c t.val t.isLt = (out4_B_2 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, out4_B_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt4` at the last point: over what the point before left. -/
theorem outsAt4_C (c : Dev nD) (t : Fin cfg4.N) (h0 : ¬t.val = 0) (h1 : t.val = 19) :
    outsAt4 V c t.val t.isLt = (out4_C_2 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, out4_C_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact absurd rfl h0
  | succ n => exact (dif_pos h1).trans rfl

/-- The region invariant before position `n`: at entry the class's; afterwards both accumulators at the running
    sums the point before left, the other scoped buffers unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare (outsAt4 V c n hn).2.2.1 ∗ owns (c : Thread nD τ) scM4_1 fullShare (outsAt4 V c n hn).2.2.2) ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

/-- After point `n`: the accumulators at that point's running sums. -/
theorem PhiS4_succ (c : Dev nD) (n : ℕ) (hn : n < cfg4.N) :
    PhiS4 V c (n + 1) hn = iprop(iprop(iprop(owns (c : Thread nD τ) scM4_0 fullShare (outsAt4 V c n hn).2.2.1 ∗ owns (c : Thread nD τ) scM4_1 fullShare (outsAt4 V c n hn).2.2.2) ∗ Pipeline.scopedRestBut (Ix := Unit) (Name := ℕ) (U := UR sig nD τ) (Lvl := ℕ) (Val := Elt F) spec4 c [cc4_scratch0, cc4_scratch1]) ∗ (∃ r, prngReg c r)) := rfl

/-- Before a point that is not the first: the accumulators at what the point before left. -/
theorem PhiS4_pos (c : Dev nD) (n : ℕ) (h : n ≤ cfg4.N) (hz : n ≠ 0) :
    PhiS4 V c n h = iprop(iprop(iprop(owns (c : Thread nD τ) scM4_0 fullShare (outsAt4 V c (n - 1) (by omega)).2.2.1 ∗ owns (c : Thread nD τ) scM4_1 fullShare (outsAt4 V c (n - 1) (by omega)).2.2.2) ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-- The proof data of the pipeline on core `c`: arrays at `V`; after the body each input's buffer at its block, each
    output's at `outsAt4`'s component; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2.1
  Φ t := PhiS4 V c t.val (Nat.le_of_lt_succ t.isLt)
  q _ := fullShare
  owed _ := 0

/-- The proof data's arrays are `V`'s. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem after4_3 (c : Dev nD) (t : Fin cfg4.N) : (dat4 V c).after 3 t = (outsAt4 V c t.val t.isLt).2.1 := by dsimp only [dat4]

/-- Each input's current buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' buffers hold their blocks; the point is the first, a middle one or the last;
    the invariant hands the body both accumulators (at anything at the first point, else at the running sums the point
    before left) and takes them back at this point's running sums; away from the last point the outputs' buffers are
    handed back untouched, at the last they hold the totals. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  rw [show (dat4 V c).leavesExact 0 t = owns (c : Thread nD τ) (ms4_0 t) fullShare ((dat4 V c).after 0 t) from by
        unfold Dat.leavesExact; rw [liveAt4_0 t], after4_0]
  rw [show (dat4 V c).leavesExact 1 t = owns (c : Thread nD τ) (ms4_1 t) fullShare ((dat4 V c).after 1 t) from by
        unfold Dat.leavesExact; rw [liveAt4_1 t], after4_1]
  by_cases h0 : t.val = 0
  · have h1 : ¬t.val = 19 := by omega
    rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
    rw [Dat.leavesExact_idle (dat4 V c) 3 t (idleAt4_3_A t ((hcond4_0 t).mpr h0) (fun h => h1 ((hcond4_1 t).mp h))) (noFlush4_3_A t ((hcond4_0 t).mpr h0) (fun h => h1 ((hcond4_1 t).mp h)))]
    rw [outsAt4_A V c t h0 h1]
    unfold sout4_A_0 sout4_A_1; (try dsimp only)
    have hz : t.val = 0 := h0
    rw [PhiS4_castSucc V c t, PhiS4_zero V c _ _ hz, PhiA4_eq]
    iintro ⟨⟨⟨⟨HS0, HS1⟩, Hr⟩, Hg⟩, Ho, ⟨%d0, H0⟩, ⟨%d1, H1⟩, ⟨%d2, H2⟩, ⟨%d3, H3⟩⟩
    iapply ((kernelRun4_A c (grid4.coords t) _ _ _ _ _ _ _ _ _ _ _ _ ((hcond4_0 t).mpr h0) (fun h => h1 ((hcond4_1 t).mp h)) (iblk4 V c 0 t) (iblk4 V c 1 t)).2.2.2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover4_A_0 c _ _ _ _ _ _ _ _ _ _ _ _ _ _ _ _ _)
          · unfold owns; iexists _; isplitr
            swap; · iexact HS1
            ipureintro; exact View.read_writes_of_cover _ _ _ _ _ (scover4_A_1 c _ _ _ _ _ _ _ _ _ _ _ _ _ _ _ _ _)
        iexact Hr
      iexact Hg
    isplitl [Ho]; · iexact Ho
    isplitl [H0]; · iexact H0
    isplitl [H1]; · iexact H1
    isplitl [H2]; · iexists _; iexact H2
    iexists _; iexact H3
  · have hz : t.val ≠ 0 := h0
    by_cases h1 : t.val = 19
    · rw [show (dat4 V c).leavesExact 2 t = owns (c : Thread nD τ) (ms4_2 t) fullShare ((dat4 V c).after 2 t) from by
        unfold Dat.leavesExact; rw [liveAt4_2_C t (fun h => h0 ((hcond4_0 t).mp h)) ((hcond4_1 t).mpr h1)], after4_2]
      rw [show (dat4 V c).leavesExact 3 t = owns (c : Thread nD τ) (ms4_3 t) fullShare ((dat4 V c).after 3 t) from by
        unfold Dat.leavesExact; rw [liveAt4_3_C t (fun h => h0 ((hcond4_0 t).mp h)) ((hcond4_1 t).mpr h1)], after4_3]
      rw [outsAt4_C V c t h0 h1]
      unfold out4_C_2 out4_C_3 sout4_C_0 sout4_C_1; (try dsimp only)
      rw [PhiS4_castSucc V c t, PhiS4_pos V c _ _ hz]
      iintro ⟨⟨⟨⟨HS0, HS1⟩, Hr⟩, Hg⟩, Ho, ⟨%d0, H0⟩, ⟨%d1, H1⟩, ⟨%d2, H2⟩, ⟨%d3, H3⟩⟩
      iapply ((kernelRun4_C c (grid4.coords t) _ _ _ _ _ _ _ _ _ _ _ _ (fun h => h0 ((hcond4_0 t).mp h)) ((hcond4_1 t).mpr h1) (iblk4 V c 0 t) (iblk4 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _)
            · unfold owns; iexists _; isplitr
              swap; · iexact HS1
              ipureintro; exact View.read_writes_of_cover _ _ _ _ _ (scover4_C_1 c _ _ _ _ _ _ _ _ _ _ _ _ _ _ _ _ _ _ _)
          iexact Hr
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover4_C_2 c _ _ _ _ _ _ _ _ _ _ _ _ _ _ _ _ _ _ _)
      unfold owns; iexists _; isplitr
      swap; · iexact H3
      ipureintro; exact View.read_writes_of_cover _ _ _ _ _ (cover4_C_3 c _ _ _ _ _ _ _ _ _ _ _ _ _ _ _ _ _ _ _)
    · rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [Dat.leavesExact_idle (dat4 V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
      rw [outsAt4_B V c t h0 h1]
      unfold sout4_B_0 sout4_B_1; (try dsimp only)
      rw [PhiS4_castSucc V c t, PhiS4_pos V c _ _ hz]
      iintro ⟨⟨⟨⟨HS0, HS1⟩, Hr⟩, Hg⟩, Ho, ⟨%d0, H0⟩, ⟨%d1, H1⟩, ⟨%d2, H2⟩, ⟨%d3, H3⟩⟩
      iapply ((kernelRun4_B c (grid4.coords t) _ _ _ _ _ _ _ _ _ _ _ _ (fun h => h0 ((hcond4_0 t).mp h)) (fun h => h1 ((hcond4_1 t).mp h)) (iblk4 V c 0 t) (iblk4 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _)
            · unfold owns; iexists _; isplitr
              swap; · iexact HS1
              ipureintro; exact View.read_writes_of_cover _ _ _ _ _ (scover4_B_1 c _ _ _ _ _ _ _ _ _ _ _ _ _ _ _ _ _ _ _)
          iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulators' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last point. -/
theorem hout4 (c : Dev nD) : (dat4 V c).Φ (Fin.last cfg4.N) ⊢ Pipeline.ΦA spec4 c :=
  Phi_out4 V c _ (by rw [Fin.val_last]; have : cfg4.N = 20 := N_4; omega)

end

end Cert.Kernel.Fr

end
-- ==== Proof.K.R5.lean ====
import proofs.«119403_j19189913878709_1_alg».proof.Proof.Gen.Kernel.Launch
import proofs.«119403_j19189913878709_1_alg».proof.Proof.Gen.Kernel.Skeleton
import proofs.«119403_j19189913878709_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided structurally, one step per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 5: `cc5__affine_relu_kernel` (pipeline 5), at the entry contents `V` -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each memref is read or written whole -/

abbrev r5_0 : Rect S5000x64 := Rect.unit (s := S5000x64) ![0, 0] S5000x64.size inb_S5000x64_S5000x64_0_0
abbrev r5_1 : Rect S1x64 := Rect.unit (s := S1x64) ![0, 0] S1x64.size inb_S1x64_S1x64_0_0

/-- The output window's staging buffer after the body, from the input windows' blocks: max(((x + b) * scale) + shift, 0), the three rows broadcast along the block's rows. -/
def out5_4 (x0 : Vec F S5000x64 .f32) (x1 : Vec F S1x64 .f32) (x2 : Vec F S1x64 .f32) (x3 : Vec F S1x64 .f32) : Vec F S5000x64 .f32 :=
  View.canon [⟨r5_0, k5_pay1 (View.ld x0 r5_0) (View.ld x1 r5_1) (View.ld x2 r5_1) (View.ld x3 r5_1)⟩]

/-- The single store is the whole buffer, so it covers it. -/
theorem cover5_4 (p0 : Vec F S5000x64 .f32) (y : S5000x64.Idx) :
    ∃ pc ∈ ([⟨r5_0, p0⟩] : List (View.Piece (Elt F) S5000x64 .f32)), y ∈ pc.1.set :=
  View.cover_of_tiled [⟨r5_0, p0⟩] S5000x64.size (by rfl) y

/-! ## The body's triple -/

set_option maxHeartbeats 1000000 in
/-- The kernel body on whole staging memrefs, the inputs' at contents `xW` and the output's at anything, runs to
    the continuation holding the inputs' as they were and the output's at `out5_4` of the inputs'. -/
theorem sound_kernel5 (c : Dev nD) (E : Set ℕ) (i : grid5.Coords) (arg0 : Memref sig .tc .vmem S5000x64 .f32) (harg0 : arg0.IsWhole) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x64 .f32) (x1 : Vec F S1x64 .f32) (x2 : Vec F S1x64 .f32) (x3 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out5_4 x0 x1 x2 x3)) -∗ K ⟨⟩))
      ⊢ wp frame (wpE (defs₀ (F := F)) Variants.none c none) E (cc5__affine_relu_kernel i arg0 harg0 arg1 harg1 arg2 harg2 arg3 harg3 arg4 harg4) K := by
  simp only [cc5__affine_relu_kernel_eq_skeleton]; unfold cc5__affine_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- The proof data of pipeline 5 on core `c`: the arrays as the region finds them; after the body at point `t`
    each input's buffer at its block and the output's at `out5_4` of the input blocks; the invariant keeps the
    scoped rest and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks, so the kernel's triple applies; the invariant and
    the core's debt pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Fr

end
-- ==== Proof.K.R6.lean ====
import proofs.«119403_j19189913878709_1_alg».proof.Proof.Gen.Kernel.Launch
import proofs.«119403_j19189913878709_1_alg».proof.Proof.Gen.Kernel.Skeleton
import proofs.«119403_j19189913878709_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided structurally, one step per coordinate
set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 6: `cc6__mlp_head_kernel` (pipeline 6), at the entry contents `V` -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof
    data whose array is `V`'s and whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not, for any proof
    data whose array is `V`'s and whose body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, fetched there or not, for any proof
    data whose array is `V`'s and whose body leaves the block in place. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each memref is read or written whole -/

abbrev r6_0 : Rect S5000x64 := Rect.unit (s := S5000x64) ![0, 0] S5000x64.size inb_S5000x64_S5000x64_0_0
abbrev r6_1 : Rect S64x64 := Rect.unit (s := S64x64) ![0, 0] S64x64.size inb_S64x64_S64x64_0_0
abbrev r6_2 : Rect S1x64 := Rect.unit (s := S1x64) ![0, 0] S1x64.size inb_S1x64_S1x64_0_0
abbrev r6_3 : Rect S64x32 := Rect.unit (s := S64x32) ![0, 0] S64x32.size inb_S64x32_S64x32_0_0
abbrev r6_4 : Rect S1x32 := Rect.unit (s := S1x32) ![0, 0] S1x32.size inb_S1x32_S1x32_0_0
abbrev r6_5 : Rect S32x1 := Rect.unit (s := S32x1) ![0, 0] S32x1.size inb_S32x1_S32x1_0_0
abbrev r6_6 : Rect S1x1 := Rect.unit (s := S1x1) ![0, 0] S1x1.size inb_S1x1_S1x1_0_0
abbrev r6_7 : Rect S5000x1 := Rect.unit (s := S5000x1) ![0, 0] S5000x1.size inb_S5000x1_S5000x1_0_0

/-- The output window's staging buffer after the body, from the input windows' blocks: three dense layers (bf16 operands, f32 accumulation, bias rows broadcast, relu after the first two) and the logistic function. -/
def out6_7 (x0 : Vec F S5000x64 .f32) (x1 : Vec F S64x64 .f32) (x2 : Vec F S1x64 .f32) (x3 : Vec F S64x32 .f32) (x4 : Vec F S1x32 .f32) (x5 : Vec F S32x1 .f32) (x6 : Vec F S1x1 .f32) : Vec F S5000x1 .f32 :=
  View.canon [⟨r6_7, k6_pay1 (View.ld x0 r6_0) (View.ld x1 r6_1) (View.ld x2 r6_2) (View.ld x3 r6_3) (View.ld x4 r6_4) (View.ld x5 r6_5) (View.ld x6 r6_6)⟩]

/-- The single store is the whole buffer, so it covers it. -/
theorem cover6_7 (p0 : Vec F S5000x1 .f32) (y : S5000x1.Idx) :
    ∃ pc ∈ ([⟨r6_7, p0⟩] : List (View.Piece (Elt F) S5000x1 .f32)), y ∈ pc.1.set :=
  View.cover_of_tiled [⟨r6_7, p0⟩] S5000x1.size (by rfl) y

/-! ## The body's triple -/

set_option maxHeartbeats 1000000 in
/-- The kernel body on whole staging memrefs, the inputs' at contents `xW` and the output's at anything, runs to
    the continuation holding the inputs' as they were and the output's at `out6_7` of the inputs'. -/
theorem sound_kernel6 (c : Dev nD) (E : Set ℕ) (i : grid6.Coords) (arg0 : Memref sig .tc .vmem S5000x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x1 .f32) (harg5 : arg5.IsWhole) (arg6 : Memref sig .tc .vmem S1x1 .f32) (harg6 : arg6.IsWhole) (arg7 : Memref sig .tc .vmem S5000x1 .f32) (harg7 : arg7.IsWhole)
    (x0 : Vec F S5000x64 .f32) (x1 : Vec F S64x64 .f32) (x2 : Vec F S1x64 .f32) (x3 : Vec F S64x32 .f32) (x4 : Vec F S1x32 .f32) (x5 : Vec F S32x1 .f32) (x6 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out6_7 x0 x1 x2 x3 x4 x5 x6)) -∗ K ⟨⟩))
      ⊢ wp frame (wpE (defs₀ (F := F)) Variants.none c none) E (cc6__mlp_head_kernel i arg0 harg0 arg1 harg1 arg2 harg2 arg3 harg3 arg4 harg4 arg5 harg5 arg6 harg6 arg7 harg7) K := by
  simp only [cc6__mlp_head_kernel_eq_skeleton]; unfold cc6__mlp_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

/-! ## The pipeline's proof data -/

/-- The proof data of pipeline 6 on core `c`: the arrays as the region finds them; after the body at point `t`
    each input's buffer at its block and the output's at `out6_7` of the input blocks; the invariant keeps the
    scoped rest and the generator register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at any point: the inputs' memrefs hold their blocks, so the kernel's triple applies; the invariant and
    the core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Fr

end
-- ==== Proof.K.Run.lean ====
/-
  The whole run of @main: seven kernel regions among stretches of host operations. Between two items every unscoped
  buffer of a core is held whole; the contents at each boundary are a fold from the launch memory: a host stretch
  applies its operations, a region replaces its windows' arrays by what its write-backs leave (inputs as entered).
  Each region is entered by splitting its arrays out of the unscoped buffers and left by putting them back; the
  generator register and the core's (empty) dues ride along. The final state agrees with the last boundary's
  contents on every unscoped buffer; no item writes an argument array.
-/
import proofs.«119403_j19189913878709_1_alg».proof.Proof.Gen.Kernel.Regions
import proofs.«119403_j19189913878709_1_alg».proof.Proof.K.R0
import proofs.«119403_j19189913878709_1_alg».proof.Proof.K.R1
import proofs.«119403_j19189913878709_1_alg».proof.Proof.K.R2
import proofs.«119403_j19189913878709_1_alg».proof.Proof.K.R3
import proofs.«119403_j19189913878709_1_alg».proof.Proof.K.R4
import proofs.«119403_j19189913878709_1_alg».proof.Proof.K.R5
import proofs.«119403_j19189913878709_1_alg».proof.Proof.K.R6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After the host stretch `hostOps0`. -/
abbrev B1 : Dev nD → Valuation τ sig (Elt F) := fun c => StableHlo.after hostOps0 (B0 m ρ c)
abbrev U1 : (c : Dev nD) → (b : Ref sig .tc) → Buf (Elt F) ((c : Thread nD τ).loc b) := fun c b => B1 m ρ c b
theorem B1_keep (c : Dev nD) (b : Ref sig .tc) (h : b ∉ hostOps0_W) : B1 m ρ c (Proc.devRef .tc b) = B0 m ρ c (Proc.devRef .tc b) :=
  StableHlo.after_of_writes_sub hostOps0 _ hostOps0_writes h
/-- After the host stretch `hostOps0_1`. -/
abbrev B2 : Dev nD → Valuation τ sig (Elt F) := fun c => StableHlo.after hostOps0_1 (B1 m ρ c)
abbrev U2 : (c : Dev nD) → (b : Ref sig .tc) → Buf (Elt F) ((c : Thread nD τ).loc b) := fun c b => B2 m ρ c b
theorem B2_keep (c : Dev nD) (b : Ref sig .tc) (h : b ∉ hostOps0_1_W) : B2 m ρ c (Proc.devRef .tc b) = B1 m ρ c (Proc.devRef .tc b) :=
  StableHlo.after_of_writes_sub hostOps0_1 _ hostOps0_1_writes h
/-- After the host stretch `hostOps0_2`. -/
abbrev B3 : Dev nD → Valuation τ sig (Elt F) := fun c => StableHlo.after hostOps0_2 (B2 m ρ c)
abbrev U3 : (c : Dev nD) → (b : Ref sig .tc) → Buf (Elt F) ((c : Thread nD τ).loc b) := fun c b => B3 m ρ c b
theorem B3_keep (c : Dev nD) (b : Ref sig .tc) (h : b ∉ hostOps0_2_W) : B3 m ρ c (Proc.devRef .tc b) = B2 m ρ c (Proc.devRef .tc b) :=
  StableHlo.after_of_writes_sub hostOps0_2 _ hostOps0_2_writes h
/-- At region 0's exit: its arrays at what the pipeline leaves (inputs as entered, each output's write-backs folded), every other buffer as entered. -/
def B4 (c : Dev nD) : Valuation τ sig (Elt F) :=
  Pipeline.withArrays spec0 c (B3 m ρ c) fun w => (dat0 (U3 m ρ) c).arrAt w cfg0.N
theorem B4_arr (c : Dev nD) (w : Fin cfg0.W) :
    B4 m ρ c (Proc.devRef .tc (Pipeline.arrRef spec0 w)) = (dat0 (U3 m ρ) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m ρ c (Proc.devRef .tc b) = B3 m ρ c (Proc.devRef .tc b) := by
  unfold B4; exact Pipeline.withArrays_of_ne spec0 c _ _ b hb
abbrev U4 : (c : Dev nD) → (b : Ref sig .tc) → Buf (Elt F) ((c : Thread nD τ).loc b) := fun c b => B4 m ρ c b
theorem hF0 (c : Dev nD) (w : Fin cfg0.W) : (dat0 (U3 m ρ) c).arrAt w cfg0.N = U4 m ρ c (Pipeline.arrRef spec0 w) :=
  (B4_arr m ρ c w).symm
theorem hrest0 (c : Dev nD) : ∀ b, b ∉ Finset.univ.image (Pipeline.arrRef spec0) → U4 m ρ c b = U3 m ρ c b :=
  fun b hb => B4_of_ne m ρ c b fun w e => hb (Finset.mem_image.mpr ⟨w, Finset.mem_univ _, e⟩)
/-- Region 0 changes only its output arrays: an input window's array is put back as entered. -/
theorem B4_keep (c : Dev nD) (b : Ref sig .tc) (h : b ∉ ([main_v26] : List (Ref sig .tc))) :
    B4 m ρ c (Proc.devRef .tc b) = B3 m ρ c (Proc.devRef .tc b) := by
  by_cases hw : ∃ w, Pipeline.arrRef spec0 w = b
  · obtain ⟨w, rfl⟩ := hw
    rw [B4_arr]
    fin_cases w
    · exact ((dat0 (U3 m ρ) c).arrAt_in 0 rfl _).trans (A_eq0 (U3 m ρ) c 0)
    · exact ((dat0 (U3 m ρ) c).arrAt_in 1 rfl _).trans (A_eq0 (U3 m ρ) c 1)
    · exact absurd (by decide) h
  · exact B4_of_ne m ρ c b fun w e => hw ⟨w, e⟩
/-- After the host stretch `hostOps1`. -/
abbrev B5 : Dev nD → Valuation τ sig (Elt F) := fun c => StableHlo.after hostOps1 (B4 m ρ c)
abbrev U5 : (c : Dev nD) → (b : Ref sig .tc) → Buf (Elt F) ((c : Thread nD τ).loc b) := fun c b => B5 m ρ c b
theorem B5_keep (c : Dev nD) (b : Ref sig .tc) (h : b ∉ hostOps1_W) : B5 m ρ c (Proc.devRef .tc b) = B4 m ρ c (Proc.devRef .tc b) :=
  StableHlo.after_of_writes_sub hostOps1 _ hostOps1_writes h
/-- At region 1's exit: its arrays at what the pipeline leaves (inputs as entered, each output's write-backs folded), every other buffer as entered. -/
def B6 (c : Dev nD) : Valuation τ sig (Elt F) :=
  Pipeline.withArrays spec1 c (B5 m ρ c) fun w => (dat1 (U5 m ρ) c).arrAt w cfg1.N
theorem B6_arr (c : Dev nD) (w : Fin cfg1.W) :
    B6 m ρ c (Proc.devRef .tc (Pipeline.arrRef spec1 w)) = (dat1 (U5 m ρ) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m ρ c (Proc.devRef .tc b) = B5 m ρ c (Proc.devRef .tc b) := by
  unfold B6; exact Pipeline.withArrays_of_ne spec1 c _ _ b hb
abbrev U6 : (c : Dev nD) → (b : Ref sig .tc) → Buf (Elt F) ((c : Thread nD τ).loc b) := fun c b => B6 m ρ c b
theorem hF1 (c : Dev nD) (w : Fin cfg1.W) : (dat1 (U5 m ρ) c).arrAt w cfg1.N = U6 m ρ c (Pipeline.arrRef spec1 w) :=
  (B6_arr m ρ c w).symm
theorem hrest1 (c : Dev nD) : ∀ b, b ∉ Finset.univ.image (Pipeline.arrRef spec1) → U6 m ρ c b = U5 m ρ c b :=
  fun b hb => B6_of_ne m ρ c b fun w e => hb (Finset.mem_image.mpr ⟨w, Finset.mem_univ _, e⟩)
/-- Region 1 changes only its output arrays: an input window's array is put back as entered. -/
theorem B6_keep (c : Dev nD) (b : Ref sig .tc) (h : b ∉ ([main_v41_0, main_v41_1] : List (Ref sig .tc))) :
    B6 m ρ c (Proc.devRef .tc b) = B5 m ρ c (Proc.devRef .tc b) := by
  by_cases hw : ∃ w, Pipeline.arrRef spec1 w = b
  · obtain ⟨w, rfl⟩ := hw
    rw [B6_arr]
    fin_cases w
    · exact ((dat1 (U5 m ρ) c).arrAt_in 0 rfl _).trans (A_eq1 (U5 m ρ) c 0)
    · exact ((dat1 (U5 m ρ) c).arrAt_in 1 rfl _).trans (A_eq1 (U5 m ρ) c 1)
    · exact absurd (by decide) h
    · exact absurd (by decide) h
  · exact B6_of_ne m ρ c b fun w e => hw ⟨w, e⟩
/-- After the host stretch `hostOps2`. -/
abbrev B7 : Dev nD → Valuation τ sig (Elt F) := fun c => StableHlo.after hostOps2 (B6 m ρ c)
abbrev U7 : (c : Dev nD) → (b : Ref sig .tc) → Buf (Elt F) ((c : Thread nD τ).loc b) := fun c b => B7 m ρ c b
theorem B7_keep (c : Dev nD) (b : Ref sig .tc) (h : b ∉ hostOps2_W) : B7 m ρ c (Proc.devRef .tc b) = B6 m ρ c (Proc.devRef .tc b) :=
  StableHlo.after_of_writes_sub hostOps2 _ hostOps2_writes h
/-- At region 2's exit: its arrays at what the pipeline leaves (inputs as entered, each output's write-backs folded), every other buffer as entered. -/
def B8 (c : Dev nD) : Valuation τ sig (Elt F) :=
  Pipeline.withArrays spec2 c (B7 m ρ c) fun w => (dat2 (U7 m ρ) c).arrAt w cfg2.N
theorem B8_arr (c : Dev nD) (w : Fin cfg2.W) :
    B8 m ρ c (Proc.devRef .tc (Pipeline.arrRef spec2 w)) = (dat2 (U7 m ρ) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m ρ c (Proc.devRef .tc b) = B7 m ρ c (Proc.devRef .tc b) := by
  unfold B8; exact Pipeline.withArrays_of_ne spec2 c _ _ b hb
abbrev U8 : (c : Dev nD) → (b : Ref sig .tc) → Buf (Elt F) ((c : Thread nD τ).loc b) := fun c b => B8 m ρ c b
theorem hF2 (c : Dev nD) (w : Fin cfg2.W) : (dat2 (U7 m ρ) c).arrAt w cfg2.N = U8 m ρ c (Pipeline.arrRef spec2 w) :=
  (B8_arr m ρ c w).symm
theorem hrest2 (c : Dev nD) : ∀ b, b ∉ Finset.univ.image (Pipeline.arrRef spec2) → U8 m ρ c b = U7 m ρ c b :=
  fun b hb => B8_of_ne m ρ c b fun w e => hb (Finset.mem_image.mpr ⟨w, Finset.mem_univ _, e⟩)
/-- Region 2 changes only its output arrays: an input window's array is put back as entered. -/
theorem B8_keep (c : Dev nD) (b : Ref sig .tc) (h : b ∉ ([main_v61] : List (Ref sig .tc))) :
    B8 m ρ c (Proc.devRef .tc b) = B7 m ρ c (Proc.devRef .tc b) := by
  by_cases hw : ∃ w, Pipeline.arrRef spec2 w = b
  · obtain ⟨w, rfl⟩ := hw
    rw [B8_arr]
    fin_cases w
    · exact ((dat2 (U7 m ρ) c).arrAt_in 0 rfl _).trans (A_eq2 (U7 m ρ) c 0)
    · exact ((dat2 (U7 m ρ) c).arrAt_in 1 rfl _).trans (A_eq2 (U7 m ρ) c 1)
    · exact ((dat2 (U7 m ρ) c).arrAt_in 2 rfl _).trans (A_eq2 (U7 m ρ) c 2)
    · exact ((dat2 (U7 m ρ) c).arrAt_in 3 rfl _).trans (A_eq2 (U7 m ρ) c 3)
    · exact absurd (by decide) h
  · exact B8_of_ne m ρ c b fun w e => hw ⟨w, e⟩
/-- At region 3's exit: its arrays at what the pipeline leaves (inputs as entered, each output's write-backs folded), every other buffer as entered. -/
def B9 (c : Dev nD) : Valuation τ sig (Elt F) :=
  Pipeline.withArrays spec3 c (B8 m ρ c) fun w => (dat3 (U8 m ρ) c).arrAt w cfg3.N
theorem B9_arr (c : Dev nD) (w : Fin cfg3.W) :
    B9 m ρ c (Proc.devRef .tc (Pipeline.arrRef spec3 w)) = (dat3 (U8 m ρ) c).arrAt w cfg3.N := by
  unfold B9; exact Pipeline.withArrays_arr spec3 launch3.win.arr_inj c _ _ w
theorem B9_of_ne (c : Dev nD) (b : Ref sig .tc) (hb : ∀ w, Pipeline.arrRef spec3 w ≠ b) :
    B9 m ρ c (Proc.devRef .tc b) = B8 m ρ c (Proc.devRef .tc b) := by
  unfold B9; exact Pipeline.withArrays_of_ne spec3 c _ _ b hb
abbrev U9 : (c : Dev nD) → (b : Ref sig .tc) → Buf (Elt F) ((c : Thread nD τ).loc b) := fun c b => B9 m ρ c b
theorem hF3 (c : Dev nD) (w : Fin cfg3.W) : (dat3 (U8 m ρ) c).arrAt w cfg3.N = U9 m ρ c (Pipeline.arrRef spec3 w) :=
  (B9_arr m ρ c w).symm
theorem hrest3 (c : Dev nD) : ∀ b, b ∉ Finset.univ.image (Pipeline.arrRef spec3) → U9 m ρ c b = U8 m ρ c b :=
  fun b hb => B9_of_ne m ρ c b fun w e => hb (Finset.mem_image.mpr ⟨w, Finset.mem_univ _, e⟩)
/-- Region 3 changes only its output arrays: an input window's array is put back as entered. -/
theorem B9_keep (c : Dev nD) (b : Ref sig .tc) (h : b ∉ ([main_v62] : List (Ref sig .tc))) :
    B9 m ρ c (Proc.devRef .tc b) = B8 m ρ c (Proc.devRef .tc b) := by
  by_cases hw : ∃ w, Pipeline.arrRef spec3 w = b
  · obtain ⟨w, rfl⟩ := hw
    rw [B9_arr]
    fin_cases w
    · exact ((dat3 (U8 m ρ) c).arrAt_in 0 rfl _).trans (A_eq3 (U8 m ρ) c 0)
    · exact ((dat3 (U8 m ρ) c).arrAt_in 1 rfl _).trans (A_eq3 (U8 m ρ) c 1)
    · exact absurd (by decide) h
  · exact B9_of_ne m ρ c b fun w e => hw ⟨w, e⟩
/-- After the host stretch `hostOps4`. -/
abbrev B10 : Dev nD → Valuation τ sig (Elt F) := fun c => StableHlo.after hostOps4 (B9 m ρ c)
abbrev U10 : (c : Dev nD) → (b : Ref sig .tc) → Buf (Elt F) ((c : Thread nD τ).loc b) := fun c b => B10 m ρ c b
theorem B10_keep (c : Dev nD) (b : Ref sig .tc) (h : b ∉ hostOps4_W) : B10 m ρ c (Proc.devRef .tc b) = B9 m ρ c (Proc.devRef .tc b) :=
  StableHlo.after_of_writes_sub hostOps4 _ hostOps4_writes h
/-- At region 4's exit: its arrays at what the pipeline leaves (inputs as entered, each output's write-backs folded), every other buffer as entered. -/
def B11 (c : Dev nD) : Valuation τ sig (Elt F) :=
  Pipeline.withArrays spec4 c (B10 m ρ c) fun w => (dat4 (U10 m ρ) c).arrAt w cfg4.N
theorem B11_arr (c : Dev nD) (w : Fin cfg4.W) :
    B11 m ρ c (Proc.devRef .tc (Pipeline.arrRef spec4 w)) = (dat4 (U10 m ρ) c).arrAt w cfg4.N := by
  unfold B11; exact Pipeline.withArrays_arr spec4 launch4.win.arr_inj c _ _ w
theorem B11_of_ne (c : Dev nD) (b : Ref sig .tc) (hb : ∀ w, Pipeline.arrRef spec4 w ≠ b) :
    B11 m ρ c (Proc.devRef .tc b) = B10 m ρ c (Proc.devRef .tc b) := by
  unfold B11; exact Pipeline.withArrays_of_ne spec4 c _ _ b hb
abbrev U11 : (c : Dev nD) → (b : Ref sig .tc) → Buf (Elt F) ((c : Thread nD τ).loc b) := fun c b => B11 m ρ c b
theorem hF4 (c : Dev nD) (w : Fin cfg4.W) : (dat4 (U10 m ρ) c).arrAt w cfg4.N = U11 m ρ c (Pipeline.arrRef spec4 w) :=
  (B11_arr m ρ c w).symm
theorem hrest4 (c : Dev nD) : ∀ b, b ∉ Finset.univ.image (Pipeline.arrRef spec4) → U11 m ρ c b = U10 m ρ c b :=
  fun b hb => B11_of_ne m ρ c b fun w e => hb (Finset.mem_image.mpr ⟨w, Finset.mem_univ _, e⟩)
/-- Region 4 changes only its output arrays: an input window's array is put back as entered. -/
theorem B11_keep (c : Dev nD) (b : Ref sig .tc) (h : b ∉ ([main_v77_0, main_v77_1] : List (Ref sig .tc))) :
    B11 m ρ c (Proc.devRef .tc b) = B10 m ρ c (Proc.devRef .tc b) := by
  by_cases hw : ∃ w, Pipeline.arrRef spec4 w = b
  · obtain ⟨w, rfl⟩ := hw
    rw [B11_arr]
    fin_cases w
    · exact ((dat4 (U10 m ρ) c).arrAt_in 0 rfl _).trans (A_eq4 (U10 m ρ) c 0)
    · exact ((dat4 (U10 m ρ) c).arrAt_in 1 rfl _).trans (A_eq4 (U10 m ρ) c 1)
    · exact absurd (by decide) h
    · exact absurd (by decide) h
  · exact B11_of_ne m ρ c b fun w e => hw ⟨w, e⟩
/-- After the host stretch `hostOps5`. -/
abbrev B12 : Dev nD → Valuation τ sig (Elt F) := fun c => StableHlo.after hostOps5 (B11 m ρ c)
abbrev U12 : (c : Dev nD) → (b : Ref sig .tc) → Buf (Elt F) ((c : Thread nD τ).loc b) := fun c b => B12 m ρ c b
theorem B12_keep (c : Dev nD) (b : Ref sig .tc) (h : b ∉ hostOps5_W) : B12 m ρ c (Proc.devRef .tc b) = B11 m ρ c (Proc.devRef .tc b) :=
  StableHlo.after_of_writes_sub hostOps5 _ hostOps5_writes h
/-- At region 5's exit: its arrays at what the pipeline leaves (inputs as entered, each output's write-backs folded), every other buffer as entered. -/
def B13 (c : Dev nD) : Valuation τ sig (Elt F) :=
  Pipeline.withArrays spec5 c (B12 m ρ c) fun w => (dat5 (U12 m ρ) c).arrAt w cfg5.N
theorem B13_arr (c : Dev nD) (w : Fin cfg5.W) :
    B13 m ρ c (Proc.devRef .tc (Pipeline.arrRef spec5 w)) = (dat5 (U12 m ρ) c).arrAt w cfg5.N := by
  unfold B13; exact Pipeline.withArrays_arr spec5 launch5.win.arr_inj c _ _ w
theorem B13_of_ne (c : Dev nD) (b : Ref sig .tc) (hb : ∀ w, Pipeline.arrRef spec5 w ≠ b) :
    B13 m ρ c (Proc.devRef .tc b) = B12 m ρ c (Proc.devRef .tc b) := by
  unfold B13; exact Pipeline.withArrays_of_ne spec5 c _ _ b hb
abbrev U13 : (c : Dev nD) → (b : Ref sig .tc) → Buf (Elt F) ((c : Thread nD τ).loc b) := fun c b => B13 m ρ c b
theorem hF5 (c : Dev nD) (w : Fin cfg5.W) : (dat5 (U12 m ρ) c).arrAt w cfg5.N = U13 m ρ c (Pipeline.arrRef spec5 w) :=
  (B13_arr m ρ c w).symm
theorem hrest5 (c : Dev nD) : ∀ b, b ∉ Finset.univ.image (Pipeline.arrRef spec5) → U13 m ρ c b = U12 m ρ c b :=
  fun b hb => B13_of_ne m ρ c b fun w e => hb (Finset.mem_image.mpr ⟨w, Finset.mem_univ _, e⟩)
/-- Region 5 changes only its output arrays: an input window's array is put back as entered. -/
theorem B13_keep (c : Dev nD) (b : Ref sig .tc) (h : b ∉ ([main_v97] : List (Ref sig .tc))) :
    B13 m ρ c (Proc.devRef .tc b) = B12 m ρ c (Proc.devRef .tc b) := by
  by_cases hw : ∃ w, Pipeline.arrRef spec5 w = b
  · obtain ⟨w, rfl⟩ := hw
    rw [B13_arr]
    fin_cases w
    · exact ((dat5 (U12 m ρ) c).arrAt_in 0 rfl _).trans (A_eq5 (U12 m ρ) c 0)
    · exact ((dat5 (U12 m ρ) c).arrAt_in 1 rfl _).trans (A_eq5 (U12 m ρ) c 1)
    · exact ((dat5 (U12 m ρ) c).arrAt_in 2 rfl _).trans (A_eq5 (U12 m ρ) c 2)
    · exact ((dat5 (U12 m ρ) c).arrAt_in 3 rfl _).trans (A_eq5 (U12 m ρ) c 3)
    · exact absurd (by decide) h
  · exact B13_of_ne m ρ c b fun w e => hw ⟨w, e⟩
/-- After the host stretch `hostOps6`. -/
abbrev B14 : Dev nD → Valuation τ sig (Elt F) := fun c => StableHlo.after hostOps6 (B13 m ρ c)
abbrev U14 : (c : Dev nD) → (b : Ref sig .tc) → Buf (Elt F) ((c : Thread nD τ).loc b) := fun c b => B14 m ρ c b
theorem B14_keep (c : Dev nD) (b : Ref sig .tc) (h : b ∉ hostOps6_W) : B14 m ρ c (Proc.devRef .tc b) = B13 m ρ c (Proc.devRef .tc b) :=
  StableHlo.after_of_writes_sub hostOps6 _ hostOps6_writes h
/-- At region 6's exit: its arrays at what the pipeline leaves (inputs as entered, each output's write-backs folded), every other buffer as entered. -/
def B15 (c : Dev nD) : Valuation τ sig (Elt F) :=
  Pipeline.withArrays spec6 c (B14 m ρ c) fun w => (dat6 (U14 m ρ) c).arrAt w cfg6.N
theorem B15_arr (c : Dev nD) (w : Fin cfg6.W) :
    B15 m ρ c (Proc.devRef .tc (Pipeline.arrRef spec6 w)) = (dat6 (U14 m ρ) c).arrAt w cfg6.N := by
  unfold B15; exact Pipeline.withArrays_arr spec6 launch6.win.arr_inj c _ _ w
theorem B15_of_ne (c : Dev nD) (b : Ref sig .tc) (hb : ∀ w, Pipeline.arrRef spec6 w ≠ b) :
    B15 m ρ c (Proc.devRef .tc b) = B14 m ρ c (Proc.devRef .tc b) := by
  unfold B15; exact Pipeline.withArrays_of_ne spec6 c _ _ b hb
abbrev U15 : (c : Dev nD) → (b : Ref sig .tc) → Buf (Elt F) ((c : Thread nD τ).loc b) := fun c b => B15 m ρ c b
theorem hF6 (c : Dev nD) (w : Fin cfg6.W) : (dat6 (U14 m ρ) c).arrAt w cfg6.N = U15 m ρ c (Pipeline.arrRef spec6 w) :=
  (B15_arr m ρ c w).symm
theorem hrest6 (c : Dev nD) : ∀ b, b ∉ Finset.univ.image (Pipeline.arrRef spec6) → U15 m ρ c b = U14 m ρ c b :=
  fun b hb => B15_of_ne m ρ c b fun w e => hb (Finset.mem_image.mpr ⟨w, Finset.mem_univ _, e⟩)
/-- Region 6 changes only its output arrays: an input window's array is put back as entered. -/
theorem B15_keep (c : Dev nD) (b : Ref sig .tc) (h : b ∉ ([main_v101] : List (Ref sig .tc))) :
    B15 m ρ c (Proc.devRef .tc b) = B14 m ρ c (Proc.devRef .tc b) := by
  by_cases hw : ∃ w, Pipeline.arrRef spec6 w = b
  · obtain ⟨w, rfl⟩ := hw
    rw [B15_arr]
    fin_cases w
    · exact ((dat6 (U14 m ρ) c).arrAt_in 0 rfl _).trans (A_eq6 (U14 m ρ) c 0)
    · exact ((dat6 (U14 m ρ) c).arrAt_in 1 rfl _).trans (A_eq6 (U14 m ρ) c 1)
    · exact ((dat6 (U14 m ρ) c).arrAt_in 2 rfl _).trans (A_eq6 (U14 m ρ) c 2)
    · exact ((dat6 (U14 m ρ) c).arrAt_in 3 rfl _).trans (A_eq6 (U14 m ρ) c 3)
    · exact ((dat6 (U14 m ρ) c).arrAt_in 4 rfl _).trans (A_eq6 (U14 m ρ) c 4)
    · exact ((dat6 (U14 m ρ) c).arrAt_in 5 rfl _).trans (A_eq6 (U14 m ρ) c 5)
    · exact ((dat6 (U14 m ρ) c).arrAt_in 6 rfl _).trans (A_eq6 (U14 m ρ) c 6)
    · exact absurd (by decide) h
  · exact B15_of_ne m ρ c b fun w e => hw ⟨w, e⟩

/-- Every reference some item may write. -/
abbrev written : List (Ref sig .tc) := hostOps0_W ++ hostOps0_1_W ++ hostOps0_2_W ++ ([main_v26] : List (Ref sig .tc)) ++ hostOps1_W ++ ([main_v41_0, main_v41_1] : List (Ref sig .tc)) ++ hostOps2_W ++ ([main_v61] : List (Ref sig .tc)) ++ ([main_v62] : List (Ref sig .tc)) ++ hostOps4_W ++ ([main_v77_0, main_v77_1] : List (Ref sig .tc)) ++ hostOps5_W ++ ([main_v97] : List (Ref sig .tc)) ++ hostOps6_W ++ ([main_v101] : List (Ref sig .tc))

/-- A buffer no item writes ends as launched. -/
theorem B15_unwritten (c : Dev nD) (b : Ref sig .tc) (h : b ∉ written) : B15 m ρ c (Proc.devRef .tc b) = m ((c : Thread nD τ).loc b) := by
  simp only [written, List.mem_append, not_or] at h
  obtain ⟨⟨⟨⟨⟨⟨⟨⟨⟨⟨⟨⟨⟨⟨h1, h2⟩, h3⟩, h4⟩, h5⟩, h6⟩, h7⟩, h8⟩, h9⟩, h10⟩, h11⟩, h12⟩, h13⟩, h14⟩, h15⟩ := h
  exact (B15_keep m ρ c b h15).trans <| (B14_keep m ρ c b h14).trans <| (B13_keep m ρ c b h13).trans <| (B12_keep m ρ c b h12).trans <| (B11_keep m ρ c b h11).trans <| (B10_keep m ρ c b h10).trans <| (B9_keep m ρ c b h9).trans <| (B8_keep m ρ c b h8).trans <| (B7_keep m ρ c b h7).trans <| (B6_keep m ρ c b h6).trans <| (B5_keep m ρ c b h5).trans <| (B4_keep m ρ c b h4).trans <| (B3_keep m ρ c b h3).trans <| (B2_keep m ρ c b h2).trans <| (B1_keep m ρ c b h1).trans <| rfl

/-! ## The proof data family and the thread state -/

abbrev admF : (p : Fin 7) → (pcfgs (F := F) p).Adm := fun p => (cfgs p).toPCfg_adm
/-- Every pipeline's proof data, each at its region's entry contents. -/
def pdatsF : (p : Fin 7) → (c : Dev nD) → Dat τ (Elt F) Unit ℕ (UR sig nD τ) ℕ (Pipeline.pin (pcfgs (F := F)) admF p) c
  | ⟨0, _⟩ => fun c => dat0 (U3 m ρ) c
  | ⟨1, _⟩ => fun c => dat1 (U5 m ρ) c
  | ⟨2, _⟩ => fun c => dat2 (U7 m ρ) c
  | ⟨3, _⟩ => fun c => dat3 (U8 m ρ) c
  | ⟨4, _⟩ => fun c => dat4 (U10 m ρ) c
  | ⟨5, _⟩ => fun c => dat5 (U12 m ρ) c
  | ⟨6, _⟩ => fun c => dat6 (U14 m ρ) c
abbrev 𝒱F : Variants := Variants.none
abbrev LF : GSem nD τ sig → Finset Unit := fun _ => ∅
abbrev lvF : GSem nD τ sig → Unit → ℕ := fun _ _ => 0
/-- What rides beside the buffers: the generator register at some state and the core's dues, at nothing. -/
abbrev RF (c : Dev nD) : sProp 𝕄 := iprop((∃ r, prngReg c r) ∗ ∃ W, owes (c : Thread nD τ) (0 : CellTallies nD τ sig Unit) W)
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnF (c : Dev nD) : sProp 𝕄 := iprop(StableHlo.held (c : Thread nD τ) (Pipeline.ucRefs τ sig) (B15 m ρ c) ∗ ∃ r, prngReg c r)

/-- The class-A invariant is the scoped rest beside the generator register: assembled from the register, anything
    dropped, and the scoped rest, -/
theorem ΦA_in {gr W : ℕ} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ Pipeline.ΦA win c := by
  unfold Pipeline.ΦA
  iintro ⟨Hp, -, Hr⟩
  isplitl [Hr]; · iexact Hr
  iexact Hp
/-- and taken apart again. -/
theorem ΦA_out {gr W : ℕ} (win : Fin W → Pipeline.WinSpec sig gr) (c : Dev nD) :
    Pipeline.ΦA win c
      ⊢ iprop((∃ r, prngReg c r) ∗ (BI.emp : sProp 𝕄) ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

/-! ## The regions as segments -/

set_option backward.isDefEq.respectTransparency.types false in
/-- Region 0 over the thread state: entered from every unscoped buffer at the boundary before it, left at the one after. -/
def reg0 : Pipeline.RegionSeg (pcfgs (F := F)) admF (pdatsF m ρ) () defs₀ 𝒱F LF lvF 0 where
  win := launch0.win.to₀
  block_pos := launch0.block_pos
  stage_whole := launch0.stage_whole
  K := PEmpty
  osem k := k.elim
  ho := Pipeline.OwnSemFacts.none _
  hbody c := (body_obligation0 (U3 m ρ) c).loose
  hwaits := Pipeline.hwaits_of_owed_zero _ _ _ _ LF lvF 0 fun _ _ => rfl
  pre c := iprop(StableHlo.held (c : Thread nD τ) (Pipeline.ucRefs τ sig) (B3 m ρ c) ∗ RF c)
  post c := iprop(StableHlo.held (c : Thread nD τ) (Pipeline.ucRefs τ sig) (B4 m ρ c) ∗ RF c)
  X c := iprop(∃ r, prngReg c r)
  Y c := iprop(∃ r, prngReg c r)
  Z c := Pipeline.unscopedRest (Ix := Unit) (Name := ℕ) (U := UR sig nD τ) (Lvl := ℕ) spec0 c (U3 m ρ c)
  hentry c := by
    rw [Pipeline.ownSems0_none]
    have hsplit := Pipeline.arrays_of_unscopedBufs (p := 0) (pcfgs (F := F)) admF (pdatsF m ρ) launch0.win launch0.arr_whole c
      ((pdatsF m ρ 0 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsF m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdatsF m ρ) ((pdatsF m ρ 0 c).share_full fun _ => rfl)
      (U3 m ρ c) (U4 m ρ c) ((pdatsF m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the one after. -/
def reg1 : Pipeline.RegionSeg (pcfgs (F := F)) admF (pdatsF m ρ) () defs₀ 𝒱F LF lvF 1 where
  win := launch1.win.to₀
  block_pos := launch1.block_pos
  stage_whole := launch1.stage_whole
  K := PEmpty
  osem k := k.elim
  ho := Pipeline.OwnSemFacts.none _
  hbody c := (body_obligation1 (U5 m ρ) c).loose
  hwaits := Pipeline.hwaits_of_owed_zero _ _ _ _ LF lvF 1 fun _ _ => rfl
  pre c := iprop(StableHlo.held (c : Thread nD τ) (Pipeline.ucRefs τ sig) (B5 m ρ c) ∗ RF c)
  post c := iprop(StableHlo.held (c : Thread nD τ) (Pipeline.ucRefs τ sig) (B6 m ρ c) ∗ RF c)
  X c := iprop(∃ r, prngReg c r)
  Y c := iprop(∃ r, prngReg c r)
  Z c := Pipeline.unscopedRest (Ix := Unit) (Name := ℕ) (U := UR sig nD τ) (Lvl := ℕ) spec1 c (U5 m ρ c)
  hentry c := by
    rw [Pipeline.ownSems0_none]
    have hsplit := Pipeline.arrays_of_unscopedBufs (p := 1) (pcfgs (F := F)) admF (pdatsF m ρ) launch1.win launch1.arr_whole c
      ((pdatsF m ρ 1 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 1 c).Φ 0 = (dat1 (U5 m ρ) c).Φ 0 from rfl]
    exact (ΦA_in spec1 c _).trans (hin1 (U5 m ρ) c)
  hout c := by
    rw [Pipeline.ownSems0_none, show (pdatsF m ρ 1 c).Φ (Fin.last _) = (dat1 (U5 m ρ) c).Φ (Fin.last cfg1.N) from rfl]
    exact (hout1 (U5 m ρ) c).trans (ΦA_out spec1 c)
  hexit c := by
    have hjoin := Pipeline.unscopedBufs_of_arrays (p := 1) (pcfgs (F := F)) admF (Ix := Unit) (Name := ℕ) (U := UR sig nD τ) (Lvl := ℕ)
      launch1.win launch1.arr_whole c (pdatsF m ρ) ((pdatsF m ρ 1 c).share_full fun _ => rfl)
      (U5 m ρ c) (U6 m ρ c) ((pdatsF m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary before it, left at the one after. -/
def reg2 : Pipeline.RegionSeg (pcfgs (F := F)) admF (pdatsF m ρ) () defs₀ 𝒱F LF lvF 2 where
  win := launch2.win.to₀
  block_pos := launch2.block_pos
  stage_whole := launch2.stage_whole
  K := PEmpty
  osem k := k.elim
  ho := Pipeline.OwnSemFacts.none _
  hbody c := (body_obligation2 (U7 m ρ) c).loose
  hwaits := Pipeline.hwaits_of_owed_zero _ _ _ _ LF lvF 2 fun _ _ => rfl
  pre c := iprop(StableHlo.held (c : Thread nD τ) (Pipeline.ucRefs τ sig) (B7 m ρ c) ∗ RF c)
  post c := iprop(StableHlo.held (c : Thread nD τ) (Pipeline.ucRefs τ sig) (B8 m ρ c) ∗ RF c)
  X c := iprop(∃ r, prngReg c r)
  Y c := iprop(∃ r, prngReg c r)
  Z c := Pipeline.unscopedRest (Ix := Unit) (Name := ℕ) (U := UR sig nD τ) (Lvl := ℕ) spec2 c (U7 m ρ c)
  hentry c := by
    rw [Pipeline.ownSems0_none]
    have hsplit := Pipeline.arrays_of_unscopedBufs (p := 2) (pcfgs (F := F)) admF (pdatsF m ρ) launch2.win launch2.arr_whole c
      ((pdatsF m ρ 2 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsF m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := UR sig nD τ) (Lvl := ℕ)
      launch2.win launch2.arr_whole c (pdatsF m ρ) ((pdatsF m ρ 2 c).share_full fun _ => rfl)
      (U7 m ρ c) (U8 m ρ c) ((pdatsF m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the boundary before it, left at the one after. -/
def reg3 : Pipeline.RegionSeg (pcfgs (F := F)) admF (pdatsF m ρ) () defs₀ 𝒱F LF lvF 3 where
  win := launch3.win.to₀
  block_pos := launch3.block_pos
  stage_whole := launch3.stage_whole
  K := PEmpty
  osem k := k.elim
  ho := Pipeline.OwnSemFacts.none _
  hbody c := (body_obligation3 (U8 m ρ) c).loose
  hwaits := Pipeline.hwaits_of_owed_zero _ _ _ _ LF lvF 3 fun _ _ => rfl
  pre c := iprop(StableHlo.held (c : Thread nD τ) (Pipeline.ucRefs τ sig) (B8 m ρ c) ∗ RF c)
  post c := iprop(StableHlo.held (c : Thread nD τ) (Pipeline.ucRefs τ sig) (B9 m ρ c) ∗ RF c)
  X c := iprop(∃ r, prngReg c r)
  Y c := iprop(∃ r, prngReg c r)
  Z c := Pipeline.unscopedRest (Ix := Unit) (Name := ℕ) (U := UR sig nD τ) (Lvl := ℕ) spec3 c (U8 m ρ c)
  hentry c := by
    rw [Pipeline.ownSems0_none]
    have hsplit := Pipeline.arrays_of_unscopedBufs (p := 3) (pcfgs (F := F)) admF (pdatsF m ρ) launch3.win launch3.arr_whole c
      ((pdatsF m ρ 3 c).share_full fun _ => rfl) (U8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsF m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admF (Ix := Unit) (Name := ℕ) (U := UR sig nD τ) (Lvl := ℕ)
      launch3.win launch3.arr_whole c (pdatsF m ρ) ((pdatsF m ρ 3 c).share_full fun _ => rfl)
      (U8 m ρ c) (U9 m ρ c) ((pdatsF m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the boundary before it, left at the one after. -/
def reg4 : Pipeline.RegionSeg (pcfgs (F := F)) admF (pdatsF m ρ) () defs₀ 𝒱F LF lvF 4 where
  win := launch4.win.to₀
  block_pos := launch4.block_pos
  stage_whole := launch4.stage_whole
  K := PEmpty
  osem k := k.elim
  ho := Pipeline.OwnSemFacts.none _
  hbody c := (body_obligation4 (U10 m ρ) c).loose
  hwaits := Pipeline.hwaits_of_owed_zero _ _ _ _ LF lvF 4 fun _ _ => rfl
  pre c := iprop(StableHlo.held (c : Thread nD τ) (Pipeline.ucRefs τ sig) (B10 m ρ c) ∗ RF c)
  post c := iprop(StableHlo.held (c : Thread nD τ) (Pipeline.ucRefs τ sig) (B11 m ρ c) ∗ RF c)
  X c := iprop(∃ r, prngReg c r)
  Y c := iprop(∃ r, prngReg c r)
  Z c := Pipeline.unscopedRest (Ix := Unit) (Name := ℕ) (U := UR sig nD τ) (Lvl := ℕ) spec4 c (U10 m ρ c)
  hentry c := by
    rw [Pipeline.ownSems0_none]
    have hsplit := Pipeline.arrays_of_unscopedBufs (p := 4) (pcfgs (F := F)) admF (pdatsF m ρ) launch4.win launch4.arr_whole c
      ((pdatsF m ρ 4 c).share_full fun _ => rfl) (U10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 4 c).Φ 0 = (dat4 (U10 m ρ) c).Φ 0 from rfl]
    exact (ΦA_in spec4 c _).trans (hin4 (U10 m ρ) c)
  hout c := by
    rw [Pipeline.ownSems0_none, show (pdatsF m ρ 4 c).Φ (Fin.last _) = (dat4 (U10 m ρ) c).Φ (Fin.last cfg4.N) from rfl]
    exact (hout4 (U10 m ρ) c).trans (ΦA_out spec4 c)
  hexit c := by
    have hjoin := Pipeline.unscopedBufs_of_arrays (p := 4) (pcfgs (F := F)) admF (Ix := Unit) (Name := ℕ) (U := UR sig nD τ) (Lvl := ℕ)
      launch4.win launch4.arr_whole c (pdatsF m ρ) ((pdatsF m ρ 4 c).share_full fun _ => rfl)
      (U10 m ρ c) (U11 m ρ c) ((pdatsF m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at the boundary before it, left at the one after. -/
def reg5 : Pipeline.RegionSeg (pcfgs (F := F)) admF (pdatsF m ρ) () defs₀ 𝒱F LF lvF 5 where
  win := launch5.win.to₀
  block_pos := launch5.block_pos
  stage_whole := launch5.stage_whole
  K := PEmpty
  osem k := k.elim
  ho := Pipeline.OwnSemFacts.none _
  hbody c := (body_obligation5 (U12 m ρ) c).loose
  hwaits := Pipeline.hwaits_of_owed_zero _ _ _ _ LF lvF 5 fun _ _ => rfl
  pre c := iprop(StableHlo.held (c : Thread nD τ) (Pipeline.ucRefs τ sig) (B12 m ρ c) ∗ RF c)
  post c := iprop(StableHlo.held (c : Thread nD τ) (Pipeline.ucRefs τ sig) (B13 m ρ c) ∗ RF c)
  X c := iprop(∃ r, prngReg c r)
  Y c := iprop(∃ r, prngReg c r)
  Z c := Pipeline.unscopedRest (Ix := Unit) (Name := ℕ) (U := UR sig nD τ) (Lvl := ℕ) spec5 c (U12 m ρ c)
  hentry c := by
    rw [Pipeline.ownSems0_none]
    have hsplit := Pipeline.arrays_of_unscopedBufs (p := 5) (pcfgs (F := F)) admF (pdatsF m ρ) launch5.win launch5.arr_whole c
      ((pdatsF m ρ 5 c).share_full fun _ => rfl) (U12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsF m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admF (Ix := Unit) (Name := ℕ) (U := UR sig nD τ) (Lvl := ℕ)
      launch5.win launch5.arr_whole c (pdatsF m ρ) ((pdatsF m ρ 5 c).share_full fun _ => rfl)
      (U12 m ρ c) (U13 m ρ c) ((pdatsF m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at the boundary before it, left at the one after. -/
def reg6 : Pipeline.RegionSeg (pcfgs (F := F)) admF (pdatsF m ρ) () defs₀ 𝒱F LF lvF 6 where
  win := launch6.win.to₀
  block_pos := launch6.block_pos
  stage_whole := launch6.stage_whole
  K := PEmpty
  osem k := k.elim
  ho := Pipeline.OwnSemFacts.none _
  hbody c := (body_obligation6 (U14 m ρ) c).loose
  hwaits := Pipeline.hwaits_of_owed_zero _ _ _ _ LF lvF 6 fun _ _ => rfl
  pre c := iprop(StableHlo.held (c : Thread nD τ) (Pipeline.ucRefs τ sig) (B14 m ρ c) ∗ RF c)
  post c := iprop(TnF m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (U14 m ρ c)
  hentry c := by
    rw [Pipeline.ownSems0_none]
    have hsplit := Pipeline.arrays_of_unscopedBufs (p := 6) (pcfgs (F := F)) admF (pdatsF m ρ) launch6.win launch6.arr_whole c
      ((pdatsF m ρ 6 c).share_full fun _ => rfl) (U14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdatsF m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admF (Ix := Unit) (Name := ℕ) (U := UR sig nD τ) (Lvl := ℕ)
      launch6.win launch6.arr_whole c (pdatsF m ρ) ((pdatsF m ρ 6 c).share_full fun _ => rfl)
      (U14 m ρ c) (U15 m ρ c) ((pdatsF m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segsF : List (Pipeline.Seg (pcfgs (F := F)) admF (pdatsF m ρ) () defs₀ 𝒱F LF lvF) :=
  [ .host (hsegF hostOps0 hostOps0_sub hostOps0_fresh (B0 m ρ)),
    .host (hsegF hostOps0_1 hostOps0_1_sub hostOps0_1_fresh (B1 m ρ)),
    .host (hsegF hostOps0_2 hostOps0_2_sub hostOps0_2_fresh (B2 m ρ)),
    .region (reg0 m ρ),
    .host (hsegF hostOps1 hostOps1_sub hostOps1_fresh (B4 m ρ)),
    .region (reg1 m ρ),
    .host (hsegF hostOps2 hostOps2_sub hostOps2_fresh (B6 m ρ)),
    .region (reg2 m ρ),
    .region (reg3 m ρ),
    .host (hsegF hostOps4 hostOps4_sub hostOps4_fresh (B9 m ρ)),
    .region (reg4 m ρ),
    .host (hsegF hostOps5 hostOps5_sub hostOps5_fresh (B11 m ρ)),
    .region (reg5 m ρ),
    .host (hsegF hostOps6 hostOps6_sub hostOps6_fresh (B13 m ρ)),
    .region (reg6 m ρ) ]

theorem main_run (c : Dev nD) : main (F := F) c = Pipeline.Seg.run (segsF m ρ) := (main_chain c).trans (by chain_rfl)

set_option backward.isDefEq.respectTransparency.types false in
/-- THE RUN: from any memory with zero counters every weakly fair execution of @main terminates, nothing faulting, and
    the final memory agrees with the last boundary's contents on every unscoped buffer of every core. -/
theorem run : θ_run defs (onTc (τ := τ) (main (F := F))) ⟨m, fun _ => 0, ρ⟩ (fun r => ∀ c : Dev nD,
      ∀ b ∈ Pipeline.ucRefs τ sig, r.2.mem (((c : Thread nD τ)).1, b) = B15 m ρ c b) :=
  Pipeline.θ_run_regions_kit (pcfgs (F := F)) admF (pdatsF m ρ) () cellOf_inj emb₁ defs₀ 𝒱F LF lvF m ρ main (segsF m ρ)
    (fun c Q => by rw [main_run m ρ c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ RF c)) (Tₙ := TnF m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LF lvF fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B15 m ρ c b)
    (hfin := fun c s' => by
      iintro ⟨⟨Hh, -⟩, HSI⟩
      unfold StableHlo.held
      imodintro
      iapply (pointsTo_read_all (Pipeline.ucRefs τ sig) (fun b => (((c : Thread nD τ)).1, b)) (B15 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_arg0 (by decide))).trans (B15_unwritten m ρ c main_arg0 (by decide)),
    (h c _ (mem_uc main_arg1 (by decide))).trans (B15_unwritten m ρ c main_arg1 (by decide)),
    (h c _ (mem_uc main_arg2 (by decide))).trans (B15_unwritten m ρ c main_arg2 (by decide)),
    (h c _ (mem_uc main_arg3 (by decide))).trans (B15_unwritten m ρ c main_arg3 (by decide)),
    (h c _ (mem_uc main_arg4 (by decide))).trans (B15_unwritten m ρ c main_arg4 (by decide)),
    (h c _ (mem_uc main_arg5 (by decide))).trans (B15_unwritten m ρ c main_arg5 (by decide)),
    (h c _ (mem_uc main_arg6 (by decide))).trans (B15_unwritten m ρ c main_arg6 (by decide)),
    (h c _ (mem_uc main_arg7 (by decide))).trans (B15_unwritten m ρ c main_arg7 (by decide)),
    (h c _ (mem_uc main_arg8 (by decide))).trans (B15_unwritten m ρ c main_arg8 (by decide)),
    (h c _ (mem_uc main_arg9 (by decide))).trans (B15_unwritten m ρ c main_arg9 (by decide)),
    (h c _ (mem_uc main_arg10 (by decide))).trans (B15_unwritten m ρ c main_arg10 (by decide)),
    (h c _ (mem_uc main_arg11 (by decide))).trans (B15_unwritten m ρ c main_arg11 (by decide)),
    (h c _ (mem_uc main_arg12 (by decide))).trans (B15_unwritten m ρ c main_arg12 (by decide)),
    (h c _ (mem_uc main_arg13 (by decide))).trans (B15_unwritten m ρ c main_arg13 (by decide)),
    (h c _ (mem_uc main_arg14 (by decide))).trans (B15_unwritten m ρ c main_arg14 (by decide)),
    (h c _ (mem_uc main_arg15 (by decide))).trans (B15_unwritten m ρ c main_arg15 (by decide)),
    (h c _ (mem_uc main_arg16 (by decide))).trans (B15_unwritten m ρ c main_arg16 (by decide))⟩) (run m ρ)

end Cert.Kernel.Fr

end
-- ==== Proof.KI.R0.lean ====
import proofs.«119403_j19189913878709_1_alg».proof.Proof.Gen.KernelIdeal.Launch
import proofs.«119403_j19189913878709_1_alg».proof.Proof.Gen.KernelIdeal.Skeleton
import proofs.«119403_j19189913878709_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided structurally, one step per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 0: `cc0__matmul_kernel` (pipeline 0), at the entry contents `V` -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block at every point, fetched there or not, for any proof
    data whose array is `V`'s and whose body leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block at every point, fetched there or not, for any proof
    data whose array is `V`'s and whose body leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each memref is read or written whole -/

abbrev r0_0 : Rect S5000x4 := Rect.unit (s := S5000x4) ![0, 0] S5000x4.size inb_S5000x4_S5000x4_0_0
abbrev r0_1 : Rect S4x64 := Rect.unit (s := S4x64) ![0, 0] S4x64.size inb_S4x64_S4x64_0_0
abbrev r0_2 : Rect S5000x64 := Rect.unit (s := S5000x64) ![0, 0] S5000x64.size inb_S5000x64_S5000x64_0_0

/-- The output window's staging buffer after the body, from the input windows' blocks: the product of the row block by the weight matrix, both rounded to bf16, accumulated in f32. -/
def out0_2 (x0 : Vec F S5000x4 .f32) (x1 : Vec F S4x64 .f32) : Vec F S5000x64 .f32 :=
  View.canon [⟨r0_2, k0_pay1 (View.ld x0 r0_0) (View.ld x1 r0_1)⟩]

/-- The single store is the whole buffer, so it covers it. -/
theorem cover0_2 (p0 : Vec F S5000x64 .f32) (y : S5000x64.Idx) :
    ∃ pc ∈ ([⟨r0_2, p0⟩] : List (View.Piece (Elt F) S5000x64 .f32)), y ∈ pc.1.set :=
  View.cover_of_tiled [⟨r0_2, p0⟩] S5000x64.size (by rfl) y

/-! ## The body's triple -/

set_option maxHeartbeats 1000000 in
/-- The kernel body on whole staging memrefs, the inputs' at contents `xW` and the output's at anything, runs to
    the continuation holding the inputs' as they were and the output's at `out0_2` of the inputs'. -/
theorem sound_kernel0 (c : Dev nD) (E : Set ℕ) (i : grid0.Coords) (arg0 : Memref sig .tc .vmem S5000x4 .f32) (harg0 : arg0.IsWhole) (arg1 : Memref sig .tc .vmem S4x64 .f32) (harg1 : arg1.IsWhole) (arg2 : Memref sig .tc .vmem S5000x64 .f32) (harg2 : arg2.IsWhole)
    (x0 : Vec F S5000x4 .f32) (x1 : Vec F S4x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out0_2 x0 x1)) -∗ K ⟨⟩))
      ⊢ wp frame (wpE (defs₀ (F := F)) Variants.none c none) E (cc0__matmul_kernel i arg0 harg0 arg1 harg1 arg2 harg2) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-! ## The pipeline's proof data -/

/-- The proof data of pipeline 0 on core `c`: the arrays as the region finds them; after the body at point `t`
    each input's buffer at its block and the output's at `out0_2` of the input blocks; the invariant keeps the
    scoped rest and the generator register untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the region-entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current staging buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so the kernel's triple applies; the invariant and
    the core's debt pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Fr

end
-- ==== Proof.KI.R1Runs.lean ====
import proofs.«119403_j19189913878709_1_alg».proof.Proof.Gen.KernelIdeal.Launch
import proofs.«119403_j19189913878709_1_alg».proof.Proof.Gen.KernelIdeal.Skeleton
import proofs.«119403_j19189913878709_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array at the contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The row-block input's current buffer holds its block at every point. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The bias row's buffer holds the whole row at every point (its block index never moves). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-- The first branch condition: the grid coordinate is 0. -/
abbrev cond1_0 (i : grid1.Coords) : Prop := (Scalar.cmpi .ne (Scalar.extui (Scalar.cmpi .eq (BitVec.ofNat 32 (i 0).val) 0#32)) 0#32) = 1#1
/-- It holds exactly at the first point. -/
theorem hcond1_0 : ∀ t : Fin cfg1.N, cond1_0 (grid1.coords t) ↔ t.val = 0 :=
  (by decide +kernel : ∀ t : Fin grid1.N, cond1_0 (grid1.coords t) ↔ t.val = 0)

/-- The second branch condition: the grid coordinate is 19. -/
abbrev cond1_1 (i : grid1.Coords) : Prop := k1_cond2 i = 1#1
/-- It holds exactly at the last point. -/
theorem hcond1_1 : ∀ t : Fin cfg1.N, cond1_1 (grid1.coords t) ↔ t.val = 19 :=
  (by decide +kernel : ∀ t : Fin grid1.N, cond1_1 (grid1.coords t) ↔ t.val = 19)

/-- The two inputs are stored into nowhere and read everywhere: never idle. -/
theorem liveAt1_0 : ∀ t : Fin cfg1.N, cfg1.idle 0 (grid1.coords t) = false := by decide +kernel
theorem liveAt1_1 : ∀ t : Fin cfg1.N, cfg1.idle 1 (grid1.coords t) = false := by decide +kernel
/-- Away from the last point nothing is stored into the two sums' outputs, and they are not written back. -/
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
/-- At the last point both outputs are stored into. -/
theorem liveAt1_2_C : ∀ t : Fin cfg1.N, ¬cond1_0 (grid1.coords t) → cond1_1 (grid1.coords t) → cfg1.idle 2 (grid1.coords t) = false := by decide +kernel
theorem liveAt1_3_C : ∀ t : Fin cfg1.N, ¬cond1_0 (grid1.coords t) → cond1_1 (grid1.coords t) → cfg1.idle 3 (grid1.coords t) = false := by decide +kernel

/-- A buffer of each output window, through whose view its contents are stated. -/
abbrev VO1_2 : View sig .tc .vmem S1x64 .f32 := (Memref.whole cc1_stg2_0 : Memref sig .tc .vmem S1x64 .f32).view
abbrev VO1_3 : View sig .tc .vmem S1x64 .f32 := (Memref.whole cc1_stg3_0 : Memref sig .tc .vmem S1x64 .f32).view
/-- Each window's current buffer at point `t` and its wholeness. -/
abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x64 .f32 := win1_3.stage (cfg1.slots t 3)
abbrev hs1_3 (t : Fin cfg1.N) : (ms1_3 t).IsWhole := hstage1_3 ((cfg1.slots t 3).cast nbuf1_3)
/-- The two accumulators (column sums and column sums of squares), whole buffers, and their views. -/
abbrev scM1_0 : Memref sig .tc .vmem S1x64 .f32 := Memref.whole cc1_scratch0
abbrev scM1_1 : Memref sig .tc .vmem S1x64 .f32 := Memref.whole cc1_scratch1
abbrev VS1_0 : View sig .tc .vmem S1x64 .f32 := scM1_0.view
abbrev VS1_1 : View sig .tc .vmem S1x64 .f32 := scM1_1.view

/-- The invariant the region is entered with: both accumulators owned at some contents, the other scoped buffers
    as one unopened factor, and the generator register at some state. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d))
          ∗ Pipeline.scopedRestBut (Ix := Unit) (Name := ℕ) (U := UR sig nD τ) (Lvl := ℕ) (Val := Elt F) spec1 c [cc1_scratch0, cc1_scratch1]) ∗ (∃ r, prngReg c r)) := by
  unfold Pipeline.ΦA; rw [scopedRest1_split]; simp only [scM1_0, scM1_1, owns_whole]; try rfl

end Cert.KernelIdeal.Fr

end
-- ==== Proof.KI.R1A.lean ====
import proofs.«119403_j19189913878709_1_alg».proof.Proof.KI.R1Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point (both accumulators zeroed, then the first block's column sums added): the pieces its stores leave in each output and accumulator buffer,
    with the triple that from whole buffers it runs to a continuation holding the inputs unchanged and each stored
    buffer with those pieces written. -/
noncomputable def kernelRun1_A (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond1_0 i) (hc1 : ¬cond1_1 i)
    (x0 : Vec F S5000x64 .f32) (x1 : Vec F S1x64 .f32) :
    Σ' (L2 : List (View.Piece (Elt F) S1x64 .f32)) (L3 : List (View.Piece (Elt F) S1x64 .f32)) (LS0 : List (View.Piece (Elt F) S1x64 .f32)), { LS1 : List (View.Piece (Elt F) S1x64 .f32) //
      ∀ (xi2 : Vec F S1x64 .f32) (xi3 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨[], [], ?_, ?_, fun xi2 xi3 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Fr

end
-- ==== Proof.KI.R1B.lean ====
import proofs.«119403_j19189913878709_1_alg».proof.Proof.KI.R1A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle point (the block's column sums added to the running sums): the pieces its stores leave in each output and accumulator buffer,
    with the triple that from whole buffers it runs to a continuation holding the inputs unchanged and each stored
    buffer with those pieces written. -/
noncomputable def kernelRun1_B (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : ¬cond1_1 i)
    (x0 : Vec F S5000x64 .f32) (x1 : Vec F S1x64 .f32) (xs0 : Vec F S1x64 .f32) (xs1 : Vec F S1x64 .f32) :
    Σ' (L2 : List (View.Piece (Elt F) S1x64 .f32)) (L3 : List (View.Piece (Elt F) S1x64 .f32)) (LS0 : List (View.Piece (Elt F) S1x64 .f32)), { LS1 : List (View.Piece (Elt F) S1x64 .f32) //
      ∀ (xi2 : Vec F S1x64 .f32) (xi3 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨[], [], ?_, ?_, fun xi2 xi3 E K => ?run⟩
  case run =>
    simp only [cc1__bn_stats_kernel_eq_skeleton]; unfold cc1__bn_stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Fr

end
-- ==== Proof.KI.R1C.lean ====
import proofs.«119403_j19189913878709_1_alg».proof.Proof.KI.R1B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point (the block's column sums added, then both totals copied to the outputs): the pieces its stores leave in each output and accumulator buffer,
    with the triple that from whole buffers it runs to a continuation holding the inputs unchanged and each stored
    buffer with those pieces written. -/
noncomputable def kernelRun1_C (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : cond1_1 i)
    (x0 : Vec F S5000x64 .f32) (x1 : Vec F S1x64 .f32) (xs0 : Vec F S1x64 .f32) (xs1 : Vec F S1x64 .f32) :
    Σ' (L2 : List (View.Piece (Elt F) S1x64 .f32)) (L3 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc1__bn_stats_kernel i arg1 harg1 arg2 harg2 arg3 harg3 arg4 harg4 arg5 harg5 arg6 harg6) K } := by
  refine ⟨?_, ?_, ?_, ?_, fun E K => ?run⟩
  case run =>
    simp only [cc1__bn_stats_kernel_eq_skeleton]; unfold cc1__bn_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Fr

end
-- ==== Proof.KI.R1.lean ====
import proofs.«119403_j19189913878709_1_alg».proof.Proof.KI.R1C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the first point leaves in output 2's buffer: its stored pieces read back (none: a placeholder nothing consults). -/
def out1_A_2 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond1_0 i) (hc1 : ¬cond1_1 i)
    (x0 : Vec F S5000x64 .f32) (x1 : Vec F S1x64 .f32) : Vec F S1x64 .f32 :=
  VO1_2.read (Elt F) (VO1_2.writes (Elt F) VO1_2.junk (kernelRun1_A c i arg1 harg1 arg2 harg2 arg3 harg3 arg4 harg4 arg5 harg5 arg6 harg6 hc0 hc1 x0 x1).1)

/-- What the first point leaves in output 3's buffer: its stored pieces read back (none: a placeholder nothing consults). -/
def out1_A_3 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond1_0 i) (hc1 : ¬cond1_1 i)
    (x0 : Vec F S5000x64 .f32) (x1 : Vec F S1x64 .f32) : Vec F S1x64 .f32 :=
  VO1_3.read (Elt F) (VO1_3.writes (Elt F) VO1_3.junk (kernelRun1_A c i arg1 harg1 arg2 harg2 arg3 harg3 arg4 harg4 arg5 harg5 arg6 harg6 hc0 hc1 x0 x1).2.1)

/-- The stores of the first point into accumulator 0 cover it (each is a whole-row store). -/
theorem scover1_A_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond1_0 i) (hc1 : ¬cond1_1 i)
    (x0 : Vec F S5000x64 .f32) (x1 : Vec F S1x64 .f32) (y : S1x64.Idx) :
    ∃ pc ∈ (kernelRun1_A c i arg1 harg1 arg2 harg2 arg3 harg3 arg4 harg4 arg5 harg5 arg6 harg6 hc0 hc1 x0 x1).2.2.1, y ∈ pc.1.set :=
  View.cover_of_tiledL (kernelRun1_A c i arg1 harg1 arg2 harg2 arg3 harg3 arg4 harg4 arg5 harg5 arg6 harg6 hc0 hc1 x0 x1).2.2.1 S1x64.size (by sl_kernel_rfl) y

/-- What the first point leaves in accumulator 0: the running column sum through this block. -/
def sout1_A_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond1_0 i) (hc1 : ¬cond1_1 i)
    (x0 : Vec F S5000x64 .f32) (x1 : Vec F S1x64 .f32) : Vec F S1x64 .f32 :=
  VS1_0.read (Elt F) (VS1_0.writes (Elt F) VS1_0.junk (kernelRun1_A c i arg1 harg1 arg2 harg2 arg3 harg3 arg4 harg4 arg5 harg5 arg6 harg6 hc0 hc1 x0 x1).2.2.1)

/-- The stores of the first point into accumulator 1 cover it (each is a whole-row store). -/
theorem scover1_A_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond1_0 i) (hc1 : ¬cond1_1 i)
    (x0 : Vec F S5000x64 .f32) (x1 : Vec F S1x64 .f32) (y : S1x64.Idx) :
    ∃ pc ∈ (kernelRun1_A c i arg1 harg1 arg2 harg2 arg3 harg3 arg4 harg4 arg5 harg5 arg6 harg6 hc0 hc1 x0 x1).2.2.2.1, y ∈ pc.1.set :=
  View.cover_of_tiledL (kernelRun1_A c i arg1 harg1 arg2 harg2 arg3 harg3 arg4 harg4 arg5 harg5 arg6 harg6 hc0 hc1 x0 x1).2.2.2.1 S1x64.size (by sl_kernel_rfl) y

/-- What the first point leaves in accumulator 1: the running column sum of squares through this block. -/
def sout1_A_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond1_0 i) (hc1 : ¬cond1_1 i)
    (x0 : Vec F S5000x64 .f32) (x1 : Vec F S1x64 .f32) : Vec F S1x64 .f32 :=
  VS1_1.read (Elt F) (VS1_1.writes (Elt F) VS1_1.junk (kernelRun1_A c i arg1 harg1 arg2 harg2 arg3 harg3 arg4 harg4 arg5 harg5 arg6 harg6 hc0 hc1 x0 x1).2.2.2.1)

/-- What a middle point leaves in output 2's buffer: its stored pieces read back (none: a placeholder nothing consults). -/
def out1_B_2 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : ¬cond1_1 i)
    (x0 : Vec F S5000x64 .f32) (x1 : Vec F S1x64 .f32) (xs0 : Vec F S1x64 .f32) (xs1 : Vec F S1x64 .f32) : Vec F S1x64 .f32 :=
  VO1_2.read (Elt F) (VO1_2.writes (Elt F) VO1_2.junk (kernelRun1_B c i arg1 harg1 arg2 harg2 arg3 harg3 arg4 harg4 arg5 harg5 arg6 harg6 hc0 hc1 x0 x1 xs0 xs1).1)

/-- What a middle point leaves in output 3's buffer: its stored pieces read back (none: a placeholder nothing consults). -/
def out1_B_3 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : ¬cond1_1 i)
    (x0 : Vec F S5000x64 .f32) (x1 : Vec F S1x64 .f32) (xs0 : Vec F S1x64 .f32) (xs1 : Vec F S1x64 .f32) : Vec F S1x64 .f32 :=
  VO1_3.read (Elt F) (VO1_3.writes (Elt F) VO1_3.junk (kernelRun1_B c i arg1 harg1 arg2 harg2 arg3 harg3 arg4 harg4 arg5 harg5 arg6 harg6 hc0 hc1 x0 x1 xs0 xs1).2.1)

/-- The stores of a middle point into accumulator 0 cover it (each is a whole-row store). -/
theorem scover1_B_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : ¬cond1_1 i)
    (x0 : Vec F S5000x64 .f32) (x1 : Vec F S1x64 .f32) (xs0 : Vec F S1x64 .f32) (xs1 : Vec F S1x64 .f32) (y : S1x64.Idx) :
    ∃ pc ∈ (kernelRun1_B c i arg1 harg1 arg2 harg2 arg3 harg3 arg4 harg4 arg5 harg5 arg6 harg6 hc0 hc1 x0 x1 xs0 xs1).2.2.1, y ∈ pc.1.set :=
  View.cover_of_tiledL (kernelRun1_B c i arg1 harg1 arg2 harg2 arg3 harg3 arg4 harg4 arg5 harg5 arg6 harg6 hc0 hc1 x0 x1 xs0 xs1).2.2.1 S1x64.size (by sl_kernel_rfl) y

/-- What a middle point leaves in accumulator 0: the running column sum through this block. -/
def sout1_B_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : ¬cond1_1 i)
    (x0 : Vec F S5000x64 .f32) (x1 : Vec F S1x64 .f32) (xs0 : Vec F S1x64 .f32) (xs1 : Vec F S1x64 .f32) : Vec F S1x64 .f32 :=
  VS1_0.read (Elt F) (VS1_0.writes (Elt F) VS1_0.junk (kernelRun1_B c i arg1 harg1 arg2 harg2 arg3 harg3 arg4 harg4 arg5 harg5 arg6 harg6 hc0 hc1 x0 x1 xs0 xs1).2.2.1)

/-- The stores of a middle point into accumulator 1 cover it (each is a whole-row store). -/
theorem scover1_B_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : ¬cond1_1 i)
    (x0 : Vec F S5000x64 .f32) (x1 : Vec F S1x64 .f32) (xs0 : Vec F S1x64 .f32) (xs1 : Vec F S1x64 .f32) (y : S1x64.Idx) :
    ∃ pc ∈ (kernelRun1_B c i arg1 harg1 arg2 harg2 arg3 harg3 arg4 harg4 arg5 harg5 arg6 harg6 hc0 hc1 x0 x1 xs0 xs1).2.2.2.1, y ∈ pc.1.set :=
  View.cover_of_tiledL (kernelRun1_B c i arg1 harg1 arg2 harg2 arg3 harg3 arg4 harg4 arg5 harg5 arg6 harg6 hc0 hc1 x0 x1 xs0 xs1).2.2.2.1 S1x64.size (by sl_kernel_rfl) y

/-- What a middle point leaves in accumulator 1: the running column sum of squares through this block. -/
def sout1_B_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : ¬cond1_1 i)
    (x0 : Vec F S5000x64 .f32) (x1 : Vec F S1x64 .f32) (xs0 : Vec F S1x64 .f32) (xs1 : Vec F S1x64 .f32) : Vec F S1x64 .f32 :=
  VS1_1.read (Elt F) (VS1_1.writes (Elt F) VS1_1.junk (kernelRun1_B c i arg1 harg1 arg2 harg2 arg3 harg3 arg4 harg4 arg5 harg5 arg6 harg6 hc0 hc1 x0 x1 xs0 xs1).2.2.2.1)

/-- At the last point the single whole-row store into output 2 covers it. -/
theorem cover1_C_2 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : cond1_1 i)
    (x0 : Vec F S5000x64 .f32) (x1 : Vec F S1x64 .f32) (xs0 : Vec F S1x64 .f32) (xs1 : Vec F S1x64 .f32) (y : S1x64.Idx) :
    ∃ pc ∈ (kernelRun1_C c i arg1 harg1 arg2 harg2 arg3 harg3 arg4 harg4 arg5 harg5 arg6 harg6 hc0 hc1 x0 x1 xs0 xs1).1, y ∈ pc.1.set :=
  View.cover_of_tiledL (kernelRun1_C c i arg1 harg1 arg2 harg2 arg3 harg3 arg4 harg4 arg5 harg5 arg6 harg6 hc0 hc1 x0 x1 xs0 xs1).1 S1x64.size (by sl_kernel_rfl) y

/-- What the last point leaves in output 2's buffer: its stored pieces read back. -/
def out1_C_2 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : cond1_1 i)
    (x0 : Vec F S5000x64 .f32) (x1 : Vec F S1x64 .f32) (xs0 : Vec F S1x64 .f32) (xs1 : Vec F S1x64 .f32) : Vec F S1x64 .f32 :=
  VO1_2.read (Elt F) (VO1_2.writes (Elt F) VO1_2.junk (kernelRun1_C c i arg1 harg1 arg2 harg2 arg3 harg3 arg4 harg4 arg5 harg5 arg6 harg6 hc0 hc1 x0 x1 xs0 xs1).1)

/-- At the last point the single whole-row store into output 3 covers it. -/
theorem cover1_C_3 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : cond1_1 i)
    (x0 : Vec F S5000x64 .f32) (x1 : Vec F S1x64 .f32) (xs0 : Vec F S1x64 .f32) (xs1 : Vec F S1x64 .f32) (y : S1x64.Idx) :
    ∃ pc ∈ (kernelRun1_C c i arg1 harg1 arg2 harg2 arg3 harg3 arg4 harg4 arg5 harg5 arg6 harg6 hc0 hc1 x0 x1 xs0 xs1).2.1, y ∈ pc.1.set :=
  View.cover_of_tiledL (kernelRun1_C c i arg1 harg1 arg2 harg2 arg3 harg3 arg4 harg4 arg5 harg5 arg6 harg6 hc0 hc1 x0 x1 xs0 xs1).2.1 S1x64.size (by sl_kernel_rfl) y

/-- What the last point leaves in output 3's buffer: its stored pieces read back. -/
def out1_C_3 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : cond1_1 i)
    (x0 : Vec F S5000x64 .f32) (x1 : Vec F S1x64 .f32) (xs0 : Vec F S1x64 .f32) (xs1 : Vec F S1x64 .f32) : Vec F S1x64 .f32 :=
  VO1_3.read (Elt F) (VO1_3.writes (Elt F) VO1_3.junk (kernelRun1_C c i arg1 harg1 arg2 harg2 arg3 harg3 arg4 harg4 arg5 harg5 arg6 harg6 hc0 hc1 x0 x1 xs0 xs1).2.1)

/-- The stores of the last point into accumulator 0 cover it (each is a whole-row store). -/
theorem scover1_C_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : cond1_1 i)
    (x0 : Vec F S5000x64 .f32) (x1 : Vec F S1x64 .f32) (xs0 : Vec F S1x64 .f32) (xs1 : Vec F S1x64 .f32) (y : S1x64.Idx) :
    ∃ pc ∈ (kernelRun1_C c i arg1 harg1 arg2 harg2 arg3 harg3 arg4 harg4 arg5 harg5 arg6 harg6 hc0 hc1 x0 x1 xs0 xs1).2.2.1, y ∈ pc.1.set :=
  View.cover_of_tiledL (kernelRun1_C c i arg1 harg1 arg2 harg2 arg3 harg3 arg4 harg4 arg5 harg5 arg6 harg6 hc0 hc1 x0 x1 xs0 xs1).2.2.1 S1x64.size (by sl_kernel_rfl) y

/-- What the last point leaves in accumulator 0: the running column sum through this block. -/
def sout1_C_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : cond1_1 i)
    (x0 : Vec F S5000x64 .f32) (x1 : Vec F S1x64 .f32) (xs0 : Vec F S1x64 .f32) (xs1 : Vec F S1x64 .f32) : Vec F S1x64 .f32 :=
  VS1_0.read (Elt F) (VS1_0.writes (Elt F) VS1_0.junk (kernelRun1_C c i arg1 harg1 arg2 harg2 arg3 harg3 arg4 harg4 arg5 harg5 arg6 harg6 hc0 hc1 x0 x1 xs0 xs1).2.2.1)

/-- The stores of the last point into accumulator 1 cover it (each is a whole-row store). -/
theorem scover1_C_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : cond1_1 i)
    (x0 : Vec F S5000x64 .f32) (x1 : Vec F S1x64 .f32) (xs0 : Vec F S1x64 .f32) (xs1 : Vec F S1x64 .f32) (y : S1x64.Idx) :
    ∃ pc ∈ (kernelRun1_C c i arg1 harg1 arg2 harg2 arg3 harg3 arg4 harg4 arg5 harg5 arg6 harg6 hc0 hc1 x0 x1 xs0 xs1).2.2.2.1, y ∈ pc.1.set :=
  View.cover_of_tiledL (kernelRun1_C c i arg1 harg1 arg2 harg2 arg3 harg3 arg4 harg4 arg5 harg5 arg6 harg6 hc0 hc1 x0 x1 xs0 xs1).2.2.2.1 S1x64.size (by sl_kernel_rfl) y

/-- What the last point leaves in accumulator 1: the running column sum of squares through this block. -/
def sout1_C_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : cond1_1 i)
    (x0 : Vec F S5000x64 .f32) (x1 : Vec F S1x64 .f32) (xs0 : Vec F S1x64 .f32) (xs1 : Vec F S1x64 .f32) : Vec F S1x64 .f32 :=
  VS1_1.read (Elt F) (VS1_1.writes (Elt F) VS1_1.junk (kernelRun1_C c i arg1 harg1 arg2 harg2 arg3 harg3 arg4 harg4 arg5 harg5 arg6 harg6 hc0 hc1 x0 x1 xs0 xs1).2.2.2.1)

section
variable (V : (c : Dev nD) → (b : Ref sig .tc) → Buf (Elt F) ((c : Thread nD τ).loc b))

/-- THE ACCUMULATION. What the two outputs' buffers and the two accumulators hold after the body at position `n`
    (outputs 2 and 3, then accumulators 0 and 1): the first point zeroes the accumulators and adds the first block's
    column sums; each later point adds its block's to what the point before left; the last also copies the totals out. -/
def outsAt1 (c : Dev nD) : (n : ℕ) → n < cfg1.N → Vec F S1x64 .f32 × Vec F S1x64 .f32 × Vec F S1x64 .f32 × Vec F S1x64 .f32
  | 0, hn => (out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩), out1_A_3 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) ((hcond1_0 ⟨0, hn⟩).mpr rfl) (fun h => (fun h => by (try dsimp only at h); omega) ((hcond1_1 ⟨0, hn⟩).mp h)) (iblk1 V c 0 ⟨0, hn⟩) (iblk1 V c 1 ⟨0, hn⟩))
  | n + 1, hn =>
    if h1 : n + 1 = 19 then
      (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) ((hcond1_1 ⟨n + 1, hn⟩).mpr h1) (iblk1 V c 0 ⟨n + 1, hn⟩) (iblk1 V c 1 ⟨n + 1, hn⟩) (outsAt1 c n (Nat.lt_of_succ_lt hn)).2.2.1 (outsAt1 c n (Nat.lt_of_succ_lt hn)).2.2.2)
    else
      (out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2, out1_B_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) (fun h => absurd ((hcond1_0 ⟨n + 1, hn⟩).mp h) (Nat.succ_ne_zero n)) (fun h => h1 ((hcond1_1 ⟨n + 1, hn⟩).mp h)) (iblk1 V c 0 ⟨n + 1, hn⟩) (iblk1 V c 1 ⟨n + 1, hn⟩) (outsAt1 c n (Nat.lt_of_succ_lt hn)).2.2.1 (outsAt1 c n (Nat.lt_of_succ_lt hn)).2.2.2)

/-- `outsAt1` at the first point. -/
theorem outsAt1_A (c : Dev nD) (t : Fin cfg1.N) (h0 : t.val = 0) (h1 : ¬t.val = 19) :
    outsAt1 V c t.val t.isLt = (out1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), out1_A_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)) := by
  obtain ⟨n, hn⟩ := t
  cases n with
  | zero => exact rfl
  | succ n => exact absurd h0 (Nat.succ_ne_zero n)

/-- `outsAt1` at a middle point: over what the point before left. -/
theorem outsAt1_B (c : Dev nD) (t : Fin cfg1.N) (h0 : ¬t.val = 0) (h1 : ¬t.val = 19) :
    outsAt1 V c t.val t.isLt = (out1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, out1_B_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt1` at the last point: over what the point before left. -/
theorem outsAt1_C (c : Dev nD) (t : Fin cfg1.N) (h0 : ¬t.val = 0) (h1 : t.val = 19) :
    outsAt1 V c t.val t.isLt = (out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact absurd rfl h0
  | succ n => exact (dif_pos h1).trans rfl

/-- The region invariant before position `n`: at entry the class's; afterwards both accumulators at the running
    sums the point before left, the other scoped buffers unopened, the generator register at some state. -/
def PhiS1 (c : Dev nD) : (n : ℕ) → n ≤ cfg1.N → sProp 𝕄
  | 0, _ => Pipeline.ΦA spec1 c
  | n + 1, hn => iprop(iprop(iprop(owns (c : Thread nD τ) scM1_0 fullShare (outsAt1 V c n hn).2.2.1 ∗ owns (c : Thread nD τ) scM1_1 fullShare (outsAt1 V c n hn).2.2.2) ∗ Pipeline.scopedRestBut (Ix := Unit) (Name := ℕ) (U := UR sig nD τ) (Lvl := ℕ) (Val := Elt F) spec1 c [cc1_scratch0, cc1_scratch1]) ∗ (∃ r, prngReg c r))

theorem PhiS1_zero (c : Dev nD) (n : ℕ) (h : n ≤ cfg1.N) (hz : n = 0) : PhiS1 V c n h = Pipeline.ΦA spec1 c := by
  subst hz; rfl

/-- After point `n`: the accumulators at that point's running sums. -/
theorem PhiS1_succ (c : Dev nD) (n : ℕ) (hn : n < cfg1.N) :
    PhiS1 V c (n + 1) hn = iprop(iprop(iprop(owns (c : Thread nD τ) scM1_0 fullShare (outsAt1 V c n hn).2.2.1 ∗ owns (c : Thread nD τ) scM1_1 fullShare (outsAt1 V c n hn).2.2.2) ∗ Pipeline.scopedRestBut (Ix := Unit) (Name := ℕ) (U := UR sig nD τ) (Lvl := ℕ) (Val := Elt F) spec1 c [cc1_scratch0, cc1_scratch1]) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(iprop(iprop(owns (c : Thread nD τ) scM1_0 fullShare (outsAt1 V c (n - 1) (by omega)).2.2.1 ∗ owns (c : Thread nD τ) scM1_1 fullShare (outsAt1 V c (n - 1) (by omega)).2.2.2) ∗ Pipeline.scopedRestBut (Ix := Unit) (Name := ℕ) (U := UR sig nD τ) (Lvl := ℕ) (Val := Elt F) spec1 c [cc1_scratch0, cc1_scratch1]) ∗ (∃ r, prngReg c r)) := by
  cases n with
  | zero => exact absurd rfl hz
  | succ n => rfl

/-- The proof data of the pipeline on core `c`: arrays at `V`; after the body each input's buffer at its block, each
    output's at `outsAt1`'s component; the invariant `PhiS1`; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS1 V c t.val (Nat.le_of_lt_succ t.isLt)
  q _ := fullShare
  owed _ := 0

/-- The proof data's arrays are `V`'s. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

/-- Each input's current buffer holds its block at every point. -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: the inputs' buffers hold their blocks; the point is the first, a middle one or the last;
    the invariant hands the body both accumulators (at anything at the first point, else at the running sums the point
    before left) and takes them back at this point's running sums; away from the last point the outputs' buffers are
    handed back untouched, at the last they hold the totals. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
        unfold Dat.leavesExact; rw [liveAt1_0 t], after1_0]
  rw [show (dat1 V c).leavesExact 1 t = owns (c : Thread nD τ) (ms1_1 t) fullShare ((dat1 V c).after 1 t) from by
        unfold Dat.leavesExact; rw [liveAt1_1 t], after1_1]
  by_cases h0 : t.val = 0
  · have h1 : ¬t.val = 19 := by omega
    rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
    rw [Dat.leavesExact_idle (dat1 V c) 3 t (idleAt1_3_A t ((hcond1_0 t).mpr h0) (fun h => h1 ((hcond1_1 t).mp h))) (noFlush1_3_A t ((hcond1_0 t).mpr h0) (fun h => h1 ((hcond1_1 t).mp h)))]
    rw [outsAt1_A V c t h0 h1]
    unfold sout1_A_0 sout1_A_1; (try dsimp only)
    have hz : t.val = 0 := h0
    rw [PhiS1_castSucc V c t, PhiS1_zero V c _ _ hz, PhiA1_eq]
    iintro ⟨⟨⟨⟨HS0, HS1⟩, Hr⟩, Hg⟩, Ho, ⟨%d0, H0⟩, ⟨%d1, H1⟩, ⟨%d2, H2⟩, ⟨%d3, H3⟩⟩
    iapply ((kernelRun1_A c (grid1.coords t) _ _ _ _ _ _ _ _ _ _ _ _ ((hcond1_0 t).mpr h0) (fun h => h1 ((hcond1_1 t).mp h)) (iblk1 V c 0 t) (iblk1 V c 1 t)).2.2.2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover1_A_0 c _ _ _ _ _ _ _ _ _ _ _ _ _ _ _ _ _)
          · unfold owns; iexists _; isplitr
            swap; · iexact HS1
            ipureintro; exact View.read_writes_of_cover _ _ _ _ _ (scover1_A_1 c _ _ _ _ _ _ _ _ _ _ _ _ _ _ _ _ _)
        iexact Hr
      iexact Hg
    isplitl [Ho]; · iexact Ho
    isplitl [H0]; · iexact H0
    isplitl [H1]; · iexact H1
    isplitl [H2]; · iexists _; iexact H2
    iexists _; iexact H3
  · have hz : t.val ≠ 0 := h0
    by_cases h1 : t.val = 19
    · rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [show (dat1 V c).leavesExact 3 t = owns (c : Thread nD τ) (ms1_3 t) fullShare ((dat1 V c).after 3 t) from by
        unfold Dat.leavesExact; rw [liveAt1_3_C t (fun h => h0 ((hcond1_0 t).mp h)) ((hcond1_1 t).mpr h1)], after1_3]
      rw [outsAt1_C V c t h0 h1]
      unfold out1_C_2 out1_C_3 sout1_C_0 sout1_C_1; (try dsimp only)
      rw [PhiS1_castSucc V c t, PhiS1_pos V c _ _ hz]
      iintro ⟨⟨⟨⟨HS0, HS1⟩, Hr⟩, Hg⟩, Ho, ⟨%d0, H0⟩, ⟨%d1, H1⟩, ⟨%d2, H2⟩, ⟨%d3, H3⟩⟩
      iapply ((kernelRun1_C c (grid1.coords t) _ _ _ _ _ _ _ _ _ _ _ _ (fun h => h0 ((hcond1_0 t).mp h)) ((hcond1_1 t).mpr h1) (iblk1 V c 0 t) (iblk1 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover1_C_0 c _ _ _ _ _ _ _ _ _ _ _ _ _ _ _ _ _ _ _)
            · unfold owns; iexists _; isplitr
              swap; · iexact HS1
              ipureintro; exact View.read_writes_of_cover _ _ _ _ _ (scover1_C_1 c _ _ _ _ _ _ _ _ _ _ _ _ _ _ _ _ _ _ _)
          iexact Hr
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _ _ _)
    · rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [Dat.leavesExact_idle (dat1 V c) 3 t (idleAt1_3_B t (fun h => h0 ((hcond1_0 t).mp h)) (fun h => h1 ((hcond1_1 t).mp h))) (noFlush1_3_B t (fun h => h0 ((hcond1_0 t).mp h)) (fun h => h1 ((hcond1_1 t).mp h)))]
      rw [outsAt1_B V c t h0 h1]
      unfold sout1_B_0 sout1_B_1; (try dsimp only)
      rw [PhiS1_castSucc V c t, PhiS1_pos V c _ _ hz]
      iintro ⟨⟨⟨⟨HS0, HS1⟩, Hr⟩, Hg⟩, Ho, ⟨%d0, H0⟩, ⟨%d1, H1⟩, ⟨%d2, H2⟩, ⟨%d3, H3⟩⟩
      iapply ((kernelRun1_B c (grid1.coords t) _ _ _ _ _ _ _ _ _ _ _ _ (fun h => h0 ((hcond1_0 t).mp h)) (fun h => h1 ((hcond1_1 t).mp h)) (iblk1 V c 0 t) (iblk1 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover1_B_0 c _ _ _ _ _ _ _ _ _ _ _ _ _ _ _ _ _ _ _)
            · unfold owns; iexists _; isplitr
              swap; · iexact HS1
              ipureintro; exact View.read_writes_of_cover _ _ _ _ _ (scover1_B_1 c _ _ _ _ _ _ _ _ _ _ _ _ _ _ _ _ _ _ _)
          iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end

end Cert.KernelIdeal.Fr

end
-- ==== Proof.KI.R2.lean ====
import proofs.«119403_j19189913878709_1_alg».proof.Proof.Gen.KernelIdeal.Launch
import proofs.«119403_j19189913878709_1_alg».proof.Proof.Gen.KernelIdeal.Skeleton
import proofs.«119403_j19189913878709_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided structurally, one step per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 2: `cc2__affine_relu_kernel` (pipeline 2), at the entry contents `V` -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block at every point, fetched there or not, for any proof
    data whose array is `V`'s and whose body leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block at every point, fetched there or not, for any proof
    data whose array is `V`'s and whose body leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block at every point, fetched there or not, for any proof
    data whose array is `V`'s and whose body leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block at every point, fetched there or not, for any proof
    data whose array is `V`'s and whose body leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-! ## The body's accesses: each memref is read or written whole -/

abbrev r2_0 : Rect S5000x64 := Rect.unit (s := S5000x64) ![0, 0] S5000x64.size inb_S5000x64_S5000x64_0_0
abbrev r2_1 : Rect S1x64 := Rect.unit (s := S1x64) ![0, 0] S1x64.size inb_S1x64_S1x64_0_0

/-- The output window's staging buffer after the body, from the input windows' blocks: max(((x + b) * scale) + shift, 0), the three rows broadcast along the block's rows. -/
def out2_4 (x0 : Vec F S5000x64 .f32) (x1 : Vec F S1x64 .f32) (x2 : Vec F S1x64 .f32) (x3 : Vec F S1x64 .f32) : Vec F S5000x64 .f32 :=
  View.canon [⟨r2_0, k2_pay1 (View.ld x0 r2_0) (View.ld x1 r2_1) (View.ld x2 r2_1) (View.ld x3 r2_1)⟩]

/-- The single store is the whole buffer, so it covers it. -/
theorem cover2_4 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

/-! ## The body's triple -/

set_option maxHeartbeats 1000000 in
/-- The kernel body on whole staging memrefs, the inputs' at contents `xW` and the output's at anything, runs to
    the continuation holding the inputs' as they were and the output's at `out2_4` of the inputs'. -/
theorem sound_kernel2 (c : Dev nD) (E : Set ℕ) (i : grid2.Coords) (arg0 : Memref sig .tc .vmem S5000x64 .f32) (harg0 : arg0.IsWhole) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x64 .f32) (x1 : Vec F S1x64 .f32) (x2 : Vec F S1x64 .f32) (x3 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out2_4 x0 x1 x2 x3)) -∗ K ⟨⟩))
      ⊢ wp frame (wpE (defs₀ (F := F)) Variants.none c none) E (cc2__affine_relu_kernel i arg0 harg0 arg1 harg1 arg2 harg2 arg3 harg3 arg4 harg4) K := by
  simp only [cc2__affine_relu_kernel_eq_skeleton]; unfold cc2__affine_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-! ## The pipeline's proof data -/

/-- The proof data of pipeline 2 on core `c`: the arrays as the region finds them; after the body at point `t`
    each input's buffer at its block and the output's at `out2_4` of the input blocks; the invariant keeps the
    scoped rest and the generator register untouched; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

/-- The proof data's arrays are the region-entry contents. -/
theorem A_eq2 (c : Dev nD) (w : Fin cfg2.W) : (dat2 V c).A w = V c (Pipeline.arrRef spec2 w) := by
  dsimp only [dat2]

/-- What the body leaves, window by window. -/
theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

/-- Each input's current staging buffer holds its block at every point, fetched there or not. -/
theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-! ## The body obligation, at a generic point -/

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the kernel's triple applies; the invariant and
    the core's debt pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ _ _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Fr

end
-- ==== Proof.KI.R3.lean ====
import proofs.«119403_j19189913878709_1_alg».proof.Proof.Gen.KernelIdeal.Launch
import proofs.«119403_j19189913878709_1_alg».proof.Proof.Gen.KernelIdeal.Skeleton
import proofs.«119403_j19189913878709_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided structurally, one step per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 3: `cc3__matmul_kernel` (pipeline 3), at the entry contents `V` -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- Input window 0's current staging buffer holds its block at every point, fetched there or not, for any proof
    data whose array is `V`'s and whose body leaves the block in place. -/
theorem before3_0_of {c : Dev nD} (dat : Dat τ (Elt F) Unit ℕ (UR sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- Input window 1's current staging buffer holds its block at every point, fetched there or not, for any proof
    data whose array is `V`'s and whose body leaves the block in place. -/
theorem before3_1_of {c : Dev nD} (dat : Dat τ (Elt F) Unit ℕ (UR sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-! ## The body's accesses: each memref is read or written whole -/

abbrev r3_0 : Rect S5000x64 := Rect.unit (s := S5000x64) ![0, 0] S5000x64.size inb_S5000x64_S5000x64_0_0
abbrev r3_1 : Rect S64x64 := Rect.unit (s := S64x64) ![0, 0] S64x64.size inb_S64x64_S64x64_0_0

/-- The output window's staging buffer after the body, from the input windows' blocks: the product of the row block by the weight matrix, both rounded to bf16, accumulated in f32. -/
def out3_2 (x0 : Vec F S5000x64 .f32) (x1 : Vec F S64x64 .f32) : Vec F S5000x64 .f32 :=
  View.canon [⟨r3_0, k3_pay1 (View.ld x0 r3_0) (View.ld x1 r3_1)⟩]

/-- The single store is the whole buffer, so it covers it. -/
theorem cover3_2 (p0 : Vec F S5000x64 .f32) (y : S5000x64.Idx) :
    ∃ pc ∈ ([⟨r3_0, p0⟩] : List (View.Piece (Elt F) S5000x64 .f32)), y ∈ pc.1.set :=
  View.cover_of_tiled [⟨r3_0, p0⟩] S5000x64.size (by rfl) y

/-! ## The body's triple -/

set_option maxHeartbeats 1000000 in
/-- The kernel body on whole staging memrefs, the inputs' at contents `xW` and the output's at anything, runs to
    the continuation holding the inputs' as they were and the output's at `out3_2` of the inputs'. -/
theorem sound_kernel3 (c : Dev nD) (E : Set ℕ) (i : grid3.Coords) (arg0 : Memref sig .tc .vmem S5000x64 .f32) (harg0 : arg0.IsWhole) (arg1 : Memref sig .tc .vmem S64x64 .f32) (harg1 : arg1.IsWhole) (arg2 : Memref sig .tc .vmem S5000x64 .f32) (harg2 : arg2.IsWhole)
    (x0 : Vec F S5000x64 .f32) (x1 : Vec F S64x64 .f32) (K : PUnit → sProp 𝕄) :
    iprop(owns (c : Thread nD τ) arg0 fullShare x0 ∗ owns (c : Thread nD τ) arg1 fullShare x1 ∗ (∃ d, owns (c : Thread nD τ) arg2 fullShare d)
        ∗ (iprop(owns (c : Thread nD τ) arg0 fullShare x0 ∗ owns (c : Thread nD τ) arg1 fullShare x1 ∗ owns (c : Thread nD τ) arg2 fullShare (out3_2 x0 x1)) -∗ K ⟨⟩))
      ⊢ wp frame (wpE (defs₀ (F := F)) Variants.none c none) E (cc3__matmul_kernel i arg0 harg0 arg1 harg1 arg2 harg2) K := by
  simp only [cc3__matmul_kernel_eq_skeleton]; unfold cc3__matmul_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover3_2 _)

/-! ## The pipeline's proof data -/

/-- The proof data of pipeline 3 on core `c`: the arrays as the region finds them; after the body at point `t`
    each input's buffer at its block and the output's at `out3_2` of the input blocks; the invariant keeps the
    scoped rest and the generator register untouched; nothing owed; full shares. -/
def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

/-- The proof data's arrays are the region-entry contents. -/
theorem A_eq3 (c : Dev nD) (w : Fin cfg3.W) : (dat3 V c).A w = V c (Pipeline.arrRef spec3 w) := by
  dsimp only [dat3]

/-- What the body leaves, window by window. -/
theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = out3_2 (iblk3 V c 0 t) (iblk3 V c 1 t) := by dsimp only [dat3]

/-- Each input's current staging buffer holds its block at every point, fetched there or not. -/
theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d

/-! ## The body obligation, at a generic point -/

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t))

/-- The body at any point: the inputs' memrefs hold their blocks, so the kernel's triple applies; the invariant and
    the core's debt pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1]
  rw [show (dat3 V c).Φ t.succ = (dat3 V c).Φ t.castSucc from rfl,
    show (dat3 V c).owesAt () t.succ = (dat3 V c).owesAt () t.castSucc from rfl,
    after3_0, after3_1, after3_2]
  iintro ⟨HΦ, Ho, ⟨%d0, H0⟩, ⟨%d1, H1⟩, ⟨%d2, H2⟩⟩
  iapply (sound_kernel3 c Set.univ _ _ _ _ _ _ _ (iblk3 V c 0 t) (iblk3 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Fr

end
-- ==== Proof.KI.R4Runs.lean ====
import proofs.«119403_j19189913878709_1_alg».proof.Proof.Gen.KernelIdeal.Launch
import proofs.«119403_j19189913878709_1_alg».proof.Proof.Gen.KernelIdeal.Skeleton
import proofs.«119403_j19189913878709_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section
variable (V : (c : Dev nD) → (b : Ref sig .tc) → Buf (Elt F) ((c : Thread nD τ).loc b))

/-- Window `w`'s block at point `t`, read off its array at the contents `V`. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- The row-block input's current buffer holds its block at every point. -/
theorem before4_0_of {c : Dev nD} (dat : Dat τ (Elt F) Unit ℕ (UR sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)
/-- The bias row's buffer holds the whole row at every point (its block index never moves). -/
theorem before4_1_of {c : Dev nD} (dat : Dat τ (Elt F) Unit ℕ (UR sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

end

/-- The first branch condition: the grid coordinate is 0. -/
abbrev cond4_0 (i : grid4.Coords) : Prop := (Scalar.cmpi .ne (Scalar.extui (Scalar.cmpi .eq (BitVec.ofNat 32 (i 0).val) 0#32)) 0#32) = 1#1
/-- It holds exactly at the first point. -/
theorem hcond4_0 : ∀ t : Fin cfg4.N, cond4_0 (grid4.coords t) ↔ t.val = 0 :=
  (by decide +kernel : ∀ t : Fin grid4.N, cond4_0 (grid4.coords t) ↔ t.val = 0)

/-- The second branch condition: the grid coordinate is 19. -/
abbrev cond4_1 (i : grid4.Coords) : Prop := k4_cond2 i = 1#1
/-- It holds exactly at the last point. -/
theorem hcond4_1 : ∀ t : Fin cfg4.N, cond4_1 (grid4.coords t) ↔ t.val = 19 :=
  (by decide +kernel : ∀ t : Fin grid4.N, cond4_1 (grid4.coords t) ↔ t.val = 19)

/-- The two inputs are stored into nowhere and read everywhere: never idle. -/
theorem liveAt4_0 : ∀ t : Fin cfg4.N, cfg4.idle 0 (grid4.coords t) = false := by decide +kernel
theorem liveAt4_1 : ∀ t : Fin cfg4.N, cfg4.idle 1 (grid4.coords t) = false := by decide +kernel
/-- Away from the last point nothing is stored into the two sums' outputs, and they are not written back. -/
theorem idleAt4_2_A : ∀ t : Fin cfg4.N, cond4_0 (grid4.coords t) → ¬cond4_1 (grid4.coords t) → cfg4.idle 2 (grid4.coords t) = true := by decide +kernel
theorem noFlush4_2_A : ∀ t : Fin cfg4.N, cond4_0 (grid4.coords t) → ¬cond4_1 (grid4.coords t) → (cfg4.win 2).flush t = false := by decide +kernel
theorem idleAt4_3_A : ∀ t : Fin cfg4.N, cond4_0 (grid4.coords t) → ¬cond4_1 (grid4.coords t) → cfg4.idle 3 (grid4.coords t) = true := by decide +kernel
theorem noFlush4_3_A : ∀ t : Fin cfg4.N, cond4_0 (grid4.coords t) → ¬cond4_1 (grid4.coords t) → (cfg4.win 3).flush t = false := by decide +kernel
theorem idleAt4_2_B : ∀ t : Fin cfg4.N, ¬cond4_0 (grid4.coords t) → ¬cond4_1 (grid4.coords t) → cfg4.idle 2 (grid4.coords t) = true := by decide +kernel
theorem noFlush4_2_B : ∀ t : Fin cfg4.N, ¬cond4_0 (grid4.coords t) → ¬cond4_1 (grid4.coords t) → (cfg4.win 2).flush t = false := by decide +kernel
theorem idleAt4_3_B : ∀ t : Fin cfg4.N, ¬cond4_0 (grid4.coords t) → ¬cond4_1 (grid4.coords t) → cfg4.idle 3 (grid4.coords t) = true := by decide +kernel
theorem noFlush4_3_B : ∀ t : Fin cfg4.N, ¬cond4_0 (grid4.coords t) → ¬cond4_1 (grid4.coords t) → (cfg4.win 3).flush t = false := by decide +kernel
/-- At the last point both outputs are stored into. -/
theorem liveAt4_2_C : ∀ t : Fin cfg4.N, ¬cond4_0 (grid4.coords t) → cond4_1 (grid4.coords t) → cfg4.idle 2 (grid4.coords t) = false := by decide +kernel
theorem liveAt4_3_C : ∀ t : Fin cfg4.N, ¬cond4_0 (grid4.coords t) → cond4_1 (grid4.coords t) → cfg4.idle 3 (grid4.coords t) = false := by decide +kernel

/-- A buffer of each output window, through whose view its contents are stated. -/
abbrev VO4_2 : View sig .tc .vmem S1x64 .f32 := (Memref.whole cc4_stg2_0 : Memref sig .tc .vmem S1x64 .f32).view
abbrev VO4_3 : View sig .tc .vmem S1x64 .f32 := (Memref.whole cc4_stg3_0 : Memref sig .tc .vmem S1x64 .f32).view
/-- Each window's current buffer at point `t` and its wholeness. -/
abbrev ms4_0 (t : Fin cfg4.N) : Memref sig .tc .vmem S5000x64 .f32 := win4_0.stage (cfg4.slots t 0)
abbrev hs4_0 (t : Fin cfg4.N) : (ms4_0 t).IsWhole := hstage4_0 ((cfg4.slots t 0).cast nbuf4_0)
abbrev ms4_1 (t : Fin cfg4.N) : Memref sig .tc .vmem S1x64 .f32 := win4_1.stage (cfg4.slots t 1)
abbrev hs4_1 (t : Fin cfg4.N) : (ms4_1 t).IsWhole := hstage4_1 ((cfg4.slots t 1).cast nbuf4_1)
abbrev ms4_2 (t : Fin cfg4.N) : Memref sig .tc .vmem S1x64 .f32 := win4_2.stage (cfg4.slots t 2)
abbrev hs4_2 (t : Fin cfg4.N) : (ms4_2 t).IsWhole := hstage4_2 ((cfg4.slots t 2).cast nbuf4_2)
abbrev ms4_3 (t : Fin cfg4.N) : Memref sig .tc .vmem S1x64 .f32 := win4_3.stage (cfg4.slots t 3)
abbrev hs4_3 (t : Fin cfg4.N) : (ms4_3 t).IsWhole := hstage4_3 ((cfg4.slots t 3).cast nbuf4_3)
/-- The two accumulators (column sums and column sums of squares), whole buffers, and their views. -/
abbrev scM4_0 : Memref sig .tc .vmem S1x64 .f32 := Memref.whole cc4_scratch0
abbrev scM4_1 : Memref sig .tc .vmem S1x64 .f32 := Memref.whole cc4_scratch1
abbrev VS4_0 : View sig .tc .vmem S1x64 .f32 := scM4_0.view
abbrev VS4_1 : View sig .tc .vmem S1x64 .f32 := scM4_1.view

/-- The invariant the region is entered with: both accumulators owned at some contents, the other scoped buffers
    as one unopened factor, and the generator register at some state. -/
theorem PhiA4_eq (c : Dev nD) :
    (Pipeline.ΦA spec4 c : sProp 𝕄)
      = iprop(iprop(iprop((∃ d, owns (c : Thread nD τ) scM4_0 fullShare d) ∗ (∃ d, owns (c : Thread nD τ) scM4_1 fullShare d))
          ∗ Pipeline.scopedRestBut (Ix := Unit) (Name := ℕ) (U := UR sig nD τ) (Lvl := ℕ) (Val := Elt F) spec4 c [cc4_scratch0, cc4_scratch1]) ∗ (∃ r, prngReg c r)) := by
  unfold Pipeline.ΦA; rw [scopedRest4_split]; simp only [scM4_0, scM4_1, owns_whole]; try rfl

end Cert.KernelIdeal.Fr

end
-- ==== Proof.KI.R4A.lean ====
import proofs.«119403_j19189913878709_1_alg».proof.Proof.KI.R4Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the first point (both accumulators zeroed, then the first block's column sums added): the pieces its stores leave in each output and accumulator buffer,
    with the triple that from whole buffers it runs to a continuation holding the inputs unchanged and each stored
    buffer with those pieces written. -/
noncomputable def kernelRun4_A (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond4_0 i) (hc1 : ¬cond4_1 i)
    (x0 : Vec F S5000x64 .f32) (x1 : Vec F S1x64 .f32) :
    Σ' (L2 : List (View.Piece (Elt F) S1x64 .f32)) (L3 : List (View.Piece (Elt F) S1x64 .f32)) (LS0 : List (View.Piece (Elt F) S1x64 .f32)), { LS1 : List (View.Piece (Elt F) S1x64 .f32) //
      ∀ (xi2 : Vec F S1x64 .f32) (xi3 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ (∃ d, owns (c : Thread nD τ) arg5 fullShare d) ∗ (∃ d, owns (c : Thread nD τ) arg6 fullShare d)
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__bn_stats_kernel i arg1 harg1 arg2 harg2 arg3 harg3 arg4 harg4 arg5 harg5 arg6 harg6) K } := by
  refine ⟨[], [], ?_, ?_, fun xi2 xi3 E K => ?run⟩
  case run =>
    simp only [cc4__bn_stats_kernel_eq_skeleton]; unfold cc4__bn_stats_kernel_skel
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Fr

end
-- ==== Proof.KI.R4B.lean ====
import proofs.«119403_j19189913878709_1_alg».proof.Proof.KI.R4A

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at a middle point (the block's column sums added to the running sums): the pieces its stores leave in each output and accumulator buffer,
    with the triple that from whole buffers it runs to a continuation holding the inputs unchanged and each stored
    buffer with those pieces written. -/
noncomputable def kernelRun4_B (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : ¬cond4_1 i)
    (x0 : Vec F S5000x64 .f32) (x1 : Vec F S1x64 .f32) (xs0 : Vec F S1x64 .f32) (xs1 : Vec F S1x64 .f32) :
    Σ' (L2 : List (View.Piece (Elt F) S1x64 .f32)) (L3 : List (View.Piece (Elt F) S1x64 .f32)) (LS0 : List (View.Piece (Elt F) S1x64 .f32)), { LS1 : List (View.Piece (Elt F) S1x64 .f32) //
      ∀ (xi2 : Vec F S1x64 .f32) (xi3 : Vec F S1x64 .f32) (E : Set ℕ) (K : PUnit → sProp 𝕄),
        iprop(owns (c : Thread nD τ) arg1 fullShare x0 ∗ owns (c : Thread nD τ) arg2 fullShare x1 ∗ owns (c : Thread nD τ) arg3 fullShare xi2 ∗ owns (c : Thread nD τ) arg4 fullShare xi3 ∗ owns (c : Thread nD τ) arg5 fullShare xs0 ∗ owns (c : Thread nD τ) arg6 fullShare xs1
            ∗ (iprop(owns (c : Thread nD τ) arg1 fullShare x0 ∗ owns (c : Thread nD τ) arg2 fullShare x1 ∗ owns (c : Thread nD τ) arg3 fullShare xi2 ∗ owns (c : Thread nD τ) arg4 fullShare xi3 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__bn_stats_kernel i arg1 harg1 arg2 harg2 arg3 harg3 arg4 harg4 arg5 harg5 arg6 harg6) K } := by
  refine ⟨[], [], ?_, ?_, fun xi2 xi3 E K => ?run⟩
  case run =>
    simp only [cc4__bn_stats_kernel_eq_skeleton]; unfold cc4__bn_stats_kernel_skel
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf0; obtain rfl := harg2.eq_unread hf1; obtain rfl := harg3.eq_unread hf2; obtain rfl := harg4.eq_unread hf3; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [HS0]; · iexists _; iexact HS0
    iexists _; iexact HS1

end Cert.KernelIdeal.Fr

end
-- ==== Proof.KI.R4C.lean ====
import proofs.«119403_j19189913878709_1_alg».proof.Proof.KI.R4B

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- The body at the last point (the block's column sums added, then both totals copied to the outputs): the pieces its stores leave in each output and accumulator buffer,
    with the triple that from whole buffers it runs to a continuation holding the inputs unchanged and each stored
    buffer with those pieces written. -/
noncomputable def kernelRun4_C (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : cond4_1 i)
    (x0 : Vec F S5000x64 .f32) (x1 : Vec F S1x64 .f32) (xs0 : Vec F S1x64 .f32) (xs1 : Vec F S1x64 .f32) :
    Σ' (L2 : List (View.Piece (Elt F) S1x64 .f32)) (L3 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ owns (c : Thread nD τ) arg5 fullShare xs0 ∗ owns (c : Thread nD τ) arg6 fullShare xs1
            ∗ (iprop(owns (c : Thread nD τ) arg1 fullShare x0 ∗ owns (c : Thread nD τ) arg2 fullShare x1 ∗ (∃ f, arg3.view.loc (c : Thread nD τ) ↦[arg3.view.set]{fullShare} arg3.view.writes (Elt F) f L2) ∗ (∃ f, arg4.view.loc (c : Thread nD τ) ↦[arg4.view.set]{fullShare} arg4.view.writes (Elt F) f L3) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1)) -∗ K ⟨⟩))
          ⊢ wp frame (wpE (defs₀ (F := F)) Variants.none c none) E (cc4__bn_stats_kernel i arg1 harg1 arg2 harg2 arg3 harg3 arg4 harg4 arg5 harg5 arg6 harg6) K } := by
  refine ⟨?_, ?_, ?_, ?_, fun E K => ?run⟩
  case run =>
    simp only [cc4__bn_stats_kernel_eq_skeleton]; unfold cc4__bn_stats_kernel_skel
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf0; obtain rfl := harg2.eq_unread hf1; obtain rfl := harg5.eq_unread hfs0; obtain rfl := harg6.eq_unread hfs1
    sl_exec (disch := first | exact hc0 | exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H3]; · iexists _; iexact H3
    isplitl [HS0]; · iexists _; iexact HS0
    iexists _; iexact HS1

end Cert.KernelIdeal.Fr

end
-- ==== Proof.KI.R4.lean ====
import proofs.«119403_j19189913878709_1_alg».proof.Proof.KI.R4C

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the first point leaves in output 2's buffer: its stored pieces read back (none: a placeholder nothing consults). -/
def out4_A_2 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond4_0 i) (hc1 : ¬cond4_1 i)
    (x0 : Vec F S5000x64 .f32) (x1 : Vec F S1x64 .f32) : Vec F S1x64 .f32 :=
  VO4_2.read (Elt F) (VO4_2.writes (Elt F) VO4_2.junk (kernelRun4_A c i arg1 harg1 arg2 harg2 arg3 harg3 arg4 harg4 arg5 harg5 arg6 harg6 hc0 hc1 x0 x1).1)

/-- What the first point leaves in output 3's buffer: its stored pieces read back (none: a placeholder nothing consults). -/
def out4_A_3 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond4_0 i) (hc1 : ¬cond4_1 i)
    (x0 : Vec F S5000x64 .f32) (x1 : Vec F S1x64 .f32) : Vec F S1x64 .f32 :=
  VO4_3.read (Elt F) (VO4_3.writes (Elt F) VO4_3.junk (kernelRun4_A c i arg1 harg1 arg2 harg2 arg3 harg3 arg4 harg4 arg5 harg5 arg6 harg6 hc0 hc1 x0 x1).2.1)

/-- The stores of the first point into accumulator 0 cover it (each is a whole-row store). -/
theorem scover4_A_0 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond4_0 i) (hc1 : ¬cond4_1 i)
    (x0 : Vec F S5000x64 .f32) (x1 : Vec F S1x64 .f32) (y : S1x64.Idx) :
    ∃ pc ∈ (kernelRun4_A c i arg1 harg1 arg2 harg2 arg3 harg3 arg4 harg4 arg5 harg5 arg6 harg6 hc0 hc1 x0 x1).2.2.1, y ∈ pc.1.set :=
  View.cover_of_tiledL (kernelRun4_A c i arg1 harg1 arg2 harg2 arg3 harg3 arg4 harg4 arg5 harg5 arg6 harg6 hc0 hc1 x0 x1).2.2.1 S1x64.size (by sl_kernel_rfl) y

/-- What the first point leaves in accumulator 0: the running column sum through this block. -/
def sout4_A_0 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond4_0 i) (hc1 : ¬cond4_1 i)
    (x0 : Vec F S5000x64 .f32) (x1 : Vec F S1x64 .f32) : Vec F S1x64 .f32 :=
  VS4_0.read (Elt F) (VS4_0.writes (Elt F) VS4_0.junk (kernelRun4_A c i arg1 harg1 arg2 harg2 arg3 harg3 arg4 harg4 arg5 harg5 arg6 harg6 hc0 hc1 x0 x1).2.2.1)

/-- The stores of the first point into accumulator 1 cover it (each is a whole-row store). -/
theorem scover4_A_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond4_0 i) (hc1 : ¬cond4_1 i)
    (x0 : Vec F S5000x64 .f32) (x1 : Vec F S1x64 .f32) (y : S1x64.Idx) :
    ∃ pc ∈ (kernelRun4_A c i arg1 harg1 arg2 harg2 arg3 harg3 arg4 harg4 arg5 harg5 arg6 harg6 hc0 hc1 x0 x1).2.2.2.1, y ∈ pc.1.set :=
  View.cover_of_tiledL (kernelRun4_A c i arg1 harg1 arg2 harg2 arg3 harg3 arg4 harg4 arg5 harg5 arg6 harg6 hc0 hc1 x0 x1).2.2.2.1 S1x64.size (by sl_kernel_rfl) y

/-- What the first point leaves in accumulator 1: the running column sum of squares through this block. -/
def sout4_A_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond4_0 i) (hc1 : ¬cond4_1 i)
    (x0 : Vec F S5000x64 .f32) (x1 : Vec F S1x64 .f32) : Vec F S1x64 .f32 :=
  VS4_1.read (Elt F) (VS4_1.writes (Elt F) VS4_1.junk (kernelRun4_A c i arg1 harg1 arg2 harg2 arg3 harg3 arg4 harg4 arg5 harg5 arg6 harg6 hc0 hc1 x0 x1).2.2.2.1)

/-- What a middle point leaves in output 2's buffer: its stored pieces read back (none: a placeholder nothing consults). -/
def out4_B_2 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : ¬cond4_1 i)
    (x0 : Vec F S5000x64 .f32) (x1 : Vec F S1x64 .f32) (xs0 : Vec F S1x64 .f32) (xs1 : Vec F S1x64 .f32) : Vec F S1x64 .f32 :=
  VO4_2.read (Elt F) (VO4_2.writes (Elt F) VO4_2.junk (kernelRun4_B c i arg1 harg1 arg2 harg2 arg3 harg3 arg4 harg4 arg5 harg5 arg6 harg6 hc0 hc1 x0 x1 xs0 xs1).1)

/-- What a middle point leaves in output 3's buffer: its stored pieces read back (none: a placeholder nothing consults). -/
def out4_B_3 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : ¬cond4_1 i)
    (x0 : Vec F S5000x64 .f32) (x1 : Vec F S1x64 .f32) (xs0 : Vec F S1x64 .f32) (xs1 : Vec F S1x64 .f32) : Vec F S1x64 .f32 :=
  VO4_3.read (Elt F) (VO4_3.writes (Elt F) VO4_3.junk (kernelRun4_B c i arg1 harg1 arg2 harg2 arg3 harg3 arg4 harg4 arg5 harg5 arg6 harg6 hc0 hc1 x0 x1 xs0 xs1).2.1)

/-- The stores of a middle point into accumulator 0 cover it (each is a whole-row store). -/
theorem scover4_B_0 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : ¬cond4_1 i)
    (x0 : Vec F S5000x64 .f32) (x1 : Vec F S1x64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 hc0 hc1 x0 x1 xs0 xs1).2.2.1, y ∈ pc.1.set :=
  View.cover_of_tiledL (kernelRun4_B c i arg1 harg1 arg2 harg2 arg3 harg3 arg4 harg4 arg5 harg5 arg6 harg6 hc0 hc1 x0 x1 xs0 xs1).2.2.1 S1x64.size (by sl_kernel_rfl) y

/-- What a middle point leaves in accumulator 0: the running column sum through this block. -/
def sout4_B_0 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : ¬cond4_1 i)
    (x0 : Vec F S5000x64 .f32) (x1 : Vec F S1x64 .f32) (xs0 : Vec F S1x64 .f32) (xs1 : Vec F S1x64 .f32) : Vec F S1x64 .f32 :=
  VS4_0.read (Elt F) (VS4_0.writes (Elt F) VS4_0.junk (kernelRun4_B c i arg1 harg1 arg2 harg2 arg3 harg3 arg4 harg4 arg5 harg5 arg6 harg6 hc0 hc1 x0 x1 xs0 xs1).2.2.1)

/-- The stores of a middle point into accumulator 1 cover it (each is a whole-row store). -/
theorem scover4_B_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : ¬cond4_1 i)
    (x0 : Vec F S5000x64 .f32) (x1 : Vec F S1x64 .f32) (xs0 : Vec F S1x64 .f32) (xs1 : Vec F S1x64 .f32) (y : S1x64.Idx) :
    ∃ pc ∈ (kernelRun4_B c i arg1 harg1 arg2 harg2 arg3 harg3 arg4 harg4 arg5 harg5 arg6 harg6 hc0 hc1 x0 x1 xs0 xs1).2.2.2.1, y ∈ pc.1.set :=
  View.cover_of_tiledL (kernelRun4_B c i arg1 harg1 arg2 harg2 arg3 harg3 arg4 harg4 arg5 harg5 arg6 harg6 hc0 hc1 x0 x1 xs0 xs1).2.2.2.1 S1x64.size (by sl_kernel_rfl) y

/-- What a middle point leaves in accumulator 1: the running column sum of squares through this block. -/
def sout4_B_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : ¬cond4_1 i)
    (x0 : Vec F S5000x64 .f32) (x1 : Vec F S1x64 .f32) (xs0 : Vec F S1x64 .f32) (xs1 : Vec F S1x64 .f32) : Vec F S1x64 .f32 :=
  VS4_1.read (Elt F) (VS4_1.writes (Elt F) VS4_1.junk (kernelRun4_B c i arg1 harg1 arg2 harg2 arg3 harg3 arg4 harg4 arg5 harg5 arg6 harg6 hc0 hc1 x0 x1 xs0 xs1).2.2.2.1)

/-- At the last point the single whole-row store into output 2 covers it. -/
theorem cover4_C_2 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : cond4_1 i)
    (x0 : Vec F S5000x64 .f32) (x1 : Vec F S1x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 hc0 hc1 x0 x1 xs0 xs1).1, y ∈ pc.1.set :=
  View.cover_of_tiledL (kernelRun4_C c i arg1 harg1 arg2 harg2 arg3 harg3 arg4 harg4 arg5 harg5 arg6 harg6 hc0 hc1 x0 x1 xs0 xs1).1 S1x64.size (by sl_kernel_rfl) y

/-- What the last point leaves in output 2's buffer: its stored pieces read back. -/
def out4_C_2 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : cond4_1 i)
    (x0 : Vec F S5000x64 .f32) (x1 : Vec F S1x64 .f32) (xs0 : Vec F S1x64 .f32) (xs1 : Vec F S1x64 .f32) : Vec F S1x64 .f32 :=
  VO4_2.read (Elt F) (VO4_2.writes (Elt F) VO4_2.junk (kernelRun4_C c i arg1 harg1 arg2 harg2 arg3 harg3 arg4 harg4 arg5 harg5 arg6 harg6 hc0 hc1 x0 x1 xs0 xs1).1)

/-- At the last point the single whole-row store into output 3 covers it. -/
theorem cover4_C_3 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : cond4_1 i)
    (x0 : Vec F S5000x64 .f32) (x1 : Vec F S1x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 hc0 hc1 x0 x1 xs0 xs1).2.1, y ∈ pc.1.set :=
  View.cover_of_tiledL (kernelRun4_C c i arg1 harg1 arg2 harg2 arg3 harg3 arg4 harg4 arg5 harg5 arg6 harg6 hc0 hc1 x0 x1 xs0 xs1).2.1 S1x64.size (by sl_kernel_rfl) y

/-- What the last point leaves in output 3's buffer: its stored pieces read back. -/
def out4_C_3 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : cond4_1 i)
    (x0 : Vec F S5000x64 .f32) (x1 : Vec F S1x64 .f32) (xs0 : Vec F S1x64 .f32) (xs1 : Vec F S1x64 .f32) : Vec F S1x64 .f32 :=
  VO4_3.read (Elt F) (VO4_3.writes (Elt F) VO4_3.junk (kernelRun4_C c i arg1 harg1 arg2 harg2 arg3 harg3 arg4 harg4 arg5 harg5 arg6 harg6 hc0 hc1 x0 x1 xs0 xs1).2.1)

/-- The stores of the last point into accumulator 0 cover it (each is a whole-row store). -/
theorem scover4_C_0 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : cond4_1 i)
    (x0 : Vec F S5000x64 .f32) (x1 : Vec F S1x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 hc0 hc1 x0 x1 xs0 xs1).2.2.1, y ∈ pc.1.set :=
  View.cover_of_tiledL (kernelRun4_C c i arg1 harg1 arg2 harg2 arg3 harg3 arg4 harg4 arg5 harg5 arg6 harg6 hc0 hc1 x0 x1 xs0 xs1).2.2.1 S1x64.size (by sl_kernel_rfl) y

/-- What the last point leaves in accumulator 0: the running column sum through this block. -/
def sout4_C_0 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : cond4_1 i)
    (x0 : Vec F S5000x64 .f32) (x1 : Vec F S1x64 .f32) (xs0 : Vec F S1x64 .f32) (xs1 : Vec F S1x64 .f32) : Vec F S1x64 .f32 :=
  VS4_0.read (Elt F) (VS4_0.writes (Elt F) VS4_0.junk (kernelRun4_C c i arg1 harg1 arg2 harg2 arg3 harg3 arg4 harg4 arg5 harg5 arg6 harg6 hc0 hc1 x0 x1 xs0 xs1).2.2.1)

/-- The stores of the last point into accumulator 1 cover it (each is a whole-row store). -/
theorem scover4_C_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : cond4_1 i)
    (x0 : Vec F S5000x64 .f32) (x1 : Vec F S1x64 .f32) (xs0 : Vec F S1x64 .f32) (xs1 : Vec F S1x64 .f32) (y : S1x64.Idx) :
    ∃ pc ∈ (kernelRun4_C c i arg1 harg1 arg2 harg2 arg3 harg3 arg4 harg4 arg5 harg5 arg6 harg6 hc0 hc1 x0 x1 xs0 xs1).2.2.2.1, y ∈ pc.1.set :=
  View.cover_of_tiledL (kernelRun4_C c i arg1 harg1 arg2 harg2 arg3 harg3 arg4 harg4 arg5 harg5 arg6 harg6 hc0 hc1 x0 x1 xs0 xs1).2.2.2.1 S1x64.size (by sl_kernel_rfl) y

/-- What the last point leaves in accumulator 1: the running column sum of squares through this block. -/
def sout4_C_1 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : cond4_1 i)
    (x0 : Vec F S5000x64 .f32) (x1 : Vec F S1x64 .f32) (xs0 : Vec F S1x64 .f32) (xs1 : Vec F S1x64 .f32) : Vec F S1x64 .f32 :=
  VS4_1.read (Elt F) (VS4_1.writes (Elt F) VS4_1.junk (kernelRun4_C c i arg1 harg1 arg2 harg2 arg3 harg3 arg4 harg4 arg5 harg5 arg6 harg6 hc0 hc1 x0 x1 xs0 xs1).2.2.2.1)

section
variable (V : (c : Dev nD) → (b : Ref sig .tc) → Buf (Elt F) ((c : Thread nD τ).loc b))

/-- THE ACCUMULATION. What the two outputs' buffers and the two accumulators hold after the body at position `n`
    (outputs 2 and 3, then accumulators 0 and 1): the first point zeroes the accumulators and adds the first block's
    column sums; each later point adds its block's to what the point before left; the last also copies the totals out. -/
def outsAt4 (c : Dev nD) : (n : ℕ) → n < cfg4.N → Vec F S1x64 .f32 × Vec F S1x64 .f32 × Vec F S1x64 .f32 × Vec F S1x64 .f32
  | 0, hn => (out4_A_2 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩), out4_A_3 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩), sout4_A_0 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩), sout4_A_1 c (grid4.coords ⟨0, hn⟩) (ms4_0 ⟨0, hn⟩) (hs4_0 ⟨0, hn⟩) (ms4_1 ⟨0, hn⟩) (hs4_1 ⟨0, hn⟩) (ms4_2 ⟨0, hn⟩) (hs4_2 ⟨0, hn⟩) (ms4_3 ⟨0, hn⟩) (hs4_3 ⟨0, hn⟩) scM4_0 (Memref.isWhole_whole _) scM4_1 (Memref.isWhole_whole _) ((hcond4_0 ⟨0, hn⟩).mpr rfl) (fun h => (fun h => by (try dsimp only at h); omega) ((hcond4_1 ⟨0, hn⟩).mp h)) (iblk4 V c 0 ⟨0, hn⟩) (iblk4 V c 1 ⟨0, hn⟩))
  | n + 1, hn =>
    if h1 : n + 1 = 19 then
      (out4_C_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2, out4_C_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2, sout4_C_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2, sout4_C_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) ((hcond4_1 ⟨n + 1, hn⟩).mpr h1) (iblk4 V c 0 ⟨n + 1, hn⟩) (iblk4 V c 1 ⟨n + 1, hn⟩) (outsAt4 c n (Nat.lt_of_succ_lt hn)).2.2.1 (outsAt4 c n (Nat.lt_of_succ_lt hn)).2.2.2)
    else
      (out4_B_2 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2, out4_B_3 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2, sout4_B_0 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2, sout4_B_1 c (grid4.coords ⟨n + 1, hn⟩) (ms4_0 ⟨n + 1, hn⟩) (hs4_0 ⟨n + 1, hn⟩) (ms4_1 ⟨n + 1, hn⟩) (hs4_1 ⟨n + 1, hn⟩) (ms4_2 ⟨n + 1, hn⟩) (hs4_2 ⟨n + 1, hn⟩) (ms4_3 ⟨n + 1, hn⟩) (hs4_3 ⟨n + 1, hn⟩) scM4_0 (Memref.isWhole_whole _) scM4_1 (Memref.isWhole_whole _) (fun h => absurd ((hcond4_0 ⟨n + 1, hn⟩).mp h) (Nat.succ_ne_zero n)) (fun h => h1 ((hcond4_1 ⟨n + 1, hn⟩).mp h)) (iblk4 V c 0 ⟨n + 1, hn⟩) (iblk4 V c 1 ⟨n + 1, hn⟩) (outsAt4 c n (Nat.lt_of_succ_lt hn)).2.2.1 (outsAt4 c n (Nat.lt_of_succ_lt hn)).2.2.2)

/-- `outsAt4` at the first point. -/
theorem outsAt4_A (c : Dev nD) (t : Fin cfg4.N) (h0 : t.val = 0) (h1 : ¬t.val = 19) :
    outsAt4 V c t.val t.isLt = (out4_A_2 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t), out4_A_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t), sout4_A_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t), sout4_A_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t)) := by
  obtain ⟨n, hn⟩ := t
  cases n with
  | zero => exact rfl
  | succ n => exact absurd h0 (Nat.succ_ne_zero n)

/-- `outsAt4` at a middle point: over what the point before left. -/
theorem outsAt4_B (c : Dev nD) (t : Fin cfg4.N) (h0 : ¬t.val = 0) (h1 : ¬t.val = 19) :
    outsAt4 V c t.val t.isLt = (out4_B_2 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, out4_B_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_B_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact absurd rfl h0
  | succ n => exact (dif_neg h1).trans rfl

/-- `outsAt4` at the last point: over what the point before left. -/
theorem outsAt4_C (c : Dev nD) (t : Fin cfg4.N) (h0 : ¬t.val = 0) (h1 : t.val = 19) :
    outsAt4 V c t.val t.isLt = (out4_C_2 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, out4_C_3 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_0 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, sout4_C_1 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2) := by
  obtain ⟨n, hn⟩ := t
  cases n with
  | zero => exact absurd rfl h0
  | succ n => exact (dif_pos h1).trans rfl

/-- The region invariant before position `n`: at entry the class's; afterwards both accumulators at the running
    sums the point before left, the other scoped buffers unopened, the generator register at some state. -/
def PhiS4 (c : Dev nD) : (n : ℕ) → n ≤ cfg4.N → sProp 𝕄
  | 0, _ => Pipeline.ΦA spec4 c
  | n + 1, hn => iprop(iprop(iprop(owns (c : Thread nD τ) scM4_0 fullShare (outsAt4 V c n hn).2.2.1 ∗ owns (c : Thread nD τ) scM4_1 fullShare (outsAt4 V c n hn).2.2.2) ∗ Pipeline.scopedRestBut (Ix := Unit) (Name := ℕ) (U := UR sig nD τ) (Lvl := ℕ) (Val := Elt F) spec4 c [cc4_scratch0, cc4_scratch1]) ∗ (∃ r, prngReg c r))

theorem PhiS4_zero (c : Dev nD) (n : ℕ) (h : n ≤ cfg4.N) (hz : n = 0) : PhiS4 V c n h = Pipeline.ΦA spec4 c := by
  subst hz; rfl

/-- After point `n`: the accumulators at that point's running sums. -/
theorem PhiS4_succ (c : Dev nD) (n : ℕ) (hn : n < cfg4.N) :
    PhiS4 V c (n + 1) hn = iprop(iprop(iprop(owns (c : Thread nD τ) scM4_0 fullShare (outsAt4 V c n hn).2.2.1 ∗ owns (c : Thread nD τ) scM4_1 fullShare (outsAt4 V c n hn).2.2.2) ∗ Pipeline.scopedRestBut (Ix := Unit) (Name := ℕ) (U := UR sig nD τ) (Lvl := ℕ) (Val := Elt F) spec4 c [cc4_scratch0, cc4_scratch1]) ∗ (∃ r, prngReg c r)) := rfl

/-- Before a point that is not the first: the accumulators at what the point before left. -/
theorem PhiS4_pos (c : Dev nD) (n : ℕ) (h : n ≤ cfg4.N) (hz : n ≠ 0) :
    PhiS4 V c n h = iprop(iprop(iprop(owns (c : Thread nD τ) scM4_0 fullShare (outsAt4 V c (n - 1) (by omega)).2.2.1 ∗ owns (c : Thread nD τ) scM4_1 fullShare (outsAt4 V c (n - 1) (by omega)).2.2.2) ∗ Pipeline.scopedRestBut (Ix := Unit) (Name := ℕ) (U := UR sig nD τ) (Lvl := ℕ) (Val := Elt F) spec4 c [cc4_scratch0, cc4_scratch1]) ∗ (∃ r, prngReg c r)) := by
  cases n with
  | zero => exact absurd rfl hz
  | succ n => rfl

/-- The proof data of the pipeline on core `c`: arrays at `V`; after the body each input's buffer at its block, each
    output's at `outsAt4`'s component; the invariant `PhiS4`; nothing owed; full shares. -/
def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => (outsAt4 V c t.val t.isLt).1
    | ⟨3, _⟩ => (outsAt4 V c t.val t.isLt).2.1
  Φ t := PhiS4 V c t.val (Nat.le_of_lt_succ t.isLt)
  q _ := fullShare
  owed _ := 0

/-- The proof data's arrays are `V`'s. -/
theorem A_eq4 (c : Dev nD) (w : Fin cfg4.W) : (dat4 V c).A w = V c (Pipeline.arrRef spec4 w) := by
  dsimp only [dat4]

/-- The invariant at a point's start, restated at `t.val`. -/
theorem PhiS4_castSucc (c : Dev nD) (t : Fin cfg4.N) :
    (dat4 V c).Φ t.castSucc = PhiS4 V c t.val (Nat.le_of_lt t.isLt) := by
  dsimp only [dat4]; simp only [Fin.coe_castSucc]

/-- What the body leaves, window by window. -/
theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = (outsAt4 V c t.val t.isLt).1 := by dsimp only [dat4]
theorem after4_3 (c : Dev nD) (t : Fin cfg4.N) : (dat4 V c).after 3 t = (outsAt4 V c t.val t.isLt).2.1 := by dsimp only [dat4]

/-- Each input's current buffer holds its block at every point. -/
theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d

/-- What the body is called with at point `t`, -/
def bodyPre4 (c : Dev nD) (t : Fin cfg4.N) : sProp 𝕄 :=
  iprop((dat4 V c).Φ t.castSucc ∗ (dat4 V c).owesAt () t.castSucc
    ∗ (∃ d, owns (c : Thread nD τ) (ms4_0 t) fullShare ((dat4 V c).before 0 t d))
    ∗ (∃ d, owns (c : Thread nD τ) (ms4_1 t) fullShare ((dat4 V c).before 1 t d))
    ∗ (∃ d, owns (c : Thread nD τ) (ms4_2 t) fullShare ((dat4 V c).before 2 t d))
    ∗ (∃ d, owns (c : Thread nD τ) (ms4_3 t) fullShare ((dat4 V c).before 3 t d)))

/-- and what it returns. -/
def bodyPost4 (c : Dev nD) (t : Fin cfg4.N) : sProp 𝕄 :=
  iprop((dat4 V c).Φ t.succ ∗ (dat4 V c).owesAt () t.succ
    ∗ (dat4 V c).leavesExact 0 t
    ∗ (dat4 V c).leavesExact 1 t
    ∗ (dat4 V c).leavesExact 2 t
    ∗ (dat4 V c).leavesExact 3 t)

set_option maxHeartbeats 4800000 in
/-- The body at any point: the inputs' buffers hold their blocks; the point is the first, a middle one or the last;
    the invariant hands the body both accumulators (at anything at the first point, else at the running sums the point
    before left) and takes them back at this point's running sums; away from the last point the outputs' buffers are
    handed back untouched, at the last they hold the totals. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1]
  rw [show (dat4 V c).owesAt () t.succ = (dat4 V c).owesAt () t.castSucc from rfl]
  rw [show (dat4 V c).Φ t.succ = PhiS4 V c (t.val + 1) t.isLt from rfl, PhiS4_succ]
  have hN : t.val < 20 := lt_of_lt_of_eq t.isLt (show cfg4.N = 20 from N_4)
  rw [show (dat4 V c).leavesExact 0 t = owns (c : Thread nD τ) (ms4_0 t) fullShare ((dat4 V c).after 0 t) from by
        unfold Dat.leavesExact; rw [liveAt4_0 t], after4_0]
  rw [show (dat4 V c).leavesExact 1 t = owns (c : Thread nD τ) (ms4_1 t) fullShare ((dat4 V c).after 1 t) from by
        unfold Dat.leavesExact; rw [liveAt4_1 t], after4_1]
  by_cases h0 : t.val = 0
  · have h1 : ¬t.val = 19 := by omega
    rw [Dat.leavesExact_idle (dat4 V c) 2 t (idleAt4_2_A t ((hcond4_0 t).mpr h0) (fun h => h1 ((hcond4_1 t).mp h))) (noFlush4_2_A t ((hcond4_0 t).mpr h0) (fun h => h1 ((hcond4_1 t).mp h)))]
    rw [Dat.leavesExact_idle (dat4 V c) 3 t (idleAt4_3_A t ((hcond4_0 t).mpr h0) (fun h => h1 ((hcond4_1 t).mp h))) (noFlush4_3_A t ((hcond4_0 t).mpr h0) (fun h => h1 ((hcond4_1 t).mp h)))]
    rw [outsAt4_A V c t h0 h1]
    unfold sout4_A_0 sout4_A_1; (try dsimp only)
    have hz : t.val = 0 := h0
    rw [PhiS4_castSucc V c t, PhiS4_zero V c _ _ hz, PhiA4_eq]
    iintro ⟨⟨⟨⟨HS0, HS1⟩, Hr⟩, Hg⟩, Ho, ⟨%d0, H0⟩, ⟨%d1, H1⟩, ⟨%d2, H2⟩, ⟨%d3, H3⟩⟩
    iapply ((kernelRun4_A c (grid4.coords t) _ _ _ _ _ _ _ _ _ _ _ _ ((hcond4_0 t).mpr h0) (fun h => h1 ((hcond4_1 t).mp h)) (iblk4 V c 0 t) (iblk4 V c 1 t)).2.2.2.2 _ _ Set.univ _)
    isplitl [H0]; · iexact H0
    isplitl [H1]; · iexact H1
    isplitl [H2]; · iexact H2
    isplitl [H3]; · iexact H3
    isplitl [HS0]; · iexact HS0
    isplitl [HS1]; · iexact HS1
    iintro ⟨H0, H1, H2, H3, ⟨%es0, HS0⟩, ⟨%es1, HS1⟩⟩
    isplitl [HS0 HS1 Hr Hg]
    · isplitl [HS0 HS1 Hr]
      · isplitl [HS0 HS1]
        · isplitl [HS0]
          · unfold owns; iexists _; isplitr
            swap; · iexact HS0
            ipureintro; exact View.read_writes_of_cover _ _ _ _ _ (scover4_A_0 c _ _ _ _ _ _ _ _ _ _ _ _ _ _ _ _ _)
          · unfold owns; iexists _; isplitr
            swap; · iexact HS1
            ipureintro; exact View.read_writes_of_cover _ _ _ _ _ (scover4_A_1 c _ _ _ _ _ _ _ _ _ _ _ _ _ _ _ _ _)
        iexact Hr
      iexact Hg
    isplitl [Ho]; · iexact Ho
    isplitl [H0]; · iexact H0
    isplitl [H1]; · iexact H1
    isplitl [H2]; · iexists _; iexact H2
    iexists _; iexact H3
  · have hz : t.val ≠ 0 := h0
    by_cases h1 : t.val = 19
    · rw [show (dat4 V c).leavesExact 2 t = owns (c : Thread nD τ) (ms4_2 t) fullShare ((dat4 V c).after 2 t) from by
        unfold Dat.leavesExact; rw [liveAt4_2_C t (fun h => h0 ((hcond4_0 t).mp h)) ((hcond4_1 t).mpr h1)], after4_2]
      rw [show (dat4 V c).leavesExact 3 t = owns (c : Thread nD τ) (ms4_3 t) fullShare ((dat4 V c).after 3 t) from by
        unfold Dat.leavesExact; rw [liveAt4_3_C t (fun h => h0 ((hcond4_0 t).mp h)) ((hcond4_1 t).mpr h1)], after4_3]
      rw [outsAt4_C V c t h0 h1]
      unfold out4_C_2 out4_C_3 sout4_C_0 sout4_C_1; (try dsimp only)
      rw [PhiS4_castSucc V c t, PhiS4_pos V c _ _ hz]
      iintro ⟨⟨⟨⟨HS0, HS1⟩, Hr⟩, Hg⟩, Ho, ⟨%d0, H0⟩, ⟨%d1, H1⟩, ⟨%d2, H2⟩, ⟨%d3, H3⟩⟩
      iapply ((kernelRun4_C c (grid4.coords t) _ _ _ _ _ _ _ _ _ _ _ _ (fun h => h0 ((hcond4_0 t).mp h)) ((hcond4_1 t).mpr h1) (iblk4 V c 0 t) (iblk4 V c 1 t) _ _).2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      iintro ⟨H0, H1, ⟨%e2, H2⟩, ⟨%e3, H3⟩, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover4_C_0 c _ _ _ _ _ _ _ _ _ _ _ _ _ _ _ _ _ _ _)
            · unfold owns; iexists _; isplitr
              swap; · iexact HS1
              ipureintro; exact View.read_writes_of_cover _ _ _ _ _ (scover4_C_1 c _ _ _ _ _ _ _ _ _ _ _ _ _ _ _ _ _ _ _)
          iexact Hr
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover4_C_2 c _ _ _ _ _ _ _ _ _ _ _ _ _ _ _ _ _ _ _)
      unfold owns; iexists _; isplitr
      swap; · iexact H3
      ipureintro; exact View.read_writes_of_cover _ _ _ _ _ (cover4_C_3 c _ _ _ _ _ _ _ _ _ _ _ _ _ _ _ _ _ _ _)
    · rw [Dat.leavesExact_idle (dat4 V c) 2 t (idleAt4_2_B t (fun h => h0 ((hcond4_0 t).mp h)) (fun h => h1 ((hcond4_1 t).mp h))) (noFlush4_2_B t (fun h => h0 ((hcond4_0 t).mp h)) (fun h => h1 ((hcond4_1 t).mp h)))]
      rw [Dat.leavesExact_idle (dat4 V c) 3 t (idleAt4_3_B t (fun h => h0 ((hcond4_0 t).mp h)) (fun h => h1 ((hcond4_1 t).mp h))) (noFlush4_3_B t (fun h => h0 ((hcond4_0 t).mp h)) (fun h => h1 ((hcond4_1 t).mp h)))]
      rw [outsAt4_B V c t h0 h1]
      unfold sout4_B_0 sout4_B_1; (try dsimp only)
      rw [PhiS4_castSucc V c t, PhiS4_pos V c _ _ hz]
      iintro ⟨⟨⟨⟨HS0, HS1⟩, Hr⟩, Hg⟩, Ho, ⟨%d0, H0⟩, ⟨%d1, H1⟩, ⟨%d2, H2⟩, ⟨%d3, H3⟩⟩
      iapply ((kernelRun4_B c (grid4.coords t) _ _ _ _ _ _ _ _ _ _ _ _ (fun h => h0 ((hcond4_0 t).mp h)) (fun h => h1 ((hcond4_1 t).mp h)) (iblk4 V c 0 t) (iblk4 V c 1 t) _ _).2.2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      iintro ⟨H0, H1, H2, H3, ⟨%es0, HS0⟩, ⟨%es1, HS1⟩⟩
      isplitl [HS0 HS1 Hr Hg]
      · isplitl [HS0 HS1 Hr]
        · isplitl [HS0 HS1]
          · isplitl [HS0]
            · unfold owns; iexists _; isplitr
              swap; · iexact HS0
              ipureintro; exact View.read_writes_of_cover _ _ _ _ _ (scover4_B_0 c _ _ _ _ _ _ _ _ _ _ _ _ _ _ _ _ _ _ _)
            · unfold owns; iexists _; isplitr
              swap; · iexact HS1
              ipureintro; exact View.read_writes_of_cover _ _ _ _ _ (scover4_B_1 c _ _ _ _ _ _ _ _ _ _ _ _ _ _ _ _ _ _ _)
          iexact Hr
        iexact Hg
      isplitl [Ho]; · iexact Ho
      isplitl [H0]; · iexact H0
      isplitl [H1]; · iexact H1
      isplitl [H2]; · iexists _; iexact H2
      iexists _; iexact H3

/-- The library's body obligation, at every point. -/
theorem body_obligation4 (c : Dev nD) : BodyObligation (dat4 (F := F) V c) (defs₀ (F := F)) Variants.none () Set.univ := fun t => by
  rw [bigSep_W4, bigSep_W4]
  exact sound_body4 V c t

/-- What the launch hands the region is the invariant before the first point. -/
theorem hin4 (c : Dev nD) : Pipeline.ΦA spec4 c ⊢ (dat4 V c).Φ 0 := by
  rw [show (dat4 V c).Φ 0 = PhiS4 V c 0 (Nat.zero_le _) from rfl, PhiS4_zero V c 0 _ rfl]
  try exact Idealize.SL.BI.Entails.refl _

/-- After any point but the first the invariant gives the class's back: the accumulators' named contents are forgotten. -/
theorem Phi_out4 (c : Dev nD) (t : Fin (cfg4.N + 1)) (ht : t.val ≠ 0) : (dat4 V c).Φ t ⊢ Pipeline.ΦA spec4 c := by
  rw [show (dat4 V c).Φ t = PhiS4 V c t.val (Nat.le_of_lt_succ t.isLt) from rfl, PhiS4_pos V c _ _ ht, PhiA4_eq]
  iintro ⟨⟨⟨HS0, HS1⟩, Hr⟩, Hg⟩
  isplitl [HS0 HS1 Hr]
  · isplitl [HS0 HS1]
    · isplitl [HS0]
      · iexists _; iexact HS0
      · iexists _; iexact HS1
    iexact Hr
  iexact Hg

/-- The same after the last point. -/
theorem hout4 (c : Dev nD) : (dat4 V c).Φ (Fin.last cfg4.N) ⊢ Pipeline.ΦA spec4 c :=
  Phi_out4 V c _ (by rw [Fin.val_last]; have : cfg4.N = 20 := N_4; omega)

end

end Cert.KernelIdeal.Fr

end
-- ==== Proof.KI.R5.lean ====
import proofs.«119403_j19189913878709_1_alg».proof.Proof.Gen.KernelIdeal.Launch
import proofs.«119403_j19189913878709_1_alg».proof.Proof.Gen.KernelIdeal.Skeleton
import proofs.«119403_j19189913878709_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided structurally, one step per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 5: `cc5__affine_relu_kernel` (pipeline 5), at the entry contents `V` -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- Input window 0's current staging buffer holds its block at every point, fetched there or not, for any proof
    data whose array is `V`'s and whose body leaves the block in place. -/
theorem before5_0_of {c : Dev nD} (dat : Dat τ (Elt F) Unit ℕ (UR sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- Input window 1's current staging buffer holds its block at every point, fetched there or not, for any proof
    data whose array is `V`'s and whose body leaves the block in place. -/
theorem before5_1_of {c : Dev nD} (dat : Dat τ (Elt F) Unit ℕ (UR sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- Input window 2's current staging buffer holds its block at every point, fetched there or not, for any proof
    data whose array is `V`'s and whose body leaves the block in place. -/
theorem before5_2_of {c : Dev nD} (dat : Dat τ (Elt F) Unit ℕ (UR sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- Input window 3's current staging buffer holds its block at every point, fetched there or not, for any proof
    data whose array is `V`'s and whose body leaves the block in place. -/
theorem before5_3_of {c : Dev nD} (dat : Dat τ (Elt F) Unit ℕ (UR sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-! ## The body's accesses: each memref is read or written whole -/

abbrev r5_0 : Rect S5000x64 := Rect.unit (s := S5000x64) ![0, 0] S5000x64.size inb_S5000x64_S5000x64_0_0
abbrev r5_1 : Rect S1x64 := Rect.unit (s := S1x64) ![0, 0] S1x64.size inb_S1x64_S1x64_0_0

/-- The output window's staging buffer after the body, from the input windows' blocks: max(((x + b) * scale) + shift, 0), the three rows broadcast along the block's rows. -/
def out5_4 (x0 : Vec F S5000x64 .f32) (x1 : Vec F S1x64 .f32) (x2 : Vec F S1x64 .f32) (x3 : Vec F S1x64 .f32) : Vec F S5000x64 .f32 :=
  View.canon [⟨r5_0, k5_pay1 (View.ld x0 r5_0) (View.ld x1 r5_1) (View.ld x2 r5_1) (View.ld x3 r5_1)⟩]

/-- The single store is the whole buffer, so it covers it. -/
theorem cover5_4 (p0 : Vec F S5000x64 .f32) (y : S5000x64.Idx) :
    ∃ pc ∈ ([⟨r5_0, p0⟩] : List (View.Piece (Elt F) S5000x64 .f32)), y ∈ pc.1.set :=
  View.cover_of_tiled [⟨r5_0, p0⟩] S5000x64.size (by rfl) y

/-! ## The body's triple -/

set_option maxHeartbeats 1000000 in
/-- The kernel body on whole staging memrefs, the inputs' at contents `xW` and the output's at anything, runs to
    the continuation holding the inputs' as they were and the output's at `out5_4` of the inputs'. -/
theorem sound_kernel5 (c : Dev nD) (E : Set ℕ) (i : grid5.Coords) (arg0 : Memref sig .tc .vmem S5000x64 .f32) (harg0 : arg0.IsWhole) (arg1 : Memref sig .tc .vmem S1x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S5000x64 .f32) (harg4 : arg4.IsWhole)
    (x0 : Vec F S5000x64 .f32) (x1 : Vec F S1x64 .f32) (x2 : Vec F S1x64 .f32) (x3 : Vec F S1x64 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ (∃ d, owns (c : Thread nD τ) arg4 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare (out5_4 x0 x1 x2 x3)) -∗ K ⟨⟩))
      ⊢ wp frame (wpE (defs₀ (F := F)) Variants.none c none) E (cc5__affine_relu_kernel i arg0 harg0 arg1 harg1 arg2 harg2 arg3 harg3 arg4 harg4) K := by
  simp only [cc5__affine_relu_kernel_eq_skeleton]; unfold cc5__affine_relu_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover5_4 _)

/-! ## The pipeline's proof data -/

/-- The proof data of pipeline 5 on core `c`: the arrays as the region finds them; after the body at point `t`
    each input's buffer at its block and the output's at `out5_4` of the input blocks; the invariant keeps the
    scoped rest and the generator register untouched; nothing owed; full shares. -/
def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => out5_4 (iblk5 V c 0 t) (iblk5 V c 1 t) (iblk5 V c 2 t) (iblk5 V c 3 t)
  Φ _ := Pipeline.ΦA spec5 c
  q _ := fullShare
  owed _ := 0

/-- The proof data's arrays are the region-entry contents. -/
theorem A_eq5 (c : Dev nD) (w : Fin cfg5.W) : (dat5 V c).A w = V c (Pipeline.arrRef spec5 w) := by
  dsimp only [dat5]

/-- What the body leaves, window by window. -/
theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = out5_4 (iblk5 V c 0 t) (iblk5 V c 1 t) (iblk5 V c 2 t) (iblk5 V c 3 t) := by dsimp only [dat5]

/-- Each input's current staging buffer holds its block at every point, fetched there or not. -/
theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d

/-! ## The body obligation, at a generic point -/

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t))

/-- The body at any point: the inputs' memrefs hold their blocks, so the kernel's triple applies; the invariant and
    the core's debt pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3]
  rw [show (dat5 V c).Φ t.succ = (dat5 V c).Φ t.castSucc from rfl,
    show (dat5 V c).owesAt () t.succ = (dat5 V c).owesAt () t.castSucc from rfl,
    after5_0, after5_1, after5_2, after5_3, after5_4]
  iintro ⟨HΦ, Ho, ⟨%d0, H0⟩, ⟨%d1, H1⟩, ⟨%d2, H2⟩, ⟨%d3, H3⟩, ⟨%d4, H4⟩⟩
  iapply (sound_kernel5 c Set.univ _ _ _ _ _ _ _ _ _ _ _ (iblk5 V c 0 t) (iblk5 V c 1 t) (iblk5 V c 2 t) (iblk5 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Fr

end
-- ==== Proof.KI.R6.lean ====
import proofs.«119403_j19189913878709_1_alg».proof.Proof.Gen.KernelIdeal.Launch
import proofs.«119403_j19189913878709_1_alg».proof.Proof.Gen.KernelIdeal.Skeleton
import proofs.«119403_j19189913878709_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

-- membership in a rectangle of long extents is decided structurally, one step per coordinate
set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered
variable (V : (c : Dev nD) → (b : Ref sig .tc) → Buf (Elt F) ((c : Thread nD τ).loc b))

/-! # Region 6: `cc6__mlp_head_kernel` (pipeline 6), at the entry contents `V` -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- Input window 0's current staging buffer holds its block at every point, fetched there or not, for any proof
    data whose array is `V`'s and whose body leaves the block in place. -/
theorem before6_0_of {c : Dev nD} (dat : Dat τ (Elt F) Unit ℕ (UR sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- Input window 1's current staging buffer holds its block at every point, fetched there or not, for any proof
    data whose array is `V`'s and whose body leaves the block in place. -/
theorem before6_1_of {c : Dev nD} (dat : Dat τ (Elt F) Unit ℕ (UR sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- Input window 2's current staging buffer holds its block at every point, fetched there or not, for any proof
    data whose array is `V`'s and whose body leaves the block in place. -/
theorem before6_2_of {c : Dev nD} (dat : Dat τ (Elt F) Unit ℕ (UR sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

/-- Input window 3's current staging buffer holds its block at every point, fetched there or not, for any proof
    data whose array is `V`'s and whose body leaves the block in place. -/
theorem before6_3_of {c : Dev nD} (dat : Dat τ (Elt F) Unit ℕ (UR sig nD τ) ℕ cfg6 c) (hA : dat.A 3 = V c (Pipeline.arrRef spec6 3))
    (hafter : ∀ t, dat.after 3 t = iblk6 V c 3 t) (t : Fin cfg6.N) (d) : dat.before 3 t d = iblk6 V c 3 t :=
  (dat.before_in_eq_fetched 3 rfl (fun _ => rfl) (fun _ _ _ => rfl) (fun t => by rw [hafter]; unfold Dat.blockOf iblk6; rw [hA]; try rfl) t d).trans
    (by unfold Dat.fetched Dat.blockOf iblk6; rw [hA]; try rfl)

/-- Input window 4's current staging buffer holds its block at every point, fetched there or not, for any proof
    data whose array is `V`'s and whose body leaves the block in place. -/
theorem before6_4_of {c : Dev nD} (dat : Dat τ (Elt F) Unit ℕ (UR sig nD τ) ℕ cfg6 c) (hA : dat.A 4 = V c (Pipeline.arrRef spec6 4))
    (hafter : ∀ t, dat.after 4 t = iblk6 V c 4 t) (t : Fin cfg6.N) (d) : dat.before 4 t d = iblk6 V c 4 t :=
  (dat.before_in_eq_fetched 4 rfl (fun _ => rfl) (fun _ _ _ => rfl) (fun t => by rw [hafter]; unfold Dat.blockOf iblk6; rw [hA]; try rfl) t d).trans
    (by unfold Dat.fetched Dat.blockOf iblk6; rw [hA]; try rfl)

/-- Input window 5's current staging buffer holds its block at every point, fetched there or not, for any proof
    data whose array is `V`'s and whose body leaves the block in place. -/
theorem before6_5_of {c : Dev nD} (dat : Dat τ (Elt F) Unit ℕ (UR sig nD τ) ℕ cfg6 c) (hA : dat.A 5 = V c (Pipeline.arrRef spec6 5))
    (hafter : ∀ t, dat.after 5 t = iblk6 V c 5 t) (t : Fin cfg6.N) (d) : dat.before 5 t d = iblk6 V c 5 t :=
  (dat.before_in_eq_fetched 5 rfl (fun _ => rfl) (fun _ _ _ => rfl) (fun t => by rw [hafter]; unfold Dat.blockOf iblk6; rw [hA]; try rfl) t d).trans
    (by unfold Dat.fetched Dat.blockOf iblk6; rw [hA]; try rfl)

/-- Input window 6's current staging buffer holds its block at every point, fetched there or not, for any proof
    data whose array is `V`'s and whose body leaves the block in place. -/
theorem before6_6_of {c : Dev nD} (dat : Dat τ (Elt F) Unit ℕ (UR sig nD τ) ℕ cfg6 c) (hA : dat.A 6 = V c (Pipeline.arrRef spec6 6))
    (hafter : ∀ t, dat.after 6 t = iblk6 V c 6 t) (t : Fin cfg6.N) (d) : dat.before 6 t d = iblk6 V c 6 t :=
  (dat.before_in_eq_fetched 6 rfl (fun _ => rfl) (fun _ _ _ => rfl) (fun t => by rw [hafter]; unfold Dat.blockOf iblk6; rw [hA]; try rfl) t d).trans
    (by unfold Dat.fetched Dat.blockOf iblk6; rw [hA]; try rfl)

/-! ## The body's accesses: each memref is read or written whole -/

abbrev r6_0 : Rect S5000x64 := Rect.unit (s := S5000x64) ![0, 0] S5000x64.size inb_S5000x64_S5000x64_0_0
abbrev r6_1 : Rect S64x64 := Rect.unit (s := S64x64) ![0, 0] S64x64.size inb_S64x64_S64x64_0_0
abbrev r6_2 : Rect S1x64 := Rect.unit (s := S1x64) ![0, 0] S1x64.size inb_S1x64_S1x64_0_0
abbrev r6_3 : Rect S64x32 := Rect.unit (s := S64x32) ![0, 0] S64x32.size inb_S64x32_S64x32_0_0
abbrev r6_4 : Rect S1x32 := Rect.unit (s := S1x32) ![0, 0] S1x32.size inb_S1x32_S1x32_0_0
abbrev r6_5 : Rect S32x1 := Rect.unit (s := S32x1) ![0, 0] S32x1.size inb_S32x1_S32x1_0_0
abbrev r6_6 : Rect S1x1 := Rect.unit (s := S1x1) ![0, 0] S1x1.size inb_S1x1_S1x1_0_0
abbrev r6_7 : Rect S5000x1 := Rect.unit (s := S5000x1) ![0, 0] S5000x1.size inb_S5000x1_S5000x1_0_0

/-- The output window's staging buffer after the body, from the input windows' blocks: three dense layers (bf16 operands, f32 accumulation, bias rows broadcast, relu after the first two) and the logistic function. -/
def out6_7 (x0 : Vec F S5000x64 .f32) (x1 : Vec F S64x64 .f32) (x2 : Vec F S1x64 .f32) (x3 : Vec F S64x32 .f32) (x4 : Vec F S1x32 .f32) (x5 : Vec F S32x1 .f32) (x6 : Vec F S1x1 .f32) : Vec F S5000x1 .f32 :=
  View.canon [⟨r6_7, k6_pay1 (View.ld x0 r6_0) (View.ld x1 r6_1) (View.ld x2 r6_2) (View.ld x3 r6_3) (View.ld x4 r6_4) (View.ld x5 r6_5) (View.ld x6 r6_6)⟩]

/-- The single store is the whole buffer, so it covers it. -/
theorem cover6_7 (p0 : Vec F S5000x1 .f32) (y : S5000x1.Idx) :
    ∃ pc ∈ ([⟨r6_7, p0⟩] : List (View.Piece (Elt F) S5000x1 .f32)), y ∈ pc.1.set :=
  View.cover_of_tiled [⟨r6_7, p0⟩] S5000x1.size (by rfl) y

/-! ## The body's triple -/

set_option maxHeartbeats 1000000 in
/-- The kernel body on whole staging memrefs, the inputs' at contents `xW` and the output's at anything, runs to
    the continuation holding the inputs' as they were and the output's at `out6_7` of the inputs'. -/
theorem sound_kernel6 (c : Dev nD) (E : Set ℕ) (i : grid6.Coords) (arg0 : Memref sig .tc .vmem S5000x64 .f32) (harg0 : arg0.IsWhole) (arg1 : Memref sig .tc .vmem S64x64 .f32) (harg1 : arg1.IsWhole) (arg2 : Memref sig .tc .vmem S1x64 .f32) (harg2 : arg2.IsWhole) (arg3 : Memref sig .tc .vmem S64x32 .f32) (harg3 : arg3.IsWhole) (arg4 : Memref sig .tc .vmem S1x32 .f32) (harg4 : arg4.IsWhole) (arg5 : Memref sig .tc .vmem S32x1 .f32) (harg5 : arg5.IsWhole) (arg6 : Memref sig .tc .vmem S1x1 .f32) (harg6 : arg6.IsWhole) (arg7 : Memref sig .tc .vmem S5000x1 .f32) (harg7 : arg7.IsWhole)
    (x0 : Vec F S5000x64 .f32) (x1 : Vec F S64x64 .f32) (x2 : Vec F S1x64 .f32) (x3 : Vec F S64x32 .f32) (x4 : Vec F S1x32 .f32) (x5 : Vec F S32x1 .f32) (x6 : Vec F S1x1 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ (∃ d, owns (c : Thread nD τ) arg7 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare (out6_7 x0 x1 x2 x3 x4 x5 x6)) -∗ K ⟨⟩))
      ⊢ wp frame (wpE (defs₀ (F := F)) Variants.none c none) E (cc6__mlp_head_kernel i arg0 harg0 arg1 harg1 arg2 harg2 arg3 harg3 arg4 harg4 arg5 harg5 arg6 harg6 arg7 harg7) K := by
  simp only [cc6__mlp_head_kernel_eq_skeleton]; unfold cc6__mlp_head_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, Hk⟩
  subst hf0; subst hf1; subst hf2; subst hf3; subst hf4; subst hf5; subst hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  iexists _; isplitr
  swap; · iexact H7
  ipureintro
  exact View.read_writes_eq_canon _ _ _ (cover6_7 _)

/-! ## The pipeline's proof data -/

/-- The proof data of pipeline 6 on core `c`: the arrays as the region finds them; after the body at point `t`
    each input's buffer at its block and the output's at `out6_7` of the input blocks; the invariant keeps the
    scoped rest and the generator register untouched; nothing owed; full shares. -/
def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => iblk6 V c 3 t
    | ⟨4, _⟩ => iblk6 V c 4 t
    | ⟨5, _⟩ => iblk6 V c 5 t
    | ⟨6, _⟩ => iblk6 V c 6 t
    | ⟨7, _⟩ => out6_7 (iblk6 V c 0 t) (iblk6 V c 1 t) (iblk6 V c 2 t) (iblk6 V c 3 t) (iblk6 V c 4 t) (iblk6 V c 5 t) (iblk6 V c 6 t)
  Φ _ := Pipeline.ΦA spec6 c
  q _ := fullShare
  owed _ := 0

/-- The proof data's arrays are the region-entry contents. -/
theorem A_eq6 (c : Dev nD) (w : Fin cfg6.W) : (dat6 V c).A w = V c (Pipeline.arrRef spec6 w) := by
  dsimp only [dat6]

/-- What the body leaves, window by window. -/
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = iblk6 V c 3 t := by dsimp only [dat6]
theorem after6_4 (c : Dev nD) (t : Fin cfg6.N) : (dat6 V c).after 4 t = iblk6 V c 4 t := by dsimp only [dat6]
theorem after6_5 (c : Dev nD) (t : Fin cfg6.N) : (dat6 V c).after 5 t = iblk6 V c 5 t := by dsimp only [dat6]
theorem after6_6 (c : Dev nD) (t : Fin cfg6.N) : (dat6 V c).after 6 t = iblk6 V c 6 t := by dsimp only [dat6]
theorem after6_7 (c : Dev nD) (t : Fin cfg6.N) : (dat6 V c).after 7 t = out6_7 (iblk6 V c 0 t) (iblk6 V c 1 t) (iblk6 V c 2 t) (iblk6 V c 3 t) (iblk6 V c 4 t) (iblk6 V c 5 t) (iblk6 V c 6 t) := by dsimp only [dat6]

/-- Each input's current staging buffer holds its block at every point, fetched there or not. -/
theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d
theorem before6_3 (c : Dev nD) (t : Fin cfg6.N) (d) : (dat6 V c).before 3 t d = iblk6 V c 3 t :=
  before6_3_of V (dat6 V c) (A_eq6 V c 3) (after6_3 V c) t d
theorem before6_4 (c : Dev nD) (t : Fin cfg6.N) (d) : (dat6 V c).before 4 t d = iblk6 V c 4 t :=
  before6_4_of V (dat6 V c) (A_eq6 V c 4) (after6_4 V c) t d
theorem before6_5 (c : Dev nD) (t : Fin cfg6.N) (d) : (dat6 V c).before 5 t d = iblk6 V c 5 t :=
  before6_5_of V (dat6 V c) (A_eq6 V c 5) (after6_5 V c) t d
theorem before6_6 (c : Dev nD) (t : Fin cfg6.N) (d) : (dat6 V c).before 6 t d = iblk6 V c 6 t :=
  before6_6_of V (dat6 V c) (A_eq6 V c 6) (after6_6 V c) t d

/-! ## The body obligation, at a generic point -/

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d))
    ∗ (∃ d, owns (c : Thread nD τ) (st6_4 t) fullShare ((dat6 V c).before 4 t d))
    ∗ (∃ d, owns (c : Thread nD τ) (st6_5 t) fullShare ((dat6 V c).before 5 t d))
    ∗ (∃ d, owns (c : Thread nD τ) (st6_6 t) fullShare ((dat6 V c).before 6 t d))
    ∗ (∃ d, owns (c : Thread nD τ) (st6_7 t) fullShare ((dat6 V c).before 7 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t)
    ∗ owns (c : Thread nD τ) (st6_4 t) fullShare ((dat6 V c).after 4 t)
    ∗ owns (c : Thread nD τ) (st6_5 t) fullShare ((dat6 V c).after 5 t)
    ∗ owns (c : Thread nD τ) (st6_6 t) fullShare ((dat6 V c).after 6 t)
    ∗ owns (c : Thread nD τ) (st6_7 t) fullShare ((dat6 V c).after 7 t))

/-- The body at any point: the inputs' memrefs hold their blocks, so the kernel's triple applies; the invariant and
    the core's debt pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2, before6_3, before6_4, before6_5, before6_6]
  rw [show (dat6 V c).Φ t.succ = (dat6 V c).Φ t.castSucc from rfl,
    show (dat6 V c).owesAt () t.succ = (dat6 V c).owesAt () t.castSucc from rfl,
    after6_0, after6_1, after6_2, after6_3, after6_4, after6_5, after6_6, after6_7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel6 c Set.univ _ _ _ _ _ _ _ _ _ _ _ _ _ _ _ _ _ (iblk6 V c 0 t) (iblk6 V c 1 t) (iblk6 V c 2 t) (iblk6 V c 3 t) (iblk6 V c 4 t) (iblk6 V c 5 t) (iblk6 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Fr

end
-- ==== Proof.KI.Run.lean ====
/-
  The whole run of @main: seven kernel regions among stretches of host operations. Between two items every unscoped
  buffer of a core is held whole; the contents at each boundary are a fold from the launch memory: a host stretch
  applies its operations, a region replaces its windows' arrays by what its write-backs leave (inputs as entered).
  Each region is entered by splitting its arrays out of the unscoped buffers and left by putting them back; the
  generator register and the core's (empty) dues ride along. The final state agrees with the last boundary's
  contents on every unscoped buffer; no item writes an argument array.
-/
import proofs.«119403_j19189913878709_1_alg».proof.Proof.Gen.KernelIdeal.Regions
import proofs.«119403_j19189913878709_1_alg».proof.Proof.KI.R0
import proofs.«119403_j19189913878709_1_alg».proof.Proof.KI.R1
import proofs.«119403_j19189913878709_1_alg».proof.Proof.KI.R2
import proofs.«119403_j19189913878709_1_alg».proof.Proof.KI.R3
import proofs.«119403_j19189913878709_1_alg».proof.Proof.KI.R4
import proofs.«119403_j19189913878709_1_alg».proof.Proof.KI.R5
import proofs.«119403_j19189913878709_1_alg».proof.Proof.KI.R6
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch. -/
abbrev B0 : Dev nD → Valuation τ sig (Elt F) := fun c b => (s₀ m ρ).mem ((c : Dev nD), b)
/-- After the host stretch `hostOps0`. -/
abbrev B1 : Dev nD → Valuation τ sig (Elt F) := fun c => StableHlo.after hostOps0 (B0 m ρ c)
abbrev U1 : (c : Dev nD) → (b : Ref sig .tc) → Buf (Elt F) ((c : Thread nD τ).loc b) := fun c b => B1 m ρ c b
theorem B1_keep (c : Dev nD) (b : Ref sig .tc) (h : b ∉ hostOps0_W) : B1 m ρ c (Proc.devRef .tc b) = B0 m ρ c (Proc.devRef .tc b) :=
  StableHlo.after_of_writes_sub hostOps0 _ hostOps0_writes h
/-- After the host stretch `hostOps0_1`. -/
abbrev B2 : Dev nD → Valuation τ sig (Elt F) := fun c => StableHlo.after hostOps0_1 (B1 m ρ c)
abbrev U2 : (c : Dev nD) → (b : Ref sig .tc) → Buf (Elt F) ((c : Thread nD τ).loc b) := fun c b => B2 m ρ c b
theorem B2_keep (c : Dev nD) (b : Ref sig .tc) (h : b ∉ hostOps0_1_W) : B2 m ρ c (Proc.devRef .tc b) = B1 m ρ c (Proc.devRef .tc b) :=
  StableHlo.after_of_writes_sub hostOps0_1 _ hostOps0_1_writes h
/-- After the host stretch `hostOps0_2`. -/
abbrev B3 : Dev nD → Valuation τ sig (Elt F) := fun c => StableHlo.after hostOps0_2 (B2 m ρ c)
abbrev U3 : (c : Dev nD) → (b : Ref sig .tc) → Buf (Elt F) ((c : Thread nD τ).loc b) := fun c b => B3 m ρ c b
theorem B3_keep (c : Dev nD) (b : Ref sig .tc) (h : b ∉ hostOps0_2_W) : B3 m ρ c (Proc.devRef .tc b) = B2 m ρ c (Proc.devRef .tc b) :=
  StableHlo.after_of_writes_sub hostOps0_2 _ hostOps0_2_writes h
/-- At region 0's exit: its arrays at what the pipeline leaves (inputs as entered, each output's write-backs folded), every other buffer as entered. -/
def B4 (c : Dev nD) : Valuation τ sig (Elt F) :=
  Pipeline.withArrays spec0 c (B3 m ρ c) fun w => (dat0 (U3 m ρ) c).arrAt w cfg0.N
theorem B4_arr (c : Dev nD) (w : Fin cfg0.W) :
    B4 m ρ c (Proc.devRef .tc (Pipeline.arrRef spec0 w)) = (dat0 (U3 m ρ) c).arrAt w cfg0.N := by
  unfold B4; exact Pipeline.withArrays_arr spec0 launch0.win.arr_inj c _ _ w
theorem B4_of_ne (c : Dev nD) (b : Ref sig .tc) (hb : ∀ w, Pipeline.arrRef spec0 w ≠ b) :
    B4 m ρ c (Proc.devRef .tc b) = B3 m ρ c (Proc.devRef .tc b) := by
  unfold B4; exact Pipeline.withArrays_of_ne spec0 c _ _ b hb
abbrev U4 : (c : Dev nD) → (b : Ref sig .tc) → Buf (Elt F) ((c : Thread nD τ).loc b) := fun c b => B4 m ρ c b
theorem hF0 (c : Dev nD) (w : Fin cfg0.W) : (dat0 (U3 m ρ) c).arrAt w cfg0.N = U4 m ρ c (Pipeline.arrRef spec0 w) :=
  (B4_arr m ρ c w).symm
theorem hrest0 (c : Dev nD) : ∀ b, b ∉ Finset.univ.image (Pipeline.arrRef spec0) → U4 m ρ c b = U3 m ρ c b :=
  fun b hb => B4_of_ne m ρ c b fun w e => hb (Finset.mem_image.mpr ⟨w, Finset.mem_univ _, e⟩)
/-- Region 0 changes only its output arrays: an input window's array is put back as entered. -/
theorem B4_keep (c : Dev nD) (b : Ref sig .tc) (h : b ∉ ([main_v26] : List (Ref sig .tc))) :
    B4 m ρ c (Proc.devRef .tc b) = B3 m ρ c (Proc.devRef .tc b) := by
  by_cases hw : ∃ w, Pipeline.arrRef spec0 w = b
  · obtain ⟨w, rfl⟩ := hw
    rw [B4_arr]
    fin_cases w
    · exact ((dat0 (U3 m ρ) c).arrAt_in 0 rfl _).trans (A_eq0 (U3 m ρ) c 0)
    · exact ((dat0 (U3 m ρ) c).arrAt_in 1 rfl _).trans (A_eq0 (U3 m ρ) c 1)
    · exact absurd (by decide) h
  · exact B4_of_ne m ρ c b fun w e => hw ⟨w, e⟩
/-- After the host stretch `hostOps1`. -/
abbrev B5 : Dev nD → Valuation τ sig (Elt F) := fun c => StableHlo.after hostOps1 (B4 m ρ c)
abbrev U5 : (c : Dev nD) → (b : Ref sig .tc) → Buf (Elt F) ((c : Thread nD τ).loc b) := fun c b => B5 m ρ c b
theorem B5_keep (c : Dev nD) (b : Ref sig .tc) (h : b ∉ hostOps1_W) : B5 m ρ c (Proc.devRef .tc b) = B4 m ρ c (Proc.devRef .tc b) :=
  StableHlo.after_of_writes_sub hostOps1 _ hostOps1_writes h
/-- At region 1's exit: its arrays at what the pipeline leaves (inputs as entered, each output's write-backs folded), every other buffer as entered. -/
def B6 (c : Dev nD) : Valuation τ sig (Elt F) :=
  Pipeline.withArrays spec1 c (B5 m ρ c) fun w => (dat1 (U5 m ρ) c).arrAt w cfg1.N
theorem B6_arr (c : Dev nD) (w : Fin cfg1.W) :
    B6 m ρ c (Proc.devRef .tc (Pipeline.arrRef spec1 w)) = (dat1 (U5 m ρ) c).arrAt w cfg1.N := by
  unfold B6; exact Pipeline.withArrays_arr spec1 launch1.win.arr_inj c _ _ w
theorem B6_of_ne (c : Dev nD) (b : Ref sig .tc) (hb : ∀ w, Pipeline.arrRef spec1 w ≠ b) :
    B6 m ρ c (Proc.devRef .tc b) = B5 m ρ c (Proc.devRef .tc b) := by
  unfold B6; exact Pipeline.withArrays_of_ne spec1 c _ _ b hb
abbrev U6 : (c : Dev nD) → (b : Ref sig .tc) → Buf (Elt F) ((c : Thread nD τ).loc b) := fun c b => B6 m ρ c b
theorem hF1 (c : Dev nD) (w : Fin cfg1.W) : (dat1 (U5 m ρ) c).arrAt w cfg1.N = U6 m ρ c (Pipeline.arrRef spec1 w) :=
  (B6_arr m ρ c w).symm
theorem hrest1 (c : Dev nD) : ∀ b, b ∉ Finset.univ.image (Pipeline.arrRef spec1) → U6 m ρ c b = U5 m ρ c b :=
  fun b hb => B6_of_ne m ρ c b fun w e => hb (Finset.mem_image.mpr ⟨w, Finset.mem_univ _, e⟩)
/-- Region 1 changes only its output arrays: an input window's array is put back as entered. -/
theorem B6_keep (c : Dev nD) (b : Ref sig .tc) (h : b ∉ ([main_v41_0, main_v41_1] : List (Ref sig .tc))) :
    B6 m ρ c (Proc.devRef .tc b) = B5 m ρ c (Proc.devRef .tc b) := by
  by_cases hw : ∃ w, Pipeline.arrRef spec1 w = b
  · obtain ⟨w, rfl⟩ := hw
    rw [B6_arr]
    fin_cases w
    · exact ((dat1 (U5 m ρ) c).arrAt_in 0 rfl _).trans (A_eq1 (U5 m ρ) c 0)
    · exact ((dat1 (U5 m ρ) c).arrAt_in 1 rfl _).trans (A_eq1 (U5 m ρ) c 1)
    · exact absurd (by decide) h
    · exact absurd (by decide) h
  · exact B6_of_ne m ρ c b fun w e => hw ⟨w, e⟩
/-- After the host stretch `hostOps2`. -/
abbrev B7 : Dev nD → Valuation τ sig (Elt F) := fun c => StableHlo.after hostOps2 (B6 m ρ c)
abbrev U7 : (c : Dev nD) → (b : Ref sig .tc) → Buf (Elt F) ((c : Thread nD τ).loc b) := fun c b => B7 m ρ c b
theorem B7_keep (c : Dev nD) (b : Ref sig .tc) (h : b ∉ hostOps2_W) : B7 m ρ c (Proc.devRef .tc b) = B6 m ρ c (Proc.devRef .tc b) :=
  StableHlo.after_of_writes_sub hostOps2 _ hostOps2_writes h
/-- At region 2's exit: its arrays at what the pipeline leaves (inputs as entered, each output's write-backs folded), every other buffer as entered. -/
def B8 (c : Dev nD) : Valuation τ sig (Elt F) :=
  Pipeline.withArrays spec2 c (B7 m ρ c) fun w => (dat2 (U7 m ρ) c).arrAt w cfg2.N
theorem B8_arr (c : Dev nD) (w : Fin cfg2.W) :
    B8 m ρ c (Proc.devRef .tc (Pipeline.arrRef spec2 w)) = (dat2 (U7 m ρ) c).arrAt w cfg2.N := by
  unfold B8; exact Pipeline.withArrays_arr spec2 launch2.win.arr_inj c _ _ w
theorem B8_of_ne (c : Dev nD) (b : Ref sig .tc) (hb : ∀ w, Pipeline.arrRef spec2 w ≠ b) :
    B8 m ρ c (Proc.devRef .tc b) = B7 m ρ c (Proc.devRef .tc b) := by
  unfold B8; exact Pipeline.withArrays_of_ne spec2 c _ _ b hb
abbrev U8 : (c : Dev nD) → (b : Ref sig .tc) → Buf (Elt F) ((c : Thread nD τ).loc b) := fun c b => B8 m ρ c b
theorem hF2 (c : Dev nD) (w : Fin cfg2.W) : (dat2 (U7 m ρ) c).arrAt w cfg2.N = U8 m ρ c (Pipeline.arrRef spec2 w) :=
  (B8_arr m ρ c w).symm
theorem hrest2 (c : Dev nD) : ∀ b, b ∉ Finset.univ.image (Pipeline.arrRef spec2) → U8 m ρ c b = U7 m ρ c b :=
  fun b hb => B8_of_ne m ρ c b fun w e => hb (Finset.mem_image.mpr ⟨w, Finset.mem_univ _, e⟩)
/-- Region 2 changes only its output arrays: an input window's array is put back as entered. -/
theorem B8_keep (c : Dev nD) (b : Ref sig .tc) (h : b ∉ ([main_v61] : List (Ref sig .tc))) :
    B8 m ρ c (Proc.devRef .tc b) = B7 m ρ c (Proc.devRef .tc b) := by
  by_cases hw : ∃ w, Pipeline.arrRef spec2 w = b
  · obtain ⟨w, rfl⟩ := hw
    rw [B8_arr]
    fin_cases w
    · exact ((dat2 (U7 m ρ) c).arrAt_in 0 rfl _).trans (A_eq2 (U7 m ρ) c 0)
    · exact ((dat2 (U7 m ρ) c).arrAt_in 1 rfl _).trans (A_eq2 (U7 m ρ) c 1)
    · exact ((dat2 (U7 m ρ) c).arrAt_in 2 rfl _).trans (A_eq2 (U7 m ρ) c 2)
    · exact ((dat2 (U7 m ρ) c).arrAt_in 3 rfl _).trans (A_eq2 (U7 m ρ) c 3)
    · exact absurd (by decide) h
  · exact B8_of_ne m ρ c b fun w e => hw ⟨w, e⟩
/-- At region 3's exit: its arrays at what the pipeline leaves (inputs as entered, each output's write-backs folded), every other buffer as entered. -/
def B9 (c : Dev nD) : Valuation τ sig (Elt F) :=
  Pipeline.withArrays spec3 c (B8 m ρ c) fun w => (dat3 (U8 m ρ) c).arrAt w cfg3.N
theorem B9_arr (c : Dev nD) (w : Fin cfg3.W) :
    B9 m ρ c (Proc.devRef .tc (Pipeline.arrRef spec3 w)) = (dat3 (U8 m ρ) c).arrAt w cfg3.N := by
  unfold B9; exact Pipeline.withArrays_arr spec3 launch3.win.arr_inj c _ _ w
theorem B9_of_ne (c : Dev nD) (b : Ref sig .tc) (hb : ∀ w, Pipeline.arrRef spec3 w ≠ b) :
    B9 m ρ c (Proc.devRef .tc b) = B8 m ρ c (Proc.devRef .tc b) := by
  unfold B9; exact Pipeline.withArrays_of_ne spec3 c _ _ b hb
abbrev U9 : (c : Dev nD) → (b : Ref sig .tc) → Buf (Elt F) ((c : Thread nD τ).loc b) := fun c b => B9 m ρ c b
theorem hF3 (c : Dev nD) (w : Fin cfg3.W) : (dat3 (U8 m ρ) c).arrAt w cfg3.N = U9 m ρ c (Pipeline.arrRef spec3 w) :=
  (B9_arr m ρ c w).symm
theorem hrest3 (c : Dev nD) : ∀ b, b ∉ Finset.univ.image (Pipeline.arrRef spec3) → U9 m ρ c b = U8 m ρ c b :=
  fun b hb => B9_of_ne m ρ c b fun w e => hb (Finset.mem_image.mpr ⟨w, Finset.mem_univ _, e⟩)
/-- Region 3 changes only its output arrays: an input window's array is put back as entered. -/
theorem B9_keep (c : Dev nD) (b : Ref sig .tc) (h : b ∉ ([main_v62] : List (Ref sig .tc))) :
    B9 m ρ c (Proc.devRef .tc b) = B8 m ρ c (Proc.devRef .tc b) := by
  by_cases hw : ∃ w, Pipeline.arrRef spec3 w = b
  · obtain ⟨w, rfl⟩ := hw
    rw [B9_arr]
    fin_cases w
    · exact ((dat3 (U8 m ρ) c).arrAt_in 0 rfl _).trans (A_eq3 (U8 m ρ) c 0)
    · exact ((dat3 (U8 m ρ) c).arrAt_in 1 rfl _).trans (A_eq3 (U8 m ρ) c 1)
    · exact absurd (by decide) h
  · exact B9_of_ne m ρ c b fun w e => hw ⟨w, e⟩
/-- After the host stretch `hostOps4`. -/
abbrev B10 : Dev nD → Valuation τ sig (Elt F) := fun c => StableHlo.after hostOps4 (B9 m ρ c)
abbrev U10 : (c : Dev nD) → (b : Ref sig .tc) → Buf (Elt F) ((c : Thread nD τ).loc b) := fun c b => B10 m ρ c b
theorem B10_keep (c : Dev nD) (b : Ref sig .tc) (h : b ∉ hostOps4_W) : B10 m ρ c (Proc.devRef .tc b) = B9 m ρ c (Proc.devRef .tc b) :=
  StableHlo.after_of_writes_sub hostOps4 _ hostOps4_writes h
/-- At region 4's exit: its arrays at what the pipeline leaves (inputs as entered, each output's write-backs folded), every other buffer as entered. -/
def B11 (c : Dev nD) : Valuation τ sig (Elt F) :=
  Pipeline.withArrays spec4 c (B10 m ρ c) fun w => (dat4 (U10 m ρ) c).arrAt w cfg4.N
theorem B11_arr (c : Dev nD) (w : Fin cfg4.W) :
    B11 m ρ c (Proc.devRef .tc (Pipeline.arrRef spec4 w)) = (dat4 (U10 m ρ) c).arrAt w cfg4.N := by
  unfold B11; exact Pipeline.withArrays_arr spec4 launch4.win.arr_inj c _ _ w
theorem B11_of_ne (c : Dev nD) (b : Ref sig .tc) (hb : ∀ w, Pipeline.arrRef spec4 w ≠ b) :
    B11 m ρ c (Proc.devRef .tc b) = B10 m ρ c (Proc.devRef .tc b) := by
  unfold B11; exact Pipeline.withArrays_of_ne spec4 c _ _ b hb
abbrev U11 : (c : Dev nD) → (b : Ref sig .tc) → Buf (Elt F) ((c : Thread nD τ).loc b) := fun c b => B11 m ρ c b
theorem hF4 (c : Dev nD) (w : Fin cfg4.W) : (dat4 (U10 m ρ) c).arrAt w cfg4.N = U11 m ρ c (Pipeline.arrRef spec4 w) :=
  (B11_arr m ρ c w).symm
theorem hrest4 (c : Dev nD) : ∀ b, b ∉ Finset.univ.image (Pipeline.arrRef spec4) → U11 m ρ c b = U10 m ρ c b :=
  fun b hb => B11_of_ne m ρ c b fun w e => hb (Finset.mem_image.mpr ⟨w, Finset.mem_univ _, e⟩)
/-- Region 4 changes only its output arrays: an input window's array is put back as entered. -/
theorem B11_keep (c : Dev nD) (b : Ref sig .tc) (h : b ∉ ([main_v77_0, main_v77_1] : List (Ref sig .tc))) :
    B11 m ρ c (Proc.devRef .tc b) = B10 m ρ c (Proc.devRef .tc b) := by
  by_cases hw : ∃ w, Pipeline.arrRef spec4 w = b
  · obtain ⟨w, rfl⟩ := hw
    rw [B11_arr]
    fin_cases w
    · exact ((dat4 (U10 m ρ) c).arrAt_in 0 rfl _).trans (A_eq4 (U10 m ρ) c 0)
    · exact ((dat4 (U10 m ρ) c).arrAt_in 1 rfl _).trans (A_eq4 (U10 m ρ) c 1)
    · exact absurd (by decide) h
    · exact absurd (by decide) h
  · exact B11_of_ne m ρ c b fun w e => hw ⟨w, e⟩
/-- After the host stretch `hostOps5`. -/
abbrev B12 : Dev nD → Valuation τ sig (Elt F) := fun c => StableHlo.after hostOps5 (B11 m ρ c)
abbrev U12 : (c : Dev nD) → (b : Ref sig .tc) → Buf (Elt F) ((c : Thread nD τ).loc b) := fun c b => B12 m ρ c b
theorem B12_keep (c : Dev nD) (b : Ref sig .tc) (h : b ∉ hostOps5_W) : B12 m ρ c (Proc.devRef .tc b) = B11 m ρ c (Proc.devRef .tc b) :=
  StableHlo.after_of_writes_sub hostOps5 _ hostOps5_writes h
/-- At region 5's exit: its arrays at what the pipeline leaves (inputs as entered, each output's write-backs folded), every other buffer as entered. -/
def B13 (c : Dev nD) : Valuation τ sig (Elt F) :=
  Pipeline.withArrays spec5 c (B12 m ρ c) fun w => (dat5 (U12 m ρ) c).arrAt w cfg5.N
theorem B13_arr (c : Dev nD) (w : Fin cfg5.W) :
    B13 m ρ c (Proc.devRef .tc (Pipeline.arrRef spec5 w)) = (dat5 (U12 m ρ) c).arrAt w cfg5.N := by
  unfold B13; exact Pipeline.withArrays_arr spec5 launch5.win.arr_inj c _ _ w
theorem B13_of_ne (c : Dev nD) (b : Ref sig .tc) (hb : ∀ w, Pipeline.arrRef spec5 w ≠ b) :
    B13 m ρ c (Proc.devRef .tc b) = B12 m ρ c (Proc.devRef .tc b) := by
  unfold B13; exact Pipeline.withArrays_of_ne spec5 c _ _ b hb
abbrev U13 : (c : Dev nD) → (b : Ref sig .tc) → Buf (Elt F) ((c : Thread nD τ).loc b) := fun c b => B13 m ρ c b
theorem hF5 (c : Dev nD) (w : Fin cfg5.W) : (dat5 (U12 m ρ) c).arrAt w cfg5.N = U13 m ρ c (Pipeline.arrRef spec5 w) :=
  (B13_arr m ρ c w).symm
theorem hrest5 (c : Dev nD) : ∀ b, b ∉ Finset.univ.image (Pipeline.arrRef spec5) → U13 m ρ c b = U12 m ρ c b :=
  fun b hb => B13_of_ne m ρ c b fun w e => hb (Finset.mem_image.mpr ⟨w, Finset.mem_univ _, e⟩)
/-- Region 5 changes only its output arrays: an input window's array is put back as entered. -/
theorem B13_keep (c : Dev nD) (b : Ref sig .tc) (h : b ∉ ([main_v97] : List (Ref sig .tc))) :
    B13 m ρ c (Proc.devRef .tc b) = B12 m ρ c (Proc.devRef .tc b) := by
  by_cases hw : ∃ w, Pipeline.arrRef spec5 w = b
  · obtain ⟨w, rfl⟩ := hw
    rw [B13_arr]
    fin_cases w
    · exact ((dat5 (U12 m ρ) c).arrAt_in 0 rfl _).trans (A_eq5 (U12 m ρ) c 0)
    · exact ((dat5 (U12 m ρ) c).arrAt_in 1 rfl _).trans (A_eq5 (U12 m ρ) c 1)
    · exact ((dat5 (U12 m ρ) c).arrAt_in 2 rfl _).trans (A_eq5 (U12 m ρ) c 2)
    · exact ((dat5 (U12 m ρ) c).arrAt_in 3 rfl _).trans (A_eq5 (U12 m ρ) c 3)
    · exact absurd (by decide) h
  · exact B13_of_ne m ρ c b fun w e => hw ⟨w, e⟩
/-- After the host stretch `hostOps6`. -/
abbrev B14 : Dev nD → Valuation τ sig (Elt F) := fun c => StableHlo.after hostOps6 (B13 m ρ c)
abbrev U14 : (c : Dev nD) → (b : Ref sig .tc) → Buf (Elt F) ((c : Thread nD τ).loc b) := fun c b => B14 m ρ c b
theorem B14_keep (c : Dev nD) (b : Ref sig .tc) (h : b ∉ hostOps6_W) : B14 m ρ c (Proc.devRef .tc b) = B13 m ρ c (Proc.devRef .tc b) :=
  StableHlo.after_of_writes_sub hostOps6 _ hostOps6_writes h
/-- At region 6's exit: its arrays at what the pipeline leaves (inputs as entered, each output's write-backs folded), every other buffer as entered. -/
def B15 (c : Dev nD) : Valuation τ sig (Elt F) :=
  Pipeline.withArrays spec6 c (B14 m ρ c) fun w => (dat6 (U14 m ρ) c).arrAt w cfg6.N
theorem B15_arr (c : Dev nD) (w : Fin cfg6.W) :
    B15 m ρ c (Proc.devRef .tc (Pipeline.arrRef spec6 w)) = (dat6 (U14 m ρ) c).arrAt w cfg6.N := by
  unfold B15; exact Pipeline.withArrays_arr spec6 launch6.win.arr_inj c _ _ w
theorem B15_of_ne (c : Dev nD) (b : Ref sig .tc) (hb : ∀ w, Pipeline.arrRef spec6 w ≠ b) :
    B15 m ρ c (Proc.devRef .tc b) = B14 m ρ c (Proc.devRef .tc b) := by
  unfold B15; exact Pipeline.withArrays_of_ne spec6 c _ _ b hb
abbrev U15 : (c : Dev nD) → (b : Ref sig .tc) → Buf (Elt F) ((c : Thread nD τ).loc b) := fun c b => B15 m ρ c b
theorem hF6 (c : Dev nD) (w : Fin cfg6.W) : (dat6 (U14 m ρ) c).arrAt w cfg6.N = U15 m ρ c (Pipeline.arrRef spec6 w) :=
  (B15_arr m ρ c w).symm
theorem hrest6 (c : Dev nD) : ∀ b, b ∉ Finset.univ.image (Pipeline.arrRef spec6) → U15 m ρ c b = U14 m ρ c b :=
  fun b hb => B15_of_ne m ρ c b fun w e => hb (Finset.mem_image.mpr ⟨w, Finset.mem_univ _, e⟩)
/-- Region 6 changes only its output arrays: an input window's array is put back as entered. -/
theorem B15_keep (c : Dev nD) (b : Ref sig .tc) (h : b ∉ ([main_v101] : List (Ref sig .tc))) :
    B15 m ρ c (Proc.devRef .tc b) = B14 m ρ c (Proc.devRef .tc b) := by
  by_cases hw : ∃ w, Pipeline.arrRef spec6 w = b
  · obtain ⟨w, rfl⟩ := hw
    rw [B15_arr]
    fin_cases w
    · exact ((dat6 (U14 m ρ) c).arrAt_in 0 rfl _).trans (A_eq6 (U14 m ρ) c 0)
    · exact ((dat6 (U14 m ρ) c).arrAt_in 1 rfl _).trans (A_eq6 (U14 m ρ) c 1)
    · exact ((dat6 (U14 m ρ) c).arrAt_in 2 rfl _).trans (A_eq6 (U14 m ρ) c 2)
    · exact ((dat6 (U14 m ρ) c).arrAt_in 3 rfl _).trans (A_eq6 (U14 m ρ) c 3)
    · exact ((dat6 (U14 m ρ) c).arrAt_in 4 rfl _).trans (A_eq6 (U14 m ρ) c 4)
    · exact ((dat6 (U14 m ρ) c).arrAt_in 5 rfl _).trans (A_eq6 (U14 m ρ) c 5)
    · exact ((dat6 (U14 m ρ) c).arrAt_in 6 rfl _).trans (A_eq6 (U14 m ρ) c 6)
    · exact absurd (by decide) h
  · exact B15_of_ne m ρ c b fun w e => hw ⟨w, e⟩

/-- Every reference some item may write. -/
abbrev written : List (Ref sig .tc) := hostOps0_W ++ hostOps0_1_W ++ hostOps0_2_W ++ ([main_v26] : List (Ref sig .tc)) ++ hostOps1_W ++ ([main_v41_0, main_v41_1] : List (Ref sig .tc)) ++ hostOps2_W ++ ([main_v61] : List (Ref sig .tc)) ++ ([main_v62] : List (Ref sig .tc)) ++ hostOps4_W ++ ([main_v77_0, main_v77_1] : List (Ref sig .tc)) ++ hostOps5_W ++ ([main_v97] : List (Ref sig .tc)) ++ hostOps6_W ++ ([main_v101] : List (Ref sig .tc))

/-- A buffer no item writes ends as launched. -/
theorem B15_unwritten (c : Dev nD) (b : Ref sig .tc) (h : b ∉ written) : B15 m ρ c (Proc.devRef .tc b) = m ((c : Thread nD τ).loc b) := by
  simp only [written, List.mem_append, not_or] at h
  obtain ⟨⟨⟨⟨⟨⟨⟨⟨⟨⟨⟨⟨⟨⟨h1, h2⟩, h3⟩, h4⟩, h5⟩, h6⟩, h7⟩, h8⟩, h9⟩, h10⟩, h11⟩, h12⟩, h13⟩, h14⟩, h15⟩ := h
  exact (B15_keep m ρ c b h15).trans <| (B14_keep m ρ c b h14).trans <| (B13_keep m ρ c b h13).trans <| (B12_keep m ρ c b h12).trans <| (B11_keep m ρ c b h11).trans <| (B10_keep m ρ c b h10).trans <| (B9_keep m ρ c b h9).trans <| (B8_keep m ρ c b h8).trans <| (B7_keep m ρ c b h7).trans <| (B6_keep m ρ c b h6).trans <| (B5_keep m ρ c b h5).trans <| (B4_keep m ρ c b h4).trans <| (B3_keep m ρ c b h3).trans <| (B2_keep m ρ c b h2).trans <| (B1_keep m ρ c b h1).trans <| rfl

/-! ## The proof data family and the thread state -/

abbrev admF : (p : Fin 7) → (pcfgs (F := F) p).Adm := fun p => (cfgs p).toPCfg_adm
/-- Every pipeline's proof data, each at its region's entry contents. -/
def pdatsF : (p : Fin 7) → (c : Dev nD) → Dat τ (Elt F) Unit ℕ (UR sig nD τ) ℕ (Pipeline.pin (pcfgs (F := F)) admF p) c
  | ⟨0, _⟩ => fun c => dat0 (U3 m ρ) c
  | ⟨1, _⟩ => fun c => dat1 (U5 m ρ) c
  | ⟨2, _⟩ => fun c => dat2 (U7 m ρ) c
  | ⟨3, _⟩ => fun c => dat3 (U8 m ρ) c
  | ⟨4, _⟩ => fun c => dat4 (U10 m ρ) c
  | ⟨5, _⟩ => fun c => dat5 (U12 m ρ) c
  | ⟨6, _⟩ => fun c => dat6 (U14 m ρ) c
abbrev 𝒱F : Variants := Variants.none
abbrev LF : GSem nD τ sig → Finset Unit := fun _ => ∅
abbrev lvF : GSem nD τ sig → Unit → ℕ := fun _ _ => 0
/-- What rides beside the buffers: the generator register at some state and the core's dues, at nothing. -/
abbrev RF (c : Dev nD) : sProp 𝕄 := iprop((∃ r, prngReg c r) ∗ ∃ W, owes (c : Thread nD τ) (0 : CellTallies nD τ sig Unit) W)
abbrev hsegF (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱F LF lvF :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W RF
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev TnF (c : Dev nD) : sProp 𝕄 := iprop(StableHlo.held (c : Thread nD τ) (Pipeline.ucRefs τ sig) (B15 m ρ c) ∗ ∃ r, prngReg c r)

/-- The class-A invariant is the scoped rest beside the generator register: assembled from the register, anything
    dropped, and the scoped rest, -/
theorem ΦA_in {gr W : ℕ} (win : Fin W → Pipeline.WinSpec sig gr) (c : Dev nD) (P : sProp 𝕄) :
    iprop((∃ r, prngReg c r) ∗ P ∗ Pipeline.scopedRest (Ix := Unit) (Name := ℕ) (U := UR sig nD τ) (Lvl := ℕ) (Val := Elt F) win c)
      ⊢ Pipeline.ΦA win c := by
  unfold Pipeline.ΦA
  iintro ⟨Hp, -, Hr⟩
  isplitl [Hr]; · iexact Hr
  iexact Hp
/-- and taken apart again. -/
theorem ΦA_out {gr W : ℕ} (win : Fin W → Pipeline.WinSpec sig gr) (c : Dev nD) :
    Pipeline.ΦA win c
      ⊢ iprop((∃ r, prngReg c r) ∗ (BI.emp : sProp 𝕄) ∗ Pipeline.scopedRest (Ix := Unit) (Name := ℕ) (U := UR sig nD τ) (Lvl := ℕ) (Val := Elt F) win c) := by
  unfold Pipeline.ΦA
  iintro ⟨Hr, Hp⟩
  isplitl [Hp]; · iexact Hp
  isplitr; · iempintro
  iexact Hr

/-! ## The regions as segments -/

set_option backward.isDefEq.respectTransparency.types false in
/-- Region 0 over the thread state: entered from every unscoped buffer at the boundary before it, left at the one after. -/
def reg0 : Pipeline.RegionSeg (pcfgs (F := F)) admF (pdatsF m ρ) () defs₀ 𝒱F LF lvF 0 where
  win := launch0.win.to₀
  block_pos := launch0.block_pos
  stage_whole := launch0.stage_whole
  K := PEmpty
  osem k := k.elim
  ho := Pipeline.OwnSemFacts.none _
  hbody c := (body_obligation0 (U3 m ρ) c).loose
  hwaits := Pipeline.hwaits_of_owed_zero _ _ _ _ LF lvF 0 fun _ _ => rfl
  pre c := iprop(StableHlo.held (c : Thread nD τ) (Pipeline.ucRefs τ sig) (B3 m ρ c) ∗ RF c)
  post c := iprop(StableHlo.held (c : Thread nD τ) (Pipeline.ucRefs τ sig) (B4 m ρ c) ∗ RF c)
  X c := iprop(∃ r, prngReg c r)
  Y c := iprop(∃ r, prngReg c r)
  Z c := Pipeline.unscopedRest (Ix := Unit) (Name := ℕ) (U := UR sig nD τ) (Lvl := ℕ) spec0 c (U3 m ρ c)
  hentry c := by
    rw [Pipeline.ownSems0_none]
    have hsplit := Pipeline.arrays_of_unscopedBufs (p := 0) (pcfgs (F := F)) admF (pdatsF m ρ) launch0.win launch0.arr_whole c
      ((pdatsF m ρ 0 c).share_full fun _ => rfl) (U3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdatsF m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) admF (Ix := Unit) (Name := ℕ) (U := UR sig nD τ) (Lvl := ℕ)
      launch0.win launch0.arr_whole c (pdatsF m ρ) ((pdatsF m ρ 0 c).share_full fun _ => rfl)
      (U3 m ρ c) (U4 m ρ c) ((pdatsF m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the one after. -/
def reg1 : Pipeline.RegionSeg (pcfgs (F := F)) admF (pdatsF m ρ) () defs₀ 𝒱F LF lvF 1 where
  win := launch1.win.to₀
  block_pos := launch1.block_pos
  stage_whole := launch1.stage_whole
  K := PEmpty
  osem k := k.elim
  ho := Pipeline.OwnSemFacts.none _
  hbody c := (body_obligation1 (U5 m ρ) c).loose
  hwaits := Pipeline.hwaits_of_owed_zero _ _ _ _ LF lvF 1 fun _ _ => rfl
  pre c := iprop(StableHlo.held (c : Thread nD τ) (Pipeline.ucRefs τ sig) (B5 m ρ c) ∗ RF c)
  post c := iprop(StableHlo.held (c : Thread nD τ) (Pipeline.ucRefs τ sig) (B6 m ρ c) ∗ RF c)
  X c := iprop(∃ r, prngReg c r)
  Y c := iprop(∃ r, prngReg c r)
  Z c := Pipeline.unscopedRest (Ix := Unit) (Name := ℕ) (U := UR sig nD τ) (Lvl := ℕ) spec1 c (U5 m ρ c)
  hentry c := by
    rw [Pipeline.ownSems0_none]
    have hsplit := Pipeline.arrays_of_unscopedBufs (p := 1) (pcfgs (F := F)) admF (pdatsF m ρ) launch1.win launch1.arr_whole c
      ((pdatsF m ρ 1 c).share_full fun _ => rfl) (U5 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 1 c).Φ 0 = (dat1 (U5 m ρ) c).Φ 0 from rfl]
    exact (ΦA_in spec1 c _).trans (hin1 (U5 m ρ) c)
  hout c := by
    rw [Pipeline.ownSems0_none, show (pdatsF m ρ 1 c).Φ (Fin.last _) = (dat1 (U5 m ρ) c).Φ (Fin.last cfg1.N) from rfl]
    exact (hout1 (U5 m ρ) c).trans (ΦA_out spec1 c)
  hexit c := by
    have hjoin := Pipeline.unscopedBufs_of_arrays (p := 1) (pcfgs (F := F)) admF (Ix := Unit) (Name := ℕ) (U := UR sig nD τ) (Lvl := ℕ)
      launch1.win launch1.arr_whole c (pdatsF m ρ) ((pdatsF m ρ 1 c).share_full fun _ => rfl)
      (U5 m ρ c) (U6 m ρ c) ((pdatsF m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary before it, left at the one after. -/
def reg2 : Pipeline.RegionSeg (pcfgs (F := F)) admF (pdatsF m ρ) () defs₀ 𝒱F LF lvF 2 where
  win := launch2.win.to₀
  block_pos := launch2.block_pos
  stage_whole := launch2.stage_whole
  K := PEmpty
  osem k := k.elim
  ho := Pipeline.OwnSemFacts.none _
  hbody c := (body_obligation2 (U7 m ρ) c).loose
  hwaits := Pipeline.hwaits_of_owed_zero _ _ _ _ LF lvF 2 fun _ _ => rfl
  pre c := iprop(StableHlo.held (c : Thread nD τ) (Pipeline.ucRefs τ sig) (B7 m ρ c) ∗ RF c)
  post c := iprop(StableHlo.held (c : Thread nD τ) (Pipeline.ucRefs τ sig) (B8 m ρ c) ∗ RF c)
  X c := iprop(∃ r, prngReg c r)
  Y c := iprop(∃ r, prngReg c r)
  Z c := Pipeline.unscopedRest (Ix := Unit) (Name := ℕ) (U := UR sig nD τ) (Lvl := ℕ) spec2 c (U7 m ρ c)
  hentry c := by
    rw [Pipeline.ownSems0_none]
    have hsplit := Pipeline.arrays_of_unscopedBufs (p := 2) (pcfgs (F := F)) admF (pdatsF m ρ) launch2.win launch2.arr_whole c
      ((pdatsF m ρ 2 c).share_full fun _ => rfl) (U7 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdatsF m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) admF (Ix := Unit) (Name := ℕ) (U := UR sig nD τ) (Lvl := ℕ)
      launch2.win launch2.arr_whole c (pdatsF m ρ) ((pdatsF m ρ 2 c).share_full fun _ => rfl)
      (U7 m ρ c) (U8 m ρ c) ((pdatsF m ρ 2 c).arrAt · cfg2.N) (hF2 m ρ c) (hrest2 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the boundary before it, left at the one after. -/
def reg3 : Pipeline.RegionSeg (pcfgs (F := F)) admF (pdatsF m ρ) () defs₀ 𝒱F LF lvF 3 where
  win := launch3.win.to₀
  block_pos := launch3.block_pos
  stage_whole := launch3.stage_whole
  K := PEmpty
  osem k := k.elim
  ho := Pipeline.OwnSemFacts.none _
  hbody c := (body_obligation3 (U8 m ρ) c).loose
  hwaits := Pipeline.hwaits_of_owed_zero _ _ _ _ LF lvF 3 fun _ _ => rfl
  pre c := iprop(StableHlo.held (c : Thread nD τ) (Pipeline.ucRefs τ sig) (B8 m ρ c) ∗ RF c)
  post c := iprop(StableHlo.held (c : Thread nD τ) (Pipeline.ucRefs τ sig) (B9 m ρ c) ∗ RF c)
  X c := iprop(∃ r, prngReg c r)
  Y c := iprop(∃ r, prngReg c r)
  Z c := Pipeline.unscopedRest (Ix := Unit) (Name := ℕ) (U := UR sig nD τ) (Lvl := ℕ) spec3 c (U8 m ρ c)
  hentry c := by
    rw [Pipeline.ownSems0_none]
    have hsplit := Pipeline.arrays_of_unscopedBufs (p := 3) (pcfgs (F := F)) admF (pdatsF m ρ) launch3.win launch3.arr_whole c
      ((pdatsF m ρ 3 c).share_full fun _ => rfl) (U8 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 3 c).Φ 0 = Pipeline.ΦA spec3 c from rfl]; unfold Pipeline.ΦA
    iintro ⟨Hp, -, Hr⟩
    isplitl [Hr]; · iexact Hr
    iexact Hp
  hout c := by
    rw [Pipeline.ownSems0_none, show (pdatsF m ρ 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) admF (Ix := Unit) (Name := ℕ) (U := UR sig nD τ) (Lvl := ℕ)
      launch3.win launch3.arr_whole c (pdatsF m ρ) ((pdatsF m ρ 3 c).share_full fun _ => rfl)
      (U8 m ρ c) (U9 m ρ c) ((pdatsF m ρ 3 c).arrAt · cfg3.N) (hF3 m ρ c) (hrest3 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the boundary before it, left at the one after. -/
def reg4 : Pipeline.RegionSeg (pcfgs (F := F)) admF (pdatsF m ρ) () defs₀ 𝒱F LF lvF 4 where
  win := launch4.win.to₀
  block_pos := launch4.block_pos
  stage_whole := launch4.stage_whole
  K := PEmpty
  osem k := k.elim
  ho := Pipeline.OwnSemFacts.none _
  hbody c := (body_obligation4 (U10 m ρ) c).loose
  hwaits := Pipeline.hwaits_of_owed_zero _ _ _ _ LF lvF 4 fun _ _ => rfl
  pre c := iprop(StableHlo.held (c : Thread nD τ) (Pipeline.ucRefs τ sig) (B10 m ρ c) ∗ RF c)
  post c := iprop(StableHlo.held (c : Thread nD τ) (Pipeline.ucRefs τ sig) (B11 m ρ c) ∗ RF c)
  X c := iprop(∃ r, prngReg c r)
  Y c := iprop(∃ r, prngReg c r)
  Z c := Pipeline.unscopedRest (Ix := Unit) (Name := ℕ) (U := UR sig nD τ) (Lvl := ℕ) spec4 c (U10 m ρ c)
  hentry c := by
    rw [Pipeline.ownSems0_none]
    have hsplit := Pipeline.arrays_of_unscopedBufs (p := 4) (pcfgs (F := F)) admF (pdatsF m ρ) launch4.win launch4.arr_whole c
      ((pdatsF m ρ 4 c).share_full fun _ => rfl) (U10 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 4 c).Φ 0 = (dat4 (U10 m ρ) c).Φ 0 from rfl]
    exact (ΦA_in spec4 c _).trans (hin4 (U10 m ρ) c)
  hout c := by
    rw [Pipeline.ownSems0_none, show (pdatsF m ρ 4 c).Φ (Fin.last _) = (dat4 (U10 m ρ) c).Φ (Fin.last cfg4.N) from rfl]
    exact (hout4 (U10 m ρ) c).trans (ΦA_out spec4 c)
  hexit c := by
    have hjoin := Pipeline.unscopedBufs_of_arrays (p := 4) (pcfgs (F := F)) admF (Ix := Unit) (Name := ℕ) (U := UR sig nD τ) (Lvl := ℕ)
      launch4.win launch4.arr_whole c (pdatsF m ρ) ((pdatsF m ρ 4 c).share_full fun _ => rfl)
      (U10 m ρ c) (U11 m ρ c) ((pdatsF m ρ 4 c).arrAt · cfg4.N) (hF4 m ρ c) (hrest4 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at the boundary before it, left at the one after. -/
def reg5 : Pipeline.RegionSeg (pcfgs (F := F)) admF (pdatsF m ρ) () defs₀ 𝒱F LF lvF 5 where
  win := launch5.win.to₀
  block_pos := launch5.block_pos
  stage_whole := launch5.stage_whole
  K := PEmpty
  osem k := k.elim
  ho := Pipeline.OwnSemFacts.none _
  hbody c := (body_obligation5 (U12 m ρ) c).loose
  hwaits := Pipeline.hwaits_of_owed_zero _ _ _ _ LF lvF 5 fun _ _ => rfl
  pre c := iprop(StableHlo.held (c : Thread nD τ) (Pipeline.ucRefs τ sig) (B12 m ρ c) ∗ RF c)
  post c := iprop(StableHlo.held (c : Thread nD τ) (Pipeline.ucRefs τ sig) (B13 m ρ c) ∗ RF c)
  X c := iprop(∃ r, prngReg c r)
  Y c := iprop(∃ r, prngReg c r)
  Z c := Pipeline.unscopedRest (Ix := Unit) (Name := ℕ) (U := UR sig nD τ) (Lvl := ℕ) spec5 c (U12 m ρ c)
  hentry c := by
    rw [Pipeline.ownSems0_none]
    have hsplit := Pipeline.arrays_of_unscopedBufs (p := 5) (pcfgs (F := F)) admF (pdatsF m ρ) launch5.win launch5.arr_whole c
      ((pdatsF m ρ 5 c).share_full fun _ => rfl) (U12 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 5 c).Φ 0 = Pipeline.ΦA spec5 c from rfl]; unfold Pipeline.ΦA
    iintro ⟨Hp, -, Hr⟩
    isplitl [Hr]; · iexact Hr
    iexact Hp
  hout c := by
    rw [Pipeline.ownSems0_none, show (pdatsF m ρ 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) admF (Ix := Unit) (Name := ℕ) (U := UR sig nD τ) (Lvl := ℕ)
      launch5.win launch5.arr_whole c (pdatsF m ρ) ((pdatsF m ρ 5 c).share_full fun _ => rfl)
      (U12 m ρ c) (U13 m ρ c) ((pdatsF m ρ 5 c).arrAt · cfg5.N) (hF5 m ρ c) (hrest5 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at the boundary before it, left at the one after. -/
def reg6 : Pipeline.RegionSeg (pcfgs (F := F)) admF (pdatsF m ρ) () defs₀ 𝒱F LF lvF 6 where
  win := launch6.win.to₀
  block_pos := launch6.block_pos
  stage_whole := launch6.stage_whole
  K := PEmpty
  osem k := k.elim
  ho := Pipeline.OwnSemFacts.none _
  hbody c := (body_obligation6 (U14 m ρ) c).loose
  hwaits := Pipeline.hwaits_of_owed_zero _ _ _ _ LF lvF 6 fun _ _ => rfl
  pre c := iprop(StableHlo.held (c : Thread nD τ) (Pipeline.ucRefs τ sig) (B14 m ρ c) ∗ RF c)
  post c := iprop(TnF m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec6 c (U14 m ρ c)
  hentry c := by
    rw [Pipeline.ownSems0_none]
    have hsplit := Pipeline.arrays_of_unscopedBufs (p := 6) (pcfgs (F := F)) admF (pdatsF m ρ) launch6.win launch6.arr_whole c
      ((pdatsF m ρ 6 c).share_full fun _ => rfl) (U14 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdatsF m ρ 6 c).Φ 0 = Pipeline.ΦA spec6 c from rfl]; unfold Pipeline.ΦA
    iintro ⟨Hp, -, Hr⟩
    isplitl [Hr]; · iexact Hr
    iexact Hp
  hout c := by
    rw [Pipeline.ownSems0_none, show (pdatsF m ρ 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) admF (Ix := Unit) (Name := ℕ) (U := UR sig nD τ) (Lvl := ℕ)
      launch6.win launch6.arr_whole c (pdatsF m ρ) ((pdatsF m ρ 6 c).share_full fun _ => rfl)
      (U14 m ρ c) (U15 m ρ c) ((pdatsF m ρ 6 c).arrAt · cfg6.N) (hF6 m ρ c) (hrest6 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the run -/

abbrev segsF : List (Pipeline.Seg (pcfgs (F := F)) admF (pdatsF m ρ) () defs₀ 𝒱F LF lvF) :=
  [ .host (hsegF hostOps0 hostOps0_sub hostOps0_fresh (B0 m ρ)),
    .host (hsegF hostOps0_1 hostOps0_1_sub hostOps0_1_fresh (B1 m ρ)),
    .host (hsegF hostOps0_2 hostOps0_2_sub hostOps0_2_fresh (B2 m ρ)),
    .region (reg0 m ρ),
    .host (hsegF hostOps1 hostOps1_sub hostOps1_fresh (B4 m ρ)),
    .region (reg1 m ρ),
    .host (hsegF hostOps2 hostOps2_sub hostOps2_fresh (B6 m ρ)),
    .region (reg2 m ρ),
    .region (reg3 m ρ),
    .host (hsegF hostOps4 hostOps4_sub hostOps4_fresh (B9 m ρ)),
    .region (reg4 m ρ),
    .host (hsegF hostOps5 hostOps5_sub hostOps5_fresh (B11 m ρ)),
    .region (reg5 m ρ),
    .host (hsegF hostOps6 hostOps6_sub hostOps6_fresh (B13 m ρ)),
    .region (reg6 m ρ) ]

theorem main_run (c : Dev nD) : main (F := F) c = Pipeline.Seg.run (segsF m ρ) := (main_chain c).trans (by chain_rfl)

set_option backward.isDefEq.respectTransparency.types false in
/-- THE RUN: from any memory with zero counters every weakly fair execution of @main terminates, nothing faulting, and
    the final memory agrees with the last boundary's contents on every unscoped buffer of every core. -/
theorem run : θ_run defs (onTc (τ := τ) (main (F := F))) ⟨m, fun _ => 0, ρ⟩ (fun r => ∀ c : Dev nD,
      ∀ b ∈ Pipeline.ucRefs τ sig, r.2.mem (((c : Thread nD τ)).1, b) = B15 m ρ c b) :=
  Pipeline.θ_run_regions_kit (pcfgs (F := F)) admF (pdatsF m ρ) () cellOf_inj emb₁ defs₀ 𝒱F LF lvF m ρ main (segsF m ρ)
    (fun c Q => by rw [main_run m ρ c])
    (by simp only [segsF, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (B0 m ρ c) ∗ RF c)) (Tₙ := TnF m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach LF lvF fun c => ?_
      rw [show unscopedBufs c (fun b => m ((c : Thread nD τ).loc b)) = StableHlo.held (c : Thread nD τ) (Pipeline.ucRefs τ sig) (B0 m ρ c)
        from Pipeline.unscopedBufs_held c (B0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = B15 m ρ c b)
    (hfin := fun c s' => by
      iintro ⟨⟨Hh, -⟩, HSI⟩
      unfold StableHlo.held
      imodintro
      iapply (pointsTo_read_all (Pipeline.ucRefs τ sig) (fun b => (((c : Thread nD τ)).1, b)) (B15 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_arg0 (by decide))).trans (B15_unwritten m ρ c main_arg0 (by decide)),
    (h c _ (mem_uc main_arg1 (by decide))).trans (B15_unwritten m ρ c main_arg1 (by decide)),
    (h c _ (mem_uc main_arg2 (by decide))).trans (B15_unwritten m ρ c main_arg2 (by decide)),
    (h c _ (mem_uc main_arg3 (by decide))).trans (B15_unwritten m ρ c main_arg3 (by decide)),
    (h c _ (mem_uc main_arg4 (by decide))).trans (B15_unwritten m ρ c main_arg4 (by decide)),
    (h c _ (mem_uc main_arg5 (by decide))).trans (B15_unwritten m ρ c main_arg5 (by decide)),
    (h c _ (mem_uc main_arg6 (by decide))).trans (B15_unwritten m ρ c main_arg6 (by decide)),
    (h c _ (mem_uc main_arg7 (by decide))).trans (B15_unwritten m ρ c main_arg7 (by decide)),
    (h c _ (mem_uc main_arg8 (by decide))).trans (B15_unwritten m ρ c main_arg8 (by decide)),
    (h c _ (mem_uc main_arg9 (by decide))).trans (B15_unwritten m ρ c main_arg9 (by decide)),
    (h c _ (mem_uc main_arg10 (by decide))).trans (B15_unwritten m ρ c main_arg10 (by decide)),
    (h c _ (mem_uc main_arg11 (by decide))).trans (B15_unwritten m ρ c main_arg11 (by decide)),
    (h c _ (mem_uc main_arg12 (by decide))).trans (B15_unwritten m ρ c main_arg12 (by decide)),
    (h c _ (mem_uc main_arg13 (by decide))).trans (B15_unwritten m ρ c main_arg13 (by decide)),
    (h c _ (mem_uc main_arg14 (by decide))).trans (B15_unwritten m ρ c main_arg14 (by decide)),
    (h c _ (mem_uc main_arg15 (by decide))).trans (B15_unwritten m ρ c main_arg15 (by decide)),
    (h c _ (mem_uc main_arg16 (by decide))).trans (B15_unwritten m ρ c main_arg16 (by decide))⟩) (run m ρ)

end Cert.KernelIdeal.Fr

end
-- ==== Proof.KI.Spec.lean ====
import Idealize.ShloMosaic.Lib.ValueIdx
import Idealize.ShloMosaic.PureOps.Ideal

noncomputable section

namespace Cert.Spec

open Idealize.ShloMosaic Idealize.ShloMosaic.ValueIdx

/-- An array of extended reals with `r` rows and `c` columns. -/
abbrev Arr (r c : Nat) : Type := (⟨2, ![r, c]⟩ : Shape).Idx → EReal

/-- The matrix product of a 100000 × K array by a K × 64 array: entry (r, q) is ∑ₖ X(r, k) · W(k, q). -/
def MM (K : Nat) (X : Arr 100000 K) (W : Arr K 64) : Arr 100000 64 :=
  fun i => ∑ k : Fin K, X (ix2 (i 0) k) * W (ix2 k (i 1))

/-- Column-wise affine map and positive part: entry (r, q) is max(((A(r, q) + b(q)) · s(q)) + sh(q), 0). -/
def AFF (A : Arr 100000 64) (b s sh : Arr 1 64) : Arr 100000 64 :=
  fun i => max ((A i + b (ix2 0 (i 1))) * s (ix2 0 (i 1)) + sh (ix2 0 (i 1))) 0

/-- Three dense layers, the first two followed by the positive part, and the logistic function:
    row r is σ(∑ₖ₂ max(∑ₖ₁ max(∑ₖ₀ h(r, k₀) · W0(k₀, k₁) + b0(k₁), 0) · W1(k₁, k₂) + b1(k₂), 0) · W2(k₂, 0) + b2). -/
def HEAD (h : Arr 100000 64) (W0 : Arr 64 64) (b0 : Arr 1 64) (W1 : Arr 64 32) (b1 : Arr 1 32) (W2 : Arr 32 1) (b2 : Arr 1 1) :
    Arr 100000 1 :=
  fun i => Ideal.logistic
    ((∑ k2 : Fin 32, max ((∑ k1 : Fin 64, max ((∑ k0 : Fin 64, h (ix2 (i 0) k0) * W0 (ix2 k0 k1)) + b0 (ix2 0 k1)) 0 * W1 (ix2 k1 k2))
        + b1 (ix2 0 k2)) 0 * W2 (ix2 k2 0)) + b2 (ix2 0 0))

end Cert.Spec

end
-- ==== Proof.KI.F0.lean ====
import proofs.«119403_j19189913878709_1_alg».proof.Proof.KI.R0
import proofs.«119403_j19189913878709_1_alg».proof.Proof.KI.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen Cert.Spec
open Idealize.ShloMosaic Idealize.ShloMosaic.TcCoe Idealize.SL.Sem Idealize.ShloMosaic.ValueIdx
open Idealize.ShloMosaic.Pipeline (Dat)

-- the region-entry contents, at the extended reals
variable (V : (c : Dev nD) → (b : Ref sig .tc) → Buf (Elt Ideal) ((c : Thread nD τ).loc b))

/-- The origin of a rank-2 block. -/
theorem hz0 : (![0, 0] : Fin 2 → Nat) = fun _ => 0 := funext fun a => by fin_cases a <;> rfl

/-- The left operand of the contraction is read at (row of the output, k), -/
theorem mm0_l0 (i : S5000x64.Idx) (q : dot_S5000x4_S4x64_S5000x64_1_0_0_1_n_n.contr.Idx) : (dot_S5000x4_S4x64_S5000x64_1_0_0_1_n_n.lhsIdx i q 0).val = (i 0).val := by
  unfold DotDims.lhsIdx
  rw [dif_neg (show ¬(0 : Fin S5000x4.rank) ∈ dot_S5000x4_S4x64_S5000x64_1_0_0_1_n_n.lhsBatch by decide), dif_pos (show (0 : Fin S5000x4.rank) ∈ dot_S5000x4_S4x64_S5000x64_1_0_0_1_n_n.lhsNonContracting by decide)]
  rfl
theorem mm0_l1 (i : S5000x64.Idx) (q : dot_S5000x4_S4x64_S5000x64_1_0_0_1_n_n.contr.Idx) : (dot_S5000x4_S4x64_S5000x64_1_0_0_1_n_n.lhsIdx i q 1).val = (q ⟨0, by decide⟩).val :=
  dot_S5000x4_S4x64_S5000x64_1_0_0_1_n_n.lhsIdx_val_of_single rfl i q
/-- the right operand at (k, column of the output). -/
theorem mm0_r0 (i : S5000x64.Idx) (q : dot_S5000x4_S4x64_S5000x64_1_0_0_1_n_n.contr.Idx) : (dot_S5000x4_S4x64_S5000x64_1_0_0_1_n_n.rhsIdx i q 0).val = (q ⟨0, by decide⟩).val :=
  dot_S5000x4_S4x64_S5000x64_1_0_0_1_n_n.rhsIdx_val_of_single rfl i q
theorem mm0_r1 (i : S5000x64.Idx) (q : dot_S5000x4_S4x64_S5000x64_1_0_0_1_n_n.contr.Idx) : (dot_S5000x4_S4x64_S5000x64_1_0_0_1_n_n.rhsIdx i q 1).val = (i 1).val := by
  unfold DotDims.rhsIdx
  rw [dif_neg (show ¬(1 : Fin S4x64.rank) ∈ dot_S5000x4_S4x64_S5000x64_1_0_0_1_n_n.rhsBatch by decide), dif_pos (show (1 : Fin S4x64.rank) ∈ dot_S5000x4_S4x64_S5000x64_1_0_0_1_n_n.rhsNonContracting by decide)]
  rfl

/-- A product into the zero accumulator, at the extended reals, read at an entry: the plain sum over the contracted axis. -/
theorem mm0_apply (a : FVec Ideal S5000x4 .bf16) (b : FVec Ideal S4x64 .bf16) (r : Fin 5000) (q : Fin 64) :
    matmul dot_S5000x4_S4x64_S5000x64_1_0_0_1_n_n none a b (constant (F := Ideal) S5000x64 .f32 0x00000000#32) (ix2 r q) = ∑ k : Fin 4, a (ix2 r k) * b (ix2 k q) := by
  show FloatOps.matmul dot_S5000x4_S4x64_S5000x64_1_0_0_1_n_n none a b (constant (F := Ideal) S5000x64 .f32 0x00000000#32) (ix2 r q) = _
  rw [Ideal.matmul_constant_zero_apply, ← Equiv.sum_comp (contrEquiv1 dot_S5000x4_S4x64_S5000x64_1_0_0_1_n_n 4 rfl rfl).symm]
  refine Finset.sum_congr rfl fun k _ => ?_
  have hk := contrEquiv1_symm_val dot_S5000x4_S4x64_S5000x64_1_0_0_1_n_n 4 rfl rfl k
  have el : dot_S5000x4_S4x64_S5000x64_1_0_0_1_n_n.lhsIdx (ix2 r q) ((contrEquiv1 dot_S5000x4_S4x64_S5000x64_1_0_0_1_n_n 4 rfl rfl).symm k) = ix2 r k := funext fun a => Fin.ext (by
    match a with
    | ⟨0, _⟩ => exact mm0_l0 _ _
    | ⟨1, _⟩ => exact (mm0_l1 _ _).trans hk)
  have er : dot_S5000x4_S4x64_S5000x64_1_0_0_1_n_n.rhsIdx (ix2 r q) ((contrEquiv1 dot_S5000x4_S4x64_S5000x64_1_0_0_1_n_n 4 rfl rfl).symm k) = ix2 k q := funext fun a => Fin.ext (by
    match a with
    | ⟨0, _⟩ => exact (mm0_r0 _ _).trans hk
    | ⟨1, _⟩ => exact mm0_r1 _ _)
  rw [el, er]

/-- The body's payload at an entry: rounding to bf16 is the identity at the extended reals, so it is the product's sum. -/
theorem pay0_apply (x0 : Vec Ideal S5000x4 .f32) (x1 : Vec Ideal S4x64 .f32) (r : Fin 5000) (q : Fin 64) :
    k0_pay1 x0 x1 (ix2 r q) = ∑ k : Fin 4, x0 (ix2 r k) * x1 (ix2 k q) :=
  mm0_apply (truncf .bf16 x0 bitsLt_bf16_f32) (truncf .bf16 x1 bitsLt_bf16_f32) r q

/-- The payload of blocks that are restrictions of two arrays is the product of the arrays at the block's place. -/
theorem point0 (x0 : Vec Ideal S5000x4 .f32) (x1 : Vec Ideal S4x64 .f32) (A0 : Arr 100000 4) (A1 : Arr 4 64)
    (j : S5000x64.Idx) (i : S100000x64.Idx)
    (h0 : ∀ k : Fin 4, x0 (ix2 (j 0) k) = A0 (ix2 (i 0) k)) (h1 : ∀ k : Fin 4, x1 (ix2 k (j 1)) = A1 (ix2 k (i 1))) :
    k0_pay1 x0 x1 j = MM 4 A0 A1 i := by
  refine ((congrArg (k0_pay1 x0 x1) (eq_ix2 j)).trans (pay0_apply x0 x1 (j 0) (j 1))).trans ?_
  unfold MM
  exact Finset.sum_congr rfl fun k _ => congrArg₂ (· * ·) (h0 k) (h1 k)

/-- The printed index maps, decided over the grid: the row blocks of the input and of the output move together; the
    weight matrix is one block. -/
theorem idx_facts0 : ∀ t : Fin cfg0.N, win0_0.index t (0 : Fin 2) = win0_2.index t (0 : Fin 2) + 0
    ∧ win0_0.index t (1 : Fin 2) = 0
    ∧ win0_1.index t (0 : Fin 2) = 0
    ∧ win0_1.index t (1 : Fin 2) = 0
    ∧ win0_2.index t (1 : Fin 2) = 0 :=
  (by decide +kernel : ∀ t : Fin grid0.N, _)

/-- What point `t` writes back is block `t` of the product of the two arrays as the region finds them. -/
theorem flushed0_eq (c : Dev nD) (t : Fin cfg0.N) :
    (dat0 V c).flushed 2 t = ((cfg0.win 2).blk t).view.read (Elt Ideal) (MM 4 (V c main_arg0) (V c main_arg3)) := by
  show (cfg0.win 2).cut (grid0.coords t) ((dat0 V c).after 2 t) = _
  rw [after0_2]
  unfold out0_2
  rw [View.canon_unit_zero hz0]
  simp only [View.ld_unit_zero (S := S5000x4) hz0, View.ld_unit_zero (S := S4x64) hz0]
  obtain ⟨e0, e1, e2, e3, e4⟩ := idx_facts0 t
  funext j
  refine point0 _ _ (V c main_arg0) (V c main_arg3) j (((cfg0.win 2).blk t).view.emb j) (fun k => ?_) (fun k => ?_)
  · show V c main_arg0 (((cfg0.win 0).blk t).view.emb (ix2 (j 0) k)) = _
    refine congrArg (V c main_arg0) (funext fun a => Fin.ext ?_)
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 4 + 1 * k.val = k.val; omega
  · show V c main_arg3 (((cfg0.win 1).blk t).view.emb (ix2 k (j 1))) = _
    refine congrArg (V c main_arg3) (funext fun a => Fin.ext ?_)
    match a with
    | ⟨0, _⟩ => show win0_1.index t (0 : Fin 2) * 4 + 1 * k.val = k.val; omega
    | ⟨1, _⟩ => show win0_1.index t (1 : Fin 2) * 64 + 1 * (j 1).val = win0_2.index t (1 : Fin 2) * 64 + 1 * (j 1).val; omega

/-- Every block of the output array is some point's (decided over the grid). -/
theorem idx_onto0 : ∀ (q0 : Fin 20) (q1 : Fin 1), ∃ t : Fin cfg0.N, win0_2.index t = ![q0.val + 0, q1.val + 0] :=
  (by decide +kernel : ∀ (q0 : Fin 20) (q1 : Fin 1), ∃ t : Fin grid0.N, win0_2.index t = ![q0.val + 0, q1.val + 0])

/-- An index of the array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v26).slice (win0_2.rect t)).set ↔ _
  rw [View.set_slice_whole, Rect.mem_set_unit]
  exact Iff.rfl

/-- The blocks cover the array: row `r` is in the block of the point whose block index is `r / 5000`. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto0 ⟨(i 0).val / 5000, by omega⟩ ⟨(i 1).val / 64, by omega⟩
  have q0 : win0_2.index t (0 : Fin 2) = (i 0).val / 5000 + 0 := congrFun ht 0
  have q1 : win0_2.index t (1 : Fin 2) = (i 1).val / 64 + 0 := congrFun ht 1
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- The output array after the region: the product of the two input arrays as the region finds them. -/
theorem final0 (c : Dev nD) : (dat0 V c).arrAt 2 cfg0.N = MM 4 (V c main_arg0) (V c main_arg3) :=
  (dat0 V c).arrAt_eq_of_cover 2 (MM 4 (V c main_arg0) (V c main_arg3)) (fun t _ => flushed0_eq V c t) cover0

end Cert.KernelIdeal.Fr

end
-- ==== Proof.KI.SpecStats.lean ====
/-
  Column sums and column sums of squares of a 100000 × 64 array with a row added to every row.
-/
import proofs.«119403_j19189913878709_1_alg».proof.Proof.KI.Spec

noncomputable section

namespace Cert.Spec

open Idealize.ShloMosaic Idealize.ShloMosaic.ValueIdx
open scoped BigOperators

/-- Column sums of A + b: entry (0, q) is ∑ᵢ (A(i, q) + b(q)). -/
def SSUM (A : Arr 100000 64) (b : Arr 1 64) : Arr 1 64 :=
  fun idx => ∑ i : Fin 100000, (A (ix2 i (idx 1)) + b (ix2 0 (idx 1)))

/-- Column sums of squares of A + b: entry (0, q) is ∑ᵢ (A(i, q) + b(q))². -/
def SSQ (A : Arr 100000 64) (b : Arr 1 64) : Arr 1 64 :=
  fun idx => ∑ i : Fin 100000, (A (ix2 i (idx 1)) + b (ix2 0 (idx 1))) * (A (ix2 i (idx 1)) + b (ix2 0 (idx 1)))

end Cert.Spec

end
-- ==== Proof.LibBlockSum.lean ====
/-
  A sum over the rows of an array, taken block by block.

  When `N = m * n` rows are cut into `m` consecutive blocks of `n` rows, row `n * t + r` being row `r` of
  block `t`, the sum of a function over all rows is the sum over the blocks of each block's own sum. This
  uses only commutativity and associativity of the addition, so it holds in any commutative monoid — in
  particular over the extended reals, where no finiteness is asked.

  A running total that starts at `z + b 0` and adds `b (k + 1)` at step `k + 1` is `z` plus the sum of
  the `b`s met so far.
-/
import Mathlib.Algebra.BigOperators.Fin

namespace Cert.BlockSum

open scoped BigOperators

/-- Rows `g t r` with `(g t r).val = n * t + r` enumerate `Fin N`, `N = m * n`, block by block: the sum over
    all rows is the double sum over blocks and rows inside a block. -/
theorem sum_blocks {M : Type*} [AddCommMonoid M] {N m n : ℕ} (hN : m * n = N) (g : Fin m → Fin n → Fin N)
    (hg : ∀ t r, (g t r).val = n * t.val + r.val) (f : Fin N → M) :
    ∑ i, f i = ∑ t : Fin m, ∑ r : Fin n, f (g t r) := by
  subst hN
  rw [← Equiv.sum_comp finProdFinEquiv f, Fintype.sum_prod_type]
  refine Finset.sum_congr rfl fun t _ => Finset.sum_congr rfl fun r _ => ?_
  refine congrArg f (Fin.ext ?_)
  rw [hg]
  show r.val + n * t.val = n * t.val + r.val
  omega

/-- A running total `a` that starts at `z + b 0` and adds `b (k + 1)` at step `k + 1`, for the steps below
    `K`, is `z` plus the sum of `b` over the steps so far. -/
theorem running_total {M : Type*} [AddCommMonoid M] (K : ℕ) (z : M) (a b : ℕ → M) (h0 : a 0 = z + b 0)
    (hs : ∀ k, k + 1 < K → a (k + 1) = a k + b (k + 1)) :
    ∀ k, k < K → a k = z + ∑ t ∈ Finset.range (k + 1), b t
  | 0, _ => by rw [h0, Finset.sum_range_one]
  | k + 1, hk => by
    rw [hs k hk, running_total K z a b h0 hs k (Nat.lt_of_succ_lt hk), Finset.sum_range_succ _ (k + 1), add_assoc]

end Cert.BlockSum
-- ==== Proof.KI.F1.lean ====
import proofs.«119403_j19189913878709_1_alg».proof.Proof.KI.R1
import proofs.«119403_j19189913878709_1_alg».proof.Proof.KI.SpecStats
import proofs.«119403_j19189913878709_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (UR sig nD τ) ℕ

theorem hz2_1 : (![0, 0] : Fin 2 → Nat) = fun _ => 0 := funext fun a => by fin_cases a <;> rfl

/-! ## What each point leaves, as the body's arithmetic on the blocks -/

/-- The first point leaves in accumulator 0 the block's column sum added to the zero row. -/
theorem sA0_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond1_0 i) (hc1 : ¬cond1_1 i)
    (x0 : Vec F S5000x64 .f32) (x1 : Vec F S1x64 .f32) : sout1_A_0 c i arg1 harg1 arg2 harg2 arg3 harg3 arg4 harg4 arg5 harg5 arg6 harg6 hc0 hc1 x0 x1 = k1_pay4 x0 x1 k1_pay1 := by
  unfold sout1_A_0
  rw [View.read_writes_eq_canon _ _ _ (scover1_A_0 c i arg1 harg1 arg2 harg2 arg3 harg3 arg4 harg4 arg5 harg5 arg6 harg6 hc0 hc1 x0 x1)]
  unfold kernelRun1_A
  dsimp only
  sl_unfold_words
  rw [View.canon_cons_unit_zero (S := S1x64) hz2_1, View.readCov_unit_zero (S := S1x64) _ hz2_1]
  simp only [View.readAt_eq_ld, harg1.read_unread, harg2.read_unread, View.ld_unit_zero (S := S5000x64) hz2_1, View.ld_unit_zero (S := S1x64) hz2_1]

/-- A later point leaves in accumulator 0 the block's column sum added to what it held. -/
theorem sB0_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : ¬cond1_1 i)
    (x0 : Vec F S5000x64 .f32) (x1 : Vec F S1x64 .f32) (xs0 : Vec F S1x64 .f32) (xs1 : Vec F S1x64 .f32) : sout1_B_0 c i arg1 harg1 arg2 harg2 arg3 harg3 arg4 harg4 arg5 harg5 arg6 harg6 hc0 hc1 x0 x1 xs0 xs1 = k1_pay4 x0 x1 xs0 := by
  unfold sout1_B_0
  rw [View.read_writes_eq_canon _ _ _ (scover1_B_0 c i arg1 harg1 arg2 harg2 arg3 harg3 arg4 harg4 arg5 harg5 arg6 harg6 hc0 hc1 x0 x1 xs0 xs1)]
  unfold kernelRun1_B
  dsimp only
  rw [View.canon_unit_zero hz2_1]
  simp only [View.readAt_eq_ld, harg1.read_unread, harg2.read_unread, harg5.read_unread, View.ld_unit_zero (S := S5000x64) hz2_1, View.ld_unit_zero (S := S1x64) hz2_1]

/-- A later point leaves in accumulator 0 the block's column sum added to what it held. -/
theorem sC0_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : cond1_1 i)
    (x0 : Vec F S5000x64 .f32) (x1 : Vec F S1x64 .f32) (xs0 : Vec F S1x64 .f32) (xs1 : Vec F S1x64 .f32) : sout1_C_0 c i arg1 harg1 arg2 harg2 arg3 harg3 arg4 harg4 arg5 harg5 arg6 harg6 hc0 hc1 x0 x1 xs0 xs1 = k1_pay4 x0 x1 xs0 := by
  unfold sout1_C_0
  rw [View.read_writes_eq_canon _ _ _ (scover1_C_0 c i arg1 harg1 arg2 harg2 arg3 harg3 arg4 harg4 arg5 harg5 arg6 harg6 hc0 hc1 x0 x1 xs0 xs1)]
  unfold kernelRun1_C
  dsimp only
  sl_unfold_words
  rw [View.canon_unit_zero hz2_1]
  simp only [View.readAt_eq_ld, harg1.read_unread, harg2.read_unread, harg5.read_unread, View.ld_unit_zero (S := S5000x64) hz2_1, View.ld_unit_zero (S := S1x64) hz2_1]

/-- The last point copies accumulator 0's new contents to output 2. -/
theorem oC2_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : cond1_1 i)
    (x0 : Vec F S5000x64 .f32) (x1 : Vec F S1x64 .f32) (xs0 : Vec F S1x64 .f32) (xs1 : Vec F S1x64 .f32) : out1_C_2 c i arg1 harg1 arg2 harg2 arg3 harg3 arg4 harg4 arg5 harg5 arg6 harg6 hc0 hc1 x0 x1 xs0 xs1 = k1_pay4 x0 x1 xs0 := by
  unfold out1_C_2
  rw [View.read_writes_eq_canon _ _ _ (cover1_C_2 c i arg1 harg1 arg2 harg2 arg3 harg3 arg4 harg4 arg5 harg5 arg6 harg6 hc0 hc1 x0 x1 xs0 xs1)]
  unfold kernelRun1_C
  dsimp only
  sl_unfold_words
  rw [View.canon_unit_zero hz2_1, View.readCov_unit_zero (S := S1x64) _ hz2_1]
  simp only [View.readAt_eq_ld, harg1.read_unread, harg2.read_unread, harg5.read_unread, View.ld_unit_zero (S := S5000x64) hz2_1, View.ld_unit_zero (S := S1x64) hz2_1]

/-- The first point leaves in accumulator 1 the block's column sum of squares added to the zero row. -/
theorem sA1_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond1_0 i) (hc1 : ¬cond1_1 i)
    (x0 : Vec F S5000x64 .f32) (x1 : Vec F S1x64 .f32) : sout1_A_1 c i arg1 harg1 arg2 harg2 arg3 harg3 arg4 harg4 arg5 harg5 arg6 harg6 hc0 hc1 x0 x1 = k1_pay5 x0 x1 k1_pay2 := by
  unfold sout1_A_1
  rw [View.read_writes_eq_canon _ _ _ (scover1_A_1 c i arg1 harg1 arg2 harg2 arg3 harg3 arg4 harg4 arg5 harg5 arg6 harg6 hc0 hc1 x0 x1)]
  unfold kernelRun1_A
  dsimp only
  sl_unfold_words
  rw [View.canon_cons_unit_zero (S := S1x64) hz2_1, View.readCov_unit_zero (S := S1x64) _ hz2_1]
  simp only [View.readAt_eq_ld, harg1.read_unread, harg2.read_unread, View.ld_unit_zero (S := S5000x64) hz2_1, View.ld_unit_zero (S := S1x64) hz2_1]

/-- A later point leaves in accumulator 1 the block's column sum of squares added to what it held. -/
theorem sB1_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : ¬cond1_1 i)
    (x0 : Vec F S5000x64 .f32) (x1 : Vec F S1x64 .f32) (xs0 : Vec F S1x64 .f32) (xs1 : Vec F S1x64 .f32) : sout1_B_1 c i arg1 harg1 arg2 harg2 arg3 harg3 arg4 harg4 arg5 harg5 arg6 harg6 hc0 hc1 x0 x1 xs0 xs1 = k1_pay5 x0 x1 xs1 := by
  unfold sout1_B_1
  rw [View.read_writes_eq_canon _ _ _ (scover1_B_1 c i arg1 harg1 arg2 harg2 arg3 harg3 arg4 harg4 arg5 harg5 arg6 harg6 hc0 hc1 x0 x1 xs0 xs1)]
  unfold kernelRun1_B
  dsimp only
  rw [View.canon_unit_zero hz2_1]
  simp only [View.readAt_eq_ld, harg1.read_unread, harg2.read_unread, harg6.read_unread, View.ld_unit_zero (S := S5000x64) hz2_1, View.ld_unit_zero (S := S1x64) hz2_1]

/-- A later point leaves in accumulator 1 the block's column sum of squares added to what it held. -/
theorem sC1_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : cond1_1 i)
    (x0 : Vec F S5000x64 .f32) (x1 : Vec F S1x64 .f32) (xs0 : Vec F S1x64 .f32) (xs1 : Vec F S1x64 .f32) : sout1_C_1 c i arg1 harg1 arg2 harg2 arg3 harg3 arg4 harg4 arg5 harg5 arg6 harg6 hc0 hc1 x0 x1 xs0 xs1 = k1_pay5 x0 x1 xs1 := by
  unfold sout1_C_1
  rw [View.read_writes_eq_canon _ _ _ (scover1_C_1 c i arg1 harg1 arg2 harg2 arg3 harg3 arg4 harg4 arg5 harg5 arg6 harg6 hc0 hc1 x0 x1 xs0 xs1)]
  unfold kernelRun1_C
  dsimp only
  sl_unfold_words
  rw [View.canon_unit_zero hz2_1]
  simp only [View.readAt_eq_ld, harg1.read_unread, harg2.read_unread, harg6.read_unread, View.ld_unit_zero (S := S5000x64) hz2_1, View.ld_unit_zero (S := S1x64) hz2_1]

/-- The last point copies accumulator 1's new contents to output 3. -/
theorem oC3_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond1_0 i) (hc1 : cond1_1 i)
    (x0 : Vec F S5000x64 .f32) (x1 : Vec F S1x64 .f32) (xs0 : Vec F S1x64 .f32) (xs1 : Vec F S1x64 .f32) : out1_C_3 c i arg1 harg1 arg2 harg2 arg3 harg3 arg4 harg4 arg5 harg5 arg6 harg6 hc0 hc1 x0 x1 xs0 xs1 = k1_pay5 x0 x1 xs1 := by
  unfold out1_C_3
  rw [View.read_writes_eq_canon _ _ _ (cover1_C_3 c i arg1 harg1 arg2 harg2 arg3 harg3 arg4 harg4 arg5 harg5 arg6 harg6 hc0 hc1 x0 x1 xs0 xs1)]
  unfold kernelRun1_C
  dsimp only
  sl_unfold_words
  rw [View.canon_unit_zero hz2_1, View.readCov_unit_zero (S := S1x64) _ hz2_1]
  simp only [View.readAt_eq_ld, harg1.read_unread, harg2.read_unread, harg6.read_unread, View.ld_unit_zero (S := S5000x64) hz2_1, View.ld_unit_zero (S := S1x64) hz2_1]

section
variable (V : (c : Dev nD) → (b : Ref sig .tc) → Buf (Elt F) ((c : Thread nD τ).loc b))

/-- After the first point the accumulators hold the first block's column sums over the zero row. -/
theorem acc_first1 (c : Dev nD) (t : Fin cfg1.N) (h0 : t.val = 0) :
    (outsAt1 V c t.val t.isLt).2.2.1 = k1_pay4 (iblk1 V c 0 t) (iblk1 V c 1 t) k1_pay1
    ∧ (outsAt1 V c t.val t.isLt).2.2.2 = k1_pay5 (iblk1 V c 0 t) (iblk1 V c 1 t) k1_pay2 := by
  have hN : t.val < 20 := lt_of_lt_of_eq t.isLt (show cfg1.N = 20 from N_1)
  have h1 : ¬t.val = 19 := by omega
  rw [outsAt1_A V c t h0 h1]
  exact ⟨sA0_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t), sA1_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) ((hcond1_0 t).mpr h0) (fun h => h1 ((hcond1_1 t).mp h)) (iblk1 V c 0 t) (iblk1 V c 1 t)⟩

/-- After a later point the accumulators hold the block's column sums added to what the point before left. -/
theorem acc_step1 (c : Dev nD) (t : Fin cfg1.N) (h0 : ¬t.val = 0) :
    (outsAt1 V c t.val t.isLt).2.2.1 = k1_pay4 (iblk1 V c 0 t) (iblk1 V c 1 t) (outsAt1 V c (t.val - 1) (Nat.lt_of_le_of_lt (Nat.sub_le _ _) t.isLt)).2.2.1
    ∧ (outsAt1 V c t.val t.isLt).2.2.2 = k1_pay5 (iblk1 V c 0 t) (iblk1 V c 1 t) (outsAt1 V c (t.val - 1) (Nat.lt_of_le_of_lt (Nat.sub_le _ _) t.isLt)).2.2.2 := by
  by_cases h1 : t.val = 19
  · rw [outsAt1_C V c t h0 h1]
    exact ⟨sC0_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sC1_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2⟩
  · rw [outsAt1_B V c t h0 h1]
    exact ⟨sB0_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2, sB1_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) (fun h => h1 ((hcond1_1 t).mp h)) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2⟩

/-- After the last point each output's buffer holds its accumulator's contents. -/
theorem out_last1 (c : Dev nD) (t : Fin cfg1.N) (h1 : t.val = 19) :
    (outsAt1 V c t.val t.isLt).1 = (outsAt1 V c t.val t.isLt).2.2.1
    ∧ (outsAt1 V c t.val t.isLt).2.1 = (outsAt1 V c t.val t.isLt).2.2.2 := by
  have h0 : ¬t.val = 0 := by omega
  rw [outsAt1_C V c t h0 h1]
  exact ⟨(oC2_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2).trans (sC0_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2).symm,
    (oC3_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2).trans (sC1_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) (fun h => h0 ((hcond1_0 t).mp h)) ((hcond1_1 t).mpr h1) (iblk1 V c 0 t) (iblk1 V c 1 t) (outsAt1 V c (t.val - 1) (Nat.lt_of_le_of_lt (Nat.sub_le _ _) t.isLt)).2.2.1 (outsAt1 V c (t.val - 1) (Nat.lt_of_le_of_lt (Nat.sub_le _ _) t.isLt)).2.2.2).symm⟩

/-! ## The blocks as entries of the arrays -/

/-- Block `t` of the row-block input starts at row 5000·t, column 0; the bias row's one block is the row. -/
theorem idx_facts1 : ∀ t : Fin cfg1.N, (win1_0.index t 0 = t.val ∧ win1_0.index t 1 = 0) ∧ (win1_1.index t 0 = 0 ∧ win1_1.index t 1 = 0) :=
  (by decide +kernel : ∀ t : Fin grid1.N, (win1_0.index t 0 = t.val ∧ win1_0.index t 1 = 0) ∧ (win1_1.index t 0 = 0 ∧ win1_1.index t 1 = 0))

/-- Row `r` of block `t` is row 5000·t + r of the array. -/
def row1 (t : Fin cfg1.N) (r : Fin 5000) : Fin 100000 :=
  ⟨5000 * t.val + r.val, by have hN : t.val < 20 := lt_of_lt_of_eq t.isLt (show cfg1.N = 20 from N_1); have := r.isLt; omega⟩

theorem iblk1_0_apply (c : Dev nD) (t : Fin cfg1.N) (r : Fin 5000) (j : Fin 64) :
    (iblk1 V c 0 t : Vec F S5000x64 .f32) (ix2 r j) = V c main_v39 (ix2 (row1 t r) j) := by
  have hi := (idx_facts1 t).1
  unfold iblk1
  rw [View.read_apply]
  show V c main_v39 _ = V c main_v39 _
  congr 1
  funext a
  apply Fin.ext
  match a with
  | ⟨0, _⟩ => show win1_0.index t 0 * 5000 + 1 * r.val = 5000 * t.val + r.val; rw [hi.1]; omega
  | ⟨1, _⟩ => show win1_0.index t 1 * 64 + 1 * j.val = j.val; rw [hi.2]; omega

theorem iblk1_1_apply (c : Dev nD) (t : Fin cfg1.N) (j : Fin 64) :
    (iblk1 V c 1 t : Vec F S1x64 .f32) (ix2 0 j) = V c main_v40 (ix2 0 j) := by
  have hi := (idx_facts1 t).2
  unfold iblk1
  rw [View.read_apply]
  show V c main_v40 _ = V c main_v40 _
  congr 1
  funext a
  apply Fin.ext
  match a with
  | ⟨0, _⟩ => show win1_1.index t 0 * 1 + 1 * 0 = 0; rw [hi.1]
  | ⟨1, _⟩ => show win1_1.index t 1 * 64 + 1 * j.val = j.val; rw [hi.2]; omega

end

/-! ## The body's arithmetic over the extended reals, entry by entry -/

theorem lift0_1 (h : S5000x64.Reduces [0] S64) (j : Fin 64) (k : Fin 5000) : h.lift (ix1 j) k = ix2 k j := by
  funext a; apply Fin.ext
  match a with
  | ⟨0, _⟩ => rfl
  | ⟨1, _⟩ => rfl

/-- The reduction over the rows of a 5000 × 64 block, at column `j`, is the sum of that column. -/
theorem colsum_apply1 (v : FVec Ideal S5000x64 .f32) (h : S5000x64.Reduces [0] S64) (hφ : FKind.Formats .f32)
    (hacc : (0x00000000#32 : BitVec 32) = FKind.add.neutral .f32 hφ) (j : Fin 64) :
    multiReduction (F := Ideal) .add [0] S64 v 0x00000000#32 h hφ hacc (ix1 j) = ∑ r : Fin 5000, v (ix2 r j) :=
  (Ideal.multiReduction_add_single v 0x00000000#32 h hφ hacc (ix1 j)).trans
    (Finset.sum_congr rfl fun k _ => congrArg v (lift0_1 h j k))

/-- The block with the bias row added to every row. -/
theorem pay3_apply1 (x0 : FVec Ideal S5000x64 .f32) (x1 : FVec Ideal S1x64 .f32) (r : Fin 5000) (j : Fin 64) :
    k1_pay3 (F := Ideal) x0 x1 (ix2 r j) = x0 (ix2 r j) + x1 (ix2 0 j) := by
  unfold k1_pay3
  simp only [addf_apply, shapeCast_self, broadcastTo_1b_ab_apply]

/-- The new running sum: the old one plus the column sum of the block with the bias added. -/
theorem pay4_apply1 (x0 : FVec Ideal S5000x64 .f32) (x1 acc : FVec Ideal S1x64 .f32) (j : Fin 64) :
    k1_pay4 (F := Ideal) x0 x1 acc (ix2 0 j) = acc (ix2 0 j) + ∑ r : Fin 5000, (x0 (ix2 r j) + x1 (ix2 0 j)) := by
  unfold k1_pay4
  simp only [addf_apply, shapeCast_self, shapeCast_a_1a_apply]
  refine congrArg (acc (ix2 0 j) + ·) ?_
  refine (colsum_apply1 _ _ _ _ j).trans ?_
  exact Finset.sum_congr rfl fun r _ => pay3_apply1 x0 x1 r j

/-- The new running sum of squares. -/
theorem pay5_apply1 (x0 : FVec Ideal S5000x64 .f32) (x1 acc : FVec Ideal S1x64 .f32) (j : Fin 64) :
    k1_pay5 (F := Ideal) x0 x1 acc (ix2 0 j)
      = acc (ix2 0 j) + ∑ r : Fin 5000, (x0 (ix2 r j) + x1 (ix2 0 j)) * (x0 (ix2 r j) + x1 (ix2 0 j)) := by
  unfold k1_pay5
  simp only [addf_apply, shapeCast_self, shapeCast_a_1a_apply]
  refine congrArg (acc (ix2 0 j) + ·) ?_
  refine (colsum_apply1 _ _ _ _ j).trans ?_
  exact Finset.sum_congr rfl fun r _ => by rw [mulf_apply, pay3_apply1]

/-- The rows the first point stores are zero. -/
theorem pay1_apply1 (j : Fin 64) : k1_pay1 (F := Ideal) (ix2 0 j) = 0 := by
  unfold k1_pay1
  simp only [shapeCast_self, broadcast_apply]
  exact Ideal.ofBits_zero_f32

theorem pay2_apply1 (j : Fin 64) : k1_pay2 (F := Ideal) (ix2 0 j) = 0 := by
  unfold k1_pay2
  simp only [shapeCast_self, broadcast_apply]
  exact Ideal.ofBits_zero_f32

section
variable (V : (c : Dev nD) → (b : Ref sig .tc) → Buf (Elt Ideal) ((c : Thread nD τ).loc b))

/-- The two input arrays as arrays of extended reals, and their blocks at a point. -/
abbrev inA1 (c : Dev nD) : Cert.Spec.Arr 100000 64 := V c main_v39
abbrev inB1 (c : Dev nD) : Cert.Spec.Arr 1 64 := V c main_v40
abbrev blkA1 (c : Dev nD) (t : Fin cfg1.N) : FVec Ideal S5000x64 .f32 := iblk1 V c 0 t
abbrev blkB1 (c : Dev nD) (t : Fin cfg1.N) : FVec Ideal S1x64 .f32 := iblk1 V c 1 t

/-! ## The running sums, point by point -/

/-- Block `t`'s column sum at column `j` (zero past the grid). -/
def bsum1 (c : Dev nD) (j : Fin 64) (t : ℕ) : EReal :=
  if h : t < cfg1.N then ∑ r : Fin 5000, (inA1 V c (ix2 (row1 ⟨t, h⟩ r) j) + inB1 V c (ix2 0 j)) else 0
/-- Block `t`'s column sum of squares at column `j`. -/
def bsq1 (c : Dev nD) (j : Fin 64) (t : ℕ) : EReal :=
  if h : t < cfg1.N then ∑ r : Fin 5000, (inA1 V c (ix2 (row1 ⟨t, h⟩ r) j) + inB1 V c (ix2 0 j)) * (inA1 V c (ix2 (row1 ⟨t, h⟩ r) j) + inB1 V c (ix2 0 j)) else 0

theorem bsum1_of_lt (c : Dev nD) (j : Fin 64) (t : Fin cfg1.N) :
    bsum1 V c j t.val = ∑ r : Fin 5000, (blkA1 V c t (ix2 r j) + blkB1 V c t (ix2 0 j)) := by
  unfold bsum1; rw [dif_pos t.isLt]
  exact Finset.sum_congr rfl fun r _ => (congrArg₂ (fun (x y : EReal) => x + y) (iblk1_0_apply V c t r j) (iblk1_1_apply V c t j)).symm

theorem bsq1_of_lt (c : Dev nD) (j : Fin 64) (t : Fin cfg1.N) :
    bsq1 V c j t.val = ∑ r : Fin 5000, (blkA1 V c t (ix2 r j) + blkB1 V c t (ix2 0 j)) * (blkA1 V c t (ix2 r j) + blkB1 V c t (ix2 0 j)) := by
  unfold bsq1; rw [dif_pos t.isLt]
  exact Finset.sum_congr rfl fun r _ =>
    (congrArg₂ (fun (x y : EReal) => x * y) (congrArg₂ (fun (x y : EReal) => x + y) (iblk1_0_apply V c t r j) (iblk1_1_apply V c t j))
      (congrArg₂ (fun (x y : EReal) => x + y) (iblk1_0_apply V c t r j) (iblk1_1_apply V c t j))).symm

/-- After point `n` the two accumulators hold, at column `j`, the sums over the blocks 0..n of the blocks' column sums
    and column sums of squares. -/
theorem acc1_eq (c : Dev nD) (j : Fin 64) : ∀ (n : ℕ) (hn : n < cfg1.N),
    (outsAt1 V c n hn).2.2.1 (ix2 0 j) = ∑ t ∈ Finset.range (n + 1), bsum1 V c j t
    ∧ (outsAt1 V c n hn).2.2.2 (ix2 0 j) = ∑ t ∈ Finset.range (n + 1), bsq1 V c j t
  | 0, hn => by
    obtain ⟨e0, e1⟩ := acc_first1 V c ⟨0, hn⟩ rfl
    constructor
    · refine (congrFun e0 (ix2 0 j)).trans ?_
      refine (pay4_apply1 (iblk1 V c 0 ⟨0, hn⟩) (iblk1 V c 1 ⟨0, hn⟩) k1_pay1 j).trans ?_
      rw [pay1_apply1, zero_add, Finset.sum_range_one]
      exact (bsum1_of_lt V c j ⟨0, hn⟩).symm
    · refine (congrFun e1 (ix2 0 j)).trans ?_
      refine (pay5_apply1 (iblk1 V c 0 ⟨0, hn⟩) (iblk1 V c 1 ⟨0, hn⟩) k1_pay2 j).trans ?_
      rw [pay2_apply1, zero_add, Finset.sum_range_one]
      exact (bsq1_of_lt V c j ⟨0, hn⟩).symm
  | n + 1, hn => by
    obtain ⟨e0, e1⟩ := acc_step1 V c ⟨n + 1, hn⟩ (Nat.succ_ne_zero n)
    obtain ⟨i0, i1⟩ := acc1_eq c j n (Nat.lt_of_succ_lt hn)
    constructor
    · refine (congrFun e0 (ix2 0 j)).trans ?_
      refine (pay4_apply1 (iblk1 V c 0 ⟨n + 1, hn⟩) (iblk1 V c 1 ⟨n + 1, hn⟩) (outsAt1 V c ((⟨n + 1, hn⟩ : Fin cfg1.N).val - 1) (Nat.lt_of_le_of_lt (Nat.sub_le _ _) (⟨n + 1, hn⟩ : Fin cfg1.N).isLt)).2.2.1 j).trans ?_
      rw [Finset.sum_range_succ _ (n + 1)]
      exact congrArg₂ (fun (x y : EReal) => x + y) i0 (bsum1_of_lt V c j ⟨n + 1, hn⟩).symm
    · refine (congrFun e1 (ix2 0 j)).trans ?_
      refine (pay5_apply1 (iblk1 V c 0 ⟨n + 1, hn⟩) (iblk1 V c 1 ⟨n + 1, hn⟩) (outsAt1 V c ((⟨n + 1, hn⟩ : Fin cfg1.N).val - 1) (Nat.lt_of_le_of_lt (Nat.sub_le _ _) (⟨n + 1, hn⟩ : Fin cfg1.N).isLt)).2.2.2 j).trans ?_
      rw [Finset.sum_range_succ _ (n + 1)]
      exact congrArg₂ (fun (x y : EReal) => x + y) i1 (bsq1_of_lt V c j ⟨n + 1, hn⟩).symm

/-! ## The totals -/

/-- The last point. -/
abbrev t19_1 : Fin cfg1.N := ⟨19, lt_of_lt_of_eq (by decide : 19 < 20) (N_1).symm⟩

/-- The sum over the twenty blocks of a block's 5000 rows is the sum over all 100000 rows. -/
theorem blocks_total1 (f : Fin 100000 → EReal) (b : ℕ → EReal)
    (hb : ∀ t : Fin 20, b t.val = ∑ r : Fin 5000, f (row1 ⟨t.val, lt_of_lt_of_eq t.isLt (N_1).symm⟩ r)) :
    ∑ t ∈ Finset.range 20, b t = ∑ i : Fin 100000, f i := by
  rw [Cert.BlockSum.sum_blocks (show 20 * 5000 = 100000 from rfl)
    (fun t r => row1 ⟨t.val, lt_of_lt_of_eq t.isLt (N_1).symm⟩ r) (fun t r => rfl) f, Finset.sum_range]
  exact Finset.sum_congr rfl fun t _ => hb t

/-- After the last point output 2's buffer holds the column sums over all rows and output 3's the column sums of squares. -/
theorem out_total1 (c : Dev nD) (j : Fin 64) :
    (outsAt1 V c (t19_1).val (t19_1).isLt).1 (ix2 0 j) = ∑ i : Fin 100000, (inA1 V c (ix2 i j) + inB1 V c (ix2 0 j))
    ∧ (outsAt1 V c (t19_1).val (t19_1).isLt).2.1 (ix2 0 j) = ∑ i : Fin 100000, (inA1 V c (ix2 i j) + inB1 V c (ix2 0 j)) * (inA1 V c (ix2 i j) + inB1 V c (ix2 0 j)) := by
  obtain ⟨o2, o3⟩ := out_last1 V c t19_1 rfl
  obtain ⟨a0, a1⟩ := acc1_eq V c j 19 (t19_1).isLt
  constructor
  · refine (congrFun o2 (ix2 0 j)).trans (a0.trans ?_)
    exact blocks_total1 (fun i => (inA1 V c (ix2 i j) + inB1 V c (ix2 0 j))) (bsum1 V c j) fun t => by
      unfold bsum1; rw [dif_pos (lt_of_lt_of_eq t.isLt (N_1).symm)]
  · refine (congrFun o3 (ix2 0 j)).trans (a1.trans ?_)
    exact blocks_total1 (fun i => (inA1 V c (ix2 i j) + inB1 V c (ix2 0 j)) * (inA1 V c (ix2 i j) + inB1 V c (ix2 0 j))) (bsq1 V c j) fun t => by
      unfold bsq1; rw [dif_pos (lt_of_lt_of_eq t.isLt (N_1).symm)]

theorem out2_eq1 (c : Dev nD) :
    (outsAt1 V c (t19_1).val (t19_1).isLt).1 = Cert.Spec.SSUM (V c main_v39) (V c main_v40) := by
  funext idx
  obtain ⟨p, q, rfl⟩ : ∃ (p : Fin 1) (q : Fin 64), idx = ix2 p q := ⟨idx 0, idx 1, eq_ix2 idx⟩
  obtain rfl : p = 0 := Subsingleton.elim _ _
  exact (out_total1 V c q).1

theorem out3_eq1 (c : Dev nD) :
    (outsAt1 V c (t19_1).val (t19_1).isLt).2.1 = Cert.Spec.SSQ (V c main_v39) (V c main_v40) := by
  funext idx
  obtain ⟨p, q, rfl⟩ : ∃ (p : Fin 1) (q : Fin 64), idx = ix2 p q := ⟨idx 0, idx 1, eq_ix2 idx⟩
  obtain rfl : p = 0 := Subsingleton.elim _ _
  exact (out_total1 V c q).2

/-- Output 2's only write-back, at the last point, writes the totals: its one block is the whole 1 × 64 array. -/
theorem flushed1_2_eq (c : Dev nD) (t : Fin cfg1.N) (hf : (cfg1.win 2).flush t = true) :
    (dat1 V c).flushed 2 t = ((cfg1.win 2).blk t).view.read (Elt Ideal) (Cert.Spec.SSUM (V c main_v39) (V c main_v40)) := by
  have hN : cfg1.N = 20 := N_1
  have h19 : t.val = 19 := by have := (flush1_2 t).mp hf; have := t.isLt; omega
  obtain rfl : t = t19_1 := Fin.ext h19
  show (cfg1.win 2).cut (grid1.coords t19_1) ((dat1 V c).after 2 t19_1) = _
  rw [after1_2, out2_eq1 V c]
  have hz' : (fun a => win1_2.index t19_1 a * main_v41_0.ty.shape.size a) = fun _ => 0 := funext fun a => by fin_cases a <;> decide +kernel
  exact (Memref.read_access_unit_zero (Elt Ideal) main_v41_0 hz' (fun a => by rw [congrFun hz' a]; simp) (Cert.Spec.SSUM (V c main_v39) (V c main_v40))).symm

/-- So output array 2 ends holding the column sums of the input with the bias row added to every row. -/
theorem final1_2 (c : Dev nD) : (dat1 V c).arrAt 2 cfg1.N = Cert.Spec.SSUM (V c main_v39) (V c main_v40) :=
  (dat1 V c).arrAt_eq_of_cover 2 (Cert.Spec.SSUM (V c main_v39) (V c main_v40)) (flushed1_2_eq V c) fun i =>
    ⟨t19_1, (flush1_2 t19_1).mpr rfl, by
      show i ∈ ((View.whole main_v41_0).slice (win1_2.rect t19_1)).set
      rw [View.set_slice_whole, Rect.mem_set_unit]
      intro a
      have h0 : (i 0 : Nat) < 1 := (i 0).isLt
      have h1 : (i 1 : Nat) < 64 := (i 1).isLt
      match a with
      | ⟨0, _⟩ => show win1_2.index t19_1 0 * win1_2.size 0 ≤ (i 0 : Nat) ∧ (i 0 : Nat) < win1_2.index t19_1 0 * win1_2.size 0 + win1_2.xsize (grid1.coords t19_1) 0
                  rw [show win1_2.index t19_1 0 * win1_2.size 0 = 0 from by decide +kernel, show win1_2.xsize (grid1.coords t19_1) 0 = 1 from by decide +kernel]; omega
      | ⟨1, _⟩ => show win1_2.index t19_1 1 * win1_2.size 1 ≤ (i 1 : Nat) ∧ (i 1 : Nat) < win1_2.index t19_1 1 * win1_2.size 1 + win1_2.xsize (grid1.coords t19_1) 1
                  rw [show win1_2.index t19_1 1 * win1_2.size 1 = 0 from by decide +kernel, show win1_2.xsize (grid1.coords t19_1) 1 = 64 from by decide +kernel]; omega⟩

/-- Output 3's only write-back, at the last point, writes the totals: its one block is the whole 1 × 64 array. -/
theorem flushed1_3_eq (c : Dev nD) (t : Fin cfg1.N) (hf : (cfg1.win 3).flush t = true) :
    (dat1 V c).flushed 3 t = ((cfg1.win 3).blk t).view.read (Elt Ideal) (Cert.Spec.SSQ (V c main_v39) (V c main_v40)) := by
  have hN : cfg1.N = 20 := N_1
  have h19 : t.val = 19 := by have := (flush1_3 t).mp hf; have := t.isLt; omega
  obtain rfl : t = t19_1 := Fin.ext h19
  show (cfg1.win 3).cut (grid1.coords t19_1) ((dat1 V c).after 3 t19_1) = _
  rw [after1_3, out3_eq1 V c]
  have hz' : (fun a => win1_3.index t19_1 a * main_v41_1.ty.shape.size a) = fun _ => 0 := funext fun a => by fin_cases a <;> decide +kernel
  exact (Memref.read_access_unit_zero (Elt Ideal) main_v41_1 hz' (fun a => by rw [congrFun hz' a]; simp) (Cert.Spec.SSQ (V c main_v39) (V c main_v40))).symm

/-- So output array 3 ends holding the column sums of squares of the input with the bias row added to every row. -/
theorem final1_3 (c : Dev nD) : (dat1 V c).arrAt 3 cfg1.N = Cert.Spec.SSQ (V c main_v39) (V c main_v40) :=
  (dat1 V c).arrAt_eq_of_cover 3 (Cert.Spec.SSQ (V c main_v39) (V c main_v40)) (flushed1_3_eq V c) fun i =>
    ⟨t19_1, (flush1_3 t19_1).mpr rfl, by
      show i ∈ ((View.whole main_v41_1).slice (win1_3.rect t19_1)).set
      rw [View.set_slice_whole, Rect.mem_set_unit]
      intro a
      have h0 : (i 0 : Nat) < 1 := (i 0).isLt
      have h1 : (i 1 : Nat) < 64 := (i 1).isLt
      match a with
      | ⟨0, _⟩ => show win1_3.index t19_1 0 * win1_3.size 0 ≤ (i 0 : Nat) ∧ (i 0 : Nat) < win1_3.index t19_1 0 * win1_3.size 0 + win1_3.xsize (grid1.coords t19_1) 0
                  rw [show win1_3.index t19_1 0 * win1_3.size 0 = 0 from by decide +kernel, show win1_3.xsize (grid1.coords t19_1) 0 = 1 from by decide +kernel]; omega
      | ⟨1, _⟩ => show win1_3.index t19_1 1 * win1_3.size 1 ≤ (i 1 : Nat) ∧ (i 1 : Nat) < win1_3.index t19_1 1 * win1_3.size 1 + win1_3.xsize (grid1.coords t19_1) 1
                  rw [show win1_3.index t19_1 1 * win1_3.size 1 = 0 from by decide +kernel, show win1_3.xsize (grid1.coords t19_1) 1 = 64 from by decide +kernel]; omega⟩

end

end Cert.KernelIdeal.Fr

end
-- ==== Proof.KI.F2.lean ====
import proofs.«119403_j19189913878709_1_alg».proof.Proof.KI.R2
import proofs.«119403_j19189913878709_1_alg».proof.Proof.KI.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen Cert.Spec
open Idealize.ShloMosaic Idealize.ShloMosaic.TcCoe Idealize.SL.Sem Idealize.ShloMosaic.ValueIdx
open Idealize.ShloMosaic.Pipeline (Dat)

-- the region-entry contents, at the extended reals
variable (V : (c : Dev nD) → (b : Ref sig .tc) → Buf (Elt Ideal) ((c : Thread nD τ).loc b))

/-- The origin of a rank-2 block. -/
theorem hz2 : (![0, 0] : Fin 2 → Nat) = fun _ => 0 := funext fun a => by fin_cases a <;> rfl

/-- A row broadcast along the block's rows, read at an entry: the row at the entry's column. -/
theorem row2_apply (x : Vec Ideal S1x64 .f32) (j : S5000x64.Idx) :
    broadcastTo S5000x64 (shapeCast S1x64 x shapeCasts_S1x64_S1x64) broadcasts_S1x64_S5000x64 j = x (ix2 0 (j 1)) := by
  rw [shapeCast_self x _]
  exact broadcastTo_apply x _ j (ix2 0 (j 1)) (fun a => by
    match a with
    | ⟨0, _⟩ => rfl
    | ⟨1, _⟩ => rfl)

/-- The body's payload at an entry: max(((x + b) · s) + sh, 0), the rows read at the entry's column. -/
theorem pay2_apply (x0 : Vec Ideal S5000x64 .f32) (x1 x2 x3 : Vec Ideal S1x64 .f32) (j : S5000x64.Idx) :
    k2_pay1 x0 x1 x2 x3 j = max ((x0 j + x1 (ix2 0 (j 1))) * x2 (ix2 0 (j 1)) + x3 (ix2 0 (j 1))) 0 := by
  show max ((shapeCast S5000x64 x0 shapeCasts_S5000x64_S5000x64 j + broadcastTo S5000x64 (shapeCast S1x64 x1 shapeCasts_S1x64_S1x64) broadcasts_S1x64_S5000x64 j) * broadcastTo S5000x64 (shapeCast S1x64 x2 shapeCasts_S1x64_S1x64) broadcasts_S1x64_S5000x64 j
      + broadcastTo S5000x64 (shapeCast S1x64 x3 shapeCasts_S1x64_S1x64) broadcasts_S1x64_S5000x64 j) (Ideal.ofBits .f32 0x00000000#32) = _
  rw [shapeCast_self x0 _, row2_apply, row2_apply, row2_apply, Ideal.ofBits_zero_f32]

/-- The payload of blocks that are restrictions of the four arrays is the affine map of the arrays at the block's place. -/
theorem point2 (x0 : Vec Ideal S5000x64 .f32) (x1 x2 x3 : Vec Ideal S1x64 .f32) (A : Arr 100000 64) (b s sh : Arr 1 64)
    (j : S5000x64.Idx) (i : S100000x64.Idx)
    (h0 : x0 j = A i) (h1 : x1 (ix2 0 (j 1)) = b (ix2 0 (i 1))) (h2 : x2 (ix2 0 (j 1)) = s (ix2 0 (i 1)))
    (h3 : x3 (ix2 0 (j 1)) = sh (ix2 0 (i 1))) :
    k2_pay1 x0 x1 x2 x3 j = AFF A b s sh i := by
  rw [pay2_apply, h0, h1, h2, h3]
  rfl

/-- The printed index maps, decided over the grid: the input's and the output's row blocks move together; each of the
    three rows is one block. -/
theorem idx_facts2 : ∀ t : Fin cfg2.N, win2_0.index t (0 : Fin 2) = win2_4.index t (0 : Fin 2) + 0
    ∧ win2_0.index t (1 : Fin 2) = win2_4.index t (1 : Fin 2) + 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (1 : Fin 2) = 0 :=
  (by decide +kernel : ∀ t : Fin grid2.N, _)

/-- What point `t` writes back is block `t` of the affine map of the arrays as the region finds them. -/
theorem flushed2_eq (c : Dev nD) (t : Fin cfg2.N) :
    (dat2 V c).flushed 4 t = ((cfg2.win 4).blk t).view.read (Elt Ideal) (AFF (V c main_v39) (V c main_v58) (V c main_v59) (V c main_v60)) := by
  show (cfg2.win 4).cut (grid2.coords t) ((dat2 V c).after 4 t) = _
  rw [after2_4]
  unfold out2_4
  rw [View.canon_unit_zero hz2]
  simp only [View.ld_unit_zero (S := S5000x64) hz2, View.ld_unit_zero (S := S1x64) hz2]
  obtain ⟨e0, e1, e2, e3, e4, e5, e6, e7, e8⟩ := idx_facts2 t
  funext j
  refine point2 _ _ _ _ (V c main_v39) (V c main_v58) (V c main_v59) (V c main_v60) j (((cfg2.win 4).blk t).view.emb j) ?_ ?_ ?_ ?_
  · show V c main_v39 (((cfg2.win 0).blk t).view.emb j) = _
    refine congrArg (V c main_v39) (funext fun a => Fin.ext ?_)
    match a with
    | ⟨0, _⟩ => show win2_0.index t (0 : Fin 2) * 5000 + 1 * (j 0).val = win2_4.index t (0 : Fin 2) * 5000 + 1 * (j 0).val; omega
    | ⟨1, _⟩ => show win2_0.index t (1 : Fin 2) * 64 + 1 * (j 1).val = win2_4.index t (1 : Fin 2) * 64 + 1 * (j 1).val; omega
  · show V c main_v58 (((cfg2.win 1).blk t).view.emb (ix2 0 (j 1))) = _
    refine congrArg (V c main_v58) (funext fun a => Fin.ext ?_)
    match a with
    | ⟨0, _⟩ => show win2_1.index t (0 : Fin 2) * 1 + 1 * 0 = 0; omega
    | ⟨1, _⟩ => show win2_1.index t (1 : Fin 2) * 64 + 1 * (j 1).val = win2_4.index t (1 : Fin 2) * 64 + 1 * (j 1).val; omega
  · show V c main_v59 (((cfg2.win 2).blk t).view.emb (ix2 0 (j 1))) = _
    refine congrArg (V c main_v59) (funext fun a => Fin.ext ?_)
    match a with
    | ⟨0, _⟩ => show win2_2.index t (0 : Fin 2) * 1 + 1 * 0 = 0; omega
    | ⟨1, _⟩ => show win2_2.index t (1 : Fin 2) * 64 + 1 * (j 1).val = win2_4.index t (1 : Fin 2) * 64 + 1 * (j 1).val; omega
  · show V c main_v60 (((cfg2.win 3).blk t).view.emb (ix2 0 (j 1))) = _
    refine congrArg (V c main_v60) (funext fun a => Fin.ext ?_)
    match a with
    | ⟨0, _⟩ => show win2_3.index t (0 : Fin 2) * 1 + 1 * 0 = 0; omega
    | ⟨1, _⟩ => show win2_3.index t (1 : Fin 2) * 64 + 1 * (j 1).val = win2_4.index t (1 : Fin 2) * 64 + 1 * (j 1).val; omega

/-- Every block of the output array is some point's (decided over the grid). -/
theorem idx_onto2 : ∀ (q0 : Fin 20) (q1 : Fin 1), ∃ t : Fin cfg2.N, win2_4.index t = ![q0.val + 0, q1.val + 0] :=
  (by decide +kernel : ∀ (q0 : Fin 20) (q1 : Fin 1), ∃ t : Fin grid2.N, win2_4.index t = ![q0.val + 0, q1.val + 0])

/-- An index of the array is in point `t`'s block iff each coordinate is in the block's range on its axis. -/
theorem mem_blk2 (t : Fin cfg2.N) (i : S100000x64.Idx) :
    i ∈ ((cfg2.win 4).blk t).view.set ↔ ∀ a : Fin 2, win2_4.index t a * S5000x64.size a ≤ (i a).val ∧ (i a).val < win2_4.index t a * S5000x64.size a + S5000x64.size a := by
  show i ∈ ((View.whole main_v61).slice (win2_4.rect t)).set ↔ _
  rw [View.set_slice_whole, Rect.mem_set_unit]
  exact Iff.rfl

/-- The blocks cover the array: row `r` is in the block of the point whose block index is `r / 5000`. -/
theorem cover2 (i : S100000x64.Idx) : ∃ t : Fin cfg2.N, (cfg2.win 4).flush t = true ∧ i ∈ ((cfg2.win 4).blk t).view.set := by
  have hi0 : (i 0).val < 100000 := (i 0).isLt
  have hi1 : (i 1).val < 64 := (i 1).isLt
  obtain ⟨t, ht⟩ := idx_onto2 ⟨(i 0).val / 5000, by omega⟩ ⟨(i 1).val / 64, by omega⟩
  have q0 : win2_4.index t (0 : Fin 2) = (i 0).val / 5000 + 0 := congrFun ht 0
  have q1 : win2_4.index t (1 : Fin 2) = (i 1).val / 64 + 0 := congrFun ht 1
  refine ⟨t, flush2_4 t, ?_⟩
  rw [mem_blk2]
  intro a
  match a with
  | ⟨0, _⟩ => show win2_4.index t (0 : Fin 2) * 5000 ≤ (i 0).val ∧ (i 0).val < win2_4.index t (0 : Fin 2) * 5000 + 5000; omega
  | ⟨1, _⟩ => show win2_4.index t (1 : Fin 2) * 64 ≤ (i 1).val ∧ (i 1).val < win2_4.index t (1 : Fin 2) * 64 + 64; omega

/-- The output array after the region: the affine map and positive part of the input array, column by column. -/
theorem final2 (c : Dev nD) : (dat2 V c).arrAt 4 cfg2.N = AFF (V c main_v39) (V c main_v58) (V c main_v59) (V c main_v60) :=
  (dat2 V c).arrAt_eq_of_cover 4 (AFF (V c main_v39) (V c main_v58) (V c main_v59) (V c main_v60)) (fun t _ => flushed2_eq V c t) cover2

end Cert.KernelIdeal.Fr

end
-- ==== Proof.KI.F3.lean ====
import proofs.«119403_j19189913878709_1_alg».proof.Proof.KI.R3
import proofs.«119403_j19189913878709_1_alg».proof.Proof.KI.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen Cert.Spec
open Idealize.ShloMosaic Idealize.ShloMosaic.TcCoe Idealize.SL.Sem Idealize.ShloMosaic.ValueIdx
open Idealize.ShloMosaic.Pipeline (Dat)

-- the region-entry contents, at the extended reals
variable (V : (c : Dev nD) → (b : Ref sig .tc) → Buf (Elt Ideal) ((c : Thread nD τ).loc b))

/-- The origin of a rank-2 block. -/
theorem hz3 : (![0, 0] : Fin 2 → Nat) = fun _ => 0 := funext fun a => by fin_cases a <;> rfl

/-- The left operand of the contraction is read at (row of the output, k), -/
theorem mm3_l0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem mm3_l1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
/-- the right operand at (k, column of the output). -/
theorem mm3_r0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem mm3_r1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A product into the zero accumulator, at the extended reals, read at an entry: the plain sum over the contracted axis. -/
theorem mm3_apply (a : FVec Ideal S5000x64 .bf16) (b : FVec Ideal S64x64 .bf16) (r : Fin 5000) (q : Fin 64) :
    matmul dot_S5000x64_S64x64_S5000x64_1_0_0_1_n_n none a b (constant (F := Ideal) S5000x64 .f32 0x00000000#32) (ix2 r q) = ∑ k : Fin 64, a (ix2 r k) * b (ix2 k q) := by
  show FloatOps.matmul dot_S5000x64_S64x64_S5000x64_1_0_0_1_n_n none a b (constant (F := Ideal) S5000x64 .f32 0x00000000#32) (ix2 r q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r q) ((contrEquiv1 dot_S5000x64_S64x64_S5000x64_1_0_0_1_n_n 64 rfl rfl).symm k) = ix2 r k := funext fun a => Fin.ext (by
    match a with
    | ⟨0, _⟩ => exact mm3_l0 _ _
    | ⟨1, _⟩ => exact (mm3_l1 _ _).trans hk)
  have er : dot_S5000x64_S64x64_S5000x64_1_0_0_1_n_n.rhsIdx (ix2 r q) ((contrEquiv1 dot_S5000x64_S64x64_S5000x64_1_0_0_1_n_n 64 rfl rfl).symm k) = ix2 k q := funext fun a => Fin.ext (by
    match a with
    | ⟨0, _⟩ => exact (mm3_r0 _ _).trans hk
    | ⟨1, _⟩ => exact mm3_r1 _ _)
  rw [el, er]

/-- The body's payload at an entry: the reshape to the same shape and the rounding to bf16 are identities at the
    extended reals, so it is the product's sum. -/
theorem pay3_apply (x0 : Vec Ideal S5000x64 .f32) (x1 : Vec Ideal S64x64 .f32) (r : Fin 5000) (q : Fin 64) :
    k3_pay1 x0 x1 (ix2 r q) = ∑ k : Fin 64, x0 (ix2 r k) * x1 (ix2 k q) := by
  have e : shapeCast S5000x64 x0 shapeCasts_S5000x64_S5000x64 = x0 := shapeCast_self x0 _
  show matmul dot_S5000x64_S64x64_S5000x64_1_0_0_1_n_n none (truncf .bf16 (shapeCast S5000x64 x0 shapeCasts_S5000x64_S5000x64) bitsLt_bf16_f32) (truncf .bf16 x1 bitsLt_bf16_f32) (constant (F := Ideal) S5000x64 .f32 0x00000000#32) (ix2 r q) = _
  rw [e]
  exact mm3_apply (truncf .bf16 x0 bitsLt_bf16_f32) (truncf .bf16 x1 bitsLt_bf16_f32) r q

/-- The payload of blocks that are restrictions of two arrays is the product of the arrays at the block's place. -/
theorem point3 (x0 : Vec Ideal S5000x64 .f32) (x1 : Vec Ideal S64x64 .f32) (A0 : Arr 100000 64) (A1 : Arr 64 64)
    (j : S5000x64.Idx) (i : S100000x64.Idx)
    (h0 : ∀ k : Fin 64, x0 (ix2 (j 0) k) = A0 (ix2 (i 0) k)) (h1 : ∀ k : Fin 64, x1 (ix2 k (j 1)) = A1 (ix2 k (i 1))) :
    k3_pay1 x0 x1 j = MM 64 A0 A1 i := by
  refine ((congrArg (k3_pay1 x0 x1) (eq_ix2 j)).trans (pay3_apply x0 x1 (j 0) (j 1))).trans ?_
  unfold MM
  exact Finset.sum_congr rfl fun k _ => congrArg₂ (· * ·) (h0 k) (h1 k)

/-- The printed index maps, decided over the grid: the row blocks of the input and of the output move together; the
    weight matrix is one block. -/
theorem idx_facts3 : ∀ t : Fin cfg3.N, win3_0.index t (0 : Fin 2) = win3_2.index t (0 : Fin 2) + 0
    ∧ win3_0.index t (1 : Fin 2) = 0
    ∧ win3_1.index t (0 : Fin 2) = 0
    ∧ win3_1.index t (1 : Fin 2) = 0
    ∧ win3_2.index t (1 : Fin 2) = 0 :=
  (by decide +kernel : ∀ t : Fin grid3.N, _)

/-- What point `t` writes back is block `t` of the product of the two arrays as the region finds them. -/
theorem flushed3_eq (c : Dev nD) (t : Fin cfg3.N) :
    (dat3 V c).flushed 2 t = ((cfg3.win 2).blk t).view.read (Elt Ideal) (MM 64 (V c main_v61) (V c main_arg5)) := by
  show (cfg3.win 2).cut (grid3.coords t) ((dat3 V c).after 2 t) = _
  rw [after3_2]
  unfold out3_2
  rw [View.canon_unit_zero hz3]
  simp only [View.ld_unit_zero (S := S5000x64) hz3, View.ld_unit_zero (S := S64x64) hz3]
  obtain ⟨e0, e1, e2, e3, e4⟩ := idx_facts3 t
  funext j
  refine point3 _ _ (V c main_v61) (V c main_arg5) j (((cfg3.win 2).blk t).view.emb j) (fun k => ?_) (fun k => ?_)
  · show V c main_v61 (((cfg3.win 0).blk t).view.emb (ix2 (j 0) k)) = _
    refine congrArg (V c main_v61) (funext fun a => Fin.ext ?_)
    match a with
    | ⟨0, _⟩ => show win3_0.index t (0 : Fin 2) * 5000 + 1 * (j 0).val = win3_2.index t (0 : Fin 2) * 5000 + 1 * (j 0).val; omega
    | ⟨1, _⟩ => show win3_0.index t (1 : Fin 2) * 64 + 1 * k.val = k.val; omega
  · show V c main_arg5 (((cfg3.win 1).blk t).view.emb (ix2 k (j 1))) = _
    refine congrArg (V c main_arg5) (funext fun a => Fin.ext ?_)
    match a with
    | ⟨0, _⟩ => show win3_1.index t (0 : Fin 2) * 64 + 1 * k.val = k.val; omega
    | ⟨1, _⟩ => show win3_1.index t (1 : Fin 2) * 64 + 1 * (j 1).val = win3_2.index t (1 : Fin 2) * 64 + 1 * (j 1).val; omega

/-- Every block of the output array is some point's (decided over the grid). -/
theorem idx_onto3 : ∀ (q0 : Fin 20) (q1 : Fin 1), ∃ t : Fin cfg3.N, win3_2.index t = ![q0.val + 0, q1.val + 0] :=
  (by decide +kernel : ∀ (q0 : Fin 20) (q1 : Fin 1), ∃ t : Fin grid3.N, win3_2.index t = ![q0.val + 0, q1.val + 0])

/-- An index of the array is in point `t`'s block iff each coordinate is in the block's range on its axis. -/
theorem mem_blk3 (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v62).slice (win3_2.rect t)).set ↔ _
  rw [View.set_slice_whole, Rect.mem_set_unit]
  exact Iff.rfl

/-- The blocks cover the array: row `r` is in the block of the point whose block index is `r / 5000`. -/
theorem cover3 (i : S100000x64.Idx) : ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := idx_onto3 ⟨(i 0).val / 5000, by omega⟩ ⟨(i 1).val / 64, by omega⟩
  have q0 : win3_2.index t (0 : Fin 2) = (i 0).val / 5000 + 0 := congrFun ht 0
  have q1 : win3_2.index t (1 : Fin 2) = (i 1).val / 64 + 0 := congrFun ht 1
  refine ⟨t, flush3_2 t, ?_⟩
  rw [mem_blk3]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 64 ≤ (i 1).val ∧ (i 1).val < win3_2.index t (1 : Fin 2) * 64 + 64; omega

/-- The output array after the region: the product of the two input arrays as the region finds them. -/
theorem final3 (c : Dev nD) : (dat3 V c).arrAt 2 cfg3.N = MM 64 (V c main_v61) (V c main_arg5) :=
  (dat3 V c).arrAt_eq_of_cover 2 (MM 64 (V c main_v61) (V c main_arg5)) (fun t _ => flushed3_eq V c t) cover3

end Cert.KernelIdeal.Fr

end
-- ==== Proof.KI.F4.lean ====
import proofs.«119403_j19189913878709_1_alg».proof.Proof.KI.R4
import proofs.«119403_j19189913878709_1_alg».proof.Proof.KI.SpecStats
import proofs.«119403_j19189913878709_1_alg».proof.Proof.LibBlockSum
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Idealize.ShloMosaic.ValueIdx

variable {F : FTy → Type} [FloatOps F]

local notation "𝕄" => MT nD τ sig Unit (Elt F) ℕ (UR sig nD τ) ℕ

theorem hz2_4 : (![0, 0] : Fin 2 → Nat) = fun _ => 0 := funext fun a => by fin_cases a <;> rfl

/-! ## What each point leaves, as the body's arithmetic on the blocks -/

/-- The first point leaves in accumulator 0 the block's column sum added to the zero row. -/
theorem sA0_4 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond4_0 i) (hc1 : ¬cond4_1 i)
    (x0 : Vec F S5000x64 .f32) (x1 : Vec F S1x64 .f32) : sout4_A_0 c i arg1 harg1 arg2 harg2 arg3 harg3 arg4 harg4 arg5 harg5 arg6 harg6 hc0 hc1 x0 x1 = k4_pay4 x0 x1 k4_pay1 := by
  unfold sout4_A_0
  rw [View.read_writes_eq_canon _ _ _ (scover4_A_0 c i arg1 harg1 arg2 harg2 arg3 harg3 arg4 harg4 arg5 harg5 arg6 harg6 hc0 hc1 x0 x1)]
  unfold kernelRun4_A
  dsimp only
  sl_unfold_words
  rw [View.canon_cons_unit_zero (S := S1x64) hz2_4, View.readCov_unit_zero (S := S1x64) _ hz2_4]
  simp only [View.readAt_eq_ld, harg1.read_unread, harg2.read_unread, View.ld_unit_zero (S := S5000x64) hz2_4, View.ld_unit_zero (S := S1x64) hz2_4]

/-- A later point leaves in accumulator 0 the block's column sum added to what it held. -/
theorem sB0_4 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : ¬cond4_1 i)
    (x0 : Vec F S5000x64 .f32) (x1 : Vec F S1x64 .f32) (xs0 : Vec F S1x64 .f32) (xs1 : Vec F S1x64 .f32) : sout4_B_0 c i arg1 harg1 arg2 harg2 arg3 harg3 arg4 harg4 arg5 harg5 arg6 harg6 hc0 hc1 x0 x1 xs0 xs1 = k4_pay4 x0 x1 xs0 := by
  unfold sout4_B_0
  rw [View.read_writes_eq_canon _ _ _ (scover4_B_0 c i arg1 harg1 arg2 harg2 arg3 harg3 arg4 harg4 arg5 harg5 arg6 harg6 hc0 hc1 x0 x1 xs0 xs1)]
  unfold kernelRun4_B
  dsimp only
  rw [View.canon_unit_zero hz2_4]
  simp only [View.readAt_eq_ld, harg1.read_unread, harg2.read_unread, harg5.read_unread, View.ld_unit_zero (S := S5000x64) hz2_4, View.ld_unit_zero (S := S1x64) hz2_4]

/-- A later point leaves in accumulator 0 the block's column sum added to what it held. -/
theorem sC0_4 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : cond4_1 i)
    (x0 : Vec F S5000x64 .f32) (x1 : Vec F S1x64 .f32) (xs0 : Vec F S1x64 .f32) (xs1 : Vec F S1x64 .f32) : sout4_C_0 c i arg1 harg1 arg2 harg2 arg3 harg3 arg4 harg4 arg5 harg5 arg6 harg6 hc0 hc1 x0 x1 xs0 xs1 = k4_pay4 x0 x1 xs0 := by
  unfold sout4_C_0
  rw [View.read_writes_eq_canon _ _ _ (scover4_C_0 c i arg1 harg1 arg2 harg2 arg3 harg3 arg4 harg4 arg5 harg5 arg6 harg6 hc0 hc1 x0 x1 xs0 xs1)]
  unfold kernelRun4_C
  dsimp only
  sl_unfold_words
  rw [View.canon_unit_zero hz2_4]
  simp only [View.readAt_eq_ld, harg1.read_unread, harg2.read_unread, harg5.read_unread, View.ld_unit_zero (S := S5000x64) hz2_4, View.ld_unit_zero (S := S1x64) hz2_4]

/-- The last point copies accumulator 0's new contents to output 2. -/
theorem oC2_4 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : cond4_1 i)
    (x0 : Vec F S5000x64 .f32) (x1 : Vec F S1x64 .f32) (xs0 : Vec F S1x64 .f32) (xs1 : Vec F S1x64 .f32) : out4_C_2 c i arg1 harg1 arg2 harg2 arg3 harg3 arg4 harg4 arg5 harg5 arg6 harg6 hc0 hc1 x0 x1 xs0 xs1 = k4_pay4 x0 x1 xs0 := by
  unfold out4_C_2
  rw [View.read_writes_eq_canon _ _ _ (cover4_C_2 c i arg1 harg1 arg2 harg2 arg3 harg3 arg4 harg4 arg5 harg5 arg6 harg6 hc0 hc1 x0 x1 xs0 xs1)]
  unfold kernelRun4_C
  dsimp only
  sl_unfold_words
  rw [View.canon_unit_zero hz2_4, View.readCov_unit_zero (S := S1x64) _ hz2_4]
  simp only [View.readAt_eq_ld, harg1.read_unread, harg2.read_unread, harg5.read_unread, View.ld_unit_zero (S := S5000x64) hz2_4, View.ld_unit_zero (S := S1x64) hz2_4]

/-- The first point leaves in accumulator 1 the block's column sum of squares added to the zero row. -/
theorem sA1_4 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : cond4_0 i) (hc1 : ¬cond4_1 i)
    (x0 : Vec F S5000x64 .f32) (x1 : Vec F S1x64 .f32) : sout4_A_1 c i arg1 harg1 arg2 harg2 arg3 harg3 arg4 harg4 arg5 harg5 arg6 harg6 hc0 hc1 x0 x1 = k4_pay5 x0 x1 k4_pay2 := by
  unfold sout4_A_1
  rw [View.read_writes_eq_canon _ _ _ (scover4_A_1 c i arg1 harg1 arg2 harg2 arg3 harg3 arg4 harg4 arg5 harg5 arg6 harg6 hc0 hc1 x0 x1)]
  unfold kernelRun4_A
  dsimp only
  sl_unfold_words
  rw [View.canon_cons_unit_zero (S := S1x64) hz2_4, View.readCov_unit_zero (S := S1x64) _ hz2_4]
  simp only [View.readAt_eq_ld, harg1.read_unread, harg2.read_unread, View.ld_unit_zero (S := S5000x64) hz2_4, View.ld_unit_zero (S := S1x64) hz2_4]

/-- A later point leaves in accumulator 1 the block's column sum of squares added to what it held. -/
theorem sB1_4 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : ¬cond4_1 i)
    (x0 : Vec F S5000x64 .f32) (x1 : Vec F S1x64 .f32) (xs0 : Vec F S1x64 .f32) (xs1 : Vec F S1x64 .f32) : sout4_B_1 c i arg1 harg1 arg2 harg2 arg3 harg3 arg4 harg4 arg5 harg5 arg6 harg6 hc0 hc1 x0 x1 xs0 xs1 = k4_pay5 x0 x1 xs1 := by
  unfold sout4_B_1
  rw [View.read_writes_eq_canon _ _ _ (scover4_B_1 c i arg1 harg1 arg2 harg2 arg3 harg3 arg4 harg4 arg5 harg5 arg6 harg6 hc0 hc1 x0 x1 xs0 xs1)]
  unfold kernelRun4_B
  dsimp only
  rw [View.canon_unit_zero hz2_4]
  simp only [View.readAt_eq_ld, harg1.read_unread, harg2.read_unread, harg6.read_unread, View.ld_unit_zero (S := S5000x64) hz2_4, View.ld_unit_zero (S := S1x64) hz2_4]

/-- A later point leaves in accumulator 1 the block's column sum of squares added to what it held. -/
theorem sC1_4 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : cond4_1 i)
    (x0 : Vec F S5000x64 .f32) (x1 : Vec F S1x64 .f32) (xs0 : Vec F S1x64 .f32) (xs1 : Vec F S1x64 .f32) : sout4_C_1 c i arg1 harg1 arg2 harg2 arg3 harg3 arg4 harg4 arg5 harg5 arg6 harg6 hc0 hc1 x0 x1 xs0 xs1 = k4_pay5 x0 x1 xs1 := by
  unfold sout4_C_1
  rw [View.read_writes_eq_canon _ _ _ (scover4_C_1 c i arg1 harg1 arg2 harg2 arg3 harg3 arg4 harg4 arg5 harg5 arg6 harg6 hc0 hc1 x0 x1 xs0 xs1)]
  unfold kernelRun4_C
  dsimp only
  sl_unfold_words
  rw [View.canon_unit_zero hz2_4]
  simp only [View.readAt_eq_ld, harg1.read_unread, harg2.read_unread, harg6.read_unread, View.ld_unit_zero (S := S5000x64) hz2_4, View.ld_unit_zero (S := S1x64) hz2_4]

/-- The last point copies accumulator 1's new contents to output 3. -/
theorem oC3_4 (c : Dev nD) (i : grid4.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S1x64 .f32) (harg6 : arg6.IsWhole) (hc0 : ¬cond4_0 i) (hc1 : cond4_1 i)
    (x0 : Vec F S5000x64 .f32) (x1 : Vec F S1x64 .f32) (xs0 : Vec F S1x64 .f32) (xs1 : Vec F S1x64 .f32) : out4_C_3 c i arg1 harg1 arg2 harg2 arg3 harg3 arg4 harg4 arg5 harg5 arg6 harg6 hc0 hc1 x0 x1 xs0 xs1 = k4_pay5 x0 x1 xs1 := by
  unfold out4_C_3
  rw [View.read_writes_eq_canon _ _ _ (cover4_C_3 c i arg1 harg1 arg2 harg2 arg3 harg3 arg4 harg4 arg5 harg5 arg6 harg6 hc0 hc1 x0 x1 xs0 xs1)]
  unfold kernelRun4_C
  dsimp only
  sl_unfold_words
  rw [View.canon_unit_zero hz2_4, View.readCov_unit_zero (S := S1x64) _ hz2_4]
  simp only [View.readAt_eq_ld, harg1.read_unread, harg2.read_unread, harg6.read_unread, View.ld_unit_zero (S := S5000x64) hz2_4, View.ld_unit_zero (S := S1x64) hz2_4]

section
variable (V : (c : Dev nD) → (b : Ref sig .tc) → Buf (Elt F) ((c : Thread nD τ).loc b))

/-- After the first point the accumulators hold the first block's column sums over the zero row. -/
theorem acc_first4 (c : Dev nD) (t : Fin cfg4.N) (h0 : t.val = 0) :
    (outsAt4 V c t.val t.isLt).2.2.1 = k4_pay4 (iblk4 V c 0 t) (iblk4 V c 1 t) k4_pay1
    ∧ (outsAt4 V c t.val t.isLt).2.2.2 = k4_pay5 (iblk4 V c 0 t) (iblk4 V c 1 t) k4_pay2 := by
  have hN : t.val < 20 := lt_of_lt_of_eq t.isLt (show cfg4.N = 20 from N_4)
  have h1 : ¬t.val = 19 := by omega
  rw [outsAt4_A V c t h0 h1]
  exact ⟨sA0_4 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t), sA1_4 c (grid4.coords t) (ms4_0 t) (hs4_0 t) (ms4_1 t) (hs4_1 t) (ms4_2 t) (hs4_2 t) (ms4_3 t) (hs4_3 t) scM4_0 (Memref.isWhole_whole _) scM4_1 (Memref.isWhole_whole _) ((hcond4_0 t).mpr h0) (fun h => h1 ((hcond4_1 t).mp h)) (iblk4 V c 0 t) (iblk4 V c 1 t)⟩

/-- After a later point the accumulators hold the block's column sums added to what the point before left. -/
theorem acc_step4 (c : Dev nD) (t : Fin cfg4.N) (h0 : ¬t.val = 0) :
    (outsAt4 V c t.val t.isLt).2.2.1 = k4_pay4 (iblk4 V c 0 t) (iblk4 V c 1 t) (outsAt4 V c (t.val - 1) (Nat.lt_of_le_of_lt (Nat.sub_le _ _) t.isLt)).2.2.1
    ∧ (outsAt4 V c t.val t.isLt).2.2.2 = k4_pay5 (iblk4 V c 0 t) (iblk4 V c 1 t) (outsAt4 V c (t.val - 1) (Nat.lt_of_le_of_lt (Nat.sub_le _ _) t.isLt)).2.2.2 := by
  by_cases h1 : t.val = 19
  · rw [outsAt4_C V c t h0 h1]
    exact ⟨sC0_4 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, sC1_4 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2⟩
  · rw [outsAt4_B V c t h0 h1]
    exact ⟨sB0_4 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2, sB1_4 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) (fun h => h1 ((hcond4_1 t).mp h)) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2⟩

/-- After the last point each output's buffer holds its accumulator's contents. -/
theorem out_last4 (c : Dev nD) (t : Fin cfg4.N) (h1 : t.val = 19) :
    (outsAt4 V c t.val t.isLt).1 = (outsAt4 V c t.val t.isLt).2.2.1
    ∧ (outsAt4 V c t.val t.isLt).2.1 = (outsAt4 V c t.val t.isLt).2.2.2 := by
  have h0 : ¬t.val = 0 := by omega
  rw [outsAt4_C V c t h0 h1]
  exact ⟨(oC2_4 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2).trans (sC0_4 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2).symm,
    (oC3_4 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2).trans (sC1_4 c (grid4.coords t) (ms4_0 t) (hs4_0 t) (ms4_1 t) (hs4_1 t) (ms4_2 t) (hs4_2 t) (ms4_3 t) (hs4_3 t) scM4_0 (Memref.isWhole_whole _) scM4_1 (Memref.isWhole_whole _) (fun h => h0 ((hcond4_0 t).mp h)) ((hcond4_1 t).mpr h1) (iblk4 V c 0 t) (iblk4 V c 1 t) (outsAt4 V c (t.val - 1) (Nat.lt_of_le_of_lt (Nat.sub_le _ _) t.isLt)).2.2.1 (outsAt4 V c (t.val - 1) (Nat.lt_of_le_of_lt (Nat.sub_le _ _) t.isLt)).2.2.2).symm⟩

/-! ## The blocks as entries of the arrays -/

/-- Block `t` of the row-block input starts at row 5000·t, column 0; the bias row's one block is the row. -/
theorem idx_facts4 : ∀ t : Fin cfg4.N, (win4_0.index t 0 = t.val ∧ win4_0.index t 1 = 0) ∧ (win4_1.index t 0 = 0 ∧ win4_1.index t 1 = 0) :=
  (by decide +kernel : ∀ t : Fin grid4.N, (win4_0.index t 0 = t.val ∧ win4_0.index t 1 = 0) ∧ (win4_1.index t 0 = 0 ∧ win4_1.index t 1 = 0))

/-- Row `r` of block `t` is row 5000·t + r of the array. -/
def row4 (t : Fin cfg4.N) (r : Fin 5000) : Fin 100000 :=
  ⟨5000 * t.val + r.val, by have hN : t.val < 20 := lt_of_lt_of_eq t.isLt (show cfg4.N = 20 from N_4); have := r.isLt; omega⟩

theorem iblk4_0_apply (c : Dev nD) (t : Fin cfg4.N) (r : Fin 5000) (j : Fin 64) :
    (iblk4 V c 0 t : Vec F S5000x64 .f32) (ix2 r j) = V c main_v75 (ix2 (row4 t r) j) := by
  have hi := (idx_facts4 t).1
  unfold iblk4
  rw [View.read_apply]
  show V c main_v75 _ = V c main_v75 _
  congr 1
  funext a
  apply Fin.ext
  match a with
  | ⟨0, _⟩ => show win4_0.index t 0 * 5000 + 1 * r.val = 5000 * t.val + r.val; rw [hi.1]; omega
  | ⟨1, _⟩ => show win4_0.index t 1 * 64 + 1 * j.val = j.val; rw [hi.2]; omega

theorem iblk4_1_apply (c : Dev nD) (t : Fin cfg4.N) (j : Fin 64) :
    (iblk4 V c 1 t : Vec F S1x64 .f32) (ix2 0 j) = V c main_v76 (ix2 0 j) := by
  have hi := (idx_facts4 t).2
  unfold iblk4
  rw [View.read_apply]
  show V c main_v76 _ = V c main_v76 _
  congr 1
  funext a
  apply Fin.ext
  match a with
  | ⟨0, _⟩ => show win4_1.index t 0 * 1 + 1 * 0 = 0; rw [hi.1]
  | ⟨1, _⟩ => show win4_1.index t 1 * 64 + 1 * j.val = j.val; rw [hi.2]; omega

end

/-! ## The body's arithmetic over the extended reals, entry by entry -/

theorem lift0_4 (h : S5000x64.Reduces [0] S64) (j : Fin 64) (k : Fin 5000) : h.lift (ix1 j) k = ix2 k j := by
  funext a; apply Fin.ext
  match a with
  | ⟨0, _⟩ => rfl
  | ⟨1, _⟩ => rfl

/-- The reduction over the rows of a 5000 × 64 block, at column `j`, is the sum of that column. -/
theorem colsum_apply4 (v : FVec Ideal S5000x64 .f32) (h : S5000x64.Reduces [0] S64) (hφ : FKind.Formats .f32)
    (hacc : (0x00000000#32 : BitVec 32) = FKind.add.neutral .f32 hφ) (j : Fin 64) :
    multiReduction (F := Ideal) .add [0] S64 v 0x00000000#32 h hφ hacc (ix1 j) = ∑ r : Fin 5000, v (ix2 r j) :=
  (Ideal.multiReduction_add_single v 0x00000000#32 h hφ hacc (ix1 j)).trans
    (Finset.sum_congr rfl fun k _ => congrArg v (lift0_4 h j k))

/-- The block with the bias row added to every row. -/
theorem pay3_apply4 (x0 : FVec Ideal S5000x64 .f32) (x1 : FVec Ideal S1x64 .f32) (r : Fin 5000) (j : Fin 64) :
    k4_pay3 (F := Ideal) x0 x1 (ix2 r j) = x0 (ix2 r j) + x1 (ix2 0 j) := by
  unfold k4_pay3
  simp only [addf_apply, shapeCast_self, broadcastTo_1b_ab_apply]

/-- The new running sum: the old one plus the column sum of the block with the bias added. -/
theorem pay4_apply4 (x0 : FVec Ideal S5000x64 .f32) (x1 acc : FVec Ideal S1x64 .f32) (j : Fin 64) :
    k4_pay4 (F := Ideal) x0 x1 acc (ix2 0 j) = acc (ix2 0 j) + ∑ r : Fin 5000, (x0 (ix2 r j) + x1 (ix2 0 j)) := by
  unfold k4_pay4
  simp only [addf_apply, shapeCast_self, shapeCast_a_1a_apply]
  refine congrArg (acc (ix2 0 j) + ·) ?_
  refine (colsum_apply4 _ _ _ _ j).trans ?_
  exact Finset.sum_congr rfl fun r _ => pay3_apply4 x0 x1 r j

/-- The new running sum of squares. -/
theorem pay5_apply4 (x0 : FVec Ideal S5000x64 .f32) (x1 acc : FVec Ideal S1x64 .f32) (j : Fin 64) :
    k4_pay5 (F := Ideal) x0 x1 acc (ix2 0 j)
      = acc (ix2 0 j) + ∑ r : Fin 5000, (x0 (ix2 r j) + x1 (ix2 0 j)) * (x0 (ix2 r j) + x1 (ix2 0 j)) := by
  unfold k4_pay5
  simp only [addf_apply, shapeCast_self, shapeCast_a_1a_apply]
  refine congrArg (acc (ix2 0 j) + ·) ?_
  refine (colsum_apply4 _ _ _ _ j).trans ?_
  exact Finset.sum_congr rfl fun r _ => by rw [mulf_apply, pay3_apply4]

/-- The rows the first point stores are zero. -/
theorem pay1_apply4 (j : Fin 64) : k4_pay1 (F := Ideal) (ix2 0 j) = 0 := by
  unfold k4_pay1
  simp only [shapeCast_self, broadcast_apply]
  exact Ideal.ofBits_zero_f32

theorem pay2_apply4 (j : Fin 64) : k4_pay2 (F := Ideal) (ix2 0 j) = 0 := by
  unfold k4_pay2
  simp only [shapeCast_self, broadcast_apply]
  exact Ideal.ofBits_zero_f32

section
variable (V : (c : Dev nD) → (b : Ref sig .tc) → Buf (Elt Ideal) ((c : Thread nD τ).loc b))

/-- The two input arrays as arrays of extended reals, and their blocks at a point. -/
abbrev inA4 (c : Dev nD) : Cert.Spec.Arr 100000 64 := V c main_v75
abbrev inB4 (c : Dev nD) : Cert.Spec.Arr 1 64 := V c main_v76
abbrev blkA4 (c : Dev nD) (t : Fin cfg4.N) : FVec Ideal S5000x64 .f32 := iblk4 V c 0 t
abbrev blkB4 (c : Dev nD) (t : Fin cfg4.N) : FVec Ideal S1x64 .f32 := iblk4 V c 1 t

/-! ## The running sums, point by point -/

/-- Block `t`'s column sum at column `j` (zero past the grid). -/
def bsum4 (c : Dev nD) (j : Fin 64) (t : ℕ) : EReal :=
  if h : t < cfg4.N then ∑ r : Fin 5000, (inA4 V c (ix2 (row4 ⟨t, h⟩ r) j) + inB4 V c (ix2 0 j)) else 0
/-- Block `t`'s column sum of squares at column `j`. -/
def bsq4 (c : Dev nD) (j : Fin 64) (t : ℕ) : EReal :=
  if h : t < cfg4.N then ∑ r : Fin 5000, (inA4 V c (ix2 (row4 ⟨t, h⟩ r) j) + inB4 V c (ix2 0 j)) * (inA4 V c (ix2 (row4 ⟨t, h⟩ r) j) + inB4 V c (ix2 0 j)) else 0

theorem bsum4_of_lt (c : Dev nD) (j : Fin 64) (t : Fin cfg4.N) :
    bsum4 V c j t.val = ∑ r : Fin 5000, (blkA4 V c t (ix2 r j) + blkB4 V c t (ix2 0 j)) := by
  unfold bsum4; rw [dif_pos t.isLt]
  exact Finset.sum_congr rfl fun r _ => (congrArg₂ (fun (x y : EReal) => x + y) (iblk4_0_apply V c t r j) (iblk4_1_apply V c t j)).symm

theorem bsq4_of_lt (c : Dev nD) (j : Fin 64) (t : Fin cfg4.N) :
    bsq4 V c j t.val = ∑ r : Fin 5000, (blkA4 V c t (ix2 r j) + blkB4 V c t (ix2 0 j)) * (blkA4 V c t (ix2 r j) + blkB4 V c t (ix2 0 j)) := by
  unfold bsq4; rw [dif_pos t.isLt]
  exact Finset.sum_congr rfl fun r _ =>
    (congrArg₂ (fun (x y : EReal) => x * y) (congrArg₂ (fun (x y : EReal) => x + y) (iblk4_0_apply V c t r j) (iblk4_1_apply V c t j))
      (congrArg₂ (fun (x y : EReal) => x + y) (iblk4_0_apply V c t r j) (iblk4_1_apply V c t j))).symm

/-- After point `n` the two accumulators hold, at column `j`, the sums over the blocks 0..n of the blocks' column sums
    and column sums of squares. -/
theorem acc4_eq (c : Dev nD) (j : Fin 64) : ∀ (n : ℕ) (hn : n < cfg4.N),
    (outsAt4 V c n hn).2.2.1 (ix2 0 j) = ∑ t ∈ Finset.range (n + 1), bsum4 V c j t
    ∧ (outsAt4 V c n hn).2.2.2 (ix2 0 j) = ∑ t ∈ Finset.range (n + 1), bsq4 V c j t
  | 0, hn => by
    obtain ⟨e0, e1⟩ := acc_first4 V c ⟨0, hn⟩ rfl
    constructor
    · refine (congrFun e0 (ix2 0 j)).trans ?_
      refine (pay4_apply4 (iblk4 V c 0 ⟨0, hn⟩) (iblk4 V c 1 ⟨0, hn⟩) k4_pay1 j).trans ?_
      rw [pay1_apply4, zero_add, Finset.sum_range_one]
      exact (bsum4_of_lt V c j ⟨0, hn⟩).symm
    · refine (congrFun e1 (ix2 0 j)).trans ?_
      refine (pay5_apply4 (iblk4 V c 0 ⟨0, hn⟩) (iblk4 V c 1 ⟨0, hn⟩) k4_pay2 j).trans ?_
      rw [pay2_apply4, zero_add, Finset.sum_range_one]
      exact (bsq4_of_lt V c j ⟨0, hn⟩).symm
  | n + 1, hn => by
    obtain ⟨e0, e1⟩ := acc_step4 V c ⟨n + 1, hn⟩ (Nat.succ_ne_zero n)
    obtain ⟨i0, i1⟩ := acc4_eq c j n (Nat.lt_of_succ_lt hn)
    constructor
    · refine (congrFun e0 (ix2 0 j)).trans ?_
      refine (pay4_apply4 (iblk4 V c 0 ⟨n + 1, hn⟩) (iblk4 V c 1 ⟨n + 1, hn⟩) (outsAt4 V c ((⟨n + 1, hn⟩ : Fin cfg4.N).val - 1) (Nat.lt_of_le_of_lt (Nat.sub_le _ _) (⟨n + 1, hn⟩ : Fin cfg4.N).isLt)).2.2.1 j).trans ?_
      rw [Finset.sum_range_succ _ (n + 1)]
      exact congrArg₂ (fun (x y : EReal) => x + y) i0 (bsum4_of_lt V c j ⟨n + 1, hn⟩).symm
    · refine (congrFun e1 (ix2 0 j)).trans ?_
      refine (pay5_apply4 (iblk4 V c 0 ⟨n + 1, hn⟩) (iblk4 V c 1 ⟨n + 1, hn⟩) (outsAt4 V c ((⟨n + 1, hn⟩ : Fin cfg4.N).val - 1) (Nat.lt_of_le_of_lt (Nat.sub_le _ _) (⟨n + 1, hn⟩ : Fin cfg4.N).isLt)).2.2.2 j).trans ?_
      rw [Finset.sum_range_succ _ (n + 1)]
      exact congrArg₂ (fun (x y : EReal) => x + y) i1 (bsq4_of_lt V c j ⟨n + 1, hn⟩).symm

/-! ## The totals -/

/-- The last point. -/
abbrev t19_4 : Fin cfg4.N := ⟨19, lt_of_lt_of_eq (by decide : 19 < 20) (N_4).symm⟩

/-- The sum over the twenty blocks of a block's 5000 rows is the sum over all 100000 rows. -/
theorem blocks_total4 (f : Fin 100000 → EReal) (b : ℕ → EReal)
    (hb : ∀ t : Fin 20, b t.val = ∑ r : Fin 5000, f (row4 ⟨t.val, lt_of_lt_of_eq t.isLt (N_4).symm⟩ r)) :
    ∑ t ∈ Finset.range 20, b t = ∑ i : Fin 100000, f i := by
  rw [Cert.BlockSum.sum_blocks (show 20 * 5000 = 100000 from rfl)
    (fun t r => row4 ⟨t.val, lt_of_lt_of_eq t.isLt (N_4).symm⟩ r) (fun t r => rfl) f, Finset.sum_range]
  exact Finset.sum_congr rfl fun t _ => hb t

/-- After the last point output 2's buffer holds the column sums over all rows and output 3's the column sums of squares. -/
theorem out_total4 (c : Dev nD) (j : Fin 64) :
    (outsAt4 V c (t19_4).val (t19_4).isLt).1 (ix2 0 j) = ∑ i : Fin 100000, (inA4 V c (ix2 i j) + inB4 V c (ix2 0 j))
    ∧ (outsAt4 V c (t19_4).val (t19_4).isLt).2.1 (ix2 0 j) = ∑ i : Fin 100000, (inA4 V c (ix2 i j) + inB4 V c (ix2 0 j)) * (inA4 V c (ix2 i j) + inB4 V c (ix2 0 j)) := by
  obtain ⟨o2, o3⟩ := out_last4 V c t19_4 rfl
  obtain ⟨a0, a1⟩ := acc4_eq V c j 19 (t19_4).isLt
  constructor
  · refine (congrFun o2 (ix2 0 j)).trans (a0.trans ?_)
    exact blocks_total4 (fun i => (inA4 V c (ix2 i j) + inB4 V c (ix2 0 j))) (bsum4 V c j) fun t => by
      unfold bsum4; rw [dif_pos (lt_of_lt_of_eq t.isLt (N_4).symm)]
  · refine (congrFun o3 (ix2 0 j)).trans (a1.trans ?_)
    exact blocks_total4 (fun i => (inA4 V c (ix2 i j) + inB4 V c (ix2 0 j)) * (inA4 V c (ix2 i j) + inB4 V c (ix2 0 j))) (bsq4 V c j) fun t => by
      unfold bsq4; rw [dif_pos (lt_of_lt_of_eq t.isLt (N_4).symm)]

theorem out2_eq4 (c : Dev nD) :
    (outsAt4 V c (t19_4).val (t19_4).isLt).1 = Cert.Spec.SSUM (V c main_v75) (V c main_v76) := by
  funext idx
  obtain ⟨p, q, rfl⟩ : ∃ (p : Fin 1) (q : Fin 64), idx = ix2 p q := ⟨idx 0, idx 1, eq_ix2 idx⟩
  obtain rfl : p = 0 := Subsingleton.elim _ _
  exact (out_total4 V c q).1

theorem out3_eq4 (c : Dev nD) :
    (outsAt4 V c (t19_4).val (t19_4).isLt).2.1 = Cert.Spec.SSQ (V c main_v75) (V c main_v76) := by
  funext idx
  obtain ⟨p, q, rfl⟩ : ∃ (p : Fin 1) (q : Fin 64), idx = ix2 p q := ⟨idx 0, idx 1, eq_ix2 idx⟩
  obtain rfl : p = 0 := Subsingleton.elim _ _
  exact (out_total4 V c q).2

/-- Output 2's only write-back, at the last point, writes the totals: its one block is the whole 1 × 64 array. -/
theorem flushed4_2_eq (c : Dev nD) (t : Fin cfg4.N) (hf : (cfg4.win 2).flush t = true) :
    (dat4 V c).flushed 2 t = ((cfg4.win 2).blk t).view.read (Elt Ideal) (Cert.Spec.SSUM (V c main_v75) (V c main_v76)) := by
  have hN : cfg4.N = 20 := N_4
  have h19 : t.val = 19 := by have := (flush4_2 t).mp hf; have := t.isLt; omega
  obtain rfl : t = t19_4 := Fin.ext h19
  show (cfg4.win 2).cut (grid4.coords t19_4) ((dat4 V c).after 2 t19_4) = _
  rw [after4_2, out2_eq4 V c]
  have hz' : (fun a => win4_2.index t19_4 a * main_v77_0.ty.shape.size a) = fun _ => 0 := funext fun a => by fin_cases a <;> decide +kernel
  exact (Memref.read_access_unit_zero (Elt Ideal) main_v77_0 hz' (fun a => by rw [congrFun hz' a]; simp) (Cert.Spec.SSUM (V c main_v75) (V c main_v76))).symm

/-- So output array 2 ends holding the column sums of the input with the bias row added to every row. -/
theorem final4_2 (c : Dev nD) : (dat4 V c).arrAt 2 cfg4.N = Cert.Spec.SSUM (V c main_v75) (V c main_v76) :=
  (dat4 V c).arrAt_eq_of_cover 2 (Cert.Spec.SSUM (V c main_v75) (V c main_v76)) (flushed4_2_eq V c) fun i =>
    ⟨t19_4, (flush4_2 t19_4).mpr rfl, by
      show i ∈ ((View.whole main_v77_0).slice (win4_2.rect t19_4)).set
      rw [View.set_slice_whole, Rect.mem_set_unit]
      intro a
      have h0 : (i 0 : Nat) < 1 := (i 0).isLt
      have h1 : (i 1 : Nat) < 64 := (i 1).isLt
      match a with
      | ⟨0, _⟩ => show win4_2.index t19_4 0 * win4_2.size 0 ≤ (i 0 : Nat) ∧ (i 0 : Nat) < win4_2.index t19_4 0 * win4_2.size 0 + win4_2.xsize (grid4.coords t19_4) 0
                  rw [show win4_2.index t19_4 0 * win4_2.size 0 = 0 from by decide +kernel, show win4_2.xsize (grid4.coords t19_4) 0 = 1 from by decide +kernel]; omega
      | ⟨1, _⟩ => show win4_2.index t19_4 1 * win4_2.size 1 ≤ (i 1 : Nat) ∧ (i 1 : Nat) < win4_2.index t19_4 1 * win4_2.size 1 + win4_2.xsize (grid4.coords t19_4) 1
                  rw [show win4_2.index t19_4 1 * win4_2.size 1 = 0 from by decide +kernel, show win4_2.xsize (grid4.coords t19_4) 1 = 64 from by decide +kernel]; omega⟩

/-- Output 3's only write-back, at the last point, writes the totals: its one block is the whole 1 × 64 array. -/
theorem flushed4_3_eq (c : Dev nD) (t : Fin cfg4.N) (hf : (cfg4.win 3).flush t = true) :
    (dat4 V c).flushed 3 t = ((cfg4.win 3).blk t).view.read (Elt Ideal) (Cert.Spec.SSQ (V c main_v75) (V c main_v76)) := by
  have hN : cfg4.N = 20 := N_4
  have h19 : t.val = 19 := by have := (flush4_3 t).mp hf; have := t.isLt; omega
  obtain rfl : t = t19_4 := Fin.ext h19
  show (cfg4.win 3).cut (grid4.coords t19_4) ((dat4 V c).after 3 t19_4) = _
  rw [after4_3, out3_eq4 V c]
  have hz' : (fun a => win4_3.index t19_4 a * main_v77_1.ty.shape.size a) = fun _ => 0 := funext fun a => by fin_cases a <;> decide +kernel
  exact (Memref.read_access_unit_zero (Elt Ideal) main_v77_1 hz' (fun a => by rw [congrFun hz' a]; simp) (Cert.Spec.SSQ (V c main_v75) (V c main_v76))).symm

/-- So output array 3 ends holding the column sums of squares of the input with the bias row added to every row. -/
theorem final4_3 (c : Dev nD) : (dat4 V c).arrAt 3 cfg4.N = Cert.Spec.SSQ (V c main_v75) (V c main_v76) :=
  (dat4 V c).arrAt_eq_of_cover 3 (Cert.Spec.SSQ (V c main_v75) (V c main_v76)) (flushed4_3_eq V c) fun i =>
    ⟨t19_4, (flush4_3 t19_4).mpr rfl, by
      show i ∈ ((View.whole main_v77_1).slice (win4_3.rect t19_4)).set
      rw [View.set_slice_whole, Rect.mem_set_unit]
      intro a
      have h0 : (i 0 : Nat) < 1 := (i 0).isLt
      have h1 : (i 1 : Nat) < 64 := (i 1).isLt
      match a with
      | ⟨0, _⟩ => show win4_3.index t19_4 0 * win4_3.size 0 ≤ (i 0 : Nat) ∧ (i 0 : Nat) < win4_3.index t19_4 0 * win4_3.size 0 + win4_3.xsize (grid4.coords t19_4) 0
                  rw [show win4_3.index t19_4 0 * win4_3.size 0 = 0 from by decide +kernel, show win4_3.xsize (grid4.coords t19_4) 0 = 1 from by decide +kernel]; omega
      | ⟨1, _⟩ => show win4_3.index t19_4 1 * win4_3.size 1 ≤ (i 1 : Nat) ∧ (i 1 : Nat) < win4_3.index t19_4 1 * win4_3.size 1 + win4_3.xsize (grid4.coords t19_4) 1
                  rw [show win4_3.index t19_4 1 * win4_3.size 1 = 0 from by decide +kernel, show win4_3.xsize (grid4.coords t19_4) 1 = 64 from by decide +kernel]; omega⟩

end

end Cert.KernelIdeal.Fr

end
-- ==== Proof.KI.F5.lean ====
import proofs.«119403_j19189913878709_1_alg».proof.Proof.KI.R5
import proofs.«119403_j19189913878709_1_alg».proof.Proof.KI.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen Cert.Spec
open Idealize.ShloMosaic Idealize.ShloMosaic.TcCoe Idealize.SL.Sem Idealize.ShloMosaic.ValueIdx
open Idealize.ShloMosaic.Pipeline (Dat)

-- the region-entry contents, at the extended reals
variable (V : (c : Dev nD) → (b : Ref sig .tc) → Buf (Elt Ideal) ((c : Thread nD τ).loc b))

/-- The origin of a rank-2 block. -/
theorem hz5 : (![0, 0] : Fin 2 → Nat) = fun _ => 0 := funext fun a => by fin_cases a <;> rfl

/-- A row broadcast along the block's rows, read at an entry: the row at the entry's column. -/
theorem row5_apply (x : Vec Ideal S1x64 .f32) (j : S5000x64.Idx) :
    broadcastTo S5000x64 (shapeCast S1x64 x shapeCasts_S1x64_S1x64) broadcasts_S1x64_S5000x64 j = x (ix2 0 (j 1)) := by
  rw [shapeCast_self x _]
  exact broadcastTo_apply x _ j (ix2 0 (j 1)) (fun a => by
    match a with
    | ⟨0, _⟩ => rfl
    | ⟨1, _⟩ => rfl)

/-- The body's payload at an entry: max(((x + b) · s) + sh, 0), the rows read at the entry's column. -/
theorem pay5_apply (x0 : Vec Ideal S5000x64 .f32) (x1 x2 x3 : Vec Ideal S1x64 .f32) (j : S5000x64.Idx) :
    k5_pay1 x0 x1 x2 x3 j = max ((x0 j + x1 (ix2 0 (j 1))) * x2 (ix2 0 (j 1)) + x3 (ix2 0 (j 1))) 0 := by
  show max ((shapeCast S5000x64 x0 shapeCasts_S5000x64_S5000x64 j + broadcastTo S5000x64 (shapeCast S1x64 x1 shapeCasts_S1x64_S1x64) broadcasts_S1x64_S5000x64 j) * broadcastTo S5000x64 (shapeCast S1x64 x2 shapeCasts_S1x64_S1x64) broadcasts_S1x64_S5000x64 j
      + broadcastTo S5000x64 (shapeCast S1x64 x3 shapeCasts_S1x64_S1x64) broadcasts_S1x64_S5000x64 j) (Ideal.ofBits .f32 0x00000000#32) = _
  rw [shapeCast_self x0 _, row5_apply, row5_apply, row5_apply, Ideal.ofBits_zero_f32]

/-- The payload of blocks that are restrictions of the four arrays is the affine map of the arrays at the block's place. -/
theorem point5 (x0 : Vec Ideal S5000x64 .f32) (x1 x2 x3 : Vec Ideal S1x64 .f32) (A : Arr 100000 64) (b s sh : Arr 1 64)
    (j : S5000x64.Idx) (i : S100000x64.Idx)
    (h0 : x0 j = A i) (h1 : x1 (ix2 0 (j 1)) = b (ix2 0 (i 1))) (h2 : x2 (ix2 0 (j 1)) = s (ix2 0 (i 1)))
    (h3 : x3 (ix2 0 (j 1)) = sh (ix2 0 (i 1))) :
    k5_pay1 x0 x1 x2 x3 j = AFF A b s sh i := by
  rw [pay5_apply, h0, h1, h2, h3]
  rfl

/-- The printed index maps, decided over the grid: the input's and the output's row blocks move together; each of the
    three rows is one block. -/
theorem idx_facts5 : ∀ t : Fin cfg5.N, win5_0.index t (0 : Fin 2) = win5_4.index t (0 : Fin 2) + 0
    ∧ win5_0.index t (1 : Fin 2) = win5_4.index t (1 : Fin 2) + 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (1 : Fin 2) = 0 :=
  (by decide +kernel : ∀ t : Fin grid5.N, _)

/-- What point `t` writes back is block `t` of the affine map of the arrays as the region finds them. -/
theorem flushed5_eq (c : Dev nD) (t : Fin cfg5.N) :
    (dat5 V c).flushed 4 t = ((cfg5.win 4).blk t).view.read (Elt Ideal) (AFF (V c main_v75) (V c main_v94) (V c main_v95) (V c main_v96)) := by
  show (cfg5.win 4).cut (grid5.coords t) ((dat5 V c).after 4 t) = _
  rw [after5_4]
  unfold out5_4
  rw [View.canon_unit_zero hz5]
  simp only [View.ld_unit_zero (S := S5000x64) hz5, View.ld_unit_zero (S := S1x64) hz5]
  obtain ⟨e0, e1, e2, e3, e4, e5, e6, e7, e8⟩ := idx_facts5 t
  funext j
  refine point5 _ _ _ _ (V c main_v75) (V c main_v94) (V c main_v95) (V c main_v96) j (((cfg5.win 4).blk t).view.emb j) ?_ ?_ ?_ ?_
  · show V c main_v75 (((cfg5.win 0).blk t).view.emb j) = _
    refine congrArg (V c main_v75) (funext fun a => Fin.ext ?_)
    match a with
    | ⟨0, _⟩ => show win5_0.index t (0 : Fin 2) * 5000 + 1 * (j 0).val = win5_4.index t (0 : Fin 2) * 5000 + 1 * (j 0).val; omega
    | ⟨1, _⟩ => show win5_0.index t (1 : Fin 2) * 64 + 1 * (j 1).val = win5_4.index t (1 : Fin 2) * 64 + 1 * (j 1).val; omega
  · show V c main_v94 (((cfg5.win 1).blk t).view.emb (ix2 0 (j 1))) = _
    refine congrArg (V c main_v94) (funext fun a => Fin.ext ?_)
    match a with
    | ⟨0, _⟩ => show win5_1.index t (0 : Fin 2) * 1 + 1 * 0 = 0; omega
    | ⟨1, _⟩ => show win5_1.index t (1 : Fin 2) * 64 + 1 * (j 1).val = win5_4.index t (1 : Fin 2) * 64 + 1 * (j 1).val; omega
  · show V c main_v95 (((cfg5.win 2).blk t).view.emb (ix2 0 (j 1))) = _
    refine congrArg (V c main_v95) (funext fun a => Fin.ext ?_)
    match a with
    | ⟨0, _⟩ => show win5_2.index t (0 : Fin 2) * 1 + 1 * 0 = 0; omega
    | ⟨1, _⟩ => show win5_2.index t (1 : Fin 2) * 64 + 1 * (j 1).val = win5_4.index t (1 : Fin 2) * 64 + 1 * (j 1).val; omega
  · show V c main_v96 (((cfg5.win 3).blk t).view.emb (ix2 0 (j 1))) = _
    refine congrArg (V c main_v96) (funext fun a => Fin.ext ?_)
    match a with
    | ⟨0, _⟩ => show win5_3.index t (0 : Fin 2) * 1 + 1 * 0 = 0; omega
    | ⟨1, _⟩ => show win5_3.index t (1 : Fin 2) * 64 + 1 * (j 1).val = win5_4.index t (1 : Fin 2) * 64 + 1 * (j 1).val; omega

/-- Every block of the output array is some point's (decided over the grid). -/
theorem idx_onto5 : ∀ (q0 : Fin 20) (q1 : Fin 1), ∃ t : Fin cfg5.N, win5_4.index t = ![q0.val + 0, q1.val + 0] :=
  (by decide +kernel : ∀ (q0 : Fin 20) (q1 : Fin 1), ∃ t : Fin grid5.N, win5_4.index t = ![q0.val + 0, q1.val + 0])

/-- An index of the array is in point `t`'s block iff each coordinate is in the block's range on its axis. -/
theorem mem_blk5 (t : Fin cfg5.N) (i : S100000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v97).slice (win5_4.rect t)).set ↔ _
  rw [View.set_slice_whole, Rect.mem_set_unit]
  exact Iff.rfl

/-- The blocks cover the array: row `r` is in the block of the point whose block index is `r / 5000`. -/
theorem cover5 (i : S100000x64.Idx) : ∃ t : Fin cfg5.N, (cfg5.win 4).flush t = true ∧ i ∈ ((cfg5.win 4).blk t).view.set := by
  have hi0 : (i 0).val < 100000 := (i 0).isLt
  have hi1 : (i 1).val < 64 := (i 1).isLt
  obtain ⟨t, ht⟩ := idx_onto5 ⟨(i 0).val / 5000, by omega⟩ ⟨(i 1).val / 64, by omega⟩
  have q0 : win5_4.index t (0 : Fin 2) = (i 0).val / 5000 + 0 := congrFun ht 0
  have q1 : win5_4.index t (1 : Fin 2) = (i 1).val / 64 + 0 := congrFun ht 1
  refine ⟨t, flush5_4 t, ?_⟩
  rw [mem_blk5]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 64 ≤ (i 1).val ∧ (i 1).val < win5_4.index t (1 : Fin 2) * 64 + 64; omega

/-- The output array after the region: the affine map and positive part of the input array, column by column. -/
theorem final5 (c : Dev nD) : (dat5 V c).arrAt 4 cfg5.N = AFF (V c main_v75) (V c main_v94) (V c main_v95) (V c main_v96) :=
  (dat5 V c).arrAt_eq_of_cover 4 (AFF (V c main_v75) (V c main_v94) (V c main_v95) (V c main_v96)) (fun t _ => flushed5_eq V c t) cover5

end Cert.KernelIdeal.Fr

end
-- ==== Proof.KI.F6.lean ====
import proofs.«119403_j19189913878709_1_alg».proof.Proof.KI.R6
import proofs.«119403_j19189913878709_1_alg».proof.Proof.KI.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Fr

open Cert.KernelIdeal Cert.KernelIdeal.Gen Cert.Spec
open Idealize.ShloMosaic Idealize.ShloMosaic.TcCoe Idealize.SL.Sem Idealize.ShloMosaic.ValueIdx
open Idealize.ShloMosaic.Pipeline (Dat)

-- the region-entry contents, at the extended reals
variable (V : (c : Dev nD) → (b : Ref sig .tc) → Buf (Elt Ideal) ((c : Thread nD τ).loc b))

/-- The origin of a rank-2 block. -/
theorem hz6 : (![0, 0] : Fin 2 → Nat) = fun _ => 0 := funext fun a => by fin_cases a <;> rfl

/-- The left operand of the contraction is read at (row of the output, k), -/
theorem mm6a_l0 (i : S5000x64.Idx) (q : dot_S5000x64_S64x64_S5000x64_1_0_0_1_n_n.contr.Idx) : (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem mm6a_l1 (i : S5000x64.Idx) (q : dot_S5000x64_S64x64_S5000x64_1_0_0_1_n_n.contr.Idx) : (dot_S5000x64_S64x64_S5000x64_1_0_0_1_n_n.lhsIdx i q 1).val = (q ⟨0, by decide⟩).val :=
  dot_S5000x64_S64x64_S5000x64_1_0_0_1_n_n.lhsIdx_val_of_single rfl i q
/-- the right operand at (k, column of the output). -/
theorem mm6a_r0 (i : S5000x64.Idx) (q : dot_S5000x64_S64x64_S5000x64_1_0_0_1_n_n.contr.Idx) : (dot_S5000x64_S64x64_S5000x64_1_0_0_1_n_n.rhsIdx i q 0).val = (q ⟨0, by decide⟩).val :=
  dot_S5000x64_S64x64_S5000x64_1_0_0_1_n_n.rhsIdx_val_of_single rfl i q
theorem mm6a_r1 (i : S5000x64.Idx) (q : dot_S5000x64_S64x64_S5000x64_1_0_0_1_n_n.contr.Idx) : (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- A product into the zero accumulator, at the extended reals, read at an entry: the plain sum over the contracted axis. -/
theorem mm6a_apply (a : FVec Ideal S5000x64 .bf16) (b : FVec Ideal S64x64 .bf16) (r : Fin 5000) (q : Fin 64) :
    matmul dot_S5000x64_S64x64_S5000x64_1_0_0_1_n_n none a b (constant (F := Ideal) S5000x64 .f32 0x00000000#32) (ix2 r q) = ∑ k : Fin 64, a (ix2 r k) * b (ix2 k q) := by
  show FloatOps.matmul dot_S5000x64_S64x64_S5000x64_1_0_0_1_n_n none a b (constant (F := Ideal) S5000x64 .f32 0x00000000#32) (ix2 r q) = _
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 r q) ((contrEquiv1 dot_S5000x64_S64x64_S5000x64_1_0_0_1_n_n 64 rfl rfl).symm k) = ix2 r k := funext fun a => Fin.ext (by
    match a with
    | ⟨0, _⟩ => exact mm6a_l0 _ _
    | ⟨1, _⟩ => exact (mm6a_l1 _ _).trans hk)
  have er : dot_S5000x64_S64x64_S5000x64_1_0_0_1_n_n.rhsIdx (ix2 r q) ((contrEquiv1 dot_S5000x64_S64x64_S5000x64_1_0_0_1_n_n 64 rfl rfl).symm k) = ix2 k q := funext fun a => Fin.ext (by
    match a with
    | ⟨0, _⟩ => exact (mm6a_r0 _ _).trans hk
    | ⟨1, _⟩ => exact mm6a_r1 _ _)
  rw [el, er]

/-- The left operand of the contraction is read at (row of the output, k), -/
theorem mm6b_l0 (i : S5000x32.Idx) (q : dot_S5000x64_S64x32_S5000x32_1_0_0_1_n_n.contr.Idx) : (dot_S5000x64_S64x32_S5000x32_1_0_0_1_n_n.lhsIdx i q 0).val = (i 0).val := by
  unfold DotDims.lhsIdx
  rw [dif_neg (show ¬(0 : Fin S5000x64.rank) ∈ dot_S5000x64_S64x32_S5000x32_1_0_0_1_n_n.lhsBatch by decide), dif_pos (show (0 : Fin S5000x64.rank) ∈ dot_S5000x64_S64x32_S5000x32_1_0_0_1_n_n.lhsNonContracting by decide)]
  rfl
theorem mm6b_l1 (i : S5000x32.Idx) (q : dot_S5000x64_S64x32_S5000x32_1_0_0_1_n_n.contr.Idx) : (dot_S5000x64_S64x32_S5000x32_1_0_0_1_n_n.lhsIdx i q 1).val = (q ⟨0, by decide⟩).val :=
  dot_S5000x64_S64x32_S5000x32_1_0_0_1_n_n.lhsIdx_val_of_single rfl i q
/-- the right operand at (k, column of the output). -/
theorem mm6b_r0 (i : S5000x32.Idx) (q : dot_S5000x64_S64x32_S5000x32_1_0_0_1_n_n.contr.Idx) : (dot_S5000x64_S64x32_S5000x32_1_0_0_1_n_n.rhsIdx i q 0).val = (q ⟨0, by decide⟩).val :=
  dot_S5000x64_S64x32_S5000x32_1_0_0_1_n_n.rhsIdx_val_of_single rfl i q
theorem mm6b_r1 (i : S5000x32.Idx) (q : dot_S5000x64_S64x32_S5000x32_1_0_0_1_n_n.contr.Idx) : (dot_S5000x64_S64x32_S5000x32_1_0_0_1_n_n.rhsIdx i q 1).val = (i 1).val := by
  unfold DotDims.rhsIdx
  rw [dif_neg (show ¬(1 : Fin S64x32.rank) ∈ dot_S5000x64_S64x32_S5000x32_1_0_0_1_n_n.rhsBatch by decide), dif_pos (show (1 : Fin S64x32.rank) ∈ dot_S5000x64_S64x32_S5000x32_1_0_0_1_n_n.rhsNonContracting by decide)]
  rfl

/-- A product into the zero accumulator, at the extended reals, read at an entry: the plain sum over the contracted axis. -/
theorem mm6b_apply (a : FVec Ideal S5000x64 .bf16) (b : FVec Ideal S64x32 .bf16) (r : Fin 5000) (q : Fin 32) :
    matmul dot_S5000x64_S64x32_S5000x32_1_0_0_1_n_n none a b (constant (F := Ideal) S5000x32 .f32 0x00000000#32) (ix2 r q) = ∑ k : Fin 64, a (ix2 r k) * b (ix2 k q) := by
  show FloatOps.matmul dot_S5000x64_S64x32_S5000x32_1_0_0_1_n_n none a b (constant (F := Ideal) S5000x32 .f32 0x00000000#32) (ix2 r q) = _
  rw [Ideal.matmul_constant_zero_apply, ← Equiv.sum_comp (contrEquiv1 dot_S5000x64_S64x32_S5000x32_1_0_0_1_n_n 64 rfl rfl).symm]
  refine Finset.sum_congr rfl fun k _ => ?_
  have hk := contrEquiv1_symm_val dot_S5000x64_S64x32_S5000x32_1_0_0_1_n_n 64 rfl rfl k
  have el : dot_S5000x64_S64x32_S5000x32_1_0_0_1_n_n.lhsIdx (ix2 r q) ((contrEquiv1 dot_S5000x64_S64x32_S5000x32_1_0_0_1_n_n 64 rfl rfl).symm k) = ix2 r k := funext fun a => Fin.ext (by
    match a with
    | ⟨0, _⟩ => exact mm6b_l0 _ _
    | ⟨1, _⟩ => exact (mm6b_l1 _ _).trans hk)
  have er : dot_S5000x64_S64x32_S5000x32_1_0_0_1_n_n.rhsIdx (ix2 r q) ((contrEquiv1 dot_S5000x64_S64x32_S5000x32_1_0_0_1_n_n 64 rfl rfl).symm k) = ix2 k q := funext fun a => Fin.ext (by
    match a with
    | ⟨0, _⟩ => exact (mm6b_r0 _ _).trans hk
    | ⟨1, _⟩ => exact mm6b_r1 _ _)
  rw [el, er]

/-- The left operand of the contraction is read at (row of the output, k), -/
theorem mm6c_l0 (i : S5000x1.Idx) (q : dot_S5000x32_S32x1_S5000x1_1_0_0_1_n_n.contr.Idx) : (dot_S5000x32_S32x1_S5000x1_1_0_0_1_n_n.lhsIdx i q 0).val = (i 0).val := by
  unfold DotDims.lhsIdx
  rw [dif_neg (show ¬(0 : Fin S5000x32.rank) ∈ dot_S5000x32_S32x1_S5000x1_1_0_0_1_n_n.lhsBatch by decide), dif_pos (show (0 : Fin S5000x32.rank) ∈ dot_S5000x32_S32x1_S5000x1_1_0_0_1_n_n.lhsNonContracting by decide)]
  rfl
theorem mm6c_l1 (i : S5000x1.Idx) (q : dot_S5000x32_S32x1_S5000x1_1_0_0_1_n_n.contr.Idx) : (dot_S5000x32_S32x1_S5000x1_1_0_0_1_n_n.lhsIdx i q 1).val = (q ⟨0, by decide⟩).val :=
  dot_S5000x32_S32x1_S5000x1_1_0_0_1_n_n.lhsIdx_val_of_single rfl i q
/-- the right operand at (k, column of the output). -/
theorem mm6c_r0 (i : S5000x1.Idx) (q : dot_S5000x32_S32x1_S5000x1_1_0_0_1_n_n.contr.Idx) : (dot_S5000x32_S32x1_S5000x1_1_0_0_1_n_n.rhsIdx i q 0).val = (q ⟨0, by decide⟩).val :=
  dot_S5000x32_S32x1_S5000x1_1_0_0_1_n_n.rhsIdx_val_of_single rfl i q
theorem mm6c_r1 (i : S5000x1.Idx) (q : dot_S5000x32_S32x1_S5000x1_1_0_0_1_n_n.contr.Idx) : (dot_S5000x32_S32x1_S5000x1_1_0_0_1_n_n.rhsIdx i q 1).val = (i 1).val := by
  unfold DotDims.rhsIdx
  rw [dif_neg (show ¬(1 : Fin S32x1.rank) ∈ dot_S5000x32_S32x1_S5000x1_1_0_0_1_n_n.rhsBatch by decide), dif_pos (show (1 : Fin S32x1.rank) ∈ dot_S5000x32_S32x1_S5000x1_1_0_0_1_n_n.rhsNonContracting by decide)]
  rfl

/-- A product into the zero accumulator, at the extended reals, read at an entry: the plain sum over the contracted axis. -/
theorem mm6c_apply (a : FVec Ideal S5000x32 .bf16) (b : FVec Ideal S32x1 .bf16) (r : Fin 5000) (q : Fin 1) :
    matmul dot_S5000x32_S32x1_S5000x1_1_0_0_1_n_n none a b (constant (F := Ideal) S5000x1 .f32 0x00000000#32) (ix2 r q) = ∑ k : Fin 32, a (ix2 r k) * b (ix2 k q) := by
  show FloatOps.matmul dot_S5000x32_S32x1_S5000x1_1_0_0_1_n_n none a b (constant (F := Ideal) S5000x1 .f32 0x00000000#32) (ix2 r q) = _
  rw [Ideal.matmul_constant_zero_apply, ← Equiv.sum_comp (contrEquiv1 dot_S5000x32_S32x1_S5000x1_1_0_0_1_n_n 32 rfl rfl).symm]
  refine Finset.sum_congr rfl fun k _ => ?_
  have hk := contrEquiv1_symm_val dot_S5000x32_S32x1_S5000x1_1_0_0_1_n_n 32 rfl rfl k
  have el : dot_S5000x32_S32x1_S5000x1_1_0_0_1_n_n.lhsIdx (ix2 r q) ((contrEquiv1 dot_S5000x32_S32x1_S5000x1_1_0_0_1_n_n 32 rfl rfl).symm k) = ix2 r k := funext fun a => Fin.ext (by
    match a with
    | ⟨0, _⟩ => exact mm6c_l0 _ _
    | ⟨1, _⟩ => exact (mm6c_l1 _ _).trans hk)
  have er : dot_S5000x32_S32x1_S5000x1_1_0_0_1_n_n.rhsIdx (ix2 r q) ((contrEquiv1 dot_S5000x32_S32x1_S5000x1_1_0_0_1_n_n 32 rfl rfl).symm k) = ix2 k q := funext fun a => Fin.ext (by
    match a with
    | ⟨0, _⟩ => exact (mm6c_r0 _ _).trans hk
    | ⟨1, _⟩ => exact mm6c_r1 _ _)
  rw [el, er]

/-- A bias row broadcast along the block's rows, read at an entry: the row at the entry's column. -/
theorem row6a_apply (x : Vec Ideal S1x64 .f32) (r : Fin 5000) (q : Fin 64) :
    broadcastTo S5000x64 (shapeCast S1x64 x shapeCasts_S1x64_S1x64) broadcasts_S1x64_S5000x64 (ix2 r q) = x (ix2 0 q) := by
  rw [shapeCast_self x _]
  exact broadcastTo_apply x _ (ix2 r q) (ix2 0 q) (fun a => by
    match a with
    | ⟨0, _⟩ => rfl
    | ⟨1, _⟩ => rfl)
theorem row6b_apply (x : Vec Ideal S1x32 .f32) (r : Fin 5000) (q : Fin 32) :
    broadcastTo S5000x32 (shapeCast S1x32 x shapeCasts_S1x32_S1x32) broadcasts_S1x32_S5000x32 (ix2 r q) = x (ix2 0 q) := by
  rw [shapeCast_self x _]
  exact broadcastTo_apply x _ (ix2 r q) (ix2 0 q) (fun a => by
    match a with
    | ⟨0, _⟩ => rfl
    | ⟨1, _⟩ => rfl)
theorem row6c_apply (x : Vec Ideal S1x1 .f32) (r : Fin 5000) (q : Fin 1) :
    broadcastTo S5000x1 (shapeCast S1x1 x shapeCasts_S1x1_S1x1) broadcasts_S1x1_S5000x1 (ix2 r q) = x (ix2 0 0) := by
  rw [shapeCast_self x _]
  exact broadcastTo_apply x _ (ix2 r q) (ix2 0 0) (fun a => by
    match a with
    | ⟨0, _⟩ => rfl
    | ⟨1, _⟩ => rfl)

/-- The first dense layer of the body: product with the first weight matrix, bias row, positive part. -/
def lay6a (x0 : Vec Ideal S5000x64 .f32) (x1 : Vec Ideal S64x64 .f32) (x2 : Vec Ideal S1x64 .f32) : FVec Ideal S5000x64 .f32 :=
  maximumf (addf (matmul dot_S5000x64_S64x64_S5000x64_1_0_0_1_n_n none (truncf .bf16 (shapeCast S5000x64 x0 shapeCasts_S5000x64_S5000x64) bitsLt_bf16_f32) (truncf .bf16 x1 bitsLt_bf16_f32) (constant (F := Ideal) S5000x64 .f32 0x00000000#32))
    (broadcastTo S5000x64 (shapeCast S1x64 x2 shapeCasts_S1x64_S1x64) broadcasts_S1x64_S5000x64)) (broadcast S5000x64 (Scalar.ofBits (F := Ideal) .f32 0x00000000#32))
/-- The second dense layer: product with the second weight matrix, bias row, positive part. -/
def lay6b (y : FVec Ideal S5000x64 .f32) (x3 : Vec Ideal S64x32 .f32) (x4 : Vec Ideal S1x32 .f32) : FVec Ideal S5000x32 .f32 :=
  maximumf (addf (matmul dot_S5000x64_S64x32_S5000x32_1_0_0_1_n_n none (truncf .bf16 y bitsLt_bf16_f32) (truncf .bf16 x3 bitsLt_bf16_f32) (constant (F := Ideal) S5000x32 .f32 0x00000000#32))
    (broadcastTo S5000x32 (shapeCast S1x32 x4 shapeCasts_S1x32_S1x32) broadcasts_S1x32_S5000x32)) (broadcast S5000x32 (Scalar.ofBits (F := Ideal) .f32 0x00000000#32))
/-- The last layer: product with the weight column, bias, the logistic function. -/
def lay6c (z : FVec Ideal S5000x32 .f32) (x5 : Vec Ideal S32x1 .f32) (x6 : Vec Ideal S1x1 .f32) : FVec Ideal S5000x1 .f32 :=
  logistic (addf (matmul dot_S5000x32_S32x1_S5000x1_1_0_0_1_n_n none (truncf .bf16 z bitsLt_bf16_f32) (truncf .bf16 x5 bitsLt_bf16_f32) (constant (F := Ideal) S5000x1 .f32 0x00000000#32))
    (broadcastTo S5000x1 (shapeCast S1x1 x6 shapeCasts_S1x1_S1x1) broadcasts_S1x1_S5000x1))

/-- The body's payload is the three layers composed. -/
theorem pay6_eq (x0 : Vec Ideal S5000x64 .f32) (x1 : Vec Ideal S64x64 .f32) (x2 : Vec Ideal S1x64 .f32) (x3 : Vec Ideal S64x32 .f32)
    (x4 : Vec Ideal S1x32 .f32) (x5 : Vec Ideal S32x1 .f32) (x6 : Vec Ideal S1x1 .f32) :
    k6_pay1 x0 x1 x2 x3 x4 x5 x6 = lay6c (lay6b (lay6a x0 x1 x2) x3 x4) x5 x6 := rfl

theorem lay6a_apply (x0 : Vec Ideal S5000x64 .f32) (x1 : Vec Ideal S64x64 .f32) (x2 : Vec Ideal S1x64 .f32) (r : Fin 5000) (q : Fin 64) :
    lay6a x0 x1 x2 (ix2 r q) = max ((∑ k : Fin 64, x0 (ix2 r k) * x1 (ix2 k q)) + x2 (ix2 0 q)) 0 := by
  show max (matmul dot_S5000x64_S64x64_S5000x64_1_0_0_1_n_n none (truncf .bf16 (shapeCast S5000x64 x0 shapeCasts_S5000x64_S5000x64) bitsLt_bf16_f32) (truncf .bf16 x1 bitsLt_bf16_f32) (constant (F := Ideal) S5000x64 .f32 0x00000000#32) (ix2 r q)
    + broadcastTo S5000x64 (shapeCast S1x64 x2 shapeCasts_S1x64_S1x64) broadcasts_S1x64_S5000x64 (ix2 r q)) (Ideal.ofBits .f32 0x00000000#32) = _
  rw [shapeCast_self x0 _, mm6a_apply, row6a_apply, Ideal.ofBits_zero_f32]
  rfl
theorem lay6b_apply (y : FVec Ideal S5000x64 .f32) (x3 : Vec Ideal S64x32 .f32) (x4 : Vec Ideal S1x32 .f32) (r : Fin 5000) (q : Fin 32) :
    lay6b y x3 x4 (ix2 r q) = max ((∑ k : Fin 64, y (ix2 r k) * x3 (ix2 k q)) + x4 (ix2 0 q)) 0 := by
  show max (matmul dot_S5000x64_S64x32_S5000x32_1_0_0_1_n_n none (truncf .bf16 y bitsLt_bf16_f32) (truncf .bf16 x3 bitsLt_bf16_f32) (constant (F := Ideal) S5000x32 .f32 0x00000000#32) (ix2 r q)
    + broadcastTo S5000x32 (shapeCast S1x32 x4 shapeCasts_S1x32_S1x32) broadcasts_S1x32_S5000x32 (ix2 r q)) (Ideal.ofBits .f32 0x00000000#32) = _
  rw [mm6b_apply, row6b_apply, Ideal.ofBits_zero_f32]
  rfl
theorem lay6c_apply (z : FVec Ideal S5000x32 .f32) (x5 : Vec Ideal S32x1 .f32) (x6 : Vec Ideal S1x1 .f32) (r : Fin 5000) (q : Fin 1) :
    lay6c z x5 x6 (ix2 r q) = Ideal.logistic ((∑ k : Fin 32, z (ix2 r k) * x5 (ix2 k q)) + x6 (ix2 0 0)) := by
  show Ideal.logistic (matmul dot_S5000x32_S32x1_S5000x1_1_0_0_1_n_n none (truncf .bf16 z bitsLt_bf16_f32) (truncf .bf16 x5 bitsLt_bf16_f32) (constant (F := Ideal) S5000x1 .f32 0x00000000#32) (ix2 r q)
    + broadcastTo S5000x1 (shapeCast S1x1 x6 shapeCasts_S1x1_S1x1) broadcasts_S1x1_S5000x1 (ix2 r q)) = _
  rw [mm6c_apply, row6c_apply]
  rfl

/-- The head on one row of features: three dense layers, the positive part after the first two, the logistic function. -/
def headRow (row : Fin 64 → EReal) (W0 : Arr 64 64) (b0 : Arr 1 64) (W1 : Arr 64 32) (b1 : Arr 1 32) (W2 : Arr 32 1) (b2 : Arr 1 1) : EReal :=
  Ideal.logistic
    ((∑ k2 : Fin 32, max ((∑ k1 : Fin 64, max ((∑ k0 : Fin 64, row k0 * W0 (ix2 k0 k1)) + b0 (ix2 0 k1)) 0 * W1 (ix2 k1 k2))
        + b1 (ix2 0 k2)) 0 * W2 (ix2 k2 0)) + b2 (ix2 0 0))

/-- The specification at a row is the head on that row of the feature array. -/
theorem HEAD_eq (h : Arr 100000 64) (W0 : Arr 64 64) (b0 : Arr 1 64) (W1 : Arr 64 32) (b1 : Arr 1 32) (W2 : Arr 32 1) (b2 : Arr 1 1)
    (i : S100000x1.Idx) : HEAD h W0 b0 W1 b1 W2 b2 i = headRow (fun k0 => h (ix2 (i 0) k0)) W0 b0 W1 b1 W2 b2 := rfl

/-- The body's payload at a row: the head on that row of the feature block. -/
theorem pay6_apply (x0 : Vec Ideal S5000x64 .f32) (x1 : Vec Ideal S64x64 .f32) (x2 : Vec Ideal S1x64 .f32) (x3 : Vec Ideal S64x32 .f32)
    (x4 : Vec Ideal S1x32 .f32) (x5 : Vec Ideal S32x1 .f32) (x6 : Vec Ideal S1x1 .f32) (r : Fin 5000) :
    k6_pay1 x0 x1 x2 x3 x4 x5 x6 (ix2 r 0) = headRow (fun k0 => x0 (ix2 r k0)) x1 x2 x3 x4 x5 x6 := by
  rw [pay6_eq, lay6c_apply]
  simp only [lay6b_apply, lay6a_apply]
  rfl

/-- The payload of blocks that are a row block of the feature array and the whole weight and bias arrays is the head of
    the arrays at the block's place. -/
theorem point6 (x0 : Vec Ideal S5000x64 .f32) (x1 : Vec Ideal S64x64 .f32) (x2 : Vec Ideal S1x64 .f32) (x3 : Vec Ideal S64x32 .f32)
    (x4 : Vec Ideal S1x32 .f32) (x5 : Vec Ideal S32x1 .f32) (x6 : Vec Ideal S1x1 .f32)
    (A0 : Arr 100000 64) (A1 : Arr 64 64) (A2 : Arr 1 64) (A3 : Arr 64 32) (A4 : Arr 1 32) (A5 : Arr 32 1) (A6 : Arr 1 1)
    (j : S5000x1.Idx) (i : S100000x1.Idx)
    (h0 : ∀ k : Fin 64, x0 (ix2 (j 0) k) = A0 (ix2 (i 0) k)) (h1 : x1 = A1) (h2 : x2 = A2) (h3 : x3 = A3) (h4 : x4 = A4)
    (h5 : x5 = A5) (h6 : x6 = A6) :
    k6_pay1 x0 x1 x2 x3 x4 x5 x6 j = HEAD A0 A1 A2 A3 A4 A5 A6 i := by
  subst h1 h2 h3 h4 h5 h6
  have hj1 : (j 1).val < 1 := (j 1).isLt
  have hj : j = ix2 (j 0) 0 := funext fun a => by
    match a with
    | ⟨0, _⟩ => rfl
    | ⟨1, _⟩ => exact Fin.ext (by show (j 1).val = 0; omega)
  refine ((congrArg (k6_pay1 x0 x1 x2 x3 x4 x5 x6) hj).trans (pay6_apply x0 x1 x2 x3 x4 x5 x6 (j 0))).trans ?_
  rw [HEAD_eq]
  exact congrArg (fun row => headRow row x1 x2 x3 x4 x5 x6) (funext h0)

/-- The printed index maps, decided over the grid: the feature rows and the output rows move together; every weight
    and bias array is one block. -/
theorem idx_facts6 : ∀ t : Fin cfg6.N, win6_0.index t (0 : Fin 2) = win6_7.index t (0 : Fin 2) + 0
    ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (1 : Fin 2) = 0 :=
  (by decide +kernel : ∀ t : Fin grid6.N, _)

/-- What point `t` writes back is block `t` of the head of the arrays as the region finds them. -/
theorem flushed6_eq (c : Dev nD) (t : Fin cfg6.N) :
    (dat6 V c).flushed 7 t = ((cfg6.win 7).blk t).view.read (Elt Ideal) (HEAD (V c main_v97) (V c main_arg11) (V c main_v98) (V c main_arg13) (V c main_v99) (V c main_arg15) (V c main_v100)) := by
  show (cfg6.win 7).cut (grid6.coords t) ((dat6 V c).after 7 t) = _
  rw [after6_7]
  unfold out6_7
  rw [View.canon_unit_zero hz6]
  simp only [View.ld_unit_zero (S := S5000x64) hz6, View.ld_unit_zero (S := S64x64) hz6, View.ld_unit_zero (S := S1x64) hz6, View.ld_unit_zero (S := S64x32) hz6, View.ld_unit_zero (S := S1x32) hz6, View.ld_unit_zero (S := S32x1) hz6, View.ld_unit_zero (S := S1x1) hz6]
  obtain ⟨e0, e1, e2, e3, e4, e5, e6, e7, e8, e9, e10, e11, e12, e13, e14⟩ := idx_facts6 t
  funext j
  refine point6 _ _ _ _ _ _ _ (V c main_v97) (V c main_arg11) (V c main_v98) (V c main_arg13) (V c main_v99) (V c main_arg15) (V c main_v100) j (((cfg6.win 7).blk t).view.emb j) (fun k => ?_) ?_ ?_ ?_ ?_ ?_ ?_
  · show V c main_v97 (((cfg6.win 0).blk t).view.emb (ix2 (j 0) k)) = _
    refine congrArg (V c main_v97) (funext fun a => Fin.ext ?_)
    match a with
    | ⟨0, _⟩ => show win6_0.index t (0 : Fin 2) * 5000 + 1 * (j 0).val = win6_7.index t (0 : Fin 2) * 5000 + 1 * (j 0).val; omega
    | ⟨1, _⟩ => show win6_0.index t (1 : Fin 2) * 64 + 1 * k.val = k.val; omega
  · funext y
    show V c main_arg11 (((cfg6.win 1).blk t).view.emb y) = V c main_arg11 y
    refine congrArg (V c main_arg11) (funext fun a => Fin.ext ?_)
    match a with
    | ⟨0, _⟩ => show win6_1.index t (0 : Fin 2) * 64 + 1 * (y 0).val = (y 0).val; omega
    | ⟨1, _⟩ => show win6_1.index t (1 : Fin 2) * 64 + 1 * (y 1).val = (y 1).val; omega
  · funext y
    show V c main_v98 (((cfg6.win 2).blk t).view.emb y) = V c main_v98 y
    refine congrArg (V c main_v98) (funext fun a => Fin.ext ?_)
    match a with
    | ⟨0, _⟩ => show win6_2.index t (0 : Fin 2) * 1 + 1 * (y 0).val = (y 0).val; omega
    | ⟨1, _⟩ => show win6_2.index t (1 : Fin 2) * 64 + 1 * (y 1).val = (y 1).val; omega
  · funext y
    show V c main_arg13 (((cfg6.win 3).blk t).view.emb y) = V c main_arg13 y
    refine congrArg (V c main_arg13) (funext fun a => Fin.ext ?_)
    match a with
    | ⟨0, _⟩ => show win6_3.index t (0 : Fin 2) * 64 + 1 * (y 0).val = (y 0).val; omega
    | ⟨1, _⟩ => show win6_3.index t (1 : Fin 2) * 32 + 1 * (y 1).val = (y 1).val; omega
  · funext y
    show V c main_v99 (((cfg6.win 4).blk t).view.emb y) = V c main_v99 y
    refine congrArg (V c main_v99) (funext fun a => Fin.ext ?_)
    match a with
    | ⟨0, _⟩ => show win6_4.index t (0 : Fin 2) * 1 + 1 * (y 0).val = (y 0).val; omega
    | ⟨1, _⟩ => show win6_4.index t (1 : Fin 2) * 32 + 1 * (y 1).val = (y 1).val; omega
  · funext y
    show V c main_arg15 (((cfg6.win 5).blk t).view.emb y) = V c main_arg15 y
    refine congrArg (V c main_arg15) (funext fun a => Fin.ext ?_)
    match a with
    | ⟨0, _⟩ => show win6_5.index t (0 : Fin 2) * 32 + 1 * (y 0).val = (y 0).val; omega
    | ⟨1, _⟩ => show win6_5.index t (1 : Fin 2) * 1 + 1 * (y 1).val = (y 1).val; omega
  · funext y
    show V c main_v100 (((cfg6.win 6).blk t).view.emb y) = V c main_v100 y
    refine congrArg (V c main_v100) (funext fun a => Fin.ext ?_)
    match a with
    | ⟨0, _⟩ => show win6_6.index t (0 : Fin 2) * 1 + 1 * (y 0).val = (y 0).val; omega
    | ⟨1, _⟩ => show win6_6.index t (1 : Fin 2) * 1 + 1 * (y 1).val = (y 1).val; omega

/-- Every block of the output array is some point's (decided over the grid). -/
theorem idx_onto6 : ∀ (q0 : Fin 20) (q1 : Fin 1), ∃ t : Fin cfg6.N, win6_7.index t = ![q0.val + 0, q1.val + 0] :=
  (by decide +kernel : ∀ (q0 : Fin 20) (q1 : Fin 1), ∃ t : Fin grid6.N, win6_7.index t = ![q0.val + 0, q1.val + 0])

/-- An index of the array is in point `t`'s block iff each coordinate is in the block's range on its axis. -/
theorem mem_blk6 (t : Fin cfg6.N) (i : S100000x1.Idx) :
    i ∈ ((cfg6.win 7).blk t).view.set ↔ ∀ a : Fin 2, win6_7.index t a * S5000x1.size a ≤ (i a).val ∧ (i a).val < win6_7.index t a * S5000x1.size a + S5000x1.size a := by
  show i ∈ ((View.whole main_v101).slice (win6_7.rect t)).set ↔ _
  rw [View.set_slice_whole, Rect.mem_set_unit]
  exact Iff.rfl

/-- The blocks cover the array: row `r` is in the block of the point whose block index is `r / 5000`. -/
theorem cover6 (i : S100000x1.Idx) : ∃ t : Fin cfg6.N, (cfg6.win 7).flush t = true ∧ i ∈ ((cfg6.win 7).blk t).view.set := by
  have hi0 : (i 0).val < 100000 := (i 0).isLt
  have hi1 : (i 1).val < 1 := (i 1).isLt
  obtain ⟨t, ht⟩ := idx_onto6 ⟨(i 0).val / 5000, by omega⟩ ⟨(i 1).val / 1, by omega⟩
  have q0 : win6_7.index t (0 : Fin 2) = (i 0).val / 5000 + 0 := congrFun ht 0
  have q1 : win6_7.index t (1 : Fin 2) = (i 1).val / 1 + 0 := congrFun ht 1
  refine ⟨t, flush6_7 t, ?_⟩
  rw [mem_blk6]
  intro a
  match a with
  | ⟨0, _⟩ => show win6_7.index t (0 : Fin 2) * 5000 ≤ (i 0).val ∧ (i 0).val < win6_7.index t (0 : Fin 2) * 5000 + 5000; omega
  | ⟨1, _⟩ => show win6_7.index t (1 : Fin 2) * 1 ≤ (i 1).val ∧ (i 1).val < win6_7.index t (1 : Fin 2) * 1 + 1; omega

/-- The output array after the region: the head of the feature array, row by row. -/
theorem final6 (c : Dev nD) : (dat6 V c).arrAt 7 cfg6.N = HEAD (V c main_v97) (V c main_arg11) (V c main_v98) (V c main_arg13) (V c main_v99) (V c main_arg15) (V c main_v100) :=
  (dat6 V c).arrAt_eq_of_cover 7 (HEAD (V c main_v97) (V c main_arg11) (V c main_v98) (V c main_arg13) (V c main_v99) (V c main_arg15) (V c main_v100)) (fun t _ => flushed6_eq V c t) cover6

end Cert.KernelIdeal.Fr

end
-- ==== Proof.KI.HostRead.lean ====
/-
  The host operations of @main read as pure functions of the arrays they consume: for each stretch of host
  operations and each buffer a later stretch or kernel region reads, a named function that is the composition of
  the stretch's operations, and a lemma reading that buffer, after the stretch, off an arbitrary valuation.
-/
import proofs.«119403_j19189913878709_1_alg».proof.Proof.Gen.KernelIdeal.Launch
import Idealize.ShloMosaic.Lib.StableHlo.Run
import Idealize.ShloMosaic.Lib.Pipeline.Frame

set_option maxRecDepth 16384

noncomputable section

namespace Cert.KernelIdeal.Fr

open Cert.KernelIdeal Cert.KernelIdeal.Gen Idealize.ShloMosaic Idealize.ShloMosaic.TcCoe

variable {F : FTy → Type} [FloatOps F]

/-- Arrays of the element type of `F` by shape. -/
abbrev A32 (s : Shape) : Type := (⟨s, .f32⟩ : BufTy).Contents (Elt F)
abbrev AI32 (s : Shape) : Type := (⟨s, .i32⟩ : BufTy).Contents (Elt F)

/-! ## Reshapes between a vector and a one-row matrix -/

/-- A vector of 64 entries as a 1 × 64 array. -/
def rowOf64 (a : A32 (F := F) S64) : A32 (F := F) S1x64 := fun i => shapeCast S1x64 a shapeCasts_S64_S1x64 i
/-- A 1 × 64 array as a vector of 64 entries. -/
def flatOf64 (a : A32 (F := F) S1x64) : A32 (F := F) S64 := fun i => shapeCast S64 a shapeCasts_S1x64_S64 i
/-- A vector of 32 entries as a 1 × 32 array. -/
def rowOf32 (a : A32 (F := F) S32) : A32 (F := F) S1x32 := fun i => shapeCast S1x32 a shapeCasts_S32_S1x32 i
/-- A vector of one entry as a 1 × 1 array. -/
def rowOf1 (a : A32 (F := F) S1) : A32 (F := F) S1x1 := fun i => shapeCast S1x1 a shapeCasts_S1_S1x1 i

/-! ## Batch statistics to scale and shift (stretches `hostOps2`, `hostOps5`) -/

/-- The row count 100000 as a 1 × 64 array of floats. -/
def cntRow : A32 (F := F) S1x64 := broadcastInDim S1x64 ![] bcast_S_S1x64 (constant S_ .f32 0x47C35000#32)
/-- The variance offset ε as a 1 × 64 array of floats. -/
def epsRow : A32 (F := F) S1x64 := broadcastInDim S1x64 ![] bcast_S_S1x64 (constant S_ .f32 0x3727C5AC#32)
/-- Column means: the column sums divided by the row count. -/
def meanRowK (s0 : A32 (F := F) S1x64) : A32 (F := F) S1x64 := Host.divf s0 cntRow
/-- 1 / √(E[h²] − mean² + ε), column by column. -/
def rstdRowK (s0 s1 : A32 (F := F) S1x64) : A32 (F := F) S1x64 :=
  Host.rsqrt (addf (subf (Host.divf s1 cntRow) (mulf (meanRowK s0) (meanRowK s0))) epsRow)
/-- scale = γ · rstd, as a 1 × 64 array (before the round trip through a vector). -/
def scaleRow0K (s0 s1 : A32 (F := F) S1x64) (g : A32 (F := F) S64) : A32 (F := F) S1x64 := mulf (rowOf64 g) (rstdRowK s0 s1)
/-- shift = β − scale · mean, as a 1 × 64 array (before the round trip through a vector). -/
def shiftRow0K (s0 s1 : A32 (F := F) S1x64) (g be : A32 (F := F) S64) : A32 (F := F) S1x64 :=
  subf (rowOf64 be) (mulf (scaleRow0K s0 s1 g) (meanRowK s0))
/-- The scale row as the next region reads it: flattened to a vector and reshaped back. -/
def scaleRowK (s0 s1 : A32 (F := F) S1x64) (g : A32 (F := F) S64) : A32 (F := F) S1x64 := rowOf64 (flatOf64 (scaleRow0K s0 s1 g))
/-- The shift row as the next region reads it: flattened to a vector and reshaped back. -/
def shiftRowK (s0 s1 : A32 (F := F) S1x64) (g be : A32 (F := F) S64) : A32 (F := F) S1x64 := rowOf64 (flatOf64 (shiftRow0K s0 s1 g be))

section Reads
set_option maxHeartbeats 1600000
variable (W : Valuation τ sig (Elt F))

/-! ### `hostOps2` -/
theorem read_v58 : StableHlo.after hostOps2 W (Proc.devRef .tc main_v58) = rowOf64 (W (Proc.devRef .tc main_arg4)) := by
  show StableHlo.after hostOps2 W (Proc.devRef .tc main_v58) = _; after_results; rfl
theorem read_v59 : StableHlo.after hostOps2 W (Proc.devRef .tc main_v59)
    = scaleRowK (W (Proc.devRef .tc main_v41_0)) (W (Proc.devRef .tc main_v41_1)) (W (Proc.devRef .tc main_arg7)) := by
  show StableHlo.after hostOps2 W (Proc.devRef .tc main_v59) = _; after_results_simp; rfl
theorem read_v60 : StableHlo.after hostOps2 W (Proc.devRef .tc main_v60)
    = shiftRowK (W (Proc.devRef .tc main_v41_0)) (W (Proc.devRef .tc main_v41_1)) (W (Proc.devRef .tc main_arg7)) (W (Proc.devRef .tc main_arg8)) := by
  show StableHlo.after hostOps2 W (Proc.devRef .tc main_v60) = _; after_results_simp; rfl

/-! ### `hostOps5` -/
theorem read_v94 : StableHlo.after hostOps5 W (Proc.devRef .tc main_v94) = rowOf64 (W (Proc.devRef .tc main_arg6)) := by
  show StableHlo.after hostOps5 W (Proc.devRef .tc main_v94) = _; after_results; rfl
theorem read_v95 : StableHlo.after hostOps5 W (Proc.devRef .tc main_v95)
    = scaleRowK (W (Proc.devRef .tc main_v77_0)) (W (Proc.devRef .tc main_v77_1)) (W (Proc.devRef .tc main_arg9)) := by
  show StableHlo.after hostOps5 W (Proc.devRef .tc main_v95) = _; after_results_simp; rfl
theorem read_v96 : StableHlo.after hostOps5 W (Proc.devRef .tc main_v96)
    = shiftRowK (W (Proc.devRef .tc main_v77_0)) (W (Proc.devRef .tc main_v77_1)) (W (Proc.devRef .tc main_arg9)) (W (Proc.devRef .tc main_arg10)) := by
  show StableHlo.after hostOps5 W (Proc.devRef .tc main_v96) = _; after_results_simp; rfl

/-! ### `hostOps6` -/
theorem read_v98 : StableHlo.after hostOps6 W (Proc.devRef .tc main_v98) = rowOf64 (W (Proc.devRef .tc main_arg12)) := by
  show StableHlo.after hostOps6 W (Proc.devRef .tc main_v98) = _; after_results; rfl
theorem read_v99 : StableHlo.after hostOps6 W (Proc.devRef .tc main_v99) = rowOf32 (W (Proc.devRef .tc main_arg14)) := by
  show StableHlo.after hostOps6 W (Proc.devRef .tc main_v99) = _; after_results; rfl
theorem read_v100 : StableHlo.after hostOps6 W (Proc.devRef .tc main_v100) = rowOf1 (W (Proc.devRef .tc main_arg16)) := by
  show StableHlo.after hostOps6 W (Proc.devRef .tc main_v100) = _; after_results; rfl

end Reads

/-! ## The graph: edge lists with self loops, degrees, edge weights (stretches `hostOps0`, `hostOps0_1`, `hostOps0_2`) -/

/-- The node indices 0, …, 99999. -/
def iotaK : AI32 (F := F) S100000 := iotaInDim S100000 32 0
/-- An edge list of 3200000 entries followed by the 100000 node indices (one self loop per node). -/
def catK (a : AI32 (F := F) S3200000) (b : AI32 (F := F) S100000) : AI32 (F := F) S3300000 :=
  concatenate S3300000 0 [⟨S3200000, a⟩, ⟨S100000, b⟩] concatenates_S3200000_S100000_S3300000_d0
/-- The source list with self loops. -/
def srcK (src : AI32 (F := F) S3200000) : AI32 (F := F) S3300000 := catK src iotaK
/-- The destination list with self loops. -/
def dstK (dst : AI32 (F := F) S3200000) : AI32 (F := F) S3300000 := catK dst iotaK
/-- A list of 3300000 entries as a 3300000 × 1 array (integers or floats alike). -/
def colK {α : Type} (i : S3300000.Idx → α) : S3300000x1.Idx → α := broadcastInDim S3300000x1 ![0] bcast_S3300000_S3300000x1_0 i
/-- 100000 zeros. -/
def zeroVecK : A32 (F := F) S100000 := broadcastInDim S100000 ![] bcast_S_S100000 (constant S_ .f32 0x00000000#32)
/-- In-degree (self loop included): a one added at each edge's destination, starting from zeros. -/
def degK (d : AI32 (F := F) S3300000) : A32 (F := F) S100000 :=
  Host.scatterAdd scatter_S100000_S3300000x1_S3300000_n_0_0_1 zeroVecK (colK d)
    (broadcastInDim S3300000 ![] bcast_S_S3300000 (constant S_ .f32 0x3F800000#32))
/-- deg^(-1/2) where the degree is positive, zero elsewhere. -/
def dinvK (d : AI32 (F := F) S3300000) : A32 (F := F) S100000 :=
  select (cmpf .ogt (degK d) zeroVecK) (Host.rsqrt (degK d))
    (broadcastInDim S100000 ![] bcast_S_S100000 (id (constant S_ .f32 0x00000000#32)))
/-- Index normalisation: a negative index has 100000 added to it. -/
def wrapK (i : AI32 (F := F) S3300000) : AI32 (F := F) S3300000 :=
  select (cmpi .slt i (broadcastInDim S3300000 ![] bcast_S_S3300000 (constantI S_ 32 0#32)))
    (addi i (broadcastInDim S3300000 ![] bcast_S_S3300000 (constantI S_ 32 100000#32))) i
/-- Edge weights from the two index lists: dinv[src] · dinv[dst], the degrees counted over `d`. -/
def normOfK (s d : AI32 (F := F) S3300000) : A32 (F := F) S3300000 :=
  mulf (Host.gather gather_S100000_S3300000x1_S3300000_n_0_n_n_0_1_1 (dinvK d) (colK (wrapK s)))
    (Host.gather gather_S100000_S3300000x1_S3300000_n_0_n_n_0_1_1 (dinvK d) (colK (wrapK d)))
/-- Edge weights from the two argument edge lists. -/
def normK (src dst : AI32 (F := F) S3200000) : A32 (F := F) S3300000 := normOfK (srcK src) (dstK dst)

/-! ## Neighbourhood aggregation (stretches `hostOps1`, `hostOps4`) -/

/-- Row `dst e` of the result accumulates weight `e` times row `src e` of `h`, over all edges, from zeros. -/
def aggK (h : A32 (F := F) S100000x64) (nrm : A32 (F := F) S3300000) (s d : AI32 (F := F) S3300000) : A32 (F := F) S100000x64 :=
  Host.scatterAdd scatter_S100000x64_S3300000x1_S3300000x64_1_0_0_1
    (broadcastInDim S100000x64 ![] bcast_S_S100000x64 (constant S_ .f32 0x00000000#32)) (colK d)
    (mulf (Host.gather gather_S100000x64_S3300000x1_S3300000x64_1_0_n_n_0_1_164 h (colK (wrapK s)))
      (broadcastInDim S3300000x64 ![0, 1] bcast_S3300000x1_S3300000x64_0_1 (colK nrm)))

section ReadsGraph
set_option maxHeartbeats 1600000
variable (W : Valuation τ sig (Elt F))

/-! ### `hostOps1`, `hostOps4` -/
theorem read_v39 : StableHlo.after hostOps1 W (Proc.devRef .tc main_v39)
    = aggK (W (Proc.devRef .tc main_v26)) (W (Proc.devRef .tc main_v25)) (W (Proc.devRef .tc main_v1)) (W (Proc.devRef .tc main_v2)) := by
  show StableHlo.after hostOps1 W (Proc.devRef .tc main_v39) = _; after_results_simp; rfl
theorem read_v40 : StableHlo.after hostOps1 W (Proc.devRef .tc main_v40) = rowOf64 (W (Proc.devRef .tc main_arg4)) := by
  show StableHlo.after hostOps1 W (Proc.devRef .tc main_v40) = _; after_results; rfl
theorem read_v75 : StableHlo.after hostOps4 W (Proc.devRef .tc main_v75)
    = aggK (W (Proc.devRef .tc main_v62)) (W (Proc.devRef .tc main_v25)) (W (Proc.devRef .tc main_v1)) (W (Proc.devRef .tc main_v2)) := by
  show StableHlo.after hostOps4 W (Proc.devRef .tc main_v75) = _; after_results_simp; rfl
theorem read_v76 : StableHlo.after hostOps4 W (Proc.devRef .tc main_v76) = rowOf64 (W (Proc.devRef .tc main_arg6)) := by
  show StableHlo.after hostOps4 W (Proc.devRef .tc main_v76) = _; after_results; rfl

end ReadsGraph

section ReadsHead
set_option maxHeartbeats 1600000
variable (W : Valuation τ sig (Elt F))

/-! ### `hostOps0`: the index lists, the degree comparison, the reciprocal square roots -/
theorem read0_v1 : StableHlo.after hostOps0 W (Proc.devRef .tc main_v1) = srcK (W (Proc.devRef .tc main_arg1)) := by
  show StableHlo.after hostOps0 W (Proc.devRef .tc main_v1) = _; after_results; rfl
theorem read0_v2 : StableHlo.after hostOps0 W (Proc.devRef .tc main_v2) = dstK (W (Proc.devRef .tc main_arg2)) := by
  show StableHlo.after hostOps0 W (Proc.devRef .tc main_v2) = _; after_results; rfl
theorem read0_v8 : StableHlo.after hostOps0 W (Proc.devRef .tc main_v8)
    = cmpf .ogt (degK (dstK (W (Proc.devRef .tc main_arg2)))) zeroVecK := by
  show StableHlo.after hostOps0 W (Proc.devRef .tc main_v8) = _; after_results; rfl
theorem read0_v9 : StableHlo.after hostOps0 W (Proc.devRef .tc main_v9)
    = Host.rsqrt (degK (dstK (W (Proc.devRef .tc main_arg2)))) := by
  show StableHlo.after hostOps0 W (Proc.devRef .tc main_v9) = _; after_results; rfl
theorem read0_cst2 : StableHlo.after hostOps0 W (Proc.devRef .tc main_cst_2) = constant S_ .f32 0x00000000#32 := by
  show StableHlo.after hostOps0 W (Proc.devRef .tc main_cst_2) = _; after_results

/-! ### `hostOps0_1`: the selection -/
theorem read01_v10 : StableHlo.after hostOps0_1 W (Proc.devRef .tc main_v10)
    = select (W (Proc.devRef .tc main_v8)) (W (Proc.devRef .tc main_v9))
        (broadcastInDim S100000 ![] bcast_S_S100000 (id (W (Proc.devRef .tc main_cst_2)))) := by
  show StableHlo.after hostOps0_1 W (Proc.devRef .tc main_v10) = _; after_results; rfl
theorem read01_v1 : StableHlo.after hostOps0_1 W (Proc.devRef .tc main_v1) = W (Proc.devRef .tc main_v1) := by
  show StableHlo.after hostOps0_1 W (Proc.devRef .tc main_v1) = _; after_results
theorem read01_v2 : StableHlo.after hostOps0_1 W (Proc.devRef .tc main_v2) = W (Proc.devRef .tc main_v2) := by
  show StableHlo.after hostOps0_1 W (Proc.devRef .tc main_v2) = _; after_results

/-! ### `hostOps0_2`: the two gathers and their product -/
theorem read02_v25 : StableHlo.after hostOps0_2 W (Proc.devRef .tc main_v25)
    = mulf (Host.gather gather_S100000_S3300000x1_S3300000_n_0_n_n_0_1_1 (W (Proc.devRef .tc main_v10)) (colK (wrapK (W (Proc.devRef .tc main_v1)))))
        (Host.gather gather_S100000_S3300000x1_S3300000_n_0_n_n_0_1_1 (W (Proc.devRef .tc main_v10)) (colK (wrapK (W (Proc.devRef .tc main_v2))))) := by
  show StableHlo.after hostOps0_2 W (Proc.devRef .tc main_v25) = _; after_results_simp; rfl
theorem read02_v1 : StableHlo.after hostOps0_2 W (Proc.devRef .tc main_v1) = W (Proc.devRef .tc main_v1) := by
  show StableHlo.after hostOps0_2 W (Proc.devRef .tc main_v1) = _; after_results_simp
theorem read02_v2 : StableHlo.after hostOps0_2 W (Proc.devRef .tc main_v2) = W (Proc.devRef .tc main_v2) := by
  show StableHlo.after hostOps0_2 W (Proc.devRef .tc main_v2) = _; after_results_simp

/-! ### The three stretches in a row -/
theorem read_v1 : StableHlo.after hostOps0_2 (StableHlo.after hostOps0_1 (StableHlo.after hostOps0 W)) (Proc.devRef .tc main_v1)
    = srcK (W (Proc.devRef .tc main_arg1)) := by
  rw [read02_v1, read01_v1, read0_v1]
theorem read_v2 : StableHlo.after hostOps0_2 (StableHlo.after hostOps0_1 (StableHlo.after hostOps0 W)) (Proc.devRef .tc main_v2)
    = dstK (W (Proc.devRef .tc main_arg2)) := by
  rw [read02_v2, read01_v2, read0_v2]
theorem read_v25 : StableHlo.after hostOps0_2 (StableHlo.after hostOps0_1 (StableHlo.after hostOps0 W)) (Proc.devRef .tc main_v25)
    = normK (W (Proc.devRef .tc main_arg1)) (W (Proc.devRef .tc main_arg2)) := by
  rw [read02_v25, read01_v10, read01_v1, read01_v2, read0_v1, read0_v2, read0_v8, read0_v9, read0_cst2]
  rfl

end ReadsHead

end Cert.KernelIdeal.Fr

end
-- ==== Proof.KI.KDefs.lean ====
/-
  The idealized kernel program's result as a composition of named functions of the argument arrays: the edge lists and
  weights, x·W0 aggregated over the edges, the column statistics of the biased aggregate, scale and shift, the activation;
  the same again for the second layer; then the head.
-/
import proofs.«119403_j19189913878709_1_alg».proof.Proof.KI.HostRead
import proofs.«119403_j19189913878709_1_alg».proof.Proof.KI.SpecStats

noncomputable section

namespace Cert.KernelIdeal.Fr

open Cert.KernelIdeal Cert.KernelIdeal.Gen Cert.Spec
open Idealize.ShloMosaic Idealize.ShloMosaic.TcCoe Idealize.SL.Sem

variable (m : (ℓ : Loc nD τ sig) → Buf (Elt Ideal) ℓ) (ρ : Dev nD → PrngReg)

/-- Argument `k` on core `c`, as launched. -/
abbrev ar0 (c : Dev nD) := m ((c : Thread nD τ).loc main_arg0)
abbrev ar1 (c : Dev nD) := m ((c : Thread nD τ).loc main_arg1)
abbrev ar2 (c : Dev nD) := m ((c : Thread nD τ).loc main_arg2)
abbrev ar3 (c : Dev nD) := m ((c : Thread nD τ).loc main_arg3)
abbrev ar4 (c : Dev nD) := m ((c : Thread nD τ).loc main_arg4)
abbrev ar5 (c : Dev nD) := m ((c : Thread nD τ).loc main_arg5)
abbrev ar6 (c : Dev nD) := m ((c : Thread nD τ).loc main_arg6)
abbrev ar7 (c : Dev nD) := m ((c : Thread nD τ).loc main_arg7)
abbrev ar8 (c : Dev nD) := m ((c : Thread nD τ).loc main_arg8)
abbrev ar9 (c : Dev nD) := m ((c : Thread nD τ).loc main_arg9)
abbrev ar10 (c : Dev nD) := m ((c : Thread nD τ).loc main_arg10)
abbrev ar11 (c : Dev nD) := m ((c : Thread nD τ).loc main_arg11)
abbrev ar12 (c : Dev nD) := m ((c : Thread nD τ).loc main_arg12)
abbrev ar13 (c : Dev nD) := m ((c : Thread nD τ).loc main_arg13)
abbrev ar14 (c : Dev nD) := m ((c : Thread nD τ).loc main_arg14)
abbrev ar15 (c : Dev nD) := m ((c : Thread nD τ).loc main_arg15)
abbrev ar16 (c : Dev nD) := m ((c : Thread nD τ).loc main_arg16)

/-- The index lists with the self loops appended, and the edge weights d(s)^(-1/2) d(t)^(-1/2). -/
def kSrc (c : Dev nD) := srcK (F := Ideal) (ar1 m c)
def kDst (c : Dev nD) := dstK (F := Ideal) (ar2 m c)
def kNorm (c : Dev nD) := normK (F := Ideal) (ar1 m c) (ar2 m c)
/-- First layer: x·W0, aggregated over the edges; the bias as a row; column sums; scale and shift; the activation. -/
def kLin1 (c : Dev nD) : Arr 100000 64 := MM 4 (ar0 m c) (ar3 m c)
def kAgg1 (c : Dev nD) := aggK (F := Ideal) (kLin1 m c) (kNorm m c) (kSrc m c) (kDst m c)
def kB1 (c : Dev nD) := rowOf64 (F := Ideal) (ar4 m c)
def kS1 (c : Dev nD) : Arr 1 64 := SSUM (kAgg1 m c) (kB1 m c)
def kQ1 (c : Dev nD) : Arr 1 64 := SSQ (kAgg1 m c) (kB1 m c)
def kSc1 (c : Dev nD) := scaleRowK (F := Ideal) (kS1 m c) (kQ1 m c) (ar7 m c)
def kSh1 (c : Dev nD) := shiftRowK (F := Ideal) (kS1 m c) (kQ1 m c) (ar7 m c) (ar8 m c)
def kH1 (c : Dev nD) : Arr 100000 64 := AFF (kAgg1 m c) (kB1 m c) (kSc1 m c) (kSh1 m c)
/-- Second layer, the same with W1, b1, g1, be1. -/
def kLin2 (c : Dev nD) : Arr 100000 64 := MM 64 (kH1 m c) (ar5 m c)
def kAgg2 (c : Dev nD) := aggK (F := Ideal) (kLin2 m c) (kNorm m c) (kSrc m c) (kDst m c)
def kB2 (c : Dev nD) := rowOf64 (F := Ideal) (ar6 m c)
def kS2 (c : Dev nD) : Arr 1 64 := SSUM (kAgg2 m c) (kB2 m c)
def kQ2 (c : Dev nD) : Arr 1 64 := SSQ (kAgg2 m c) (kB2 m c)
def kSc2 (c : Dev nD) := scaleRowK (F := Ideal) (kS2 m c) (kQ2 m c) (ar9 m c)
def kSh2 (c : Dev nD) := shiftRowK (F := Ideal) (kS2 m c) (kQ2 m c) (ar9 m c) (ar10 m c)
def kH2 (c : Dev nD) : Arr 100000 64 := AFF (kAgg2 m c) (kB2 m c) (kSc2 m c) (kSh2 m c)
/-- The head. -/
def kOut (c : Dev nD) : Arr 100000 1 :=
  HEAD (kH2 m c) (ar11 m c) (rowOf64 (F := Ideal) (ar12 m c)) (ar13 m c) (rowOf32 (F := Ideal) (ar14 m c)) (ar15 m c) (rowOf1 (F := Ideal) (ar16 m c))

end Cert.KernelIdeal.Fr

end
-- ==== Proof.KI.Value.lean ====
/-
  What the idealized kernel program computes, read off its run: each boundary's contents at the buffers later items read,
  as named functions of the argument arrays — the edge weights and index lists (host), x·W0 (region 0), its aggregation
  over the edges (host), the column sums and sums of squares of the biased aggregate (region 1), the scale and shift
  rows (host), the affine map followed by max(·, 0) (region 2), and the same once more for the second layer
  (regions 3, 4, 5), then the three-layer head with the logistic (region 6).
-/
import proofs.«119403_j19189913878709_1_alg».proof.Proof.KI.Run
import proofs.«119403_j19189913878709_1_alg».proof.Proof.KI.F0
import proofs.«119403_j19189913878709_1_alg».proof.Proof.KI.F1
import proofs.«119403_j19189913878709_1_alg».proof.Proof.KI.F2
import proofs.«119403_j19189913878709_1_alg».proof.Proof.KI.F3
import proofs.«119403_j19189913878709_1_alg».proof.Proof.KI.F4
import proofs.«119403_j19189913878709_1_alg».proof.Proof.KI.F5
import proofs.«119403_j19189913878709_1_alg».proof.Proof.KI.F6
import proofs.«119403_j19189913878709_1_alg».proof.Proof.KI.KDefs

set_option maxRecDepth 16384

noncomputable section

namespace Cert.KernelIdeal.Fr

open Cert.KernelIdeal Cert.KernelIdeal.Gen Cert.Spec
open Idealize.ShloMosaic Idealize.ShloMosaic.TcCoe Idealize.SL.Sem

variable (m : (ℓ : Loc nD τ sig) → Buf (Elt Ideal) ℓ) (ρ : Dev nD → PrngReg)

/-! ## The boundaries, read -/

theorem a3_0 (c : Dev nD) : B3 m ρ c (Proc.devRef .tc main_arg0) = ar0 m c :=
  (B3_keep m ρ c main_arg0 (by decide)).trans <| (B2_keep m ρ c main_arg0 (by decide)).trans <| (B1_keep m ρ c main_arg0 (by decide)).trans <| rfl
theorem a3_3 (c : Dev nD) : B3 m ρ c (Proc.devRef .tc main_arg3) = ar3 m c :=
  (B3_keep m ρ c main_arg3 (by decide)).trans <| (B2_keep m ρ c main_arg3 (by decide)).trans <| (B1_keep m ρ c main_arg3 (by decide)).trans <| rfl
theorem a4_4 (c : Dev nD) : B4 m ρ c (Proc.devRef .tc main_arg4) = ar4 m c :=
  (B4_keep m ρ c main_arg4 (by decide)).trans <| (B3_keep m ρ c main_arg4 (by decide)).trans <| (B2_keep m ρ c main_arg4 (by decide)).trans <| (B1_keep m ρ c main_arg4 (by decide)).trans <| rfl
theorem a6_4 (c : Dev nD) : B6 m ρ c (Proc.devRef .tc main_arg4) = ar4 m c :=
  (B6_keep m ρ c main_arg4 (by decide)).trans <| (B5_keep m ρ c main_arg4 (by decide)).trans <| (B4_keep m ρ c main_arg4 (by decide)).trans <| (B3_keep m ρ c main_arg4 (by decide)).trans <| (B2_keep m ρ c main_arg4 (by decide)).trans <| (B1_keep m ρ c main_arg4 (by decide)).trans <| rfl
theorem a6_7 (c : Dev nD) : B6 m ρ c (Proc.devRef .tc main_arg7) = ar7 m c :=
  (B6_keep m ρ c main_arg7 (by decide)).trans <| (B5_keep m ρ c main_arg7 (by decide)).trans <| (B4_keep m ρ c main_arg7 (by decide)).trans <| (B3_keep m ρ c main_arg7 (by decide)).trans <| (B2_keep m ρ c main_arg7 (by decide)).trans <| (B1_keep m ρ c main_arg7 (by decide)).trans <| rfl
theorem a6_8 (c : Dev nD) : B6 m ρ c (Proc.devRef .tc main_arg8) = ar8 m c :=
  (B6_keep m ρ c main_arg8 (by decide)).trans <| (B5_keep m ρ c main_arg8 (by decide)).trans <| (B4_keep m ρ c main_arg8 (by decide)).trans <| (B3_keep m ρ c main_arg8 (by decide)).trans <| (B2_keep m ρ c main_arg8 (by decide)).trans <| (B1_keep m ρ c main_arg8 (by decide)).trans <| rfl
theorem a8_5 (c : Dev nD) : B8 m ρ c (Proc.devRef .tc main_arg5) = ar5 m c :=
  (B8_keep m ρ c main_arg5 (by decide)).trans <| (B7_keep m ρ c main_arg5 (by decide)).trans <| (B6_keep m ρ c main_arg5 (by decide)).trans <| (B5_keep m ρ c main_arg5 (by decide)).trans <| (B4_keep m ρ c main_arg5 (by decide)).trans <| (B3_keep m ρ c main_arg5 (by decide)).trans <| (B2_keep m ρ c main_arg5 (by decide)).trans <| (B1_keep m ρ c main_arg5 (by decide)).trans <| rfl
theorem a9_6 (c : Dev nD) : B9 m ρ c (Proc.devRef .tc main_arg6) = ar6 m c :=
  (B9_keep m ρ c main_arg6 (by decide)).trans <| (B8_keep m ρ c main_arg6 (by decide)).trans <| (B7_keep m ρ c main_arg6 (by decide)).trans <| (B6_keep m ρ c main_arg6 (by decide)).trans <| (B5_keep m ρ c main_arg6 (by decide)).trans <| (B4_keep m ρ c main_arg6 (by decide)).trans <| (B3_keep m ρ c main_arg6 (by decide)).trans <| (B2_keep m ρ c main_arg6 (by decide)).trans <| (B1_keep m ρ c main_arg6 (by decide)).trans <| rfl
theorem a11_6 (c : Dev nD) : B11 m ρ c (Proc.devRef .tc main_arg6) = ar6 m c :=
  (B11_keep m ρ c main_arg6 (by decide)).trans <| (B10_keep m ρ c main_arg6 (by decide)).trans <| (B9_keep m ρ c main_arg6 (by decide)).trans <| (B8_keep m ρ c main_arg6 (by decide)).trans <| (B7_keep m ρ c main_arg6 (by decide)).trans <| (B6_keep m ρ c main_arg6 (by decide)).trans <| (B5_keep m ρ c main_arg6 (by decide)).trans <| (B4_keep m ρ c main_arg6 (by decide)).trans <| (B3_keep m ρ c main_arg6 (by decide)).trans <| (B2_keep m ρ c main_arg6 (by decide)).trans <| (B1_keep m ρ c main_arg6 (by decide)).trans <| rfl
theorem a11_9 (c : Dev nD) : B11 m ρ c (Proc.devRef .tc main_arg9) = ar9 m c :=
  (B11_keep m ρ c main_arg9 (by decide)).trans <| (B10_keep m ρ c main_arg9 (by decide)).trans <| (B9_keep m ρ c main_arg9 (by decide)).trans <| (B8_keep m ρ c main_arg9 (by decide)).trans <| (B7_keep m ρ c main_arg9 (by decide)).trans <| (B6_keep m ρ c main_arg9 (by decide)).trans <| (B5_keep m ρ c main_arg9 (by decide)).trans <| (B4_keep m ρ c main_arg9 (by decide)).trans <| (B3_keep m ρ c main_arg9 (by decide)).trans <| (B2_keep m ρ c main_arg9 (by decide)).trans <| (B1_keep m ρ c main_arg9 (by decide)).trans <| rfl
theorem a11_10 (c : Dev nD) : B11 m ρ c (Proc.devRef .tc main_arg10) = ar10 m c :=
  (B11_keep m ρ c main_arg10 (by decide)).trans <| (B10_keep m ρ c main_arg10 (by decide)).trans <| (B9_keep m ρ c main_arg10 (by decide)).trans <| (B8_keep m ρ c main_arg10 (by decide)).trans <| (B7_keep m ρ c main_arg10 (by decide)).trans <| (B6_keep m ρ c main_arg10 (by decide)).trans <| (B5_keep m ρ c main_arg10 (by decide)).trans <| (B4_keep m ρ c main_arg10 (by decide)).trans <| (B3_keep m ρ c main_arg10 (by decide)).trans <| (B2_keep m ρ c main_arg10 (by decide)).trans <| (B1_keep m ρ c main_arg10 (by decide)).trans <| rfl
theorem a13_12 (c : Dev nD) : B13 m ρ c (Proc.devRef .tc main_arg12) = ar12 m c :=
  (B13_keep m ρ c main_arg12 (by decide)).trans <| (B12_keep m ρ c main_arg12 (by decide)).trans <| (B11_keep m ρ c main_arg12 (by decide)).trans <| (B10_keep m ρ c main_arg12 (by decide)).trans <| (B9_keep m ρ c main_arg12 (by decide)).trans <| (B8_keep m ρ c main_arg12 (by decide)).trans <| (B7_keep m ρ c main_arg12 (by decide)).trans <| (B6_keep m ρ c main_arg12 (by decide)).trans <| (B5_keep m ρ c main_arg12 (by decide)).trans <| (B4_keep m ρ c main_arg12 (by decide)).trans <| (B3_keep m ρ c main_arg12 (by decide)).trans <| (B2_keep m ρ c main_arg12 (by decide)).trans <| (B1_keep m ρ c main_arg12 (by decide)).trans <| rfl
theorem a13_14 (c : Dev nD) : B13 m ρ c (Proc.devRef .tc main_arg14) = ar14 m c :=
  (B13_keep m ρ c main_arg14 (by decide)).trans <| (B12_keep m ρ c main_arg14 (by decide)).trans <| (B11_keep m ρ c main_arg14 (by decide)).trans <| (B10_keep m ρ c main_arg14 (by decide)).trans <| (B9_keep m ρ c main_arg14 (by decide)).trans <| (B8_keep m ρ c main_arg14 (by decide)).trans <| (B7_keep m ρ c main_arg14 (by decide)).trans <| (B6_keep m ρ c main_arg14 (by decide)).trans <| (B5_keep m ρ c main_arg14 (by decide)).trans <| (B4_keep m ρ c main_arg14 (by decide)).trans <| (B3_keep m ρ c main_arg14 (by decide)).trans <| (B2_keep m ρ c main_arg14 (by decide)).trans <| (B1_keep m ρ c main_arg14 (by decide)).trans <| rfl
theorem a13_16 (c : Dev nD) : B13 m ρ c (Proc.devRef .tc main_arg16) = ar16 m c :=
  (B13_keep m ρ c main_arg16 (by decide)).trans <| (B12_keep m ρ c main_arg16 (by decide)).trans <| (B11_keep m ρ c main_arg16 (by decide)).trans <| (B10_keep m ρ c main_arg16 (by decide)).trans <| (B9_keep m ρ c main_arg16 (by decide)).trans <| (B8_keep m ρ c main_arg16 (by decide)).trans <| (B7_keep m ρ c main_arg16 (by decide)).trans <| (B6_keep m ρ c main_arg16 (by decide)).trans <| (B5_keep m ρ c main_arg16 (by decide)).trans <| (B4_keep m ρ c main_arg16 (by decide)).trans <| (B3_keep m ρ c main_arg16 (by decide)).trans <| (B2_keep m ρ c main_arg16 (by decide)).trans <| (B1_keep m ρ c main_arg16 (by decide)).trans <| rfl
theorem a14_11 (c : Dev nD) : B14 m ρ c (Proc.devRef .tc main_arg11) = ar11 m c :=
  (B14_keep m ρ c main_arg11 (by decide)).trans <| (B13_keep m ρ c main_arg11 (by decide)).trans <| (B12_keep m ρ c main_arg11 (by decide)).trans <| (B11_keep m ρ c main_arg11 (by decide)).trans <| (B10_keep m ρ c main_arg11 (by decide)).trans <| (B9_keep m ρ c main_arg11 (by decide)).trans <| (B8_keep m ρ c main_arg11 (by decide)).trans <| (B7_keep m ρ c main_arg11 (by decide)).trans <| (B6_keep m ρ c main_arg11 (by decide)).trans <| (B5_keep m ρ c main_arg11 (by decide)).trans <| (B4_keep m ρ c main_arg11 (by decide)).trans <| (B3_keep m ρ c main_arg11 (by decide)).trans <| (B2_keep m ρ c main_arg11 (by decide)).trans <| (B1_keep m ρ c main_arg11 (by decide)).trans <| rfl
theorem a14_13 (c : Dev nD) : B14 m ρ c (Proc.devRef .tc main_arg13) = ar13 m c :=
  (B14_keep m ρ c main_arg13 (by decide)).trans <| (B13_keep m ρ c main_arg13 (by decide)).trans <| (B12_keep m ρ c main_arg13 (by decide)).trans <| (B11_keep m ρ c main_arg13 (by decide)).trans <| (B10_keep m ρ c main_arg13 (by decide)).trans <| (B9_keep m ρ c main_arg13 (by decide)).trans <| (B8_keep m ρ c main_arg13 (by decide)).trans <| (B7_keep m ρ c main_arg13 (by decide)).trans <| (B6_keep m ρ c main_arg13 (by decide)).trans <| (B5_keep m ρ c main_arg13 (by decide)).trans <| (B4_keep m ρ c main_arg13 (by decide)).trans <| (B3_keep m ρ c main_arg13 (by decide)).trans <| (B2_keep m ρ c main_arg13 (by decide)).trans <| (B1_keep m ρ c main_arg13 (by decide)).trans <| rfl
theorem a14_15 (c : Dev nD) : B14 m ρ c (Proc.devRef .tc main_arg15) = ar15 m c :=
  (B14_keep m ρ c main_arg15 (by decide)).trans <| (B13_keep m ρ c main_arg15 (by decide)).trans <| (B12_keep m ρ c main_arg15 (by decide)).trans <| (B11_keep m ρ c main_arg15 (by decide)).trans <| (B10_keep m ρ c main_arg15 (by decide)).trans <| (B9_keep m ρ c main_arg15 (by decide)).trans <| (B8_keep m ρ c main_arg15 (by decide)).trans <| (B7_keep m ρ c main_arg15 (by decide)).trans <| (B6_keep m ρ c main_arg15 (by decide)).trans <| (B5_keep m ρ c main_arg15 (by decide)).trans <| (B4_keep m ρ c main_arg15 (by decide)).trans <| (B3_keep m ρ c main_arg15 (by decide)).trans <| (B2_keep m ρ c main_arg15 (by decide)).trans <| (B1_keep m ρ c main_arg15 (by decide)).trans <| rfl

theorem B3_v1 (c : Dev nD) : B3 m ρ c (Proc.devRef .tc main_v1) = kSrc m c := by
  exact read_v1 (B0 m ρ c)

theorem B3_v2 (c : Dev nD) : B3 m ρ c (Proc.devRef .tc main_v2) = kDst m c := by
  exact read_v2 (B0 m ρ c)

theorem B3_v25 (c : Dev nD) : B3 m ρ c (Proc.devRef .tc main_v25) = kNorm m c := by
  exact read_v25 (B0 m ρ c)

theorem B4_v26 (c : Dev nD) : B4 m ρ c (Proc.devRef .tc main_v26) = kLin1 m c := by
  refine (B4_arr m ρ c 2).trans ((final0 (U3 m ρ) c).trans ?_)
  dsimp only [U3]
  rw [a3_0 m ρ c, a3_3 m ρ c]
  rfl

theorem B4_v25 (c : Dev nD) : B4 m ρ c (Proc.devRef .tc main_v25) = kNorm m c :=
  (B4_keep m ρ c main_v25 (by decide)).trans <| (B3_v25 m ρ c)

theorem B4_v1 (c : Dev nD) : B4 m ρ c (Proc.devRef .tc main_v1) = kSrc m c :=
  (B4_keep m ρ c main_v1 (by decide)).trans <| (B3_v1 m ρ c)

theorem B4_v2 (c : Dev nD) : B4 m ρ c (Proc.devRef .tc main_v2) = kDst m c :=
  (B4_keep m ρ c main_v2 (by decide)).trans <| (B3_v2 m ρ c)

theorem B5_v39 (c : Dev nD) : B5 m ρ c (Proc.devRef .tc main_v39) = kAgg1 m c := by
  refine (read_v39 (B4 m ρ c)).trans ?_
  rw [B4_v26 m ρ c, B4_v25 m ρ c, B4_v1 m ρ c, B4_v2 m ρ c]
  rfl

theorem B5_v40 (c : Dev nD) : B5 m ρ c (Proc.devRef .tc main_v40) = kB1 m c := by
  refine (read_v40 (B4 m ρ c)).trans ?_
  rw [a4_4 m ρ c]
  rfl

theorem B6_v41_0 (c : Dev nD) : B6 m ρ c (Proc.devRef .tc main_v41_0) = kS1 m c := by
  refine (B6_arr m ρ c 2).trans ((final1_2 (U5 m ρ) c).trans ?_)
  dsimp only [U5]
  rw [B5_v39 m ρ c, B5_v40 m ρ c]
  rfl

theorem B6_v41_1 (c : Dev nD) : B6 m ρ c (Proc.devRef .tc main_v41_1) = kQ1 m c := by
  refine (B6_arr m ρ c 3).trans ((final1_3 (U5 m ρ) c).trans ?_)
  dsimp only [U5]
  rw [B5_v39 m ρ c, B5_v40 m ρ c]
  rfl

theorem B7_v58 (c : Dev nD) : B7 m ρ c (Proc.devRef .tc main_v58) = kB1 m c := by
  refine (read_v58 (B6 m ρ c)).trans ?_
  rw [a6_4 m ρ c]
  rfl

theorem B7_v59 (c : Dev nD) : B7 m ρ c (Proc.devRef .tc main_v59) = kSc1 m c := by
  refine (read_v59 (B6 m ρ c)).trans ?_
  rw [B6_v41_0 m ρ c, B6_v41_1 m ρ c, a6_7 m ρ c]
  rfl

theorem B7_v60 (c : Dev nD) : B7 m ρ c (Proc.devRef .tc main_v60) = kSh1 m c := by
  refine (read_v60 (B6 m ρ c)).trans ?_
  rw [B6_v41_0 m ρ c, B6_v41_1 m ρ c, a6_7 m ρ c, a6_8 m ρ c]
  rfl

theorem B7_v39 (c : Dev nD) : B7 m ρ c (Proc.devRef .tc main_v39) = kAgg1 m c :=
  (B7_keep m ρ c main_v39 (by decide)).trans <| (B6_keep m ρ c main_v39 (by decide)).trans <| (B5_v39 m ρ c)

theorem B8_v61 (c : Dev nD) : B8 m ρ c (Proc.devRef .tc main_v61) = kH1 m c := by
  refine (B8_arr m ρ c 4).trans ((final2 (U7 m ρ) c).trans ?_)
  dsimp only [U7]
  rw [B7_v39 m ρ c, B7_v58 m ρ c, B7_v59 m ρ c, B7_v60 m ρ c]
  rfl

theorem B9_v62 (c : Dev nD) : B9 m ρ c (Proc.devRef .tc main_v62) = kLin2 m c := by
  refine (B9_arr m ρ c 2).trans ((final3 (U8 m ρ) c).trans ?_)
  dsimp only [U8]
  rw [B8_v61 m ρ c, a8_5 m ρ c]
  rfl

theorem B9_v25 (c : Dev nD) : B9 m ρ c (Proc.devRef .tc main_v25) = kNorm m c :=
  (B9_keep m ρ c main_v25 (by decide)).trans <| (B8_keep m ρ c main_v25 (by decide)).trans <| (B7_keep m ρ c main_v25 (by decide)).trans <| (B6_keep m ρ c main_v25 (by decide)).trans <| (B5_keep m ρ c main_v25 (by decide)).trans <| (B4_keep m ρ c main_v25 (by decide)).trans <| (B3_v25 m ρ c)

theorem B9_v1 (c : Dev nD) : B9 m ρ c (Proc.devRef .tc main_v1) = kSrc m c :=
  (B9_keep m ρ c main_v1 (by decide)).trans <| (B8_keep m ρ c main_v1 (by decide)).trans <| (B7_keep m ρ c main_v1 (by decide)).trans <| (B6_keep m ρ c main_v1 (by decide)).trans <| (B5_keep m ρ c main_v1 (by decide)).trans <| (B4_keep m ρ c main_v1 (by decide)).trans <| (B3_v1 m ρ c)

theorem B9_v2 (c : Dev nD) : B9 m ρ c (Proc.devRef .tc main_v2) = kDst m c :=
  (B9_keep m ρ c main_v2 (by decide)).trans <| (B8_keep m ρ c main_v2 (by decide)).trans <| (B7_keep m ρ c main_v2 (by decide)).trans <| (B6_keep m ρ c main_v2 (by decide)).trans <| (B5_keep m ρ c main_v2 (by decide)).trans <| (B4_keep m ρ c main_v2 (by decide)).trans <| (B3_v2 m ρ c)

theorem B10_v75 (c : Dev nD) : B10 m ρ c (Proc.devRef .tc main_v75) = kAgg2 m c := by
  refine (read_v75 (B9 m ρ c)).trans ?_
  rw [B9_v62 m ρ c, B9_v25 m ρ c, B9_v1 m ρ c, B9_v2 m ρ c]
  rfl

theorem B10_v76 (c : Dev nD) : B10 m ρ c (Proc.devRef .tc main_v76) = kB2 m c := by
  refine (read_v76 (B9 m ρ c)).trans ?_
  rw [a9_6 m ρ c]
  rfl

theorem B11_v77_0 (c : Dev nD) : B11 m ρ c (Proc.devRef .tc main_v77_0) = kS2 m c := by
  refine (B11_arr m ρ c 2).trans ((final4_2 (U10 m ρ) c).trans ?_)
  dsimp only [U10]
  rw [B10_v75 m ρ c, B10_v76 m ρ c]
  rfl

theorem B11_v77_1 (c : Dev nD) : B11 m ρ c (Proc.devRef .tc main_v77_1) = kQ2 m c := by
  refine (B11_arr m ρ c 3).trans ((final4_3 (U10 m ρ) c).trans ?_)
  dsimp only [U10]
  rw [B10_v75 m ρ c, B10_v76 m ρ c]
  rfl

theorem B12_v94 (c : Dev nD) : B12 m ρ c (Proc.devRef .tc main_v94) = kB2 m c := by
  refine (read_v94 (B11 m ρ c)).trans ?_
  rw [a11_6 m ρ c]
  rfl

theorem B12_v95 (c : Dev nD) : B12 m ρ c (Proc.devRef .tc main_v95) = kSc2 m c := by
  refine (read_v95 (B11 m ρ c)).trans ?_
  rw [B11_v77_0 m ρ c, B11_v77_1 m ρ c, a11_9 m ρ c]
  rfl

theorem B12_v96 (c : Dev nD) : B12 m ρ c (Proc.devRef .tc main_v96) = kSh2 m c := by
  refine (read_v96 (B11 m ρ c)).trans ?_
  rw [B11_v77_0 m ρ c, B11_v77_1 m ρ c, a11_9 m ρ c, a11_10 m ρ c]
  rfl

theorem B12_v75 (c : Dev nD) : B12 m ρ c (Proc.devRef .tc main_v75) = kAgg2 m c :=
  (B12_keep m ρ c main_v75 (by decide)).trans <| (B11_keep m ρ c main_v75 (by decide)).trans <| (B10_v75 m ρ c)

theorem B13_v97 (c : Dev nD) : B13 m ρ c (Proc.devRef .tc main_v97) = kH2 m c := by
  refine (B13_arr m ρ c 4).trans ((final5 (U12 m ρ) c).trans ?_)
  dsimp only [U12]
  rw [B12_v75 m ρ c, B12_v94 m ρ c, B12_v95 m ρ c, B12_v96 m ρ c]
  rfl

theorem B14_v97 (c : Dev nD) : B14 m ρ c (Proc.devRef .tc main_v97) = kH2 m c :=
  (B14_keep m ρ c main_v97 (by decide)).trans <| (B13_v97 m ρ c)

theorem B14_v98 (c : Dev nD) : B14 m ρ c (Proc.devRef .tc main_v98) = rowOf64 (F := Ideal) (ar12 m c) := by
  refine (read_v98 (B13 m ρ c)).trans ?_
  rw [a13_12 m ρ c]

theorem B14_v99 (c : Dev nD) : B14 m ρ c (Proc.devRef .tc main_v99) = rowOf32 (F := Ideal) (ar14 m c) := by
  refine (read_v99 (B13 m ρ c)).trans ?_
  rw [a13_14 m ρ c]

theorem B14_v100 (c : Dev nD) : B14 m ρ c (Proc.devRef .tc main_v100) = rowOf1 (F := Ideal) (ar16 m c) := by
  refine (read_v100 (B13 m ρ c)).trans ?_
  rw [a13_16 m ρ c]

theorem B15_v101 (c : Dev nD) : B15 m ρ c (Proc.devRef .tc main_v101) = kOut m c := by
  refine (B15_arr m ρ c 7).trans ((final6 (U14 m ρ) c).trans ?_)
  dsimp only [U14]
  rw [B14_v97 m ρ c, a14_11 m ρ c, B14_v98 m ρ c, a14_13 m ρ c, B14_v99 m ρ c, a14_15 m ρ c, B14_v100 m ρ c]
  rfl

/-- THE RUN WITH ITS VALUE: every weakly fair execution terminates with the result array at `kOut` of the arguments and
    every argument array as launched. -/
theorem run_value : θ_run defs (onTc (τ := τ) (main (F := Ideal))) ⟨m, fun _ => 0, ρ⟩ (fun r => ∀ c : Dev nD,
      r.2.mem ((c.tc : Thread nD τ).loc main_v101) = kOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun r h c => ⟨(h c _ (mem_uc main_v101 (by decide))).trans (B15_v101 m ρ c),
    (h c _ (mem_uc main_arg0 (by decide))).trans (B15_unwritten m ρ c main_arg0 (by decide)),
    (h c _ (mem_uc main_arg1 (by decide))).trans (B15_unwritten m ρ c main_arg1 (by decide)),
    (h c _ (mem_uc main_arg2 (by decide))).trans (B15_unwritten m ρ c main_arg2 (by decide)),
    (h c _ (mem_uc main_arg3 (by decide))).trans (B15_unwritten m ρ c main_arg3 (by decide)),
    (h c _ (mem_uc main_arg4 (by decide))).trans (B15_unwritten m ρ c main_arg4 (by decide)),
    (h c _ (mem_uc main_arg5 (by decide))).trans (B15_unwritten m ρ c main_arg5 (by decide)),
    (h c _ (mem_uc main_arg6 (by decide))).trans (B15_unwritten m ρ c main_arg6 (by decide)),
    (h c _ (mem_uc main_arg7 (by decide))).trans (B15_unwritten m ρ c main_arg7 (by decide)),
    (h c _ (mem_uc main_arg8 (by decide))).trans (B15_unwritten m ρ c main_arg8 (by decide)),
    (h c _ (mem_uc main_arg9 (by decide))).trans (B15_unwritten m ρ c main_arg9 (by decide)),
    (h c _ (mem_uc main_arg10 (by decide))).trans (B15_unwritten m ρ c main_arg10 (by decide)),
    (h c _ (mem_uc main_arg11 (by decide))).trans (B15_unwritten m ρ c main_arg11 (by decide)),
    (h c _ (mem_uc main_arg12 (by decide))).trans (B15_unwritten m ρ c main_arg12 (by decide)),
    (h c _ (mem_uc main_arg13 (by decide))).trans (B15_unwritten m ρ c main_arg13 (by decide)),
    (h c _ (mem_uc main_arg14 (by decide))).trans (B15_unwritten m ρ c main_arg14 (by decide)),
    (h c _ (mem_uc main_arg15 (by decide))).trans (B15_unwritten m ρ c main_arg15 (by decide)),
    (h c _ (mem_uc main_arg16 (by decide))).trans (B15_unwritten m ρ c main_arg16 (by decide))⟩) (run m ρ)

end Cert.KernelIdeal.Fr

end
-- ==== Proof.Ref.RefFrame.lean ====
/-
  The reference program leaves its seventeen argument arrays unchanged: each of its 204 operations writes one
  buffer, none of them an argument, so an argument's contents after the whole list are its launch contents.
-/
import proofs.«119403_j19189913878709_1_alg».proof.Proof.Ref.RunP

noncomputable section

namespace Cert.ReferenceIdeal.Value

open Cert.ReferenceIdeal Cert.ReferenceIdeal.Gen Idealize.ShloMosaic Idealize.ShloMosaic.TcCoe Idealize.SL.Sem Idealize.ShloMosaic.StableHlo

variable {F : FTy → Type} [FloatOps F]

/-- The references the operations write, one per operation, in order. -/
abbrev opsW : List (Ref sig .tc) := [main_v0, main_v1, main_v2, main_v3, main_cst, main_v4, main_cst_0, main_v5, main_v6, main_v7, main_cst_1, main_v8, main_v9, main_v10, main_cst_2, main_call0_v0, main_call0_v1, main_v11, main_c, main_v12, main_v13, main_c_3, main_v14, main_v15, main_v16, main_v17, main_v18, main_c_4, main_v19, main_v20, main_c_5, main_v21, main_v22, main_v23, main_v24, main_v25, main_v26, main_c_6, main_v27, main_v28, main_c_7, main_v29, main_v30, main_v31, main_v32, main_v33, main_v34, main_v35, main_v36, main_cst_8, main_v37, main_v38, main_v39, main_v40, main_v41, main_v42, main_cst_9, main_v43, main_cst_10, main_v44, main_v45, main_v46, main_v47, main_v48, main_v49, main_cst_11, main_v50, main_cst_12, main_v51, main_v52, main_v53, main_v54, main_v55, main_v56, main_v57, main_v58, main_cst_13, main_v59, main_v60, main_v61, main_v62, main_v63, main_v64, main_v65, main_v66, main_v67, main_call1_cst, main_call1_v0, main_v68, main_v69, main_v70, main_v71, main_v72, main_cst_14, main_v73, main_cst_15, main_v74, main_v75, main_v76, main_cst_16, main_v77, main_v78, main_v79, main_cst_17, main_call2_v0, main_call2_v1, main_v80, main_c_18, main_v81, main_v82, main_c_19, main_v83, main_v84, main_v85, main_v86, main_v87, main_c_20, main_v88, main_v89, main_c_21, main_v90, main_v91, main_v92, main_v93, main_v94, main_v95, main_c_22, main_v96, main_v97, main_c_23, main_v98, main_v99, main_v100, main_v101, main_v102, main_v103, main_v104, main_v105, main_cst_24, main_v106, main_v107, main_v108, main_v109, main_v110, main_v111, main_cst_25, main_v112, main_cst_26, main_v113, main_v114, main_v115, main_v116, main_v117, main_v118, main_cst_27, main_v119, main_cst_28, main_v120, main_v121, main_v122, main_v123, main_v124, main_v125, main_v126, main_v127, main_cst_29, main_v128, main_v129, main_v130, main_v131, main_v132, main_v133, main_v134, main_v135, main_v136, main_call3_cst, main_call3_v0, main_v137, main_v138, main_v139, main_v140, main_v141, main_call4_cst, main_call4_v0, main_v142, main_v143, main_v144, main_v145, main_v146, main_call5_cst, main_call5_v0, main_v147, main_v148, main_v149, main_v150, main_v151, main_v152, main_v153, main_cst_30, main_v154, main_v155, main_cst_31, main_v156, main_v157]

set_option maxRecDepth 16384 in
set_option maxHeartbeats 4000000 in
theorem ops_writes : (ops : List (HloOp τ sig (Elt F))).Forall fun op => op.writes ⊆ (opsW.map (Proc.devRef (τ := τ) .tc)).toFinset := by
  simp only [List.Forall]
  exact ⟨by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide)⟩

section Kept
set_option maxRecDepth 16384
theorem kept_arg0 (W : Valuation τ sig (Elt F)) : StableHlo.after (ops (F := F)) W (Proc.devRef .tc main_arg0) = W (Proc.devRef .tc main_arg0) :=
  StableHlo.after_of_writes_sub ops W ops_writes (by decide)
theorem kept_arg1 (W : Valuation τ sig (Elt F)) : StableHlo.after (ops (F := F)) W (Proc.devRef .tc main_arg1) = W (Proc.devRef .tc main_arg1) :=
  StableHlo.after_of_writes_sub ops W ops_writes (by decide)
theorem kept_arg2 (W : Valuation τ sig (Elt F)) : StableHlo.after (ops (F := F)) W (Proc.devRef .tc main_arg2) = W (Proc.devRef .tc main_arg2) :=
  StableHlo.after_of_writes_sub ops W ops_writes (by decide)
theorem kept_arg3 (W : Valuation τ sig (Elt F)) : StableHlo.after (ops (F := F)) W (Proc.devRef .tc main_arg3) = W (Proc.devRef .tc main_arg3) :=
  StableHlo.after_of_writes_sub ops W ops_writes (by decide)
theorem kept_arg4 (W : Valuation τ sig (Elt F)) : StableHlo.after (ops (F := F)) W (Proc.devRef .tc main_arg4) = W (Proc.devRef .tc main_arg4) :=
  StableHlo.after_of_writes_sub ops W ops_writes (by decide)
theorem kept_arg5 (W : Valuation τ sig (Elt F)) : StableHlo.after (ops (F := F)) W (Proc.devRef .tc main_arg5) = W (Proc.devRef .tc main_arg5) :=
  StableHlo.after_of_writes_sub ops W ops_writes (by decide)
theorem kept_arg6 (W : Valuation τ sig (Elt F)) : StableHlo.after (ops (F := F)) W (Proc.devRef .tc main_arg6) = W (Proc.devRef .tc main_arg6) :=
  StableHlo.after_of_writes_sub ops W ops_writes (by decide)
theorem kept_arg7 (W : Valuation τ sig (Elt F)) : StableHlo.after (ops (F := F)) W (Proc.devRef .tc main_arg7) = W (Proc.devRef .tc main_arg7) :=
  StableHlo.after_of_writes_sub ops W ops_writes (by decide)
theorem kept_arg8 (W : Valuation τ sig (Elt F)) : StableHlo.after (ops (F := F)) W (Proc.devRef .tc main_arg8) = W (Proc.devRef .tc main_arg8) :=
  StableHlo.after_of_writes_sub ops W ops_writes (by decide)
theorem kept_arg9 (W : Valuation τ sig (Elt F)) : StableHlo.after (ops (F := F)) W (Proc.devRef .tc main_arg9) = W (Proc.devRef .tc main_arg9) :=
  StableHlo.after_of_writes_sub ops W ops_writes (by decide)
theorem kept_arg10 (W : Valuation τ sig (Elt F)) : StableHlo.after (ops (F := F)) W (Proc.devRef .tc main_arg10) = W (Proc.devRef .tc main_arg10) :=
  StableHlo.after_of_writes_sub ops W ops_writes (by decide)
theorem kept_arg11 (W : Valuation τ sig (Elt F)) : StableHlo.after (ops (F := F)) W (Proc.devRef .tc main_arg11) = W (Proc.devRef .tc main_arg11) :=
  StableHlo.after_of_writes_sub ops W ops_writes (by decide)
theorem kept_arg12 (W : Valuation τ sig (Elt F)) : StableHlo.after (ops (F := F)) W (Proc.devRef .tc main_arg12) = W (Proc.devRef .tc main_arg12) :=
  StableHlo.after_of_writes_sub ops W ops_writes (by decide)
theorem kept_arg13 (W : Valuation τ sig (Elt F)) : StableHlo.after (ops (F := F)) W (Proc.devRef .tc main_arg13) = W (Proc.devRef .tc main_arg13) :=
  StableHlo.after_of_writes_sub ops W ops_writes (by decide)
theorem kept_arg14 (W : Valuation τ sig (Elt F)) : StableHlo.after (ops (F := F)) W (Proc.devRef .tc main_arg14) = W (Proc.devRef .tc main_arg14) :=
  StableHlo.after_of_writes_sub ops W ops_writes (by decide)
theorem kept_arg15 (W : Valuation τ sig (Elt F)) : StableHlo.after (ops (F := F)) W (Proc.devRef .tc main_arg15) = W (Proc.devRef .tc main_arg15) :=
  StableHlo.after_of_writes_sub ops W ops_writes (by decide)
theorem kept_arg16 (W : Valuation τ sig (Elt F)) : StableHlo.after (ops (F := F)) W (Proc.devRef .tc main_arg16) = W (Proc.devRef .tc main_arg16) :=
  StableHlo.after_of_writes_sub ops W ops_writes (by decide)
end Kept

/-- Every weakly fair execution of the reference terminates with its argument arrays unchanged. -/
theorem frameR (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)) :=
  (θ_run defs _ _).mono (fun _ h c => ⟨(h c main_arg0).trans (kept_arg0 _),
    (h c main_arg1).trans (kept_arg1 _),
    (h c main_arg2).trans (kept_arg2 _),
    (h c main_arg3).trans (kept_arg3 _),
    (h c main_arg4).trans (kept_arg4 _),
    (h c main_arg5).trans (kept_arg5 _),
    (h c main_arg6).trans (kept_arg6 _),
    (h c main_arg7).trans (kept_arg7 _),
    (h c main_arg8).trans (kept_arg8 _),
    (h c main_arg9).trans (kept_arg9 _),
    (h c main_arg10).trans (kept_arg10 _),
    (h c main_arg11).trans (kept_arg11 _),
    (h c main_arg12).trans (kept_arg12 _),
    (h c main_arg13).trans (kept_arg13 _),
    (h c main_arg14).trans (kept_arg14 _),
    (h c main_arg15).trans (kept_arg15 _),
    (h c main_arg16).trans (kept_arg16 _)⟩) (runR m ρ)

end Cert.ReferenceIdeal.Value

end
-- ==== Proof.LibIdealReal.lean ====
/-
  Finiteness at the ideal values. An ideal float value is an extended real; an array is REAL when every
  element is a real number (neither infinity), and POSITIVE / NONNEGATIVE / AT LEAST ONE when every element is
  such a real. This module states those four predicates and proves that the whole-array host operations of a
  reference program preserve them: the elementwise arithmetic, the quotient by an array that is nowhere zero,
  the reciprocal square root of a positive array, the exponential, the layout operations (which only copy
  elements: broadcast, gather, concatenate), and the finite sums (reduce, scatter-add, dot product).
  Everything is stated for arbitrary shapes and dimension records.
-/
import Idealize.ShloMosaic.PureOps.Ideal
import Idealize.ShloMosaic.PureOps.Ideal.Laws
import Idealize.ShloMosaic.PureOps.ShapeOps
import Idealize.ShloMosaic.PureOps.Contract

noncomputable section

namespace Cert.LibIdealReal

open Idealize.ShloMosaic
open scoped BigOperators

/-! ### One extended real -/

/-- The extended real is a real number. -/
def IsReal (x : EReal) : Prop := ∃ r : ℝ, x = (r : EReal)
/-- The extended real is a positive real number. -/
def IsPos (x : EReal) : Prop := ∃ r : ℝ, 0 < r ∧ x = (r : EReal)
/-- The extended real is a nonnegative real number. -/
def IsNonneg (x : EReal) : Prop := ∃ r : ℝ, 0 ≤ r ∧ x = (r : EReal)
/-- The extended real is a real number that is at least one. -/
def IsGeOne (x : EReal) : Prop := ∃ r : ℝ, 1 ≤ r ∧ x = (r : EReal)

theorem IsPos.isReal {x : EReal} (h : IsPos x) : IsReal x := let ⟨r, _, e⟩ := h; ⟨r, e⟩
theorem IsNonneg.isReal {x : EReal} (h : IsNonneg x) : IsReal x := let ⟨r, _, e⟩ := h; ⟨r, e⟩
theorem IsGeOne.isReal {x : EReal} (h : IsGeOne x) : IsReal x := let ⟨r, _, e⟩ := h; ⟨r, e⟩
theorem IsPos.isNonneg {x : EReal} (h : IsPos x) : IsNonneg x := let ⟨r, p, e⟩ := h; ⟨r, p.le, e⟩
theorem IsGeOne.isPos {x : EReal} (h : IsGeOne x) : IsPos x :=
  let ⟨r, p, e⟩ := h; ⟨r, lt_of_lt_of_le one_pos p, e⟩

theorem IsReal.zero : IsReal 0 := ⟨0, rfl⟩
theorem IsNonneg.zero : IsNonneg 0 := ⟨0, le_refl _, rfl⟩
theorem IsGeOne.one : IsGeOne 1 := ⟨1, le_refl _, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩
theorem IsReal.sub {x y : EReal} (hx : IsReal x) (hy : IsReal y) : IsReal (x - y) := by
  obtain ⟨a, rfl⟩ := hx; obtain ⟨b, rfl⟩ := hy; exact ⟨a - b, (EReal.coe_sub a b).symm⟩
theorem IsReal.mul {x y : EReal} (hx : IsReal x) (hy : IsReal y) : IsReal (x * y) := by
  obtain ⟨a, rfl⟩ := hx; obtain ⟨b, rfl⟩ := hy; exact ⟨a * b, (EReal.coe_mul a b).symm⟩
theorem IsReal.neg {x : EReal} (hx : IsReal x) : IsReal (-x) := by
  obtain ⟨a, rfl⟩ := hx; exact ⟨-a, (EReal.coe_neg a).symm⟩
theorem IsReal.emax {x y : EReal} (hx : IsReal x) (hy : IsReal y) : IsReal (Max.max x y) := by
  obtain ⟨a, rfl⟩ := hx; obtain ⟨b, rfl⟩ := hy
  exact ⟨Max.max a b, (EReal.coe_strictMono.monotone.map_max).symm⟩
/-- The exponential of a real is a positive real. -/
theorem IsReal.exp_pos {x : EReal} (hx : IsReal x) : IsPos (Ideal.exp x) := by
  obtain ⟨a, rfl⟩ := hx; exact ⟨Real.exp a, Real.exp_pos a, rfl⟩
/-- A finite sum of reals is a real. -/
theorem IsReal.sum {ι : Type} (s : Finset ι) (f : ι → EReal) (h : ∀ j ∈ s, IsReal (f j)) :
    IsReal (∑ j ∈ s, f j) :=
  Finset.sum_induction f IsReal (fun _ _ => IsReal.add) IsReal.zero h

theorem IsNonneg.add {x y : EReal} (hx : IsNonneg x) (hy : IsNonneg y) : IsNonneg (x + y) := by
  obtain ⟨a, ha, rfl⟩ := hx; obtain ⟨b, hb, rfl⟩ := hy
  exact ⟨a + b, add_nonneg ha hb, (EReal.coe_add a b).symm⟩
/-- A finite sum of nonnegative reals is a nonnegative real. -/
theorem IsNonneg.sum {ι : Type} (s : Finset ι) (f : ι → EReal) (h : ∀ j ∈ s, IsNonneg (f j)) :
    IsNonneg (∑ j ∈ s, f j) :=
  Finset.sum_induction f IsNonneg (fun _ _ => IsNonneg.add) IsNonneg.zero h
/-- The square of a real is a nonnegative real. -/
theorem IsReal.mul_self_nonneg {x : EReal} (hx : IsReal x) : IsNonneg (x * x) := by
  obtain ⟨a, rfl⟩ := hx; exact ⟨a * a, _root_.mul_self_nonneg a, (EReal.coe_mul a a).symm⟩
theorem IsNonneg.mul {x y : EReal} (hx : IsNonneg x) (hy : IsNonneg y) : IsNonneg (x * y) := by
  obtain ⟨a, ha, rfl⟩ := hx; obtain ⟨b, hb, rfl⟩ := hy
  exact ⟨a * b, mul_nonneg ha hb, (EReal.coe_mul a b).symm⟩
theorem IsPos.add {x y : EReal} (hx : IsPos x) (hy : IsPos y) : IsPos (x + y) := by
  obtain ⟨a, ha, rfl⟩ := hx; obtain ⟨b, hb, rfl⟩ := hy
  exact ⟨a + b, add_pos ha hb, (EReal.coe_add a b).symm⟩
/-- A nonnegative real plus a positive real is a positive real. -/
theorem IsNonneg.add_pos {x y : EReal} (hx : IsNonneg x) (hy : IsPos y) : IsPos (x + y) := by
  obtain ⟨a, ha, rfl⟩ := hx; obtain ⟨b, hb, rfl⟩ := hy
  exact ⟨a + b, add_pos_of_nonneg_of_pos ha hb, (EReal.coe_add a b).symm⟩
/-- The greater of a real and a real that is at least one is at least one. -/
theorem IsReal.emax_geOne {x y : EReal} (hx : IsReal x) (hy : IsGeOne y) : IsGeOne (Max.max x y) := by
  obtain ⟨a, rfl⟩ := hx; obtain ⟨b, hb, rfl⟩ := hy
  exact ⟨Max.max a b, le_trans hb (le_max_right a b), (EReal.coe_strictMono.monotone.map_max).symm⟩

/-- The quotient of a real by a positive real is their real quotient. -/
theorem div_coe_pos (a : ℝ) {b : ℝ} (hb : 0 < b) : Ideal.div (a : EReal) (b : EReal) = ((a * (1 / b) : ℝ) : EReal) := by
  rw [Ideal.div_coe hb.ne', EReal.coe_mul]
theorem IsReal.div_pos {x y : EReal} (hx : IsReal x) (hy : IsPos y) : IsReal (Ideal.div x y) := by
  obtain ⟨a, rfl⟩ := hx; obtain ⟨b, hb, rfl⟩ := hy; exact ⟨_, div_coe_pos a hb⟩
theorem IsNonneg.div_pos {x y : EReal} (hx : IsNonneg x) (hy : IsPos y) : IsNonneg (Ideal.div x y) := by
  obtain ⟨a, ha, rfl⟩ := hx; obtain ⟨b, hb, rfl⟩ := hy
  exact ⟨_, mul_nonneg ha (one_div_pos.mpr hb).le, div_coe_pos a hb⟩
theorem IsPos.div_pos {x y : EReal} (hx : IsPos x) (hy : IsPos y) : IsPos (Ideal.div x y) := by
  obtain ⟨a, ha, rfl⟩ := hx; obtain ⟨b, hb, rfl⟩ := hy
  exact ⟨_, mul_pos ha (one_div_pos.mpr hb), div_coe_pos a hb⟩
/-- The reciprocal square root of a positive real is a positive real. -/
theorem IsPos.rsqrt {x : EReal} (hx : IsPos x) : IsPos (Ideal.rsqrt x) := by
  obtain ⟨a, ha, rfl⟩ := hx
  refine ⟨(Real.sqrt a)⁻¹, inv_pos.mpr (Real.sqrt_pos.mpr ha), ?_⟩
  rw [Ideal.rsqrt_coe, if_neg (not_lt.mpr ha.le), if_neg ha.ne']

/-! ### The float constants of the program, as the reals their patterns denote -/

theorem ofBits_zero : Ideal.ofBits .f32 0x00000000#32 = ((0 : ℝ) : EReal) := by
  simp [Ideal.ofBits, Ideal.ieee]
theorem ofBits_one : Ideal.ofBits .f32 0x3F800000#32 = ((1 : ℝ) : EReal) := by
  simp [Ideal.ofBits, Ideal.ieee, -EReal.coe_mul]; norm_num
theorem ofBits_64 : Ideal.ofBits .f32 0x42800000#32 = ((64 : ℝ) : EReal) := by
  simp [Ideal.ofBits, Ideal.ieee, -EReal.coe_mul]; norm_num
theorem ofBits_32 : Ideal.ofBits .f32 0x42000000#32 = ((32 : ℝ) : EReal) := by
  simp [Ideal.ofBits, Ideal.ieee, -EReal.coe_mul]; norm_num
/-- The pattern 0x3727C5AC (the variance offset, about 1e-5) denotes 10995116 · 2⁻⁴⁰. -/
theorem ofBits_eps : Ideal.ofBits .f32 0x3727C5AC#32 = ((10995116 * (2 : ℝ) ^ (-40 : Int) : ℝ) : EReal) := by
  simp [Ideal.ofBits, Ideal.ieee, -EReal.coe_mul]

theorem isReal_ofBits_zero : IsReal (Ideal.ofBits .f32 0x00000000#32) := ⟨0, ofBits_zero⟩
theorem isNonneg_ofBits_zero : IsNonneg (Ideal.ofBits .f32 0x00000000#32) := ⟨0, le_refl _, ofBits_zero⟩
theorem isGeOne_ofBits_one : IsGeOne (Ideal.ofBits .f32 0x3F800000#32) := ⟨1, le_refl _, ofBits_one⟩
theorem isGeOne_ofBits_64 : IsGeOne (Ideal.ofBits .f32 0x42800000#32) := ⟨64, by norm_num, ofBits_64⟩
theorem isGeOne_ofBits_32 : IsGeOne (Ideal.ofBits .f32 0x42000000#32) := ⟨32, by norm_num, ofBits_32⟩
theorem isPos_ofBits_eps : IsPos (Ideal.ofBits .f32 0x3727C5AC#32) := ⟨_, by positivity, ofBits_eps⟩

/-! ### Arrays -/

/-- Every element of the array is a real number. -/
def RealV {S : Shape} (v : S.Idx → EReal) : Prop := ∀ i, IsReal (v i)
/-- Every element of the array is a positive real number. -/
def PosV {S : Shape} (v : S.Idx → EReal) : Prop := ∀ i, IsPos (v i)
/-- Every element of the array is a nonnegative real number. -/
def NonnegV {S : Shape} (v : S.Idx → EReal) : Prop := ∀ i, IsNonneg (v i)
/-- Every element of the array is a real number that is at least one. -/
def GeOneV {S : Shape} (v : S.Idx → EReal) : Prop := ∀ i, IsGeOne (v i)

/-- The definition, spelled out: each element equals the coercion of some real. -/
theorem realV_iff {S : Shape} (v : S.Idx → EReal) : RealV v ↔ ∀ i, ∃ r : ℝ, v i = (r : EReal) := Iff.rfl

section Arrays
variable {S : Shape} {φ : FTy}

theorem PosV.realV {v : S.Idx → EReal} (h : PosV v) : RealV v := fun i => (h i).isReal
theorem NonnegV.realV {v : S.Idx → EReal} (h : NonnegV v) : RealV v := fun i => (h i).isReal
theorem GeOneV.realV {v : S.Idx → EReal} (h : GeOneV v) : RealV v := fun i => (h i).isReal
theorem GeOneV.posV {v : S.Idx → EReal} (h : GeOneV v) : PosV v := fun i => (h i).isPos
theorem PosV.nonnegV {v : S.Idx → EReal} (h : PosV v) : NonnegV v := fun i => (h i).isNonneg

/-! #### Elementwise arithmetic -/

theorem realV_addf {v w : FVec Ideal S φ} (hv : RealV v) (hw : RealV w) : RealV (addf v w) :=
  fun i => (hv i).add (hw i)
theorem realV_subf {v w : FVec Ideal S φ} (hv : RealV v) (hw : RealV w) : RealV (subf v w) :=
  fun i => (hv i).sub (hw i)
theorem realV_mulf {v w : FVec Ideal S φ} (hv : RealV v) (hw : RealV w) : RealV (mulf v w) :=
  fun i => (hv i).mul (hw i)
theorem realV_maximumf {v w : FVec Ideal S φ} (hv : RealV v) (hw : RealV w) : RealV (maximumf v w) :=
  fun i => (hv i).emax (hw i)
theorem realV_negf {v : FVec Ideal S φ} (hv : RealV v) : RealV (Host.negf v) :=
  fun i => (hv i).neg
theorem posV_exp {v : FVec Ideal S φ} (hv : RealV v) : PosV (Host.exp v) :=
  fun i => (hv i).exp_pos
theorem realV_exp {v : FVec Ideal S φ} (hv : RealV v) : RealV (Host.exp v) := (posV_exp hv).realV
/-- The quotient by an array of positive reals. -/
theorem realV_divf {v w : FVec Ideal S φ} (hv : RealV v) (hw : PosV w) : RealV (Host.divf v w) :=
  fun i => (hv i).div_pos (hw i)
theorem realV_divf_geOne {v w : FVec Ideal S φ} (hv : RealV v) (hw : GeOneV w) : RealV (Host.divf v w) :=
  realV_divf hv hw.posV
theorem nonnegV_divf {v w : FVec Ideal S φ} (hv : NonnegV v) (hw : PosV w) : NonnegV (Host.divf v w) :=
  fun i => (hv i).div_pos (hw i)
theorem nonnegV_divf_geOne {v w : FVec Ideal S φ} (hv : NonnegV v) (hw : GeOneV w) : NonnegV (Host.divf v w) :=
  nonnegV_divf hv hw.posV
theorem posV_divf {v w : FVec Ideal S φ} (hv : PosV v) (hw : PosV w) : PosV (Host.divf v w) :=
  fun i => (hv i).div_pos (hw i)
/-- The reciprocal square root of an array of positive reals is an array of positive reals. -/
theorem posV_rsqrt {v : FVec Ideal S φ} (hv : PosV v) : PosV (Host.rsqrt v) :=
  fun i => (hv i).rsqrt
theorem realV_rsqrt {v : FVec Ideal S φ} (hv : PosV v) : RealV (Host.rsqrt v) := (posV_rsqrt hv).realV
/-- The square of a real array is nonnegative. -/
theorem nonnegV_mulf_self {v : FVec Ideal S φ} (hv : RealV v) : NonnegV (mulf v v) :=
  fun i => (hv i).mul_self_nonneg
theorem nonnegV_mulf {v w : FVec Ideal S φ} (hv : NonnegV v) (hw : NonnegV w) : NonnegV (mulf v w) :=
  fun i => (hv i).mul (hw i)
theorem nonnegV_addf {v w : FVec Ideal S φ} (hv : NonnegV v) (hw : NonnegV w) : NonnegV (addf v w) :=
  fun i => (hv i).add (hw i)
theorem posV_addf {v w : FVec Ideal S φ} (hv : PosV v) (hw : PosV w) : PosV (addf v w) :=
  fun i => (hv i).add (hw i)
/-- A nonnegative array plus a positive one (a variance plus its offset) is positive. -/
theorem posV_addf_nonneg_pos {v w : FVec Ideal S φ} (hv : NonnegV v) (hw : PosV w) : PosV (addf v w) :=
  fun i => (hv i).add_pos (hw i)
/-- The greater of a real array and an array that is at least one (a count against the constant one). -/
theorem geOneV_maximumf {v w : FVec Ideal S φ} (hv : RealV v) (hw : GeOneV w) : GeOneV (maximumf v w) :=
  fun i => (hv i).emax_geOne (hw i)

/-! #### Constants -/

theorem realV_constant {b : BitVec φ.bits} (h : IsReal (Ideal.ofBits φ b)) : RealV (constant (F := Ideal) S φ b) :=
  fun _ => h
theorem posV_constant {b : BitVec φ.bits} (h : IsPos (Ideal.ofBits φ b)) : PosV (constant (F := Ideal) S φ b) :=
  fun _ => h
theorem nonnegV_constant {b : BitVec φ.bits} (h : IsNonneg (Ideal.ofBits φ b)) :
    NonnegV (constant (F := Ideal) S φ b) :=
  fun _ => h
theorem geOneV_constant {b : BitVec φ.bits} (h : IsGeOne (Ideal.ofBits φ b)) :
    GeOneV (constant (F := Ideal) S φ b) :=
  fun _ => h

/-- The constant 0. -/
theorem nonnegV_const_zero : NonnegV (constant (F := Ideal) S .f32 0x00000000#32) :=
  nonnegV_constant isNonneg_ofBits_zero
theorem realV_const_zero : RealV (constant (F := Ideal) S .f32 0x00000000#32) := nonnegV_const_zero.realV
/-- The constant 1. -/
theorem geOneV_const_one : GeOneV (constant (F := Ideal) S .f32 0x3F800000#32) :=
  geOneV_constant isGeOne_ofBits_one
theorem realV_const_one : RealV (constant (F := Ideal) S .f32 0x3F800000#32) := geOneV_const_one.realV
/-- The constant 64. -/
theorem geOneV_const_64 : GeOneV (constant (F := Ideal) S .f32 0x42800000#32) :=
  geOneV_constant isGeOne_ofBits_64
theorem realV_const_64 : RealV (constant (F := Ideal) S .f32 0x42800000#32) := geOneV_const_64.realV
/-- The constant 32. -/
theorem geOneV_const_32 : GeOneV (constant (F := Ideal) S .f32 0x42000000#32) :=
  geOneV_constant isGeOne_ofBits_32
theorem realV_const_32 : RealV (constant (F := Ideal) S .f32 0x42000000#32) := geOneV_const_32.realV
/-- The variance offset. -/
theorem posV_const_eps : PosV (constant (F := Ideal) S .f32 0x3727C5AC#32) :=
  posV_constant isPos_ofBits_eps
theorem realV_const_eps : RealV (constant (F := Ideal) S .f32 0x3727C5AC#32) := posV_const_eps.realV

end Arrays

/-! #### Layout operations: every result element is an element of an operand -/

section Layout
variable {α : Type} {s t : Shape}

theorem forall_broadcastInDim (P : α → Prop) (dims : Fin s.rank → Fin t.rank) (h : s.BroadcastsInDim t dims)
    {x : s.Idx → α} (hx : ∀ i, P (x i)) : ∀ j, P (broadcastInDim t dims h x j) :=
  fun _ => hx _

theorem forall_gather (P : α → Prop) {si : Shape} {w : Nat} (d : GatherDims s si t) {x : s.Idx → α}
    (idx : IVec si w) (hx : ∀ i, P (x i)) : ∀ j, P (Host.gather d x idx j) :=
  fun _ => hx _

theorem forall_concatenate (P : α → Prop) (a : Fin t.rank) (xs : List ((s : Shape) × (s.Idx → α)))
    (h : Shape.Concatenates (xs.map (·.1)) t a) (hx : ∀ p ∈ xs, ∀ i, P (p.2 i)) :
    ∀ j, P (concatenate t a xs h j) := by
  intro j
  unfold concatenate
  exact hx _ (List.getElem_mem _) _

end Layout

section LayoutReal
variable {s t : Shape}

theorem realV_broadcastInDim (dims : Fin s.rank → Fin t.rank) (h : s.BroadcastsInDim t dims) {x : s.Idx → EReal}
    (hx : RealV x) : RealV (broadcastInDim t dims h x) := forall_broadcastInDim IsReal dims h hx
theorem posV_broadcastInDim (dims : Fin s.rank → Fin t.rank) (h : s.BroadcastsInDim t dims) {x : s.Idx → EReal}
    (hx : PosV x) : PosV (broadcastInDim t dims h x) := forall_broadcastInDim IsPos dims h hx
theorem nonnegV_broadcastInDim (dims : Fin s.rank → Fin t.rank) (h : s.BroadcastsInDim t dims) {x : s.Idx → EReal}
    (hx : NonnegV x) : NonnegV (broadcastInDim t dims h x) := forall_broadcastInDim IsNonneg dims h hx
theorem geOneV_broadcastInDim (dims : Fin s.rank → Fin t.rank) (h : s.BroadcastsInDim t dims) {x : s.Idx → EReal}
    (hx : GeOneV x) : GeOneV (broadcastInDim t dims h x) := forall_broadcastInDim IsGeOne dims h hx

/-- A gather, at any integer indices, copies elements of its operand. -/
theorem realV_gather {si : Shape} {w : Nat} (d : GatherDims s si t) {x : s.Idx → EReal} (idx : IVec si w)
    (hx : RealV x) : RealV (Host.gather d x idx) := forall_gather IsReal d idx hx
theorem posV_gather {si : Shape} {w : Nat} (d : GatherDims s si t) {x : s.Idx → EReal} (idx : IVec si w)
    (hx : PosV x) : PosV (Host.gather d x idx) := forall_gather IsPos d idx hx
theorem nonnegV_gather {si : Shape} {w : Nat} (d : GatherDims s si t) {x : s.Idx → EReal} (idx : IVec si w)
    (hx : NonnegV x) : NonnegV (Host.gather d x idx) := forall_gather IsNonneg d idx hx
theorem geOneV_gather {si : Shape} {w : Nat} (d : GatherDims s si t) {x : s.Idx → EReal} (idx : IVec si w)
    (hx : GeOneV x) : GeOneV (Host.gather d x idx) := forall_gather IsGeOne d idx hx

/-- A concatenation of real pieces is real. -/
theorem realV_concatenate (a : Fin t.rank) (xs : List ((s : Shape) × (s.Idx → EReal)))
    (h : Shape.Concatenates (xs.map (·.1)) t a) (hx : ∀ p ∈ xs, RealV p.2) : RealV (concatenate t a xs h) :=
  forall_concatenate IsReal a xs h hx

theorem realV_concatenate2 (a : Fin t.rank) {s1 s2 : Shape} {x1 : s1.Idx → EReal} {x2 : s2.Idx → EReal}
    (h : Shape.Concatenates (([⟨s1, x1⟩, ⟨s2, x2⟩] : List ((s : Shape) × (s.Idx → EReal))).map (·.1)) t a) (h1 : RealV x1) (h2 : RealV x2) :
    RealV (concatenate t a [⟨s1, x1⟩, ⟨s2, x2⟩] h) := by
  refine realV_concatenate a _ h fun p hp => ?_
  simp only [List.mem_cons, List.not_mem_nil, or_false] at hp
  rcases hp with rfl | rfl <;> assumption
theorem realV_concatenate3 (a : Fin t.rank) {s1 s2 s3 : Shape} {x1 : s1.Idx → EReal} {x2 : s2.Idx → EReal}
    {x3 : s3.Idx → EReal} (h : Shape.Concatenates (([⟨s1, x1⟩, ⟨s2, x2⟩, ⟨s3, x3⟩] : List ((s : Shape) × (s.Idx → EReal))).map (·.1)) t a)
    (h1 : RealV x1) (h2 : RealV x2) (h3 : RealV x3) :
    RealV (concatenate t a [⟨s1, x1⟩, ⟨s2, x2⟩, ⟨s3, x3⟩] h) := by
  refine realV_concatenate a _ h fun p hp => ?_
  simp only [List.mem_cons, List.not_mem_nil, or_false] at hp
  rcases hp with rfl | rfl | rfl <;> assumption
theorem realV_concatenate4 (a : Fin t.rank) {s1 s2 s3 s4 : Shape} {x1 : s1.Idx → EReal} {x2 : s2.Idx → EReal}
    {x3 : s3.Idx → EReal} {x4 : s4.Idx → EReal}
    (h : Shape.Concatenates (([⟨s1, x1⟩, ⟨s2, x2⟩, ⟨s3, x3⟩, ⟨s4, x4⟩] : List ((s : Shape) × (s.Idx → EReal))).map (·.1)) t a)
    (h1 : RealV x1) (h2 : RealV x2) (h3 : RealV x3) (h4 : RealV x4) :
    RealV (concatenate t a [⟨s1, x1⟩, ⟨s2, x2⟩, ⟨s3, x3⟩, ⟨s4, x4⟩] h) := by
  refine realV_concatenate a _ h fun p hp => ?_
  simp only [List.mem_cons, List.not_mem_nil, or_false] at hp
  rcases hp with rfl | rfl | rfl | rfl <;> assumption

end LayoutReal

/-! #### Finite sums -/

section Sums
variable {φ : FTy}

/-- A scatter-add: each element is the operand's plus a finite sum of update elements. -/
theorem realV_scatterAdd {s si u : Shape} {w : Nat} (d : ScatterDims s si u) {x : FVec Ideal s φ} (idx : IVec si w)
    {upd : FVec Ideal u φ} (hx : RealV x) (hu : RealV upd) : RealV (Host.scatterAdd d x idx upd) :=
  fun i => (hx i).add (IsReal.sum _ _ fun j _ => hu j)
theorem nonnegV_scatterAdd {s si u : Shape} {w : Nat} (d : ScatterDims s si u) {x : FVec Ideal s φ} (idx : IVec si w)
    {upd : FVec Ideal u φ} (hx : NonnegV x) (hu : NonnegV upd) : NonnegV (Host.scatterAdd d x idx upd) :=
  fun i => (hx i).add (IsNonneg.sum _ _ fun j _ => hu j)

/-- A host sum along axes: each element is the initial value plus a finite sum of operand elements. -/
theorem realV_reduceAdd {s t u : Shape} {axes : List (Fin s.rank)} {x : FVec Ideal s φ} {init : u.Idx → Ideal φ}
    (h : s.ReducesTo axes t) (hu : 0 < u.numel) (hx : RealV x) (hi : RealV init) :
    RealV (Host.reduceAdd x init h hu) :=
  fun _ => (hi _).add (IsReal.sum _ _ fun i _ => hx i)
theorem nonnegV_reduceAdd {s t u : Shape} {axes : List (Fin s.rank)} {x : FVec Ideal s φ} {init : u.Idx → Ideal φ}
    (h : s.ReducesTo axes t) (hu : 0 < u.numel) (hx : NonnegV x) (hi : NonnegV init) :
    NonnegV (Host.reduceAdd x init h hu) :=
  fun _ => (hi _).add (IsNonneg.sum _ _ fun i _ => hx i)

/-- A host matrix product: each element is a finite sum of products. -/
theorem realV_dotGeneral {sl sr so : Shape} {φ₁ φ₂ : FTy} (d : DotDims sl sr so) (prec : Option ContractPrecision)
    {lhs : FVec Ideal sl φ₁} {rhs : FVec Ideal sr φ₂} (hl : RealV lhs) (hr : RealV rhs) :
    RealV (Host.dotGeneral d prec lhs rhs) :=
  fun _ => IsReal.zero.add (IsReal.sum _ _ fun _ _ => (hl _).mul (hr _))

end Sums

end Cert.LibIdealReal

end
-- ==== Proof.LibSegVar.lean ====
import Idealize.ShloMosaic.PureOps.Ideal

/-!
  The variance of the rows of a segment, computed in one pass (mean of the squares minus
  the square of the mean, clamped at zero) and in two passes (mean of the squared
  deviations), on the extended reals: when every entry is a real number the two agree,
  and the denominator, the mean and the variance are all real numbers.
-/

namespace Cert.LibSegVar

open Idealize.ShloMosaic

/-- A finite sum of coerced reals is the coercion of the real sum. -/
theorem coe_sum {ι : Type} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

/-- The maximum of two coerced reals is the coercion of the real maximum. -/
theorem coe_max (a b : ℝ) : max (a : EReal) (b : EReal) = ((max a b : ℝ) : EReal) :=
  (EReal.coe_strictMono.monotone.map_max (a := a) (b := b)).symm

/-- Division of a coerced real by a nonzero coerced real is the coerced quotient. -/
theorem div_coe_coe (a d : ℝ) (hd : d ≠ 0) :
    Ideal.div (a : EReal) (d : EReal) = ((a / d : ℝ) : EReal) := by
  rw [Ideal.div_coe hd, ← EReal.coe_mul, mul_one_div]

/-- A double sum over an empty index rectangle is zero. -/
theorem dsum_zero_of_card {J K : Type} [Fintype K] (s : Finset J) (f : J → K → ℝ)
    (h : s.card * Fintype.card K = 0) : ∑ j ∈ s, ∑ k, f j k = 0 := by
  rcases Nat.mul_eq_zero.mp h with h | h
  · rw [Finset.card_eq_zero.mp h]; simp
  · have : IsEmpty K := Fintype.card_eq_zero_iff.mp h
    simp

/-- Expansion of the sum of squared deviations from any centre `μ`:
    `∑∑ (r - μ)² = ∑∑ r² - 2 μ ∑∑ r + n μ²` with `n` the number of entries. -/
theorem dsum_sq_sub {J K : Type} [Fintype K] (s : Finset J) (r : J → K → ℝ) (μ : ℝ) :
    ∑ j ∈ s, ∑ k, (r j k - μ) * (r j k - μ)
      = (∑ j ∈ s, ∑ k, r j k * r j k) - 2 * μ * (∑ j ∈ s, ∑ k, r j k)
        + ((s.card : ℝ) * (Fintype.card K : ℝ)) * (μ * μ) := by
  have h : ∀ j k, (r j k - μ) * (r j k - μ) = r j k * r j k - 2 * μ * r j k + μ * μ := by
    intros; ring
  simp only [h, Finset.sum_add_distrib, Finset.sum_sub_distrib, ← Finset.mul_sum,
    Finset.sum_const, Finset.card_univ, nsmul_eq_mul]
  ring

/-- The real identity: with `n` the number of entries, `d = max n 1` and `μ = (∑∑ r) / d`,
    the mean of the squared deviations is the mean of the squares minus `μ²`. -/
theorem real_var {J K : Type} [Fintype K] (s : Finset J) (r : J → K → ℝ) (d μ : ℝ)
    (hd : d = max ((s.card : ℝ) * (Fintype.card K : ℝ)) 1)
    (hμ : μ = (∑ j ∈ s, ∑ k, r j k) / d) :
    (∑ j ∈ s, ∑ k, (r j k - μ) * (r j k - μ)) / d
      = (∑ j ∈ s, ∑ k, r j k * r j k) / d - μ * μ := by
  rw [dsum_sq_sub]
  by_cases h0 : s.card * Fintype.card K = 0
  · -- no entries: every double sum is zero, and so is the mean
    have hA := dsum_zero_of_card s r h0
    have hB := dsum_zero_of_card s (fun j k => r j k * r j k) h0
    have hn : (s.card : ℝ) * (Fintype.card K : ℝ) = 0 := by exact_mod_cast h0
    have hμ0 : μ = 0 := by rw [hμ, hA, zero_div]
    rw [hA, hB, hn, hμ0]; simp
  · -- at least one entry: the denominator is the number of entries
    have h1 : 1 ≤ s.card * Fintype.card K := Nat.one_le_iff_ne_zero.mpr h0
    have hn : (1 : ℝ) ≤ (s.card : ℝ) * (Fintype.card K : ℝ) := by exact_mod_cast h1
    have hdn : d = (s.card : ℝ) * (Fintype.card K : ℝ) := by rw [hd, max_eq_left hn]
    have hd0 : d ≠ 0 := by rw [hdn]; linarith
    rw [← hdn, hμ]
    field_simp
    ring

/-- Everything at once: the denominator, the mean and the two-pass variance are real
    numbers, and the one-pass variance equals the two-pass one. -/
theorem seg_reals {J K : Type} [Fintype K] (s : Finset J) (r : J → K → ℝ) (c : ℝ)
    (hc : c = (Fintype.card K : ℝ))
    (cnt D S1 S2 mean T : EReal)
    (hcnt : cnt = 0 + ∑ j ∈ s, (1 : EReal))
    (hD : D = max (cnt * (c : EReal)) 1)
    (hS1 : S1 = 0 + ∑ j ∈ s, (0 + ∑ k : K, ((r j k : ℝ) : EReal)))
    (hS2 : S2 = 0 + ∑ j ∈ s, (0 + ∑ k : K, ((r j k : ℝ) : EReal) * ((r j k : ℝ) : EReal)))
    (hmean : mean = Ideal.div S1 D)
    (hT : T = 0 + ∑ j ∈ s, (0 + ∑ k : K,
      (((r j k : ℝ) : EReal) - mean) * (((r j k : ℝ) : EReal) - mean))) :
    ∃ d μ v : ℝ, 1 ≤ d ∧ 0 ≤ v ∧ D = (d : EReal) ∧ mean = (μ : EReal) ∧
      Ideal.div T D = (v : EReal) ∧ max (Ideal.div S2 D - mean * mean) 0 = (v : EReal) := by
  obtain ⟨d, hd⟩ : ∃ d : ℝ, d = max ((s.card : ℝ) * (Fintype.card K : ℝ)) 1 := ⟨_, rfl⟩
  obtain ⟨μ, hμ⟩ : ∃ μ : ℝ, μ = (∑ j ∈ s, ∑ k, r j k) / d := ⟨_, rfl⟩
  have hd1 : 1 ≤ d := by rw [hd]; exact le_max_right _ _
  have hdpos : 0 < d := by linarith
  have hd0 : d ≠ 0 := ne_of_gt hdpos
  have hcntE : cnt = ((s.card : ℝ) : EReal) := by
    rw [hcnt, zero_add, ← EReal.coe_one, coe_sum, Finset.sum_const, nsmul_eq_mul, mul_one]
  have hDE : D = (d : EReal) := by
    rw [hD, hcntE, hc, ← EReal.coe_mul, ← EReal.coe_one, coe_max, hd]
  have hS1E : S1 = ((∑ j ∈ s, ∑ k, r j k : ℝ) : EReal) := by
    rw [hS1]; simp only [zero_add, coe_sum]
  have hS2E : S2 = ((∑ j ∈ s, ∑ k, r j k * r j k : ℝ) : EReal) := by
    rw [hS2]; simp only [zero_add, ← EReal.coe_mul, coe_sum]
  have hmE : mean = (μ : EReal) := by
    rw [hmean, hS1E, hDE, div_coe_coe _ _ hd0, hμ]
  have hTE : T = ((∑ j ∈ s, ∑ k, (r j k - μ) * (r j k - μ) : ℝ) : EReal) := by
    rw [hT, hmE]; simp only [zero_add, ← EReal.coe_sub, ← EReal.coe_mul, coe_sum]
  have hvar := real_var s r d μ hd hμ
  have hv0 : 0 ≤ (∑ j ∈ s, ∑ k, (r j k - μ) * (r j k - μ)) / d :=
    div_nonneg (Finset.sum_nonneg fun j _ => Finset.sum_nonneg fun k _ => mul_self_nonneg _)
      hdpos.le
  refine ⟨d, μ, (∑ j ∈ s, ∑ k, (r j k - μ) * (r j k - μ)) / d, hd1, hv0, hDE, hmE, ?_, ?_⟩
  · rw [hTE, hDE, div_coe_coe _ _ hd0]
  · rw [hS2E, hDE, hmE, div_coe_coe _ _ hd0, ← EReal.coe_mul, ← EReal.coe_sub, ← EReal.coe_zero,
      coe_max, ← hvar, max_eq_left hv0]

/-- The denominator `max (count · width) 1` is a real number, at least one. -/
theorem seg_denom_real {J K : Type} [Fintype K] (s : Finset J) (r : J → K → ℝ) (c : ℝ)
    (hc : c = (Fintype.card K : ℝ))
    (cnt D S1 S2 mean T : EReal)
    (hcnt : cnt = 0 + ∑ j ∈ s, (1 : EReal))
    (hD : D = max (cnt * (c : EReal)) 1)
    (hS1 : S1 = 0 + ∑ j ∈ s, (0 + ∑ k : K, ((r j k : ℝ) : EReal)))
    (hS2 : S2 = 0 + ∑ j ∈ s, (0 + ∑ k : K, ((r j k : ℝ) : EReal) * ((r j k : ℝ) : EReal)))
    (hmean : mean = Ideal.div S1 D)
    (hT : T = 0 + ∑ j ∈ s, (0 + ∑ k : K,
      (((r j k : ℝ) : EReal) - mean) * (((r j k : ℝ) : EReal) - mean))) :
    ∃ d : ℝ, 1 ≤ d ∧ D = (d : EReal) := by
  obtain ⟨d, _, _, h1, _, hDE, _, _, _⟩ :=
    seg_reals s r c hc cnt D S1 S2 mean T hcnt hD hS1 hS2 hmean hT
  exact ⟨d, h1, hDE⟩

/-- The mean of the segment is a real number. -/
theorem seg_mean_real {J K : Type} [Fintype K] (s : Finset J) (r : J → K → ℝ) (c : ℝ)
    (hc : c = (Fintype.card K : ℝ))
    (cnt D S1 S2 mean T : EReal)
    (hcnt : cnt = 0 + ∑ j ∈ s, (1 : EReal))
    (hD : D = max (cnt * (c : EReal)) 1)
    (hS1 : S1 = 0 + ∑ j ∈ s, (0 + ∑ k : K, ((r j k : ℝ) : EReal)))
    (hS2 : S2 = 0 + ∑ j ∈ s, (0 + ∑ k : K, ((r j k : ℝ) : EReal) * ((r j k : ℝ) : EReal)))
    (hmean : mean = Ideal.div S1 D)
    (hT : T = 0 + ∑ j ∈ s, (0 + ∑ k : K,
      (((r j k : ℝ) : EReal) - mean) * (((r j k : ℝ) : EReal) - mean))) :
    ∃ μ : ℝ, mean = (μ : EReal) := by
  obtain ⟨_, μ, _, _, _, _, hmE, _, _⟩ :=
    seg_reals s r c hc cnt D S1 S2 mean T hcnt hD hS1 hS2 hmean hT
  exact ⟨μ, hmE⟩

/-- The two-pass variance of the segment is a nonnegative real number. -/
theorem seg_var_real {J K : Type} [Fintype K] (s : Finset J) (r : J → K → ℝ) (c : ℝ)
    (hc : c = (Fintype.card K : ℝ))
    (cnt D S1 S2 mean T : EReal)
    (hcnt : cnt = 0 + ∑ j ∈ s, (1 : EReal))
    (hD : D = max (cnt * (c : EReal)) 1)
    (hS1 : S1 = 0 + ∑ j ∈ s, (0 + ∑ k : K, ((r j k : ℝ) : EReal)))
    (hS2 : S2 = 0 + ∑ j ∈ s, (0 + ∑ k : K, ((r j k : ℝ) : EReal) * ((r j k : ℝ) : EReal)))
    (hmean : mean = Ideal.div S1 D)
    (hT : T = 0 + ∑ j ∈ s, (0 + ∑ k : K,
      (((r j k : ℝ) : EReal) - mean) * (((r j k : ℝ) : EReal) - mean))) :
    ∃ v : ℝ, 0 ≤ v ∧ Ideal.div T D = (v : EReal) := by
  obtain ⟨_, _, v, _, hv0, _, _, hTv, _⟩ :=
    seg_reals s r c hc cnt D S1 S2 mean T hcnt hD hS1 hS2 hmean hT
  exact ⟨v, hv0, hTv⟩

/-- One-pass variance equals two-pass variance on a segment of real entries. -/
theorem seg_var_eq {J K : Type} [Fintype K] (s : Finset J) (r : J → K → ℝ) (c : ℝ)
    (hc : c = (Fintype.card K : ℝ))
    (cnt D S1 S2 mean T : EReal)
    (hcnt : cnt = 0 + ∑ j ∈ s, (1 : EReal))
    (hD : D = max (cnt * (c : EReal)) 1)
    (hS1 : S1 = 0 + ∑ j ∈ s, (0 + ∑ k : K, ((r j k : ℝ) : EReal)))
    (hS2 : S2 = 0 + ∑ j ∈ s, (0 + ∑ k : K, ((r j k : ℝ) : EReal) * ((r j k : ℝ) : EReal)))
    (hmean : mean = Ideal.div S1 D)
    (hT : T = 0 + ∑ j ∈ s, (0 + ∑ k : K,
      (((r j k : ℝ) : EReal) - mean) * (((r j k : ℝ) : EReal) - mean))) :
    max (Ideal.div S2 D - mean * mean) 0 = Ideal.div T D := by
  obtain ⟨_, _, _, _, _, _, _, hTv, hmax⟩ :=
    seg_reals s r c hc cnt D S1 S2 mean T hcnt hD hS1 hS2 hmean hT
  rw [hmax, hTv]

end Cert.LibSegVar
-- ==== Proof.Ref.BN.lean ====
/-
  Batch normalisation of a 100000 x 64 array computed two ways, on the extended reals.

  For an array a, a row b added to every row of a, a gain g and an offset be, write h = a + b.  The ONE-PASS form
  takes the column sums S = sum h and Q = sum h*h, then mean = S / n, var = Q / n - mean * mean,
  rstd = rsqrt (var + eps), scale = g * rstd, shift = be - scale * mean, and returns max (h * scale + shift) 0.
  The TWO-PASS form takes mean = (sum h) / n, var = (sum (h - mean)^2) / n and returns
  max (g * (h - mean) * rsqrt (var + eps) + be) 0.  When every entry of a, b, g, be is a real number the two
  agree: all the sums, the mean and both variances are then real numbers, the two variances are equal by the
  usual expansion of the square (n is the number of rows), the variance is nonnegative so var + eps is a
  positive real and its reciprocal square root is a real number, and the two final expressions are equal as
  polynomials in real numbers.
-/
import Idealize.ShloMosaic.PureOps.Ideal
import Idealize.ShloMosaic.PureOps.Ideal.Laws
import Idealize.ShloMosaic.Lib.ValueIdx
import proofs.«119403_j19189913878709_1_alg».proof.Proof.LibIdealReal
import proofs.«119403_j19189913878709_1_alg».proof.Proof.LibSegVar

noncomputable section

namespace Cert.RefValue

open Idealize.ShloMosaic Idealize.ShloMosaic.ValueIdx Cert.LibIdealReal
open scoped BigOperators

/-- The shape of the normalised array: 100000 rows, 64 columns. -/
abbrev SRC : Shape := ⟨2, ![100000, 64]⟩
/-- The shape of a row of 64 columns. -/
abbrev SC : Shape := ⟨1, ![64]⟩

/-- The number of rows, as the float constant the programs divide by. -/
def nF : EReal := Ideal.ofBits .f32 0x47C35000#32
/-- The variance offset. -/
def epsF : EReal := Ideal.ofBits .f32 0x3727C5AC#32

/-- The pattern 0x47C35000 denotes 100000. -/
theorem nF_eq : nF = ((100000 : ℝ) : EReal) := by
  unfold nF; simp [Ideal.ofBits, Ideal.ieee, -EReal.coe_mul]; norm_num

section Defs
variable (a : SRC.Idx → EReal) (b g be : SC.Idx → EReal)

/-- The array being normalised: a plus the row b. -/
def hK (i : Fin 100000) (j : Fin 64) : EReal := a (ix2 i j) + b (ix1 j)
/-- Column sums. -/
def SK (j : Fin 64) : EReal := ∑ i : Fin 100000, hK a b i j
/-- Column sums of squares. -/
def QK (j : Fin 64) : EReal := ∑ i : Fin 100000, hK a b i j * hK a b i j
/-- Column means. -/
def meanK (j : Fin 64) : EReal := Ideal.div (SK a b j) nF
/-- One-pass column variances. -/
def varK (j : Fin 64) : EReal := Ideal.div (QK a b j) nF - meanK a b j * meanK a b j
def rstdK (j : Fin 64) : EReal := Ideal.rsqrt (varK a b j + epsF)
def scaleK (j : Fin 64) : EReal := g (ix1 j) * rstdK a b j
def shiftK (j : Fin 64) : EReal := be (ix1 j) - scaleK a b g j * meanK a b j
/-- Two-pass column variances. -/
def varR (j : Fin 64) : EReal :=
  Ideal.div (∑ i' : Fin 100000, (hK a b i' j - meanK a b j) * (hK a b i' j - meanK a b j)) nF

/-- The one-pass normalisation followed by max with 0, at row i and column j. -/
def kAt (i : Fin 100000) (j : Fin 64) : EReal :=
  max (hK a b i j * scaleK a b g j + shiftK a b g be j) 0
/-- The two-pass normalisation followed by max with 0, at row i and column j. -/
def rAt (i : Fin 100000) (j : Fin 64) : EReal :=
  max (g (ix1 j) * (hK a b i j - meanK a b j) * Ideal.rsqrt (varR a b j + epsF) + be (ix1 j)) 0

/-- The one-pass normalisation as an array. -/
def KBN : SRC.Idx → EReal := fun idx => kAt a b g be (idx 0) (idx 1)
/-- The two-pass normalisation as an array. -/
def RBN : SRC.Idx → EReal := fun idx => rAt a b g be (idx 0) (idx 1)

end Defs

/-- Over the reals: the mean of the squared deviations from the mean is the mean of the squares minus the
    square of the mean (100000 terms). -/
theorem real_var_id (r : Fin 100000 → ℝ) (μ : ℝ) (hμ : μ = (∑ i, r i) / 100000) :
    (∑ i, (r i - μ) * (r i - μ)) / 100000 = (∑ i, r i * r i) / 100000 - μ * μ := by
  have h : ∀ i, (r i - μ) * (r i - μ) = r i * r i - 2 * μ * r i + μ * μ := by intro i; ring
  have hS : (∑ i, r i) = 100000 * μ := by rw [hμ]; field_simp
  simp only [h, Finset.sum_add_distrib, Finset.sum_sub_distrib, ← Finset.mul_sum, Finset.sum_const,
    Finset.card_univ, Fintype.card_fin, nsmul_eq_mul]
  rw [hS]; push_cast; ring

section Facts
variable {a : SRC.Idx → EReal} {b g be : SC.Idx → EReal}

/-- Everything the two forms compute in one column, as real numbers. -/
theorem column_reals (ha : RealV a) (hb : RealV b) (j : Fin 64) :
    ∃ (r : Fin 100000 → ℝ) (μ v ρ : ℝ), 0 ≤ v ∧ 0 < ρ ∧ (∀ i, hK a b i j = ((r i : ℝ) : EReal)) ∧
      SK a b j = ((∑ i, r i : ℝ) : EReal) ∧ QK a b j = ((∑ i, r i * r i : ℝ) : EReal) ∧
      meanK a b j = (μ : EReal) ∧ varK a b j = (v : EReal) ∧ varR a b j = (v : EReal) ∧
      Ideal.rsqrt (varR a b j + epsF) = (ρ : EReal) ∧ rstdK a b j = (ρ : EReal) := by
  have ha' : ∀ i, ∃ x : ℝ, a i = (x : EReal) := ha
  have hb' : ∀ i, ∃ x : ℝ, b i = (x : EReal) := hb
  choose ra hra using ha'
  choose rb hrb using hb'
  obtain ⟨r, hr⟩ : ∃ r : Fin 100000 → ℝ, r = fun i' => ra (ix2 i' j) + rb (ix1 j) := ⟨_, rfl⟩
  have hh : ∀ i', hK a b i' j = ((r i' : ℝ) : EReal) := fun i' => by
    rw [hK, hra, hrb, hr, EReal.coe_add]
  obtain ⟨μ, hμ⟩ : ∃ μ : ℝ, μ = (∑ i, r i) / 100000 := ⟨_, rfl⟩
  have hSK : SK a b j = ((∑ i, r i : ℝ) : EReal) := by
    unfold SK; simp only [hh]; exact LibSegVar.coe_sum _ _
  have hQK : QK a b j = ((∑ i, r i * r i : ℝ) : EReal) := by
    unfold QK; simp only [hh, ← EReal.coe_mul]; exact LibSegVar.coe_sum _ _
  have hn0 : (100000 : ℝ) ≠ 0 := by norm_num
  have hmean : meanK a b j = (μ : EReal) := by
    unfold meanK; rw [hSK, nF_eq, LibSegVar.div_coe_coe _ _ hn0, hμ]
  have hvR : varR a b j = (((∑ i, (r i - μ) * (r i - μ)) / 100000 : ℝ) : EReal) := by
    unfold varR; simp only [hh, hmean, ← EReal.coe_sub, ← EReal.coe_mul]
    rw [LibSegVar.coe_sum, nF_eq, LibSegVar.div_coe_coe _ _ hn0]
  have hvK : varK a b j = (((∑ i, (r i - μ) * (r i - μ)) / 100000 : ℝ) : EReal) := by
    unfold varK; rw [hQK, hmean, nF_eq, LibSegVar.div_coe_coe _ _ hn0, ← EReal.coe_mul, ← EReal.coe_sub,
      real_var_id r μ hμ]
  have hv0 : 0 ≤ (∑ i, (r i - μ) * (r i - μ)) / 100000 :=
    div_nonneg (Finset.sum_nonneg fun i _ => mul_self_nonneg _) (by norm_num)
  have hpos : IsPos (varR a b j + epsF) := by
    rw [hvR]; exact IsNonneg.add_pos ⟨_, hv0, rfl⟩ isPos_ofBits_eps
  obtain ⟨ρ, hρ0, hρ⟩ := hpos.rsqrt
  refine ⟨r, μ, _, ρ, hv0, hρ0, hh, hSK, hQK, hmean, hvK, hvR, hρ, ?_⟩
  unfold rstdK; rw [hvK, ← hvR]; exact hρ

/-- The two forms agree at every row and column when the inputs are arrays of real numbers. -/
theorem kAt_eq (ha : RealV a) (hb : RealV b) (hg : RealV g) (hbe : RealV be) (i : Fin 100000) (j : Fin 64) :
    kAt a b g be i j = rAt a b g be i j := by
  obtain ⟨r, μ, v, ρ, _, _, hh, _, _, hmean, _, _, hρR, hρK⟩ := column_reals ha hb j
  obtain ⟨γ, hγ⟩ := hg (ix1 j)
  obtain ⟨β, hβ⟩ := hbe (ix1 j)
  unfold kAt rAt shiftK scaleK
  rw [hρR, hρK, hmean, hh, hγ, hβ]
  simp only [← EReal.coe_mul, ← EReal.coe_add, ← EReal.coe_sub]
  refine congrArg (fun t : ℝ => max (t : EReal) 0) ?_
  ring

/-- The two forms agree as arrays. -/
theorem kbn_eq (ha : RealV a) (hb : RealV b) (hg : RealV g) (hbe : RealV be) :
    KBN a b g be = RBN a b g be :=
  funext fun idx => kAt_eq ha hb hg hbe (idx 0) (idx 1)

/-- The two-pass form is a real number at every row and column. -/
theorem isReal_rAt (ha : RealV a) (hb : RealV b) (hg : RealV g) (hbe : RealV be) (i : Fin 100000) (j : Fin 64) :
    IsReal (rAt a b g be i j) := by
  obtain ⟨r, μ, v, ρ, _, _, hh, _, _, hmean, _, _, hρR, _⟩ := column_reals ha hb j
  obtain ⟨γ, hγ⟩ := hg (ix1 j)
  obtain ⟨β, hβ⟩ := hbe (ix1 j)
  unfold rAt
  rw [hρR, hmean, hh, hγ, hβ]
  exact ((((IsReal.mul ⟨_, rfl⟩ (IsReal.sub ⟨_, rfl⟩ ⟨_, rfl⟩)).mul ⟨_, rfl⟩).add ⟨_, rfl⟩).emax IsReal.zero)

/-- The result is an array of real numbers. -/
theorem realV_RBN (ha : RealV a) (hb : RealV b) (hg : RealV g) (hbe : RealV be) : RealV (RBN a b g be) :=
  fun idx => isReal_rAt ha hb hg hbe (idx 0) (idx 1)

end Facts

end Cert.RefValue

end
-- ==== Proof.KI.Bridge.lean ====
/-
  An identity between the kernel program's pure functions and the one-pass batch normalisation, at the ideal instance.

  The kernel's column-wise affine map followed by max with 0, fed with the scale and shift rows the host
  computes from the column sums and sums of squares, is the one-pass batch normalisation: at row i and column j
  both are max ((a(i,j) + b(j)) · scale(j) + shift(j)) 0 with mean = S/n, var = Q/n − mean², scale = g · rsqrt(var + ε),
  shift = be − scale · mean; the reshapes between a vector of 64 and a 1 × 64 array move no entry.
-/
import proofs.«119403_j19189913878709_1_alg».proof.Proof.KI.HostRead
import proofs.«119403_j19189913878709_1_alg».proof.Proof.KI.SpecStats
import proofs.«119403_j19189913878709_1_alg».proof.Proof.Ref.BN
import Idealize.ShloMosaic.Lib.Pipeline.Value

set_option maxRecDepth 16384

noncomputable section

namespace Cert.KernelIdeal.Fr

open Cert.KernelIdeal Cert.KernelIdeal.Gen Idealize.ShloMosaic Idealize.ShloMosaic.TcCoe Idealize.ShloMosaic.ValueIdx
open scoped BigOperators

/-! ## Reshapes read at an index -/

theorem rowOf64_at (v : A32 (F := Ideal) S64) (j : Fin 64) : rowOf64 (F := Ideal) v (ix2 (0 : Fin 1) j) = v (ix1 j) := by
  unfold rowOf64
  exact shapeCast_apply v shapeCasts_S64_S1x64 (ix2 (0 : Fin 1) j) (ix1 j) (by
    rw [Shape.rowMajor_val_two, Shape.rowMajor_val_one]; show j.val = 0 * 64 + j.val; omega)

theorem flatOf64_at (m : A32 (F := Ideal) S1x64) (j : Fin 64) : flatOf64 (F := Ideal) m (ix1 j) = m (ix2 (0 : Fin 1) j) := by
  unfold flatOf64
  exact shapeCast_apply m shapeCasts_S1x64_S64 (ix1 j) (ix2 (0 : Fin 1) j) (by
    rw [Shape.rowMajor_val_two, Shape.rowMajor_val_one]; show 0 * 64 + j.val = j.val; omega)

/-! ## Scale and shift rows read at a column -/

section Rows
variable (S Q : A32 (F := Ideal) S1x64) (g be : A32 (F := Ideal) S64) (j : Fin 64)

theorem meanRowK_at : meanRowK (F := Ideal) S (ix2 (0 : Fin 1) j) = Ideal.div (S (ix2 (0 : Fin 1) j)) Cert.RefValue.nF := rfl

theorem rstdRowK_at : rstdRowK (F := Ideal) S Q (ix2 (0 : Fin 1) j)
    = Ideal.rsqrt (Ideal.div (Q (ix2 (0 : Fin 1) j)) Cert.RefValue.nF
        - Ideal.div (S (ix2 (0 : Fin 1) j)) Cert.RefValue.nF * Ideal.div (S (ix2 (0 : Fin 1) j)) Cert.RefValue.nF + Cert.RefValue.epsF) := rfl

theorem scaleRow0K_at : scaleRow0K (F := Ideal) S Q g (ix2 (0 : Fin 1) j)
    = g (ix1 j) * rstdRowK (F := Ideal) S Q (ix2 (0 : Fin 1) j) := by
  show rowOf64 (F := Ideal) g (ix2 (0 : Fin 1) j) * rstdRowK (F := Ideal) S Q (ix2 (0 : Fin 1) j) = _
  rw [rowOf64_at]

theorem shiftRow0K_at : shiftRow0K (F := Ideal) S Q g be (ix2 (0 : Fin 1) j)
    = be (ix1 j) - scaleRow0K (F := Ideal) S Q g (ix2 (0 : Fin 1) j) * meanRowK (F := Ideal) S (ix2 (0 : Fin 1) j) := by
  show rowOf64 (F := Ideal) be (ix2 (0 : Fin 1) j) - scaleRow0K (F := Ideal) S Q g (ix2 (0 : Fin 1) j) * meanRowK (F := Ideal) S (ix2 (0 : Fin 1) j) = _
  rw [rowOf64_at]

theorem scaleRowK_at : scaleRowK (F := Ideal) S Q g (ix2 (0 : Fin 1) j) = scaleRow0K (F := Ideal) S Q g (ix2 (0 : Fin 1) j) := by
  unfold scaleRowK; rw [rowOf64_at, flatOf64_at]

theorem shiftRowK_at : shiftRowK (F := Ideal) S Q g be (ix2 (0 : Fin 1) j) = shiftRow0K (F := Ideal) S Q g be (ix2 (0 : Fin 1) j) := by
  unfold shiftRowK; rw [rowOf64_at, flatOf64_at]

end Rows

/-! ## The column statistics are the reference's -/

section Stats
variable (a : Cert.Spec.Arr 100000 64) (b : A32 (F := Ideal) S64) (j : Fin 64)

theorem SSUM_at : Cert.Spec.SSUM a (rowOf64 (F := Ideal) b) (ix2 (0 : Fin 1) j) = Cert.RefValue.SK a b j := by
  show (∑ i : Fin 100000, (a (ix2 i j) + rowOf64 (F := Ideal) b (ix2 (0 : Fin 1) j))) = ∑ i : Fin 100000, (a (ix2 i j) + b (ix1 j))
  rw [rowOf64_at]

theorem SSQ_at : Cert.Spec.SSQ a (rowOf64 (F := Ideal) b) (ix2 (0 : Fin 1) j) = Cert.RefValue.QK a b j := by
  show (∑ i : Fin 100000, (a (ix2 i j) + rowOf64 (F := Ideal) b (ix2 (0 : Fin 1) j)) * (a (ix2 i j) + rowOf64 (F := Ideal) b (ix2 (0 : Fin 1) j)))
      = ∑ i : Fin 100000, (a (ix2 i j) + b (ix1 j)) * (a (ix2 i j) + b (ix1 j))
  rw [rowOf64_at]

end Stats

/-- The kernel's affine map and max with 0 over its own statistics is the one-pass batch normalisation. -/
theorem aff_eq_kbn (a : Cert.Spec.Arr 100000 64) (b g be : A32 (F := Ideal) S64) :
    Cert.Spec.AFF a (rowOf64 (F := Ideal) b)
        (scaleRowK (F := Ideal) (Cert.Spec.SSUM a (rowOf64 (F := Ideal) b)) (Cert.Spec.SSQ a (rowOf64 (F := Ideal) b)) g)
        (shiftRowK (F := Ideal) (Cert.Spec.SSUM a (rowOf64 (F := Ideal) b)) (Cert.Spec.SSQ a (rowOf64 (F := Ideal) b)) g be)
      = Cert.RefValue.KBN a b g be := by
  funext idx
  obtain ⟨i, j, rfl⟩ : ∃ i j, idx = ix2 i j := ⟨_, _, eq_ix2 idx⟩
  show max ((a (ix2 i j) + rowOf64 (F := Ideal) b (ix2 (0 : Fin 1) j))
        * scaleRowK (F := Ideal) (Cert.Spec.SSUM a (rowOf64 (F := Ideal) b)) (Cert.Spec.SSQ a (rowOf64 (F := Ideal) b)) g (ix2 (0 : Fin 1) j)
        + shiftRowK (F := Ideal) (Cert.Spec.SSUM a (rowOf64 (F := Ideal) b)) (Cert.Spec.SSQ a (rowOf64 (F := Ideal) b)) g be (ix2 (0 : Fin 1) j)) 0
      = Cert.RefValue.kAt a b g be i j
  rw [rowOf64_at, scaleRowK_at, shiftRowK_at, shiftRow0K_at, scaleRow0K_at, rstdRowK_at, meanRowK_at, SSUM_at, SSQ_at]
  rfl

end Cert.KernelIdeal.Fr

end
-- ==== Proof.Ref.Stages.lean ====
/-
  The reference program's stages as functions of their operands, written with the reference's own host
  operations and dimension records: the two linear maps, the graph convolution (degree, inverse square root
  of the degree, edge weights, gather, weight, scatter-add), the batch normalisation followed by max with 0,
  and the three-layer head followed by the logistic function.  The batch-normalisation stage is then read
  index by index: it is the two-pass normalisation of the module BN.
-/
import proofs.«119403_j19189913878709_1_alg».proof.Proof.Gen.ReferenceIdeal
import Idealize.ShloMosaic.Lib.Pipeline.Value
import Idealize.ShloMosaic.Lib.ValueIdx
import Idealize.ShloMosaic.PureOps.Ideal.Laws
import proofs.«119403_j19189913878709_1_alg».proof.Proof.Ref.BN

noncomputable section

namespace Cert.RefValue

open Cert.ReferenceIdeal Cert.ReferenceIdeal.Gen Idealize.ShloMosaic Idealize.ShloMosaic.TcCoe Idealize.SL.Sem
open Idealize.ShloMosaic.StableHlo Idealize.ShloMosaic.ValueIdx Cert.LibIdealReal
open scoped BigOperators

section Defs
variable {F : FTy → Type} [FloatOps F]

/-! ## Constants -/

/-- The scalar 0. -/
def zero_ : FVec F S_ .f32 := constant (F := F) S_ .f32 0x00000000#32
def zeros100000 : FVec F S100000 .f32 := broadcastInDim S100000 ![] bcast_S_S100000 zero_
def ones3300000 : FVec F S3300000 .f32 :=
  broadcastInDim S3300000 ![] bcast_S_S3300000 (constant (F := F) S_ .f32 0x3F800000#32)
def zeros64 : FVec F S100000x64 .f32 := broadcastInDim S100000x64 ![] bcast_S_S100000x64 zero_
def zeros32 : FVec F S100000x32 .f32 := broadcastInDim S100000x32 ![] bcast_S_S100000x32 zero_
def ones1 : FVec F S100000x1 .f32 :=
  broadcastInDim S100000x1 ![] bcast_S_S100000x1 (constant (F := F) S_ .f32 0x3F800000#32)
/-- The row count 100000 on every column. -/
def nVec : FVec F S64 .f32 := broadcastInDim S64 ![] bcast_S_S64 (constant (F := F) S_ .f32 0x47C35000#32)
/-- The variance offset on every column. -/
def epsVec : FVec F S64 .f32 := broadcastInDim S64 ![] bcast_S_S64 (constant (F := F) S_ .f32 0x3727C5AC#32)

/-! ## The linear maps -/

def Lin0 (x : FVec F S100000x4 .f32) (W : FVec F S4x64 .f32) : FVec F S100000x64 .f32 :=
  Host.dotGeneral dot_S100000x4_S4x64_S100000x64_1_0_0_1_n_n none x W
def Lin1 (h : FVec F S100000x64 .f32) (W : FVec F S64x64 .f32) : FVec F S100000x64 .f32 :=
  Host.dotGeneral dot_S100000x64_S64x64_S100000x64_1_0_0_1_n_n none h W

/-! ## The graph convolution -/

/-- An edge-end list followed by the self loops 0 … 99999. -/
def catI (e : IVec S3200000 32) : IVec S3300000 32 :=
  concatenate S3300000 0 [⟨S3200000, e⟩, ⟨S100000, (iotaInDim S100000 32 0 : IVec S100000 32)⟩] concatenates_S3200000_S100000_S3300000_d0
/-- The list as a column of scatter indices. -/
def rawI (v : IVec S3300000 32) : IVec S3300000x1 32 :=
  broadcastInDim S3300000x1 ![0] bcast_S3300000_S3300000x1_0 v
/-- The list as a column of gather indices: a negative index has 100000 added first. -/
def normI (v : IVec S3300000 32) : IVec S3300000x1 32 :=
  broadcastInDim S3300000x1 ![0] bcast_S3300000_S3300000x1_0
    (select (cmpi .slt v (broadcastInDim S3300000 ![] bcast_S_S3300000 (constantI S_ 32 0#32)))
      (addi v (broadcastInDim S3300000 ![] bcast_S_S3300000 (constantI S_ 32 100000#32))) v)
/-- The degree of every node: ones scatter-added at the edge heads and self loops. -/
def degR (dst : IVec S3200000 32) : FVec F S100000 .f32 :=
  Host.scatterAdd scatter_S100000_S3300000x1_S3300000_n_0_0_1 zeros100000 (rawI (catI dst)) ones3300000
/-- Its inverse square root where the degree is positive, 0 elsewhere. -/
def dinvR (dst : IVec S3200000 32) : FVec F S100000 .f32 :=
  select (cmpf .ogt (degR (F := F) dst) zeros100000) (Host.rsqrt (degR (F := F) dst))
    (broadcastInDim S100000 ![] bcast_S_S100000 (id zero_))
/-- The edge weights. -/
def normR (src dst : IVec S3200000 32) : FVec F S3300000 .f32 :=
  mulf (Host.gather gather_S100000_S3300000x1_S3300000_n_0_n_n_0_1_1 (dinvR dst) (normI (catI src)))
    (Host.gather gather_S100000_S3300000x1_S3300000_n_0_n_n_0_1_1 (dinvR dst) (normI (catI dst)))
/-- The convolution: rows gathered at the edge tails, weighted, scatter-added at the edge heads. -/
def ConvR (src dst : IVec S3200000 32) (h : FVec F S100000x64 .f32) : FVec F S100000x64 .f32 :=
  Host.scatterAdd scatter_S100000x64_S3300000x1_S3300000x64_1_0_0_1 zeros64 (rawI (catI dst))
    (mulf (Host.gather gather_S100000x64_S3300000x1_S3300000x64_1_0_n_n_0_1_164 h (normI (catI src)))
      (broadcastInDim S3300000x64 ![0, 1] bcast_S3300000x1_S3300000x64_0_1
        (broadcastInDim S3300000x1 ![0] bcast_S3300000_S3300000x1_0 (normR src dst))))

/-! ## Batch normalisation followed by max with 0 -/

/-- A row of 64 repeated on all 100000 rows. -/
def rowB (y : FVec F S64 .f32) : FVec F S100000x64 .f32 :=
  broadcastInDim S100000x64 ![0, 1] bcast_S1x64_S100000x64_0_1 (broadcastInDim S1x64 ![1] bcast_S64_S1x64_1 y)
/-- Column sums. -/
def colSum (y : FVec F S100000x64 .f32) : FVec F S64 .f32 :=
  Host.reduceAdd y zero_ reducesTo_S100000x64_S64_d0 h_S_
def bnH (a : FVec F S100000x64 .f32) (b : FVec F S64 .f32) : FVec F S100000x64 .f32 := addf a (rowB b)
def bnMean (a : FVec F S100000x64 .f32) (b : FVec F S64 .f32) : FVec F S64 .f32 :=
  Host.divf (colSum (bnH a b)) nVec
def bnD (a : FVec F S100000x64 .f32) (b : FVec F S64 .f32) : FVec F S100000x64 .f32 :=
  subf (bnH a b) (rowB (bnMean a b))
def bnVar (a : FVec F S100000x64 .f32) (b : FVec F S64 .f32) : FVec F S64 .f32 :=
  Host.divf (colSum (mulf (bnD a b) (bnD a b))) nVec
def bnRstd (a : FVec F S100000x64 .f32) (b : FVec F S64 .f32) : FVec F S64 .f32 :=
  Host.rsqrt (addf (bnVar a b) epsVec)
def BNReluR (a : FVec F S100000x64 .f32) (b g be : FVec F S64 .f32) : FVec F S100000x64 .f32 :=
  maximumf (addf (mulf (mulf (rowB g) (bnD a b)) (rowB (bnRstd a b))) (rowB be)) zeros64

/-! ## The head -/

def HeadR (h : FVec F S100000x64 .f32) (W2 : FVec F S64x64 .f32) (b2 : FVec F S64 .f32)
    (W3 : FVec F S64x32 .f32) (b3 : FVec F S32 .f32) (W4 : FVec F S32x1 .f32) (b4 : FVec F S1 .f32) :
    FVec F S100000x1 .f32 :=
  Host.divf ones1 (addf ones1 (Host.exp (Host.negf
    (addf (Host.dotGeneral dot_S100000x32_S32x1_S100000x1_1_0_0_1_n_n none
      (maximumf (addf (Host.dotGeneral dot_S100000x64_S64x32_S100000x32_1_0_0_1_n_n none
        (maximumf (addf (Host.dotGeneral dot_S100000x64_S64x64_S100000x64_1_0_0_1_n_n none h W2) (rowB b2)) zeros64) W3)
        (broadcastInDim S100000x32 ![0, 1] bcast_S1x32_S100000x32_0_1 (broadcastInDim S1x32 ![1] bcast_S32_S1x32_1 b3))) zeros32) W4)
      (broadcastInDim S100000x1 ![0, 1] bcast_S1x1_S100000x1_0_1 (broadcastInDim S1x1 ![1] bcast_S1_S1x1_1 b4))))))

end Defs

/-! ## The batch-normalisation stage read at an index -/

abbrev rowIdx (i : S100000x64.Idx) : S1x64.Idx := fun a => match a with
  | ⟨0, _⟩ => ⟨0, Nat.one_pos⟩
  | ⟨1, _⟩ => ⟨(i 1).val, (i 1).isLt⟩
abbrev colIdx (i : S1x64.Idx) : S64.Idx := fun a => match a with
  | ⟨0, _⟩ => ⟨(i 1).val, (i 1).isLt⟩

/-- The repeated row read at an index is the row at the index's column. -/
theorem rowB_apply (y : FVec Ideal S64 .f32) (i : S100000x64.Idx) : rowB y i = y (colIdx (rowIdx i)) := by
  unfold rowB
  rw [broadcastInDim_apply _ bcast_S1x64_S100000x64_0_1 _ i (rowIdx i) (fun a => match a with
    | ⟨0, _⟩ => by show 0 = if (1 : Nat) = 1 then 0 else (i 0).val; rw [if_pos rfl]
    | ⟨1, _⟩ => by show (i 1).val = if (64 : Nat) = 1 then 0 else (i 1).val; rw [if_neg (by decide)])]
  exact broadcastInDim_apply _ bcast_S64_S1x64_1 y (rowIdx i) (colIdx (rowIdx i)) (fun a => match a with
    | ⟨0, _⟩ => by show (rowIdx i 1).val = if (64 : Nat) = 1 then 0 else (rowIdx i 1).val; rw [if_neg (by decide)])

theorem rowB_ix2 (y : FVec Ideal S64 .f32) (i : Fin 100000) (j : Fin 64) : rowB y (ix2 i j) = y (ix1 j) := by
  rw [rowB_apply]
  exact congrArg y (funext fun a => match a with | ⟨0, _⟩ => rfl)

/-- A column sum read at a column: the initial 0 plus the sum over the rows. -/
theorem colSum_apply (y : FVec Ideal S100000x64 .f32) (j : Fin 64) :
    colSum y (ix1 j) = Ideal.ofBits .f32 0x00000000#32 + ∑ k : Fin 100000, y (ix2 k j) := by
  unfold colSum
  simp only [Host.reduceAdd, Ideal.hostReduceAdd_def]
  rw [Ideal.hostReduceAdd_single reducesTo_S100000x64_S64_d0 (by decide)]
  refine congrArg (_ + ·) (Finset.sum_congr rfl fun k _ => ?_)
  exact congrArg y (funext fun a => Fin.ext (by match a with | ⟨0, _⟩ => rfl | ⟨1, _⟩ => rfl))

theorem ofBits_zero' : Ideal.ofBits .f32 0x00000000#32 = (0 : EReal) := by
  rw [ofBits_zero, EReal.coe_zero]

section Read
variable (a : FVec Ideal S100000x64 .f32) (b g be : FVec Ideal S64 .f32)

theorem bnH_at (i : Fin 100000) (j : Fin 64) : bnH a b (ix2 i j) = hK a b i j := by
  show a (ix2 i j) + rowB b (ix2 i j) = _
  rw [rowB_ix2]; rfl

theorem bnMean_at (j : Fin 64) : bnMean a b (ix1 j) = meanK a b j := by
  show Ideal.div (colSum (bnH a b) (ix1 j)) (Ideal.ofBits .f32 0x47C35000#32) = _
  rw [colSum_apply, ofBits_zero', zero_add]
  simp only [bnH_at]; rfl

theorem bnD_at (i : Fin 100000) (j : Fin 64) : bnD a b (ix2 i j) = hK a b i j - meanK a b j := by
  show bnH a b (ix2 i j) - rowB (bnMean a b) (ix2 i j) = _
  rw [rowB_ix2, bnH_at, bnMean_at]

theorem bnVar_at (j : Fin 64) : bnVar a b (ix1 j) = varR a b j := by
  show Ideal.div (colSum (mulf (bnD a b) (bnD a b)) (ix1 j)) (Ideal.ofBits .f32 0x47C35000#32) = _
  rw [colSum_apply, ofBits_zero', zero_add]
  simp only [mulf_apply, bnD_at]; rfl

theorem bnRstd_at (j : Fin 64) : bnRstd a b (ix1 j) = Ideal.rsqrt (varR a b j + epsF) := by
  show Ideal.rsqrt (bnVar a b (ix1 j) + Ideal.ofBits .f32 0x3727C5AC#32) = _
  rw [bnVar_at]; rfl

/-- The stage at row i and column j is the two-pass normalisation there. -/
theorem BNReluR_at (i : Fin 100000) (j : Fin 64) : BNReluR a b g be (ix2 i j) = rAt a b g be i j := by
  show max (rowB g (ix2 i j) * bnD a b (ix2 i j) * rowB (bnRstd a b) (ix2 i j) + rowB be (ix2 i j))
    (Ideal.ofBits .f32 0x00000000#32) = _
  rw [rowB_ix2, rowB_ix2, rowB_ix2, bnD_at, bnRstd_at, ofBits_zero']; rfl

/-- The stage is the two-pass normalisation. -/
theorem bnrelu_eq : BNReluR a b g be = RBN a b g be := by
  funext idx
  rw [eq_ix2 idx]
  exact BNReluR_at a b g be (idx 0) (idx 1)

end Read

end Cert.RefValue

end
-- ==== Proof.KI.BridgeConv.lean ====
/-
  The neighbourhood aggregation with the edge weights is the reference's graph convolution: the same index lists
  (edge ends followed by one self loop per node), the same degree vector and its reciprocal square root where
  positive, the same gathers, products and scatter-adds. The two programs name their dimension records apart;
  the records are equal field by field, so each identity holds by unfolding, for any float values.
-/
import proofs.«119403_j19189913878709_1_alg».proof.Proof.KI.HostRead
import proofs.«119403_j19189913878709_1_alg».proof.Proof.Ref.Stages

set_option maxRecDepth 16384

noncomputable section

namespace Cert.KernelIdeal.Fr

open Cert.KernelIdeal Cert.KernelIdeal.Gen Idealize.ShloMosaic Idealize.ShloMosaic.TcCoe

variable {F : FTy → Type} [FloatOps F]

/-- An edge-end list followed by the self loops, in both programs' words. -/
theorem srcK_eq_catI (e : AI32 (F := F) S3200000) : srcK (F := F) e = Cert.RefValue.catI e := rfl
theorem dstK_eq_catI (e : AI32 (F := F) S3200000) : dstK (F := F) e = Cert.RefValue.catI e := rfl
/-- The column of scatter indices. -/
theorem colK_eq_rawI (v : AI32 (F := F) S3300000) : colK v = Cert.RefValue.rawI v := rfl
/-- The column of gather indices (negative indices wrapped). -/
theorem colK_wrapK_eq_normI (v : AI32 (F := F) S3300000) : colK (wrapK (F := F) v) = Cert.RefValue.normI v := rfl
/-- The degree vector. -/
theorem degK_eq_degR (dst : AI32 (F := F) S3200000) : degK (F := F) (dstK (F := F) dst) = Cert.RefValue.degR (F := F) dst := rfl
/-- Its reciprocal square root where positive, zero elsewhere. -/
theorem dinvK_eq_dinvR (dst : AI32 (F := F) S3200000) : dinvK (F := F) (dstK (F := F) dst) = Cert.RefValue.dinvR (F := F) dst := rfl
/-- The edge weights. -/
theorem normK_eq_normR (src dst : AI32 (F := F) S3200000) : normK (F := F) src dst = Cert.RefValue.normR (F := F) src dst := rfl
/-- The aggregation is the graph convolution. -/
theorem agg_eq_conv (src dst : AI32 (F := F) S3200000) (h : A32 (F := F) S100000x64) :
    aggK (F := F) h (normK src dst) (srcK (F := F) src) (dstK (F := F) dst) = Cert.RefValue.ConvR (F := F) src dst h := rfl

end Cert.KernelIdeal.Fr

end
-- ==== Proof.Ref.Bridge.lean ====
/-
  The reference's linear maps and head, read index by index, are the matrix product and the three-layer head
  stated on plain arrays: a matrix product's entry is the sum over the contracted axis, a bias is a row
  repeated on every row of the array, and 1 / (1 + exp (-z)) is the logistic function of z.
-/
import proofs.«119403_j19189913878709_1_alg».proof.Proof.Ref.Stages
import proofs.«119403_j19189913878709_1_alg».proof.Proof.KI.Spec

noncomputable section

namespace Cert.RefValue

open Cert.ReferenceIdeal Cert.ReferenceIdeal.Gen Idealize.ShloMosaic Idealize.ShloMosaic.TcCoe Idealize.SL.Sem
open Idealize.ShloMosaic.StableHlo Idealize.ShloMosaic.ValueIdx Cert.LibIdealReal
open scoped BigOperators

/-! ## Matrix products at an index -/

theorem lhs0_0 (i : S100000x64.Idx) (q : dot_S100000x4_S4x64_S100000x64_1_0_0_1_n_n.contr.Idx) : (dot_S100000x4_S4x64_S100000x64_1_0_0_1_n_n.lhsIdx i q 0).val = (i 0).val := by
  unfold DotDims.lhsIdx
  rw [dif_neg (show ¬(0 : Fin S100000x4.rank) ∈ dot_S100000x4_S4x64_S100000x64_1_0_0_1_n_n.lhsBatch by decide), dif_pos (show (0 : Fin S100000x4.rank) ∈ dot_S100000x4_S4x64_S100000x64_1_0_0_1_n_n.lhsNonContracting by decide)]
  rfl
theorem lhs0_1 (i : S100000x64.Idx) (q : dot_S100000x4_S4x64_S100000x64_1_0_0_1_n_n.contr.Idx) : (dot_S100000x4_S4x64_S100000x64_1_0_0_1_n_n.lhsIdx i q 1).val = (q ⟨0, by decide⟩).val :=
  dot_S100000x4_S4x64_S100000x64_1_0_0_1_n_n.lhsIdx_val_of_single rfl i q
theorem rhs0_0 (i : S100000x64.Idx) (q : dot_S100000x4_S4x64_S100000x64_1_0_0_1_n_n.contr.Idx) : (dot_S100000x4_S4x64_S100000x64_1_0_0_1_n_n.rhsIdx i q 0).val = (q ⟨0, by decide⟩).val :=
  dot_S100000x4_S4x64_S100000x64_1_0_0_1_n_n.rhsIdx_val_of_single rfl i q
theorem rhs0_1 (i : S100000x64.Idx) (q : dot_S100000x4_S4x64_S100000x64_1_0_0_1_n_n.contr.Idx) : (dot_S100000x4_S4x64_S100000x64_1_0_0_1_n_n.rhsIdx i q 1).val = (i 1).val := by
  unfold DotDims.rhsIdx
  rw [dif_neg (show ¬(1 : Fin S4x64.rank) ∈ dot_S100000x4_S4x64_S100000x64_1_0_0_1_n_n.rhsBatch by decide), dif_pos (show (1 : Fin S4x64.rank) ∈ dot_S100000x4_S4x64_S100000x64_1_0_0_1_n_n.rhsNonContracting by decide)]
  rfl
/-- The matrix product read at an index: the sum over the contracted axis. -/
theorem dot0_apply (x : FVec Ideal S100000x4 .f32) (w : FVec Ideal S4x64 .f32) (i : S100000x64.Idx) :
    Host.dotGeneral dot_S100000x4_S4x64_S100000x64_1_0_0_1_n_n none x w i = ∑ k : Fin 4, x (ix2 (i 0) k) * w (ix2 k (i 1)) := by
  simp only [Host.dotGeneral]
  rw [Ideal.dotGeneral_apply, ← Equiv.sum_comp (contrEquiv1 dot_S100000x4_S4x64_S100000x64_1_0_0_1_n_n 4 rfl rfl).symm]
  refine Finset.sum_congr rfl fun k _ => ?_
  have hk := contrEquiv1_symm_val dot_S100000x4_S4x64_S100000x64_1_0_0_1_n_n 4 rfl rfl k
  have el : dot_S100000x4_S4x64_S100000x64_1_0_0_1_n_n.lhsIdx i ((contrEquiv1 dot_S100000x4_S4x64_S100000x64_1_0_0_1_n_n 4 rfl rfl).symm k) = ix2 (i 0) k := funext fun a => Fin.ext (by
    match a with
    | ⟨0, _⟩ => exact lhs0_0 _ _
    | ⟨1, _⟩ => exact (lhs0_1 _ _).trans hk)
  have er : dot_S100000x4_S4x64_S100000x64_1_0_0_1_n_n.rhsIdx i ((contrEquiv1 dot_S100000x4_S4x64_S100000x64_1_0_0_1_n_n 4 rfl rfl).symm k) = ix2 k (i 1) := funext fun a => Fin.ext (by
    match a with
    | ⟨0, _⟩ => exact (rhs0_0 _ _).trans hk
    | ⟨1, _⟩ => exact rhs0_1 _ _)
  rw [el, er]
  rfl
theorem dot0_ix2 (x : FVec Ideal S100000x4 .f32) (w : FVec Ideal S4x64 .f32) (i : Fin 100000) (j : Fin 64) :
    Host.dotGeneral dot_S100000x4_S4x64_S100000x64_1_0_0_1_n_n none x w (ix2 i j) = ∑ k : Fin 4, x (ix2 i k) * w (ix2 k j) :=
  dot0_apply x w (ix2 i j)

theorem lhs1_0 (i : S100000x64.Idx) (q : dot_S100000x64_S64x64_S100000x64_1_0_0_1_n_n.contr.Idx) : (dot_S100000x64_S64x64_S100000x64_1_0_0_1_n_n.lhsIdx i q 0).val = (i 0).val := by
  unfold DotDims.lhsIdx
  rw [dif_neg (show ¬(0 : Fin S100000x64.rank) ∈ dot_S100000x64_S64x64_S100000x64_1_0_0_1_n_n.lhsBatch by decide), dif_pos (show (0 : Fin S100000x64.rank) ∈ dot_S100000x64_S64x64_S100000x64_1_0_0_1_n_n.lhsNonContracting by decide)]
  rfl
theorem lhs1_1 (i : S100000x64.Idx) (q : dot_S100000x64_S64x64_S100000x64_1_0_0_1_n_n.contr.Idx) : (dot_S100000x64_S64x64_S100000x64_1_0_0_1_n_n.lhsIdx i q 1).val = (q ⟨0, by decide⟩).val :=
  dot_S100000x64_S64x64_S100000x64_1_0_0_1_n_n.lhsIdx_val_of_single rfl i q
theorem rhs1_0 (i : S100000x64.Idx) (q : dot_S100000x64_S64x64_S100000x64_1_0_0_1_n_n.contr.Idx) : (dot_S100000x64_S64x64_S100000x64_1_0_0_1_n_n.rhsIdx i q 0).val = (q ⟨0, by decide⟩).val :=
  dot_S100000x64_S64x64_S100000x64_1_0_0_1_n_n.rhsIdx_val_of_single rfl i q
theorem rhs1_1 (i : S100000x64.Idx) (q : dot_S100000x64_S64x64_S100000x64_1_0_0_1_n_n.contr.Idx) : (dot_S100000x64_S64x64_S100000x64_1_0_0_1_n_n.rhsIdx i q 1).val = (i 1).val := by
  unfold DotDims.rhsIdx
  rw [dif_neg (show ¬(1 : Fin S64x64.rank) ∈ dot_S100000x64_S64x64_S100000x64_1_0_0_1_n_n.rhsBatch by decide), dif_pos (show (1 : Fin S64x64.rank) ∈ dot_S100000x64_S64x64_S100000x64_1_0_0_1_n_n.rhsNonContracting by decide)]
  rfl
/-- The matrix product read at an index: the sum over the contracted axis. -/
theorem dot1_apply (x : FVec Ideal S100000x64 .f32) (w : FVec Ideal S64x64 .f32) (i : S100000x64.Idx) :
    Host.dotGeneral dot_S100000x64_S64x64_S100000x64_1_0_0_1_n_n none x w i = ∑ k : Fin 64, x (ix2 (i 0) k) * w (ix2 k (i 1)) := by
  simp only [Host.dotGeneral]
  rw [Ideal.dotGeneral_apply, ← Equiv.sum_comp (contrEquiv1 dot_S100000x64_S64x64_S100000x64_1_0_0_1_n_n 64 rfl rfl).symm]
  refine Finset.sum_congr rfl fun k _ => ?_
  have hk := contrEquiv1_symm_val dot_S100000x64_S64x64_S100000x64_1_0_0_1_n_n 64 rfl rfl k
  have el : dot_S100000x64_S64x64_S100000x64_1_0_0_1_n_n.lhsIdx i ((contrEquiv1 dot_S100000x64_S64x64_S100000x64_1_0_0_1_n_n 64 rfl rfl).symm k) = ix2 (i 0) k := funext fun a => Fin.ext (by
    match a with
    | ⟨0, _⟩ => exact lhs1_0 _ _
    | ⟨1, _⟩ => exact (lhs1_1 _ _).trans hk)
  have er : dot_S100000x64_S64x64_S100000x64_1_0_0_1_n_n.rhsIdx i ((contrEquiv1 dot_S100000x64_S64x64_S100000x64_1_0_0_1_n_n 64 rfl rfl).symm k) = ix2 k (i 1) := funext fun a => Fin.ext (by
    match a with
    | ⟨0, _⟩ => exact (rhs1_0 _ _).trans hk
    | ⟨1, _⟩ => exact rhs1_1 _ _)
  rw [el, er]
  rfl
theorem dot1_ix2 (x : FVec Ideal S100000x64 .f32) (w : FVec Ideal S64x64 .f32) (i : Fin 100000) (j : Fin 64) :
    Host.dotGeneral dot_S100000x64_S64x64_S100000x64_1_0_0_1_n_n none x w (ix2 i j) = ∑ k : Fin 64, x (ix2 i k) * w (ix2 k j) :=
  dot1_apply x w (ix2 i j)

theorem lhs2_0 (i : S100000x32.Idx) (q : dot_S100000x64_S64x32_S100000x32_1_0_0_1_n_n.contr.Idx) : (dot_S100000x64_S64x32_S100000x32_1_0_0_1_n_n.lhsIdx i q 0).val = (i 0).val := by
  unfold DotDims.lhsIdx
  rw [dif_neg (show ¬(0 : Fin S100000x64.rank) ∈ dot_S100000x64_S64x32_S100000x32_1_0_0_1_n_n.lhsBatch by decide), dif_pos (show (0 : Fin S100000x64.rank) ∈ dot_S100000x64_S64x32_S100000x32_1_0_0_1_n_n.lhsNonContracting by decide)]
  rfl
theorem lhs2_1 (i : S100000x32.Idx) (q : dot_S100000x64_S64x32_S100000x32_1_0_0_1_n_n.contr.Idx) : (dot_S100000x64_S64x32_S100000x32_1_0_0_1_n_n.lhsIdx i q 1).val = (q ⟨0, by decide⟩).val :=
  dot_S100000x64_S64x32_S100000x32_1_0_0_1_n_n.lhsIdx_val_of_single rfl i q
theorem rhs2_0 (i : S100000x32.Idx) (q : dot_S100000x64_S64x32_S100000x32_1_0_0_1_n_n.contr.Idx) : (dot_S100000x64_S64x32_S100000x32_1_0_0_1_n_n.rhsIdx i q 0).val = (q ⟨0, by decide⟩).val :=
  dot_S100000x64_S64x32_S100000x32_1_0_0_1_n_n.rhsIdx_val_of_single rfl i q
theorem rhs2_1 (i : S100000x32.Idx) (q : dot_S100000x64_S64x32_S100000x32_1_0_0_1_n_n.contr.Idx) : (dot_S100000x64_S64x32_S100000x32_1_0_0_1_n_n.rhsIdx i q 1).val = (i 1).val := by
  unfold DotDims.rhsIdx
  rw [dif_neg (show ¬(1 : Fin S64x32.rank) ∈ dot_S100000x64_S64x32_S100000x32_1_0_0_1_n_n.rhsBatch by decide), dif_pos (show (1 : Fin S64x32.rank) ∈ dot_S100000x64_S64x32_S100000x32_1_0_0_1_n_n.rhsNonContracting by decide)]
  rfl
/-- The matrix product read at an index: the sum over the contracted axis. -/
theorem dot2_apply (x : FVec Ideal S100000x64 .f32) (w : FVec Ideal S64x32 .f32) (i : S100000x32.Idx) :
    Host.dotGeneral dot_S100000x64_S64x32_S100000x32_1_0_0_1_n_n none x w i = ∑ k : Fin 64, x (ix2 (i 0) k) * w (ix2 k (i 1)) := by
  simp only [Host.dotGeneral]
  rw [Ideal.dotGeneral_apply, ← Equiv.sum_comp (contrEquiv1 dot_S100000x64_S64x32_S100000x32_1_0_0_1_n_n 64 rfl rfl).symm]
  refine Finset.sum_congr rfl fun k _ => ?_
  have hk := contrEquiv1_symm_val dot_S100000x64_S64x32_S100000x32_1_0_0_1_n_n 64 rfl rfl k
  have el : dot_S100000x64_S64x32_S100000x32_1_0_0_1_n_n.lhsIdx i ((contrEquiv1 dot_S100000x64_S64x32_S100000x32_1_0_0_1_n_n 64 rfl rfl).symm k) = ix2 (i 0) k := funext fun a => Fin.ext (by
    match a with
    | ⟨0, _⟩ => exact lhs2_0 _ _
    | ⟨1, _⟩ => exact (lhs2_1 _ _).trans hk)
  have er : dot_S100000x64_S64x32_S100000x32_1_0_0_1_n_n.rhsIdx i ((contrEquiv1 dot_S100000x64_S64x32_S100000x32_1_0_0_1_n_n 64 rfl rfl).symm k) = ix2 k (i 1) := funext fun a => Fin.ext (by
    match a with
    | ⟨0, _⟩ => exact (rhs2_0 _ _).trans hk
    | ⟨1, _⟩ => exact rhs2_1 _ _)
  rw [el, er]
  rfl
theorem dot2_ix2 (x : FVec Ideal S100000x64 .f32) (w : FVec Ideal S64x32 .f32) (i : Fin 100000) (j : Fin 32) :
    Host.dotGeneral dot_S100000x64_S64x32_S100000x32_1_0_0_1_n_n none x w (ix2 i j) = ∑ k : Fin 64, x (ix2 i k) * w (ix2 k j) :=
  dot2_apply x w (ix2 i j)

theorem lhs3_0 (i : S100000x1.Idx) (q : dot_S100000x32_S32x1_S100000x1_1_0_0_1_n_n.contr.Idx) : (dot_S100000x32_S32x1_S100000x1_1_0_0_1_n_n.lhsIdx i q 0).val = (i 0).val := by
  unfold DotDims.lhsIdx
  rw [dif_neg (show ¬(0 : Fin S100000x32.rank) ∈ dot_S100000x32_S32x1_S100000x1_1_0_0_1_n_n.lhsBatch by decide), dif_pos (show (0 : Fin S100000x32.rank) ∈ dot_S100000x32_S32x1_S100000x1_1_0_0_1_n_n.lhsNonContracting by decide)]
  rfl
theorem lhs3_1 (i : S100000x1.Idx) (q : dot_S100000x32_S32x1_S100000x1_1_0_0_1_n_n.contr.Idx) : (dot_S100000x32_S32x1_S100000x1_1_0_0_1_n_n.lhsIdx i q 1).val = (q ⟨0, by decide⟩).val :=
  dot_S100000x32_S32x1_S100000x1_1_0_0_1_n_n.lhsIdx_val_of_single rfl i q
theorem rhs3_0 (i : S100000x1.Idx) (q : dot_S100000x32_S32x1_S100000x1_1_0_0_1_n_n.contr.Idx) : (dot_S100000x32_S32x1_S100000x1_1_0_0_1_n_n.rhsIdx i q 0).val = (q ⟨0, by decide⟩).val :=
  dot_S100000x32_S32x1_S100000x1_1_0_0_1_n_n.rhsIdx_val_of_single rfl i q
theorem rhs3_1 (i : S100000x1.Idx) (q : dot_S100000x32_S32x1_S100000x1_1_0_0_1_n_n.contr.Idx) : (dot_S100000x32_S32x1_S100000x1_1_0_0_1_n_n.rhsIdx i q 1).val = (i 1).val := by
  unfold DotDims.rhsIdx
  rw [dif_neg (show ¬(1 : Fin S32x1.rank) ∈ dot_S100000x32_S32x1_S100000x1_1_0_0_1_n_n.rhsBatch by decide), dif_pos (show (1 : Fin S32x1.rank) ∈ dot_S100000x32_S32x1_S100000x1_1_0_0_1_n_n.rhsNonContracting by decide)]
  rfl
/-- The matrix product read at an index: the sum over the contracted axis. -/
theorem dot3_apply (x : FVec Ideal S100000x32 .f32) (w : FVec Ideal S32x1 .f32) (i : S100000x1.Idx) :
    Host.dotGeneral dot_S100000x32_S32x1_S100000x1_1_0_0_1_n_n none x w i = ∑ k : Fin 32, x (ix2 (i 0) k) * w (ix2 k (i 1)) := by
  simp only [Host.dotGeneral]
  rw [Ideal.dotGeneral_apply, ← Equiv.sum_comp (contrEquiv1 dot_S100000x32_S32x1_S100000x1_1_0_0_1_n_n 32 rfl rfl).symm]
  refine Finset.sum_congr rfl fun k _ => ?_
  have hk := contrEquiv1_symm_val dot_S100000x32_S32x1_S100000x1_1_0_0_1_n_n 32 rfl rfl k
  have el : dot_S100000x32_S32x1_S100000x1_1_0_0_1_n_n.lhsIdx i ((contrEquiv1 dot_S100000x32_S32x1_S100000x1_1_0_0_1_n_n 32 rfl rfl).symm k) = ix2 (i 0) k := funext fun a => Fin.ext (by
    match a with
    | ⟨0, _⟩ => exact lhs3_0 _ _
    | ⟨1, _⟩ => exact (lhs3_1 _ _).trans hk)
  have er : dot_S100000x32_S32x1_S100000x1_1_0_0_1_n_n.rhsIdx i ((contrEquiv1 dot_S100000x32_S32x1_S100000x1_1_0_0_1_n_n 32 rfl rfl).symm k) = ix2 k (i 1) := funext fun a => Fin.ext (by
    match a with
    | ⟨0, _⟩ => exact (rhs3_0 _ _).trans hk
    | ⟨1, _⟩ => exact rhs3_1 _ _)
  rw [el, er]
  rfl
theorem dot3_ix2 (x : FVec Ideal S100000x32 .f32) (w : FVec Ideal S32x1 .f32) (i : Fin 100000) (j : Fin 1) :
    Host.dotGeneral dot_S100000x32_S32x1_S100000x1_1_0_0_1_n_n none x w (ix2 i j) = ∑ k : Fin 32, x (ix2 i k) * w (ix2 k j) :=
  dot3_apply x w (ix2 i j)

/-- The first linear map is the matrix product over 4. -/
theorem mm4_eq (x : FVec Ideal S100000x4 .f32) (W : FVec Ideal S4x64 .f32) : Cert.Spec.MM 4 x W = Lin0 x W :=
  funext fun i => (dot0_apply x W i).symm
/-- The second linear map is the matrix product over 64. -/
theorem mm64_eq (h : FVec Ideal S100000x64 .f32) (W : FVec Ideal S64x64 .f32) : Cert.Spec.MM 64 h W = Lin1 h W :=
  funext fun i => (dot1_apply h W i).symm

/-! ## Repeated rows of 32 and of 1 -/

def row32 (y : FVec Ideal S32 .f32) : FVec Ideal S100000x32 .f32 :=
  broadcastInDim S100000x32 ![0, 1] bcast_S1x32_S100000x32_0_1 (broadcastInDim S1x32 ![1] bcast_S32_S1x32_1 y)
def row1 (y : FVec Ideal S1 .f32) : FVec Ideal S100000x1 .f32 :=
  broadcastInDim S100000x1 ![0, 1] bcast_S1x1_S100000x1_0_1 (broadcastInDim S1x1 ![1] bcast_S1_S1x1_1 y)

abbrev row32Idx (i : S100000x32.Idx) : S1x32.Idx := fun a => match a with
  | ⟨0, _⟩ => ⟨0, Nat.one_pos⟩
  | ⟨1, _⟩ => ⟨(i 1).val, (i 1).isLt⟩
abbrev col32Idx (i : S1x32.Idx) : S32.Idx := fun a => match a with
  | ⟨0, _⟩ => ⟨(i 1).val, (i 1).isLt⟩
theorem row32_ix2 (y : FVec Ideal S32 .f32) (i : Fin 100000) (j : Fin 32) : row32 y (ix2 i j) = y (ix1 j) := by
  unfold row32
  rw [broadcastInDim_apply _ bcast_S1x32_S100000x32_0_1 _ (ix2 i j) (row32Idx (ix2 i j)) (fun a => match a with
    | ⟨0, _⟩ => by show 0 = if (1 : Nat) = 1 then 0 else ((ix2 i j : S100000x32.Idx) 0).val; rw [if_pos rfl]
    | ⟨1, _⟩ => by show ((ix2 i j : S100000x32.Idx) 1).val = if (32 : Nat) = 1 then 0 else ((ix2 i j : S100000x32.Idx) 1).val; rw [if_neg (by decide)])]
  rw [broadcastInDim_apply _ bcast_S32_S1x32_1 y (row32Idx (ix2 i j)) (col32Idx (row32Idx (ix2 i j))) (fun a => match a with
    | ⟨0, _⟩ => by show (row32Idx (ix2 i j) 1).val = if (32 : Nat) = 1 then 0 else (row32Idx (ix2 i j) 1).val; rw [if_neg (by decide)])]
  exact congrArg y (funext fun a => match a with | ⟨0, _⟩ => rfl)

abbrev row1Idx (i : S100000x1.Idx) : S1x1.Idx := fun a => match a with
  | ⟨0, _⟩ => ⟨0, Nat.one_pos⟩
  | ⟨1, _⟩ => ⟨0, Nat.one_pos⟩
abbrev col1Idx (i : S1x1.Idx) : S1.Idx := fun a => match a with
  | ⟨0, _⟩ => ⟨0, Nat.one_pos⟩
theorem row1_apply (y : FVec Ideal S1 .f32) (i : S100000x1.Idx) : row1 y i = y (ix1 0) := by
  unfold row1
  rw [broadcastInDim_apply _ bcast_S1x1_S100000x1_0_1 _ i (row1Idx i) (fun a => match a with
    | ⟨0, _⟩ => by show 0 = if (1 : Nat) = 1 then 0 else (i 0).val; rw [if_pos rfl]
    | ⟨1, _⟩ => by show 0 = if (1 : Nat) = 1 then 0 else (i 1).val; rw [if_pos rfl])]
  rw [broadcastInDim_apply _ bcast_S1_S1x1_1 y (row1Idx i) (col1Idx (row1Idx i)) (fun a => match a with
    | ⟨0, _⟩ => by show 0 = if (1 : Nat) = 1 then 0 else (row1Idx i 1).val; rw [if_pos rfl])]
  exact congrArg y (funext fun a => match a with | ⟨0, _⟩ => rfl)

/-! ## The head at an index -/

theorem ofBits_one' : Ideal.ofBits .f32 0x3F800000#32 = (1 : EReal) := by
  rw [ofBits_one, EReal.coe_one]

def layer1 (h : FVec Ideal S100000x64 .f32) (W2 : FVec Ideal S64x64 .f32) (b2 : FVec Ideal S64 .f32) : FVec Ideal S100000x64 .f32 :=
  maximumf (addf (Host.dotGeneral dot_S100000x64_S64x64_S100000x64_1_0_0_1_n_n none h W2) (rowB b2)) zeros64
def layer2 (g : FVec Ideal S100000x64 .f32) (W3 : FVec Ideal S64x32 .f32) (b3 : FVec Ideal S32 .f32) : FVec Ideal S100000x32 .f32 :=
  maximumf (addf (Host.dotGeneral dot_S100000x64_S64x32_S100000x32_1_0_0_1_n_n none g W3) (row32 b3)) zeros32

section Head
variable (h : FVec Ideal S100000x64 .f32) (W2 : FVec Ideal S64x64 .f32) (b2 : FVec Ideal S64 .f32)
  (W3 : FVec Ideal S64x32 .f32) (b3 : FVec Ideal S32 .f32) (W4 : FVec Ideal S32x1 .f32) (b4 : FVec Ideal S1 .f32)

theorem HeadR_layers : HeadR h W2 b2 W3 b3 W4 b4 = Host.divf ones1 (addf ones1 (Host.exp (Host.negf
    (addf (Host.dotGeneral dot_S100000x32_S32x1_S100000x1_1_0_0_1_n_n none (layer2 (layer1 h W2 b2) W3 b3) W4) (row1 b4))))) := rfl

theorem layer1_at (i : Fin 100000) (k1 : Fin 64) :
    layer1 h W2 b2 (ix2 i k1) = max ((∑ k0 : Fin 64, h (ix2 i k0) * W2 (ix2 k0 k1)) + b2 (ix1 k1)) 0 := by
  show max (Host.dotGeneral dot_S100000x64_S64x64_S100000x64_1_0_0_1_n_n none h W2 (ix2 i k1) + rowB b2 (ix2 i k1))
    (Ideal.ofBits .f32 0x00000000#32) = _
  rw [dot1_ix2, rowB_ix2, ofBits_zero']

theorem layer2_at (g : FVec Ideal S100000x64 .f32) (i : Fin 100000) (k2 : Fin 32) :
    layer2 g W3 b3 (ix2 i k2) = max ((∑ k1 : Fin 64, g (ix2 i k1) * W3 (ix2 k1 k2)) + b3 (ix1 k2)) 0 := by
  show max (Host.dotGeneral dot_S100000x64_S64x32_S100000x32_1_0_0_1_n_n none g W3 (ix2 i k2) + row32 b3 (ix2 i k2))
    (Ideal.ofBits .f32 0x00000000#32) = _
  rw [dot2_ix2, row32_ix2, ofBits_zero']

theorem HeadR_at (i : Fin 100000) :
    HeadR h W2 b2 W3 b3 W4 b4 (ix2 i 0)
      = Ideal.div 1 (1 + Ideal.exp (-((∑ k2 : Fin 32, layer2 (layer1 h W2 b2) W3 b3 (ix2 i k2) * W4 (ix2 k2 0)) + b4 (ix1 0)))) := by
  rw [HeadR_layers]
  show Ideal.div (Ideal.ofBits .f32 0x3F800000#32) (Ideal.ofBits .f32 0x3F800000#32 + Ideal.exp
    (-(Host.dotGeneral dot_S100000x32_S32x1_S100000x1_1_0_0_1_n_n none (layer2 (layer1 h W2 b2) W3 b3) W4 (ix2 i 0)
      + row1 b4 (ix2 i 0)))) = _
  rw [dot3_ix2, row1_apply, ofBits_one']

/-- The head is the three-layer head on plain arrays, with each bias given as a one-row array. -/
theorem head_eq (r0 : Cert.Spec.Arr 1 64) (r1 : Cert.Spec.Arr 1 32) (r2 : Cert.Spec.Arr 1 1)
    (h0 : ∀ k, r0 (ix2 0 k) = b2 (ix1 k)) (h1 : ∀ k, r1 (ix2 0 k) = b3 (ix1 k)) (h2 : ∀ k, r2 (ix2 0 k) = b4 (ix1 k)) :
    Cert.Spec.HEAD h W2 r0 W3 r1 W4 r2 = HeadR h W2 b2 W3 b3 W4 b4 := by
  funext idx
  obtain ⟨i, j, rfl⟩ : ∃ (i : Fin 100000) (j : Fin 1), idx = ix2 i j := ⟨idx 0, idx 1, eq_ix2 idx⟩
  obtain rfl : j = 0 := Subsingleton.elim _ _
  rw [HeadR_at]
  show Ideal.div 1 (1 + Ideal.exp (-((∑ k2 : Fin 32, max ((∑ k1 : Fin 64, max ((∑ k0 : Fin 64, h (ix2 i k0) * W2 (ix2 k0 k1))
    + r0 (ix2 0 k1)) 0 * W3 (ix2 k1 k2)) + r1 (ix2 0 k2)) 0 * W4 (ix2 k2 0)) + r2 (ix2 0 0)))) = _
  simp only [layer2_at, layer1_at, h0, h1, h2]

end Head

end Cert.RefValue

end
-- ==== Proof.Ref.StagesReal.lean ====
/-
  Every stage of the reference maps arrays of real numbers to arrays of real numbers: a matrix product is a
  finite sum of products; a degree is a sum of ones, so nonnegative, and where it is positive its inverse
  square root is a real number (elsewhere the stage takes 0); the convolution gathers, multiplies and
  scatter-adds; the normalisation is the two-pass form of the module BN; the head ends in 1 / (1 + exp),
  whose denominator is a positive real.
-/
import proofs.«119403_j19189913878709_1_alg».proof.Proof.Ref.Stages

noncomputable section

namespace Cert.RefValue

open Cert.ReferenceIdeal Cert.ReferenceIdeal.Gen Idealize.ShloMosaic Idealize.ShloMosaic.TcCoe Idealize.SL.Sem
open Idealize.ShloMosaic.StableHlo Idealize.ShloMosaic.ValueIdx Cert.LibIdealReal

/-! ## Constants -/

theorem nonnegV_zero_ : NonnegV (zero_ (F := Ideal)) := nonnegV_const_zero
theorem nonnegV_zeros100000 : NonnegV (zeros100000 (F := Ideal)) := nonnegV_broadcastInDim _ _ nonnegV_zero_
theorem realV_zeros64 : RealV (zeros64 (F := Ideal)) := (nonnegV_broadcastInDim _ _ nonnegV_zero_).realV
theorem realV_zeros32 : RealV (zeros32 (F := Ideal)) := (nonnegV_broadcastInDim _ _ nonnegV_zero_).realV
theorem geOneV_ones3300000 : GeOneV (ones3300000 (F := Ideal)) := geOneV_broadcastInDim _ _ geOneV_const_one
theorem geOneV_ones1 : GeOneV (ones1 (F := Ideal)) := geOneV_broadcastInDim _ _ geOneV_const_one

/-! ## The linear maps -/

theorem realV_Lin0 {x : FVec Ideal S100000x4 .f32} {W : FVec Ideal S4x64 .f32} (hx : RealV x) (hW : RealV W) :
    RealV (Lin0 x W) := realV_dotGeneral _ _ hx hW
theorem realV_Lin1 {h : FVec Ideal S100000x64 .f32} {W : FVec Ideal S64x64 .f32} (hh : RealV h) (hW : RealV W) :
    RealV (Lin1 h W) := realV_dotGeneral _ _ hh hW

/-! ## The graph convolution -/

theorem nonnegV_degR (dst : IVec S3200000 32) : NonnegV (degR (F := Ideal) dst) :=
  nonnegV_scatterAdd _ _ nonnegV_zeros100000 geOneV_ones3300000.posV.nonnegV

theorem ofBool_eq_one (b : Bool) : BitVec.ofBool b = 1#1 ↔ b = true := by cases b <;> decide

/-- "The inverse square root of x where x > 0, else z" is a real number when x is a nonnegative real and z is real. -/
theorem isReal_select_rsqrt {x z : EReal} (hx : IsNonneg x) (hz : IsReal z) :
    IsReal (Scalar.select (Ideal.cmp .ogt x (Ideal.ofBits .f32 0x00000000#32)) (Ideal.rsqrt x) z) := by
  by_cases h : Ideal.cmp .ogt x (Ideal.ofBits .f32 0x00000000#32) = 1#1
  · rw [h, select_one]
    obtain ⟨r, _, rfl⟩ := hx
    have hlt : (Ideal.ofBits .f32 0x00000000#32 : EReal) < (r : EReal) := of_decide_eq_true ((ofBool_eq_one _).mp h)
    rw [ofBits_zero, EReal.coe_lt_coe_iff] at hlt
    exact (IsPos.rsqrt ⟨r, hlt, rfl⟩).isReal
  · rw [eq_zero_of_ne_one h, select_zero]; exact hz

/-- The same for arrays: d nonnegative, zz the zero array, z real. -/
theorem realV_select_rsqrt {S : Shape} (d zz z : FVec Ideal S .f32) (hd : NonnegV d)
    (hzz : ∀ i, zz i = Ideal.ofBits .f32 0x00000000#32) (hz : RealV z) :
    RealV (select (cmpf .ogt d zz) (Host.rsqrt d) z) := by
  intro i
  show IsReal (Scalar.select (Ideal.cmp .ogt (d i) (zz i)) (Ideal.rsqrt (d i)) (z i))
  rw [hzz i]
  exact isReal_select_rsqrt (hd i) (hz i)

theorem realV_dinvR (dst : IVec S3200000 32) : RealV (dinvR (F := Ideal) dst) := by
  unfold dinvR
  exact realV_select_rsqrt _ _ _ (nonnegV_degR dst) (fun _ => rfl)
    (nonnegV_broadcastInDim _ _ nonnegV_zero_).realV

theorem realV_normR (src dst : IVec S3200000 32) : RealV (normR (F := Ideal) src dst) :=
  realV_mulf (realV_gather _ _ (realV_dinvR dst)) (realV_gather _ _ (realV_dinvR dst))

theorem realV_ConvR (src dst : IVec S3200000 32) {h : FVec Ideal S100000x64 .f32} (hh : RealV h) :
    RealV (ConvR src dst h) :=
  realV_scatterAdd _ _ realV_zeros64
    (realV_mulf (realV_gather _ _ hh)
      (realV_broadcastInDim _ _ (realV_broadcastInDim _ _ (realV_normR src dst))))

/-! ## Batch normalisation followed by max with 0 -/

theorem realV_BNReluR {a : FVec Ideal S100000x64 .f32} {b g be : FVec Ideal S64 .f32}
    (ha : RealV a) (hb : RealV b) (hg : RealV g) (hbe : RealV be) : RealV (BNReluR a b g be) := by
  rw [bnrelu_eq]; exact realV_RBN ha hb hg hbe

/-! ## The head -/

theorem realV_rowB {y : FVec Ideal S64 .f32} (hy : RealV y) : RealV (rowB y) :=
  realV_broadcastInDim _ _ (realV_broadcastInDim _ _ hy)

theorem realV_HeadR {h : FVec Ideal S100000x64 .f32} {W2 : FVec Ideal S64x64 .f32} {b2 : FVec Ideal S64 .f32}
    {W3 : FVec Ideal S64x32 .f32} {b3 : FVec Ideal S32 .f32} {W4 : FVec Ideal S32x1 .f32} {b4 : FVec Ideal S1 .f32}
    (hh : RealV h) (hW2 : RealV W2) (hb2 : RealV b2) (hW3 : RealV W3) (hb3 : RealV b3) (hW4 : RealV W4)
    (hb4 : RealV b4) : RealV (HeadR h W2 b2 W3 b3 W4 b4) :=
  realV_divf geOneV_ones1.realV
    (posV_addf geOneV_ones1.posV (posV_exp (realV_negf
      (realV_addf (realV_dotGeneral _ _
        (realV_maximumf (realV_addf (realV_dotGeneral _ _
          (realV_maximumf (realV_addf (realV_dotGeneral _ _ hh hW2) (realV_rowB hb2)) realV_zeros64) hW3)
          (realV_broadcastInDim _ _ (realV_broadcastInDim _ _ hb3))) realV_zeros32) hW4)
        (realV_broadcastInDim _ _ (realV_broadcastInDim _ _ hb4))))))

end Cert.RefValue

end
-- ==== Proof.Ref.Finite.lean ====
/-
  The precondition "every float input is finite", decoded at the ideal values: each of the fifteen float
  arguments is an array of real numbers.  The predicate is a conjunction of fifteen tests
  "all (|x| < +inf)"; an "all" is a reduction by "and" into a single word, which is 1 only if every element
  is 1; and |x| = max x (-x) is below +inf on the extended reals exactly when x is neither infinity.
-/
import Idealize.ShloMosaic.Lib.ReduceAll
import Idealize.ShloMosaic.Lib.Affine
import Idealize.ShloMosaic.Lib.ValueIdx
import proofs.«119403_j19189913878709_1_alg».proof.Pre_finite_inputs
import proofs.«119403_j19189913878709_1_alg».proof.Proof.LibIdealReal

noncomputable section

namespace Cert.RefValue

open Idealize.ShloMosaic Idealize.ShloMosaic.ValueIdx Cert.LibIdealReal
open Cert.Pre_finite_inputs

/-- The scalar shape has one index. -/
instance : Subsingleton S_.Idx := ⟨fun a b => funext fun d => d.elim0⟩

/-- The pattern 0x7F800000 denotes +inf. -/
theorem ofBits_inf : Ideal.ofBits .f32 0x7F800000#32 = (⊤ : EReal) := by
  simp [Ideal.ofBits, Ideal.ieee]

/-- An extended real whose absolute value is below +inf is a real number. -/
theorem isReal_of_abs_lt (x : EReal)
    (h : Ideal.cmp .olt (max x (-x)) (Ideal.ofBits .f32 0x7F800000#32) = 1#1) : IsReal x := by
  rw [ofBits_inf] at h
  induction x using EReal.rec with
  | bot => simp [Ideal.cmp] at h
  | coe r => exact ⟨r, rfl⟩
  | top => simp [Ideal.cmp] at h

/-- One test of the predicate: if the reduction by "and" of (|x| < +inf) is 1, x is an array of reals. -/
theorem realV_of_all {s : Shape} {axes : List (Fin s.rank)} (x : FVec Ideal s .f32) (hb : S_.BroadcastsInDim s (![] : Fin 0 → Fin s.rank))
    (hr : s.ReducesTo axes S_) (hu : 0 < S_.numel)
    (e : Host.reduce IntOp.andi
          (cmpf .olt (Host.absf x) (broadcastInDim s ![] hb (constant (F := Ideal) S_ .f32 0x7F800000#32)))
          (constantI S_ 1 1#1) hr hu ix0 = 1#1) : RealV x := by
  intro i
  have h := Host.reduce_andi_all _ _ hr hu ix0 e i
  exact isReal_of_abs_lt (x i) h

section Decode
variable [Facts]
open Facts

/-- THE PRECONDITION DECODED: if the predicate of the seventeen arguments is all ones, each of the
    fifteen float arguments is an array of real numbers. -/
theorem realV_of_pre (a0 : FVec Ideal S100000x4 .f32) (a1 a2 : IVec S3200000 32) (a3 : FVec Ideal S4x64 .f32)
    (a4 : FVec Ideal S64 .f32) (a5 : FVec Ideal S64x64 .f32) (a6 a7 a8 a9 a10 : FVec Ideal S64 .f32)
    (a11 : FVec Ideal S64x64 .f32) (a12 : FVec Ideal S64 .f32) (a13 : FVec Ideal S64x32 .f32)
    (a14 : FVec Ideal S32 .f32) (a15 : FVec Ideal S32x1 .f32) (a16 : FVec Ideal S1 .f32)
    (h : Cert.Pre_finite_inputs.fn (F := Ideal) a0 a1 a2 a3 a4 a5 a6 a7 a8 a9 a10 a11 a12 a13 a14 a15 a16 = fun _ => 1#1) :
    RealV a0 ∧ RealV a3 ∧ RealV a4 ∧ RealV a5 ∧ RealV a6 ∧ RealV a7 ∧ RealV a8 ∧ RealV a9 ∧ RealV a10 ∧
      RealV a11 ∧ RealV a12 ∧ RealV a13 ∧ RealV a14 ∧ RealV a15 ∧ RealV a16 := by
  have e := congrFun h ix0
  dsimp only [fn, fn_part1, fn_part2, fn_part3, fn_part4, andi] at e
  simp only [IntOp.andi_eq_one] at e
  obtain ⟨⟨⟨⟨⟨⟨⟨⟨⟨⟨⟨⟨⟨⟨h0, h3⟩, h4⟩, h5⟩, h6⟩, h7⟩, h8⟩, h9⟩, h10⟩, h11⟩, h12⟩, h13⟩, h14⟩, h15⟩, h16⟩ := e
  exact ⟨realV_of_all a0 _ _ _ h0, realV_of_all a3 _ _ _ h3, realV_of_all a4 _ _ _ h4, realV_of_all a5 _ _ _ h5,
    realV_of_all a6 _ _ _ h6, realV_of_all a7 _ _ _ h7, realV_of_all a8 _ _ _ h8, realV_of_all a9 _ _ _ h9,
    realV_of_all a10 _ _ _ h10, realV_of_all a11 _ _ _ h11, realV_of_all a12 _ _ _ h12, realV_of_all a13 _ _ _ h13,
    realV_of_all a14 _ _ _ h14, realV_of_all a15 _ _ _ h15, realV_of_all a16 _ _ _ h16⟩

end Decode

end Cert.RefValue

end
-- ==== Proof.Ref.RefResult.lean ====
/-
  The reference's result read in stages.  The list of 204 operations is cut into seven consecutive pieces: the
  first linear map, the first convolution, the first normalisation, the second linear map, the second
  convolution, the second normalisation, and the head.  From any contents of the buffers, each piece leaves in
  its last buffer the corresponding stage function of the contents it read, and leaves every buffer it does not
  write unchanged; so the whole list leaves in the result buffer the composition of the seven stage functions
  at the arguments' contents.
-/
import proofs.«119403_j19189913878709_1_alg».proof.Proof.Ref.RunP
import proofs.«119403_j19189913878709_1_alg».proof.Proof.Ref.Stages

noncomputable section

namespace Cert.ReferenceIdeal.Value

open Cert.ReferenceIdeal Cert.ReferenceIdeal.Gen Idealize.ShloMosaic Idealize.ShloMosaic.TcCoe Idealize.SL.Sem Idealize.ShloMosaic.StableHlo
open Cert.RefValue

variable {F : FTy → Type} [FloatOps F]

/-! ## The pieces -/

/-- Piece 0 of the operations. -/
def seg0 : List (HloOp τ sig (Elt F)) :=
  [ binary main_arg0 main_arg3 main_v0 ((fun l r => Host.dotGeneral dot_S100000x4_S4x64_S100000x64_1_0_0_1_n_n none l r) : (⟨S100000x4, .f32⟩ : BufTy).Contents (Elt F) → (⟨S4x64, .f32⟩ : BufTy).Contents (Elt F) → (⟨S100000x64, .f32⟩ : BufTy).Contents (Elt F)) ]

/-- Piece 1 of the operations. -/
def seg1 : List (HloOp τ sig (Elt F)) :=
  [ nullary main_v1 (iotaInDim S100000 32 0),
    binary main_arg1 main_v1 main_v2 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_arg2 main_v1 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v4 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v5 (broadcastInDim S100000 ![] bcast_S_S100000 : (⟨S_, .f32⟩ : BufTy).Contents (Elt F) → (⟨S100000, .f32⟩ : BufTy).Contents (Elt F)),
    unary main_v3 main_v6 (broadcastInDim S3300000x1 ![0] bcast_S3300000_S3300000x1_0 : (⟨S3300000, .i32⟩ : BufTy).Contents (Elt F) → (⟨S3300000x1, .i32⟩ : BufTy).Contents (Elt F)),
    ternary main_v5 main_v6 main_v4 main_v7 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v8 (broadcastInDim S100000 ![] bcast_S_S100000 : (⟨S_, .f32⟩ : BufTy).Contents (Elt F) → (⟨S100000, .f32⟩ : BufTy).Contents (Elt F)),
    binary main_v7 main_v8 main_v9 (cmpf .ogt : (⟨S100000, .f32⟩ : BufTy).Contents (Elt F) → (⟨S100000, .f32⟩ : BufTy).Contents (Elt F) → (⟨S100000, .i1⟩ : BufTy).Contents (Elt F)),
    unary main_v7 main_v10 (Host.rsqrt : (⟨S100000, .f32⟩ : BufTy).Contents (Elt F) → (⟨S100000, .f32⟩ : BufTy).Contents (Elt F)),
    nullary main_cst_2 (constant S_ .f32 0x00000000#32),
    TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v9) (TRef.of (T := ⟨S100000, .f32⟩) main_v10) (TRef.of (T := ⟨S100000, .f32⟩) main_call0_v1) (TRef.of (T := ⟨S100000, .f32⟩) main_v11) select,
    nullary main_c (constantI S_ 32 0#32),
    unary main_c main_v12 (broadcastInDim S3300000 ![] bcast_S_S3300000 : (⟨S_, .i32⟩ : BufTy).Contents (Elt F) → (⟨S3300000, .i32⟩ : BufTy).Contents (Elt F)),
    binary main_v2 main_v12 main_v13 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v14 (broadcastInDim S3300000 ![] bcast_S_S3300000 : (⟨S_, .i32⟩ : BufTy).Contents (Elt F) → (⟨S3300000, .i32⟩ : BufTy).Contents (Elt F)),
    binary main_v2 main_v14 main_v15 (addi : (⟨S3300000, .i32⟩ : BufTy).Contents (Elt F) → (⟨S3300000, .i32⟩ : BufTy).Contents (Elt F) → (⟨S3300000, .i32⟩ : BufTy).Contents (Elt F)),
    ternary main_v13 main_v15 main_v2 main_v16 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v16 main_v17 (broadcastInDim S3300000x1 ![0] bcast_S3300000_S3300000x1_0 : (⟨S3300000, .i32⟩ : BufTy).Contents (Elt F) → (⟨S3300000x1, .i32⟩ : BufTy).Contents (Elt F)),
    binary main_v11 main_v17 main_v18 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v19 (broadcastInDim S3300000 ![] bcast_S_S3300000 : (⟨S_, .i32⟩ : BufTy).Contents (Elt F) → (⟨S3300000, .i32⟩ : BufTy).Contents (Elt F)),
    binary main_v3 main_v19 main_v20 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v21 (broadcastInDim S3300000 ![] bcast_S_S3300000 : (⟨S_, .i32⟩ : BufTy).Contents (Elt F) → (⟨S3300000, .i32⟩ : BufTy).Contents (Elt F)),
    binary main_v3 main_v21 main_v22 (addi : (⟨S3300000, .i32⟩ : BufTy).Contents (Elt F) → (⟨S3300000, .i32⟩ : BufTy).Contents (Elt F) → (⟨S3300000, .i32⟩ : BufTy).Contents (Elt F)),
    ternary main_v20 main_v22 main_v3 main_v23 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v23 main_v24 (broadcastInDim S3300000x1 ![0] bcast_S3300000_S3300000x1_0 : (⟨S3300000, .i32⟩ : BufTy).Contents (Elt F) → (⟨S3300000x1, .i32⟩ : BufTy).Contents (Elt F)),
    binary main_v11 main_v24 main_v25 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v18 main_v25 main_v26 (mulf : (⟨S3300000, .f32⟩ : BufTy).Contents (Elt F) → (⟨S3300000, .f32⟩ : BufTy).Contents (Elt F) → (⟨S3300000, .f32⟩ : BufTy).Contents (Elt F)),
    nullary main_c_6 (constantI S_ 32 0#32),
    unary main_c_6 main_v27 (broadcastInDim S3300000 ![] bcast_S_S3300000 : (⟨S_, .i32⟩ : BufTy).Contents (Elt F) → (⟨S3300000, .i32⟩ : BufTy).Contents (Elt F)),
    binary main_v2 main_v27 main_v28 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v29 (broadcastInDim S3300000 ![] bcast_S_S3300000 : (⟨S_, .i32⟩ : BufTy).Contents (Elt F) → (⟨S3300000, .i32⟩ : BufTy).Contents (Elt F)),
    binary main_v2 main_v29 main_v30 (addi : (⟨S3300000, .i32⟩ : BufTy).Contents (Elt F) → (⟨S3300000, .i32⟩ : BufTy).Contents (Elt F) → (⟨S3300000, .i32⟩ : BufTy).Contents (Elt F)),
    ternary main_v28 main_v30 main_v2 main_v31 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v31 main_v32 (broadcastInDim S3300000x1 ![0] bcast_S3300000_S3300000x1_0 : (⟨S3300000, .i32⟩ : BufTy).Contents (Elt F) → (⟨S3300000x1, .i32⟩ : BufTy).Contents (Elt F)),
    binary main_v0 main_v32 main_v33 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v26 main_v34 (broadcastInDim S3300000x1 ![0] bcast_S3300000_S3300000x1_0 : (⟨S3300000, .f32⟩ : BufTy).Contents (Elt F) → (⟨S3300000x1, .f32⟩ : BufTy).Contents (Elt F)),
    unary main_v34 main_v35 (broadcastInDim S3300000x64 ![0, 1] bcast_S3300000x1_S3300000x64_0_1 : (⟨S3300000x1, .f32⟩ : BufTy).Contents (Elt F) → (⟨S3300000x64, .f32⟩ : BufTy).Contents (Elt F)),
    binary main_v33 main_v35 main_v36 (mulf : (⟨S3300000x64, .f32⟩ : BufTy).Contents (Elt F) → (⟨S3300000x64, .f32⟩ : BufTy).Contents (Elt F) → (⟨S3300000x64, .f32⟩ : BufTy).Contents (Elt F)),
    nullary main_cst_8 (constant S_ .f32 0x00000000#32),
    unary main_cst_8 main_v37 (broadcastInDim S100000x64 ![] bcast_S_S100000x64 : (⟨S_, .f32⟩ : BufTy).Contents (Elt F) → (⟨S100000x64, .f32⟩ : BufTy).Contents (Elt F)),
    unary main_v3 main_v38 (broadcastInDim S3300000x1 ![0] bcast_S3300000_S3300000x1_0 : (⟨S3300000, .i32⟩ : BufTy).Contents (Elt F) → (⟨S3300000x1, .i32⟩ : BufTy).Contents (Elt F)),
    ternary main_v37 main_v38 main_v36 main_v39 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)) ]

/-- Piece 2 of the operations. -/
def seg2 : List (HloOp τ sig (Elt F)) :=
  [ unary main_arg4 main_v40 (broadcastInDim S1x64 ![1] bcast_S64_S1x64_1 : (⟨S64, .f32⟩ : BufTy).Contents (Elt F) → (⟨S1x64, .f32⟩ : BufTy).Contents (Elt F)),
    unary main_v40 main_v41 (broadcastInDim S100000x64 ![0, 1] bcast_S1x64_S100000x64_0_1 : (⟨S1x64, .f32⟩ : BufTy).Contents (Elt F) → (⟨S100000x64, .f32⟩ : BufTy).Contents (Elt F)),
    binary main_v39 main_v41 main_v42 (addf : (⟨S100000x64, .f32⟩ : BufTy).Contents (Elt F) → (⟨S100000x64, .f32⟩ : BufTy).Contents (Elt F) → (⟨S100000x64, .f32⟩ : BufTy).Contents (Elt F)),
    nullary main_cst_9 (constant S_ .f32 0x00000000#32),
    binary main_v42 main_cst_9 main_v43 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_10 (constant S_ .f32 0x47C35000#32),
    unary main_cst_10 main_v44 (broadcastInDim S64 ![] bcast_S_S64 : (⟨S_, .f32⟩ : BufTy).Contents (Elt F) → (⟨S64, .f32⟩ : BufTy).Contents (Elt F)),
    binary main_v43 main_v44 main_v45 (Host.divf : (⟨S64, .f32⟩ : BufTy).Contents (Elt F) → (⟨S64, .f32⟩ : BufTy).Contents (Elt F) → (⟨S64, .f32⟩ : BufTy).Contents (Elt F)),
    unary main_v45 main_v46 (broadcastInDim S1x64 ![1] bcast_S64_S1x64_1 : (⟨S64, .f32⟩ : BufTy).Contents (Elt F) → (⟨S1x64, .f32⟩ : BufTy).Contents (Elt F)),
    unary main_v46 main_v47 (broadcastInDim S100000x64 ![0, 1] bcast_S1x64_S100000x64_0_1 : (⟨S1x64, .f32⟩ : BufTy).Contents (Elt F) → (⟨S100000x64, .f32⟩ : BufTy).Contents (Elt F)),
    binary main_v42 main_v47 main_v48 (subf : (⟨S100000x64, .f32⟩ : BufTy).Contents (Elt F) → (⟨S100000x64, .f32⟩ : BufTy).Contents (Elt F) → (⟨S100000x64, .f32⟩ : BufTy).Contents (Elt F)),
    binary main_v48 main_v48 main_v49 (mulf : (⟨S100000x64, .f32⟩ : BufTy).Contents (Elt F) → (⟨S100000x64, .f32⟩ : BufTy).Contents (Elt F) → (⟨S100000x64, .f32⟩ : BufTy).Contents (Elt F)),
    nullary main_cst_11 (constant S_ .f32 0x00000000#32),
    binary main_v49 main_cst_11 main_v50 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_12 (constant S_ .f32 0x47C35000#32),
    unary main_cst_12 main_v51 (broadcastInDim S64 ![] bcast_S_S64 : (⟨S_, .f32⟩ : BufTy).Contents (Elt F) → (⟨S64, .f32⟩ : BufTy).Contents (Elt F)),
    binary main_v50 main_v51 main_v52 (Host.divf : (⟨S64, .f32⟩ : BufTy).Contents (Elt F) → (⟨S64, .f32⟩ : BufTy).Contents (Elt F) → (⟨S64, .f32⟩ : BufTy).Contents (Elt F)),
    unary main_v45 main_v53 (broadcastInDim S1x64 ![1] bcast_S64_S1x64_1 : (⟨S64, .f32⟩ : BufTy).Contents (Elt F) → (⟨S1x64, .f32⟩ : BufTy).Contents (Elt F)),
    unary main_v53 main_v54 (broadcastInDim S100000x64 ![0, 1] bcast_S1x64_S100000x64_0_1 : (⟨S1x64, .f32⟩ : BufTy).Contents (Elt F) → (⟨S100000x64, .f32⟩ : BufTy).Contents (Elt F)),
    binary main_v42 main_v54 main_v55 (subf : (⟨S100000x64, .f32⟩ : BufTy).Contents (Elt F) → (⟨S100000x64, .f32⟩ : BufTy).Contents (Elt F) → (⟨S100000x64, .f32⟩ : BufTy).Contents (Elt F)),
    unary main_arg7 main_v56 (broadcastInDim S1x64 ![1] bcast_S64_S1x64_1 : (⟨S64, .f32⟩ : BufTy).Contents (Elt F) → (⟨S1x64, .f32⟩ : BufTy).Contents (Elt F)),
    unary main_v56 main_v57 (broadcastInDim S100000x64 ![0, 1] bcast_S1x64_S100000x64_0_1 : (⟨S1x64, .f32⟩ : BufTy).Contents (Elt F) → (⟨S100000x64, .f32⟩ : BufTy).Contents (Elt F)),
    binary main_v57 main_v55 main_v58 (mulf : (⟨S100000x64, .f32⟩ : BufTy).Contents (Elt F) → (⟨S100000x64, .f32⟩ : BufTy).Contents (Elt F) → (⟨S100000x64, .f32⟩ : BufTy).Contents (Elt F)),
    nullary main_cst_13 (constant S_ .f32 0x3727C5AC#32),
    unary main_cst_13 main_v59 (broadcastInDim S64 ![] bcast_S_S64 : (⟨S_, .f32⟩ : BufTy).Contents (Elt F) → (⟨S64, .f32⟩ : BufTy).Contents (Elt F)),
    binary main_v52 main_v59 main_v60 (addf : (⟨S64, .f32⟩ : BufTy).Contents (Elt F) → (⟨S64, .f32⟩ : BufTy).Contents (Elt F) → (⟨S64, .f32⟩ : BufTy).Contents (Elt F)),
    unary main_v60 main_v61 (Host.rsqrt : (⟨S64, .f32⟩ : BufTy).Contents (Elt F) → (⟨S64, .f32⟩ : BufTy).Contents (Elt F)),
    unary main_v61 main_v62 (broadcastInDim S1x64 ![1] bcast_S64_S1x64_1 : (⟨S64, .f32⟩ : BufTy).Contents (Elt F) → (⟨S1x64, .f32⟩ : BufTy).Contents (Elt F)),
    unary main_v62 main_v63 (broadcastInDim S100000x64 ![0, 1] bcast_S1x64_S100000x64_0_1 : (⟨S1x64, .f32⟩ : BufTy).Contents (Elt F) → (⟨S100000x64, .f32⟩ : BufTy).Contents (Elt F)),
    binary main_v58 main_v63 main_v64 (mulf : (⟨S100000x64, .f32⟩ : BufTy).Contents (Elt F) → (⟨S100000x64, .f32⟩ : BufTy).Contents (Elt F) → (⟨S100000x64, .f32⟩ : BufTy).Contents (Elt F)),
    unary main_arg8 main_v65 (broadcastInDim S1x64 ![1] bcast_S64_S1x64_1 : (⟨S64, .f32⟩ : BufTy).Contents (Elt F) → (⟨S1x64, .f32⟩ : BufTy).Contents (Elt F)),
    unary main_v65 main_v66 (broadcastInDim S100000x64 ![0, 1] bcast_S1x64_S100000x64_0_1 : (⟨S1x64, .f32⟩ : BufTy).Contents (Elt F) → (⟨S100000x64, .f32⟩ : BufTy).Contents (Elt F)),
    binary main_v64 main_v66 main_v67 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x64, .f32⟩) main_call1_v0) (broadcastInDim S100000x64 ![] bcast_S_S100000x64),
    TRef.binary (TRef.of (T := ⟨S100000x64, .f32⟩) main_v67) (TRef.of (T := ⟨S100000x64, .f32⟩) main_call1_v0) (TRef.of (T := ⟨S100000x64, .f32⟩) main_v68) maximumf ]

/-- Piece 3 of the operations. -/
def seg3 : List (HloOp τ sig (Elt F)) :=
  [ binary main_v68 main_arg5 main_v69 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)) ]

/-- Piece 4 of the operations. -/
def seg4 : List (HloOp τ sig (Elt F)) :=
  [ nullary main_v70 (iotaInDim S100000 32 0),
    binary main_arg1 main_v70 main_v71 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    binary main_arg2 main_v70 main_v72 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst_14 (constant S_ .f32 0x3F800000#32),
    unary main_cst_14 main_v73 (broadcastInDim S3300000 ![] bcast_S_S3300000 : (⟨S_, .f32⟩ : BufTy).Contents (Elt F) → (⟨S3300000, .f32⟩ : BufTy).Contents (Elt F)),
    nullary main_cst_15 (constant S_ .f32 0x00000000#32),
    unary main_cst_15 main_v74 (broadcastInDim S100000 ![] bcast_S_S100000 : (⟨S_, .f32⟩ : BufTy).Contents (Elt F) → (⟨S100000, .f32⟩ : BufTy).Contents (Elt F)),
    unary main_v72 main_v75 (broadcastInDim S3300000x1 ![0] bcast_S3300000_S3300000x1_0 : (⟨S3300000, .i32⟩ : BufTy).Contents (Elt F) → (⟨S3300000x1, .i32⟩ : BufTy).Contents (Elt F)),
    ternary main_v74 main_v75 main_v73 main_v76 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_16 (constant S_ .f32 0x00000000#32),
    unary main_cst_16 main_v77 (broadcastInDim S100000 ![] bcast_S_S100000 : (⟨S_, .f32⟩ : BufTy).Contents (Elt F) → (⟨S100000, .f32⟩ : BufTy).Contents (Elt F)),
    binary main_v76 main_v77 main_v78 (cmpf .ogt : (⟨S100000, .f32⟩ : BufTy).Contents (Elt F) → (⟨S100000, .f32⟩ : BufTy).Contents (Elt F) → (⟨S100000, .i1⟩ : BufTy).Contents (Elt F)),
    unary main_v76 main_v79 (Host.rsqrt : (⟨S100000, .f32⟩ : BufTy).Contents (Elt F) → (⟨S100000, .f32⟩ : BufTy).Contents (Elt F)),
    nullary main_cst_17 (constant S_ .f32 0x00000000#32),
    TRef.unary (TRef.of (T := ⟨S_, .f32⟩) main_cst_17) (TRef.of (T := ⟨S_, .f32⟩) main_call2_v0) id,
    TRef.unary (TRef.of (T := ⟨S_, .f32⟩) main_call2_v0) (TRef.of (T := ⟨S100000, .f32⟩) main_call2_v1) (broadcastInDim S100000 ![] bcast_S_S100000),
    TRef.ternary (TRef.of (T := ⟨S100000, .i1⟩) main_v78) (TRef.of (T := ⟨S100000, .f32⟩) main_v79) (TRef.of (T := ⟨S100000, .f32⟩) main_call2_v1) (TRef.of (T := ⟨S100000, .f32⟩) main_v80) select,
    nullary main_c_18 (constantI S_ 32 0#32),
    unary main_c_18 main_v81 (broadcastInDim S3300000 ![] bcast_S_S3300000 : (⟨S_, .i32⟩ : BufTy).Contents (Elt F) → (⟨S3300000, .i32⟩ : BufTy).Contents (Elt F)),
    binary main_v71 main_v81 main_v82 (cmpi .slt : (⟨S3300000, .i32⟩ : BufTy).Contents (Elt F) → (⟨S3300000, .i32⟩ : BufTy).Contents (Elt F) → (⟨S3300000, .i1⟩ : BufTy).Contents (Elt F)),
    nullary main_c_19 (constantI S_ 32 100000#32),
    unary main_c_19 main_v83 (broadcastInDim S3300000 ![] bcast_S_S3300000 : (⟨S_, .i32⟩ : BufTy).Contents (Elt F) → (⟨S3300000, .i32⟩ : BufTy).Contents (Elt F)),
    binary main_v71 main_v83 main_v84 (addi : (⟨S3300000, .i32⟩ : BufTy).Contents (Elt F) → (⟨S3300000, .i32⟩ : BufTy).Contents (Elt F) → (⟨S3300000, .i32⟩ : BufTy).Contents (Elt F)),
    ternary main_v82 main_v84 main_v71 main_v85 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v85 main_v86 (broadcastInDim S3300000x1 ![0] bcast_S3300000_S3300000x1_0 : (⟨S3300000, .i32⟩ : BufTy).Contents (Elt F) → (⟨S3300000x1, .i32⟩ : BufTy).Contents (Elt F)),
    binary main_v80 main_v86 main_v87 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_20 (constantI S_ 32 0#32),
    unary main_c_20 main_v88 (broadcastInDim S3300000 ![] bcast_S_S3300000 : (⟨S_, .i32⟩ : BufTy).Contents (Elt F) → (⟨S3300000, .i32⟩ : BufTy).Contents (Elt F)),
    binary main_v72 main_v88 main_v89 (cmpi .slt : (⟨S3300000, .i32⟩ : BufTy).Contents (Elt F) → (⟨S3300000, .i32⟩ : BufTy).Contents (Elt F) → (⟨S3300000, .i1⟩ : BufTy).Contents (Elt F)),
    nullary main_c_21 (constantI S_ 32 100000#32),
    unary main_c_21 main_v90 (broadcastInDim S3300000 ![] bcast_S_S3300000 : (⟨S_, .i32⟩ : BufTy).Contents (Elt F) → (⟨S3300000, .i32⟩ : BufTy).Contents (Elt F)),
    binary main_v72 main_v90 main_v91 (addi : (⟨S3300000, .i32⟩ : BufTy).Contents (Elt F) → (⟨S3300000, .i32⟩ : BufTy).Contents (Elt F) → (⟨S3300000, .i32⟩ : BufTy).Contents (Elt F)),
    ternary main_v89 main_v91 main_v72 main_v92 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v92 main_v93 (broadcastInDim S3300000x1 ![0] bcast_S3300000_S3300000x1_0 : (⟨S3300000, .i32⟩ : BufTy).Contents (Elt F) → (⟨S3300000x1, .i32⟩ : BufTy).Contents (Elt F)),
    binary main_v80 main_v93 main_v94 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v87 main_v94 main_v95 (mulf : (⟨S3300000, .f32⟩ : BufTy).Contents (Elt F) → (⟨S3300000, .f32⟩ : BufTy).Contents (Elt F) → (⟨S3300000, .f32⟩ : BufTy).Contents (Elt F)),
    nullary main_c_22 (constantI S_ 32 0#32),
    unary main_c_22 main_v96 (broadcastInDim S3300000 ![] bcast_S_S3300000 : (⟨S_, .i32⟩ : BufTy).Contents (Elt F) → (⟨S3300000, .i32⟩ : BufTy).Contents (Elt F)),
    binary main_v71 main_v96 main_v97 (cmpi .slt : (⟨S3300000, .i32⟩ : BufTy).Contents (Elt F) → (⟨S3300000, .i32⟩ : BufTy).Contents (Elt F) → (⟨S3300000, .i1⟩ : BufTy).Contents (Elt F)),
    nullary main_c_23 (constantI S_ 32 100000#32),
    unary main_c_23 main_v98 (broadcastInDim S3300000 ![] bcast_S_S3300000 : (⟨S_, .i32⟩ : BufTy).Contents (Elt F) → (⟨S3300000, .i32⟩ : BufTy).Contents (Elt F)),
    binary main_v71 main_v98 main_v99 (addi : (⟨S3300000, .i32⟩ : BufTy).Contents (Elt F) → (⟨S3300000, .i32⟩ : BufTy).Contents (Elt F) → (⟨S3300000, .i32⟩ : BufTy).Contents (Elt F)),
    ternary main_v97 main_v99 main_v71 main_v100 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v100 main_v101 (broadcastInDim S3300000x1 ![0] bcast_S3300000_S3300000x1_0 : (⟨S3300000, .i32⟩ : BufTy).Contents (Elt F) → (⟨S3300000x1, .i32⟩ : BufTy).Contents (Elt F)),
    binary main_v69 main_v101 main_v102 ((fun x i => Host.gather gather_S100000x64_S3300000x1_S3300000x64_1_0_n_n_0_1_164 x i) : (⟨S100000x64, .f32⟩ : BufTy).Contents (Elt F) → (⟨S3300000x1, .i32⟩ : BufTy).Contents (Elt F) → (⟨S3300000x64, .f32⟩ : BufTy).Contents (Elt F)),
    unary main_v95 main_v103 (broadcastInDim S3300000x1 ![0] bcast_S3300000_S3300000x1_0 : (⟨S3300000, .f32⟩ : BufTy).Contents (Elt F) → (⟨S3300000x1, .f32⟩ : BufTy).Contents (Elt F)),
    unary main_v103 main_v104 (broadcastInDim S3300000x64 ![0, 1] bcast_S3300000x1_S3300000x64_0_1 : (⟨S3300000x1, .f32⟩ : BufTy).Contents (Elt F) → (⟨S3300000x64, .f32⟩ : BufTy).Contents (Elt F)),
    binary main_v102 main_v104 main_v105 (mulf : (⟨S3300000x64, .f32⟩ : BufTy).Contents (Elt F) → (⟨S3300000x64, .f32⟩ : BufTy).Contents (Elt F) → (⟨S3300000x64, .f32⟩ : BufTy).Contents (Elt F)),
    nullary main_cst_24 (constant S_ .f32 0x00000000#32),
    unary main_cst_24 main_v106 (broadcastInDim S100000x64 ![] bcast_S_S100000x64 : (⟨S_, .f32⟩ : BufTy).Contents (Elt F) → (⟨S100000x64, .f32⟩ : BufTy).Contents (Elt F)),
    unary main_v72 main_v107 (broadcastInDim S3300000x1 ![0] bcast_S3300000_S3300000x1_0 : (⟨S3300000, .i32⟩ : BufTy).Contents (Elt F) → (⟨S3300000x1, .i32⟩ : BufTy).Contents (Elt F)),
    ternary main_v106 main_v107 main_v105 main_v108 ((fun x i u => Host.scatterAdd scatter_S100000x64_S3300000x1_S3300000x64_1_0_0_1 x i u) : (⟨S100000x64, .f32⟩ : BufTy).Contents (Elt F) → (⟨S3300000x1, .i32⟩ : BufTy).Contents (Elt F) → (⟨S3300000x64, .f32⟩ : BufTy).Contents (Elt F) → (⟨S100000x64, .f32⟩ : BufTy).Contents (Elt F)) ]

/-- Piece 5 of the operations. -/
def seg5 : List (HloOp τ sig (Elt F)) :=
  [ unary main_arg6 main_v109 (broadcastInDim S1x64 ![1] bcast_S64_S1x64_1 : (⟨S64, .f32⟩ : BufTy).Contents (Elt F) → (⟨S1x64, .f32⟩ : BufTy).Contents (Elt F)),
    unary main_v109 main_v110 (broadcastInDim S100000x64 ![0, 1] bcast_S1x64_S100000x64_0_1 : (⟨S1x64, .f32⟩ : BufTy).Contents (Elt F) → (⟨S100000x64, .f32⟩ : BufTy).Contents (Elt F)),
    binary main_v108 main_v110 main_v111 (addf : (⟨S100000x64, .f32⟩ : BufTy).Contents (Elt F) → (⟨S100000x64, .f32⟩ : BufTy).Contents (Elt F) → (⟨S100000x64, .f32⟩ : BufTy).Contents (Elt F)),
    nullary main_cst_25 (constant S_ .f32 0x00000000#32),
    binary main_v111 main_cst_25 main_v112 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_26 (constant S_ .f32 0x47C35000#32),
    unary main_cst_26 main_v113 (broadcastInDim S64 ![] bcast_S_S64 : (⟨S_, .f32⟩ : BufTy).Contents (Elt F) → (⟨S64, .f32⟩ : BufTy).Contents (Elt F)),
    binary main_v112 main_v113 main_v114 (Host.divf : (⟨S64, .f32⟩ : BufTy).Contents (Elt F) → (⟨S64, .f32⟩ : BufTy).Contents (Elt F) → (⟨S64, .f32⟩ : BufTy).Contents (Elt F)),
    unary main_v114 main_v115 (broadcastInDim S1x64 ![1] bcast_S64_S1x64_1 : (⟨S64, .f32⟩ : BufTy).Contents (Elt F) → (⟨S1x64, .f32⟩ : BufTy).Contents (Elt F)),
    unary main_v115 main_v116 (broadcastInDim S100000x64 ![0, 1] bcast_S1x64_S100000x64_0_1 : (⟨S1x64, .f32⟩ : BufTy).Contents (Elt F) → (⟨S100000x64, .f32⟩ : BufTy).Contents (Elt F)),
    binary main_v111 main_v116 main_v117 (subf : (⟨S100000x64, .f32⟩ : BufTy).Contents (Elt F) → (⟨S100000x64, .f32⟩ : BufTy).Contents (Elt F) → (⟨S100000x64, .f32⟩ : BufTy).Contents (Elt F)),
    binary main_v117 main_v117 main_v118 (mulf : (⟨S100000x64, .f32⟩ : BufTy).Contents (Elt F) → (⟨S100000x64, .f32⟩ : BufTy).Contents (Elt F) → (⟨S100000x64, .f32⟩ : BufTy).Contents (Elt F)),
    nullary main_cst_27 (constant S_ .f32 0x00000000#32),
    binary main_v118 main_cst_27 main_v119 ((fun x v => Host.reduceAdd x v reducesTo_S100000x64_S64_d0 h_S_) : (⟨S100000x64, .f32⟩ : BufTy).Contents (Elt F) → (⟨S_, .f32⟩ : BufTy).Contents (Elt F) → (⟨S64, .f32⟩ : BufTy).Contents (Elt F)),
    nullary main_cst_28 (constant S_ .f32 0x47C35000#32),
    unary main_cst_28 main_v120 (broadcastInDim S64 ![] bcast_S_S64 : (⟨S_, .f32⟩ : BufTy).Contents (Elt F) → (⟨S64, .f32⟩ : BufTy).Contents (Elt F)),
    binary main_v119 main_v120 main_v121 (Host.divf : (⟨S64, .f32⟩ : BufTy).Contents (Elt F) → (⟨S64, .f32⟩ : BufTy).Contents (Elt F) → (⟨S64, .f32⟩ : BufTy).Contents (Elt F)),
    unary main_v114 main_v122 (broadcastInDim S1x64 ![1] bcast_S64_S1x64_1 : (⟨S64, .f32⟩ : BufTy).Contents (Elt F) → (⟨S1x64, .f32⟩ : BufTy).Contents (Elt F)),
    unary main_v122 main_v123 (broadcastInDim S100000x64 ![0, 1] bcast_S1x64_S100000x64_0_1 : (⟨S1x64, .f32⟩ : BufTy).Contents (Elt F) → (⟨S100000x64, .f32⟩ : BufTy).Contents (Elt F)),
    binary main_v111 main_v123 main_v124 (subf : (⟨S100000x64, .f32⟩ : BufTy).Contents (Elt F) → (⟨S100000x64, .f32⟩ : BufTy).Contents (Elt F) → (⟨S100000x64, .f32⟩ : BufTy).Contents (Elt F)),
    unary main_arg9 main_v125 (broadcastInDim S1x64 ![1] bcast_S64_S1x64_1 : (⟨S64, .f32⟩ : BufTy).Contents (Elt F) → (⟨S1x64, .f32⟩ : BufTy).Contents (Elt F)),
    unary main_v125 main_v126 (broadcastInDim S100000x64 ![0, 1] bcast_S1x64_S100000x64_0_1 : (⟨S1x64, .f32⟩ : BufTy).Contents (Elt F) → (⟨S100000x64, .f32⟩ : BufTy).Contents (Elt F)),
    binary main_v126 main_v124 main_v127 (mulf : (⟨S100000x64, .f32⟩ : BufTy).Contents (Elt F) → (⟨S100000x64, .f32⟩ : BufTy).Contents (Elt F) → (⟨S100000x64, .f32⟩ : BufTy).Contents (Elt F)),
    nullary main_cst_29 (constant S_ .f32 0x3727C5AC#32),
    unary main_cst_29 main_v128 (broadcastInDim S64 ![] bcast_S_S64 : (⟨S_, .f32⟩ : BufTy).Contents (Elt F) → (⟨S64, .f32⟩ : BufTy).Contents (Elt F)),
    binary main_v121 main_v128 main_v129 (addf : (⟨S64, .f32⟩ : BufTy).Contents (Elt F) → (⟨S64, .f32⟩ : BufTy).Contents (Elt F) → (⟨S64, .f32⟩ : BufTy).Contents (Elt F)),
    unary main_v129 main_v130 (Host.rsqrt : (⟨S64, .f32⟩ : BufTy).Contents (Elt F) → (⟨S64, .f32⟩ : BufTy).Contents (Elt F)),
    unary main_v130 main_v131 (broadcastInDim S1x64 ![1] bcast_S64_S1x64_1 : (⟨S64, .f32⟩ : BufTy).Contents (Elt F) → (⟨S1x64, .f32⟩ : BufTy).Contents (Elt F)),
    unary main_v131 main_v132 (broadcastInDim S100000x64 ![0, 1] bcast_S1x64_S100000x64_0_1 : (⟨S1x64, .f32⟩ : BufTy).Contents (Elt F) → (⟨S100000x64, .f32⟩ : BufTy).Contents (Elt F)),
    binary main_v127 main_v132 main_v133 (mulf : (⟨S100000x64, .f32⟩ : BufTy).Contents (Elt F) → (⟨S100000x64, .f32⟩ : BufTy).Contents (Elt F) → (⟨S100000x64, .f32⟩ : BufTy).Contents (Elt F)),
    unary main_arg10 main_v134 (broadcastInDim S1x64 ![1] bcast_S64_S1x64_1 : (⟨S64, .f32⟩ : BufTy).Contents (Elt F) → (⟨S1x64, .f32⟩ : BufTy).Contents (Elt F)),
    unary main_v134 main_v135 (broadcastInDim S100000x64 ![0, 1] bcast_S1x64_S100000x64_0_1 : (⟨S1x64, .f32⟩ : BufTy).Contents (Elt F) → (⟨S100000x64, .f32⟩ : BufTy).Contents (Elt F)),
    binary main_v133 main_v135 main_v136 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call3_cst) (constant S_ .f32 0x00000000#32),
    TRef.unary (TRef.of (T := ⟨S_, .f32⟩) main_call3_cst) (TRef.of (T := ⟨S100000x64, .f32⟩) main_call3_v0) (broadcastInDim S100000x64 ![] bcast_S_S100000x64),
    TRef.binary (TRef.of (T := ⟨S100000x64, .f32⟩) main_v136) (TRef.of (T := ⟨S100000x64, .f32⟩) main_call3_v0) (TRef.of (T := ⟨S100000x64, .f32⟩) main_v137) maximumf ]

/-- Piece 6 of the operations. -/
def seg6 : List (HloOp τ sig (Elt F)) :=
  [ binary main_v137 main_arg11 main_v138 ((fun l r => Host.dotGeneral dot_S100000x64_S64x64_S100000x64_1_0_0_1_n_n none l r) : (⟨S100000x64, .f32⟩ : BufTy).Contents (Elt F) → (⟨S64x64, .f32⟩ : BufTy).Contents (Elt F) → (⟨S100000x64, .f32⟩ : BufTy).Contents (Elt F)),
    unary main_arg12 main_v139 (broadcastInDim S1x64 ![1] bcast_S64_S1x64_1 : (⟨S64, .f32⟩ : BufTy).Contents (Elt F) → (⟨S1x64, .f32⟩ : BufTy).Contents (Elt F)),
    unary main_v139 main_v140 (broadcastInDim S100000x64 ![0, 1] bcast_S1x64_S100000x64_0_1 : (⟨S1x64, .f32⟩ : BufTy).Contents (Elt F) → (⟨S100000x64, .f32⟩ : BufTy).Contents (Elt F)),
    binary main_v138 main_v140 main_v141 (addf : (⟨S100000x64, .f32⟩ : BufTy).Contents (Elt F) → (⟨S100000x64, .f32⟩ : BufTy).Contents (Elt F) → (⟨S100000x64, .f32⟩ : BufTy).Contents (Elt F)),
    TRef.nullary (TRef.of (T := ⟨S_, .f32⟩) main_call4_cst) (constant S_ .f32 0x00000000#32),
    TRef.unary (TRef.of (T := ⟨S_, .f32⟩) main_call4_cst) (TRef.of (T := ⟨S100000x64, .f32⟩) main_call4_v0) (broadcastInDim S100000x64 ![] bcast_S_S100000x64),
    TRef.binary (TRef.of (T := ⟨S100000x64, .f32⟩) main_v141) (TRef.of (T := ⟨S100000x64, .f32⟩) main_call4_v0) (TRef.of (T := ⟨S100000x64, .f32⟩) main_v142) maximumf,
    binary main_v142 main_arg13 main_v143 ((fun l r => Host.dotGeneral dot_S100000x64_S64x32_S100000x32_1_0_0_1_n_n none l r) : (⟨S100000x64, .f32⟩ : BufTy).Contents (Elt F) → (⟨S64x32, .f32⟩ : BufTy).Contents (Elt F) → (⟨S100000x32, .f32⟩ : BufTy).Contents (Elt F)),
    unary main_arg14 main_v144 (broadcastInDim S1x32 ![1] bcast_S32_S1x32_1 : (⟨S32, .f32⟩ : BufTy).Contents (Elt F) → (⟨S1x32, .f32⟩ : BufTy).Contents (Elt F)),
    unary main_v144 main_v145 (broadcastInDim S100000x32 ![0, 1] bcast_S1x32_S100000x32_0_1 : (⟨S1x32, .f32⟩ : BufTy).Contents (Elt F) → (⟨S100000x32, .f32⟩ : BufTy).Contents (Elt F)),
    binary main_v143 main_v145 main_v146 (addf : (⟨S100000x32, .f32⟩ : BufTy).Contents (Elt F) → (⟨S100000x32, .f32⟩ : BufTy).Contents (Elt F) → (⟨S100000x32, .f32⟩ : BufTy).Contents (Elt F)),
    TRef.nullary (TRef.of (T := ⟨S_, .f32⟩) main_call5_cst) (constant S_ .f32 0x00000000#32),
    TRef.unary (TRef.of (T := ⟨S_, .f32⟩) main_call5_cst) (TRef.of (T := ⟨S100000x32, .f32⟩) main_call5_v0) (broadcastInDim S100000x32 ![] bcast_S_S100000x32),
    TRef.binary (TRef.of (T := ⟨S100000x32, .f32⟩) main_v146) (TRef.of (T := ⟨S100000x32, .f32⟩) main_call5_v0) (TRef.of (T := ⟨S100000x32, .f32⟩) main_v147) maximumf,
    binary main_v147 main_arg15 main_v148 ((fun l r => Host.dotGeneral dot_S100000x32_S32x1_S100000x1_1_0_0_1_n_n none l r) : (⟨S100000x32, .f32⟩ : BufTy).Contents (Elt F) → (⟨S32x1, .f32⟩ : BufTy).Contents (Elt F) → (⟨S100000x1, .f32⟩ : BufTy).Contents (Elt F)),
    unary main_arg16 main_v149 (broadcastInDim S1x1 ![1] bcast_S1_S1x1_1 : (⟨S1, .f32⟩ : BufTy).Contents (Elt F) → (⟨S1x1, .f32⟩ : BufTy).Contents (Elt F)),
    unary main_v149 main_v150 (broadcastInDim S100000x1 ![0, 1] bcast_S1x1_S100000x1_0_1 : (⟨S1x1, .f32⟩ : BufTy).Contents (Elt F) → (⟨S100000x1, .f32⟩ : BufTy).Contents (Elt F)),
    binary main_v148 main_v150 main_v151 (addf : (⟨S100000x1, .f32⟩ : BufTy).Contents (Elt F) → (⟨S100000x1, .f32⟩ : BufTy).Contents (Elt F) → (⟨S100000x1, .f32⟩ : BufTy).Contents (Elt F)),
    unary main_v151 main_v152 (Host.negf : (⟨S100000x1, .f32⟩ : BufTy).Contents (Elt F) → (⟨S100000x1, .f32⟩ : BufTy).Contents (Elt F)),
    unary main_v152 main_v153 (Host.exp : (⟨S100000x1, .f32⟩ : BufTy).Contents (Elt F) → (⟨S100000x1, .f32⟩ : BufTy).Contents (Elt F)),
    nullary main_cst_30 (constant S_ .f32 0x3F800000#32),
    unary main_cst_30 main_v154 (broadcastInDim S100000x1 ![] bcast_S_S100000x1 : (⟨S_, .f32⟩ : BufTy).Contents (Elt F) → (⟨S100000x1, .f32⟩ : BufTy).Contents (Elt F)),
    binary main_v154 main_v153 main_v155 (addf : (⟨S100000x1, .f32⟩ : BufTy).Contents (Elt F) → (⟨S100000x1, .f32⟩ : BufTy).Contents (Elt F) → (⟨S100000x1, .f32⟩ : BufTy).Contents (Elt F)),
    nullary main_cst_31 (constant S_ .f32 0x3F800000#32),
    unary main_cst_31 main_v156 (broadcastInDim S100000x1 ![] bcast_S_S100000x1 : (⟨S_, .f32⟩ : BufTy).Contents (Elt F) → (⟨S100000x1, .f32⟩ : BufTy).Contents (Elt F)),
    binary main_v156 main_v155 main_v157 (Host.divf : (⟨S100000x1, .f32⟩ : BufTy).Contents (Elt F) → (⟨S100000x1, .f32⟩ : BufTy).Contents (Elt F) → (⟨S100000x1, .f32⟩ : BufTy).Contents (Elt F)) ]

set_option maxRecDepth 8192 in
set_option maxHeartbeats 4000000 in
theorem ops_split : (ops : List (HloOp τ sig (Elt F))) = seg0 ++ (seg1 ++ (seg2 ++ (seg3 ++ (seg4 ++ (seg5 ++ seg6))))) := rfl

/-- Running a list and then another is running their concatenation. -/
theorem after_append (l1 l2 : List (HloOp τ sig (Elt F))) (W : Valuation τ sig (Elt F)) :
    StableHlo.after (l1 ++ l2) W = StableHlo.after l2 (StableHlo.after l1 W) := by
  induction l1 generalizing W with
  | nil => rfl
  | cons op l ih => exact ih _

/-! ## What each piece writes, and what it keeps -/

/-- The references piece 0 writes. -/
abbrev seg0W : List (Ref sig .tc) := [main_v0]
set_option maxRecDepth 8192 in
theorem seg0_writes : (seg0 : List (HloOp τ sig (Elt F))).Forall fun op => op.writes ⊆ (seg0W.map (Proc.devRef (τ := τ) .tc)).toFinset := by
  unfold seg0; simp only [List.Forall]
  exact by simp only [StableHlo.nullary_writes, StableHlo.unary_writes, StableHlo.binary_writes, StableHlo.ternary_writes, Finset.singleton_subset_iff, List.mem_toFinset]; exact List.mem_map_of_mem (by decide)
/-- Piece 0 leaves a buffer it does not write unchanged. -/
theorem kept0 (W : Valuation τ sig (Elt F)) (r : Ref sig .tc) (hr : r ∉ seg0W) :
    StableHlo.after (seg0 (F := F)) W (Proc.devRef .tc r) = W (Proc.devRef .tc r) :=
  StableHlo.after_of_writes_sub seg0 W seg0_writes hr

/-- The references piece 1 writes. -/
abbrev seg1W : List (Ref sig .tc) := [main_v1, main_v2, main_v3, main_cst, main_v4, main_cst_0, main_v5, main_v6, main_v7, main_cst_1, main_v8, main_v9, main_v10, main_cst_2, main_call0_v0, main_call0_v1, main_v11, main_c, main_v12, main_v13, main_c_3, main_v14, main_v15, main_v16, main_v17, main_v18, main_c_4, main_v19, main_v20, main_c_5, main_v21, main_v22, main_v23, main_v24, main_v25, main_v26, main_c_6, main_v27, main_v28, main_c_7, main_v29, main_v30, main_v31, main_v32, main_v33, main_v34, main_v35, main_v36, main_cst_8, main_v37, main_v38, main_v39]
set_option maxRecDepth 8192 in
theorem seg1_writes : (seg1 : List (HloOp τ sig (Elt F))).Forall fun op => op.writes ⊆ (seg1W.map (Proc.devRef (τ := τ) .tc)).toFinset := by
  unfold seg1; simp only [List.Forall]
  exact ⟨by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide)⟩
/-- Piece 1 leaves a buffer it does not write unchanged. -/
theorem kept1 (W : Valuation τ sig (Elt F)) (r : Ref sig .tc) (hr : r ∉ seg1W) :
    StableHlo.after (seg1 (F := F)) W (Proc.devRef .tc r) = W (Proc.devRef .tc r) :=
  StableHlo.after_of_writes_sub seg1 W seg1_writes hr

/-- The references piece 2 writes. -/
abbrev seg2W : List (Ref sig .tc) := [main_v40, main_v41, main_v42, main_cst_9, main_v43, main_cst_10, main_v44, main_v45, main_v46, main_v47, main_v48, main_v49, main_cst_11, main_v50, main_cst_12, main_v51, main_v52, main_v53, main_v54, main_v55, main_v56, main_v57, main_v58, main_cst_13, main_v59, main_v60, main_v61, main_v62, main_v63, main_v64, main_v65, main_v66, main_v67, main_call1_cst, main_call1_v0, main_v68]
set_option maxRecDepth 8192 in
theorem seg2_writes : (seg2 : List (HloOp τ sig (Elt F))).Forall fun op => op.writes ⊆ (seg2W.map (Proc.devRef (τ := τ) .tc)).toFinset := by
  unfold seg2; simp only [List.Forall]
  exact ⟨by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide)⟩
/-- Piece 2 leaves a buffer it does not write unchanged. -/
theorem kept2 (W : Valuation τ sig (Elt F)) (r : Ref sig .tc) (hr : r ∉ seg2W) :
    StableHlo.after (seg2 (F := F)) W (Proc.devRef .tc r) = W (Proc.devRef .tc r) :=
  StableHlo.after_of_writes_sub seg2 W seg2_writes hr

/-- The references piece 3 writes. -/
abbrev seg3W : List (Ref sig .tc) := [main_v69]
set_option maxRecDepth 8192 in
theorem seg3_writes : (seg3 : List (HloOp τ sig (Elt F))).Forall fun op => op.writes ⊆ (seg3W.map (Proc.devRef (τ := τ) .tc)).toFinset := by
  unfold seg3; simp only [List.Forall]
  exact by simp only [StableHlo.nullary_writes, StableHlo.unary_writes, StableHlo.binary_writes, StableHlo.ternary_writes, Finset.singleton_subset_iff, List.mem_toFinset]; exact List.mem_map_of_mem (by decide)
/-- Piece 3 leaves a buffer it does not write unchanged. -/
theorem kept3 (W : Valuation τ sig (Elt F)) (r : Ref sig .tc) (hr : r ∉ seg3W) :
    StableHlo.after (seg3 (F := F)) W (Proc.devRef .tc r) = W (Proc.devRef .tc r) :=
  StableHlo.after_of_writes_sub seg3 W seg3_writes hr

/-- The references piece 4 writes. -/
abbrev seg4W : List (Ref sig .tc) := [main_v70, main_v71, main_v72, main_cst_14, main_v73, main_cst_15, main_v74, main_v75, main_v76, main_cst_16, main_v77, main_v78, main_v79, main_cst_17, main_call2_v0, main_call2_v1, main_v80, main_c_18, main_v81, main_v82, main_c_19, main_v83, main_v84, main_v85, main_v86, main_v87, main_c_20, main_v88, main_v89, main_c_21, main_v90, main_v91, main_v92, main_v93, main_v94, main_v95, main_c_22, main_v96, main_v97, main_c_23, main_v98, main_v99, main_v100, main_v101, main_v102, main_v103, main_v104, main_v105, main_cst_24, main_v106, main_v107, main_v108]
set_option maxRecDepth 8192 in
theorem seg4_writes : (seg4 : List (HloOp τ sig (Elt F))).Forall fun op => op.writes ⊆ (seg4W.map (Proc.devRef (τ := τ) .tc)).toFinset := by
  unfold seg4; simp only [List.Forall]
  exact ⟨by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide)⟩
/-- Piece 4 leaves a buffer it does not write unchanged. -/
theorem kept4 (W : Valuation τ sig (Elt F)) (r : Ref sig .tc) (hr : r ∉ seg4W) :
    StableHlo.after (seg4 (F := F)) W (Proc.devRef .tc r) = W (Proc.devRef .tc r) :=
  StableHlo.after_of_writes_sub seg4 W seg4_writes hr

/-- The references piece 5 writes. -/
abbrev seg5W : List (Ref sig .tc) := [main_v109, main_v110, main_v111, main_cst_25, main_v112, main_cst_26, main_v113, main_v114, main_v115, main_v116, main_v117, main_v118, main_cst_27, main_v119, main_cst_28, main_v120, main_v121, main_v122, main_v123, main_v124, main_v125, main_v126, main_v127, main_cst_29, main_v128, main_v129, main_v130, main_v131, main_v132, main_v133, main_v134, main_v135, main_v136, main_call3_cst, main_call3_v0, main_v137]
set_option maxRecDepth 8192 in
theorem seg5_writes : (seg5 : List (HloOp τ sig (Elt F))).Forall fun op => op.writes ⊆ (seg5W.map (Proc.devRef (τ := τ) .tc)).toFinset := by
  unfold seg5; simp only [List.Forall]
  exact ⟨by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide)⟩
/-- Piece 5 leaves a buffer it does not write unchanged. -/
theorem kept5 (W : Valuation τ sig (Elt F)) (r : Ref sig .tc) (hr : r ∉ seg5W) :
    StableHlo.after (seg5 (F := F)) W (Proc.devRef .tc r) = W (Proc.devRef .tc r) :=
  StableHlo.after_of_writes_sub seg5 W seg5_writes hr

/-- The references piece 6 writes. -/
abbrev seg6W : List (Ref sig .tc) := [main_v138, main_v139, main_v140, main_v141, main_call4_cst, main_call4_v0, main_v142, main_v143, main_v144, main_v145, main_v146, main_call5_cst, main_call5_v0, main_v147, main_v148, main_v149, main_v150, main_v151, main_v152, main_v153, main_cst_30, main_v154, main_v155, main_cst_31, main_v156, main_v157]
set_option maxRecDepth 8192 in
theorem seg6_writes : (seg6 : List (HloOp τ sig (Elt F))).Forall fun op => op.writes ⊆ (seg6W.map (Proc.devRef (τ := τ) .tc)).toFinset := by
  unfold seg6; simp only [List.Forall]
  exact ⟨by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide),
    by simp only [StableHlo.nullary_writes, StableHlo.unary_writes, StableHlo.binary_writes, StableHlo.ternary_writes, Finset.singleton_subset_iff, List.mem_toFinset]; exact List.mem_map_of_mem (by decide)⟩
/-- Piece 6 leaves a buffer it does not write unchanged. -/
theorem kept6 (W : Valuation τ sig (Elt F)) (r : Ref sig .tc) (hr : r ∉ seg6W) :
    StableHlo.after (seg6 (F := F)) W (Proc.devRef .tc r) = W (Proc.devRef .tc r) :=
  StableHlo.after_of_writes_sub seg6 W seg6_writes hr

/-! ## What each piece leaves in its last buffer -/

/-- The edge-end list followed by the self loops, as a function of its two parts. -/
@[reducible] def cat2 (a : IVec S3200000 32) (b : IVec S100000 32) : IVec S3300000 32 :=
  concatenate S3300000 0 [⟨S3200000, a⟩, ⟨S100000, b⟩] concatenates_S3200000_S100000_S3300000_d0
theorem cat2_eq (a : IVec S3200000 32) (b : IVec S100000 32) :
    concatenate S3300000 0 [⟨S3200000, a⟩, ⟨S100000, b⟩] concatenates_S3200000_S100000_S3300000_d0 = cat2 a b := rfl

set_option maxRecDepth 8192 in
/-- What piece 0 leaves in its last buffer. -/
theorem read0 (W : Valuation τ sig (Elt F)) :
    StableHlo.after (seg0 (F := F)) W (Proc.devRef .tc main_v0) = Lin0 (W (Proc.devRef .tc main_arg0)) (W (Proc.devRef .tc main_arg3)) := by
  unfold seg0
  simp (disch := decide) only [after_cons, after_nil, nullary_result', unary_result', binary_result', ternary_result', nullary_result_ne', unary_result_ne', binary_result_ne', ternary_result_ne', ↓cat2_eq]
  rfl

set_option maxRecDepth 8192 in
/-- What piece 1 leaves in its last buffer. -/
theorem read1 (W : Valuation τ sig (Elt F)) :
    StableHlo.after (seg1 (F := F)) W (Proc.devRef .tc main_v39) = ConvR (W (Proc.devRef .tc main_arg1)) (W (Proc.devRef .tc main_arg2)) (W (Proc.devRef .tc main_v0)) := by
  unfold seg1
  simp (disch := decide) only [after_cons, after_nil, nullary_result', unary_result', binary_result', ternary_result', nullary_result_ne', unary_result_ne', binary_result_ne', ternary_result_ne', ↓cat2_eq]
  rfl

set_option maxRecDepth 8192 in
/-- What piece 2 leaves in its last buffer. -/
theorem read2 (W : Valuation τ sig (Elt F)) :
    StableHlo.after (seg2 (F := F)) W (Proc.devRef .tc main_v68) = BNReluR (W (Proc.devRef .tc main_v39)) (W (Proc.devRef .tc main_arg4)) (W (Proc.devRef .tc main_arg7)) (W (Proc.devRef .tc main_arg8)) := by
  unfold seg2
  simp (disch := decide) only [after_cons, after_nil, nullary_result', unary_result', binary_result', ternary_result', nullary_result_ne', unary_result_ne', binary_result_ne', ternary_result_ne', ↓cat2_eq]
  rfl

set_option maxRecDepth 8192 in
/-- What piece 3 leaves in its last buffer. -/
theorem read3 (W : Valuation τ sig (Elt F)) :
    StableHlo.after (seg3 (F := F)) W (Proc.devRef .tc main_v69) = Lin1 (W (Proc.devRef .tc main_v68)) (W (Proc.devRef .tc main_arg5)) := by
  unfold seg3
  simp (disch := decide) only [after_cons, after_nil, nullary_result', unary_result', binary_result', ternary_result', nullary_result_ne', unary_result_ne', binary_result_ne', ternary_result_ne', ↓cat2_eq]
  rfl

set_option maxRecDepth 8192 in
/-- What piece 4 leaves in its last buffer. -/
theorem read4 (W : Valuation τ sig (Elt F)) :
    StableHlo.after (seg4 (F := F)) W (Proc.devRef .tc main_v108) = ConvR (W (Proc.devRef .tc main_arg1)) (W (Proc.devRef .tc main_arg2)) (W (Proc.devRef .tc main_v69)) := by
  unfold seg4
  simp (disch := decide) only [after_cons, after_nil, nullary_result', unary_result', binary_result', ternary_result', nullary_result_ne', unary_result_ne', binary_result_ne', ternary_result_ne', ↓cat2_eq]
  rfl

set_option maxRecDepth 8192 in
/-- What piece 5 leaves in its last buffer. -/
theorem read5 (W : Valuation τ sig (Elt F)) :
    StableHlo.after (seg5 (F := F)) W (Proc.devRef .tc main_v137) = BNReluR (W (Proc.devRef .tc main_v108)) (W (Proc.devRef .tc main_arg6)) (W (Proc.devRef .tc main_arg9)) (W (Proc.devRef .tc main_arg10)) := by
  unfold seg5
  simp (disch := decide) only [after_cons, after_nil, nullary_result', unary_result', binary_result', ternary_result', nullary_result_ne', unary_result_ne', binary_result_ne', ternary_result_ne', ↓cat2_eq]
  rfl

set_option maxRecDepth 8192 in
/-- What piece 6 leaves in its last buffer. -/
theorem read6 (W : Valuation τ sig (Elt F)) :
    StableHlo.after (seg6 (F := F)) W (Proc.devRef .tc main_v157) = HeadR (W (Proc.devRef .tc main_v137)) (W (Proc.devRef .tc main_arg11)) (W (Proc.devRef .tc main_arg12)) (W (Proc.devRef .tc main_arg13)) (W (Proc.devRef .tc main_arg14)) (W (Proc.devRef .tc main_arg15)) (W (Proc.devRef .tc main_arg16)) := by
  unfold seg6
  simp (disch := decide) only [after_cons, after_nil, nullary_result', unary_result', binary_result', ternary_result', nullary_result_ne', unary_result_ne', binary_result_ne', ternary_result_ne', ↓cat2_eq]
  rfl

/-! ## The whole list -/

/-- From any contents W of the buffers, the list leaves in the result buffer the composition of the stages at
    the arguments' contents. -/
theorem result_eq (W : Valuation τ sig (Elt F)) :
    StableHlo.after (ops (F := F)) W (Proc.devRef .tc main_v157)
      = HeadR (BNReluR (ConvR (W (Proc.devRef .tc main_arg1)) (W (Proc.devRef .tc main_arg2))
          (Lin1 (BNReluR (ConvR (W (Proc.devRef .tc main_arg1)) (W (Proc.devRef .tc main_arg2)) (Lin0 (W (Proc.devRef .tc main_arg0)) (W (Proc.devRef .tc main_arg3))))
            (W (Proc.devRef .tc main_arg4)) (W (Proc.devRef .tc main_arg7)) (W (Proc.devRef .tc main_arg8))) (W (Proc.devRef .tc main_arg5))))
          (W (Proc.devRef .tc main_arg6)) (W (Proc.devRef .tc main_arg9)) (W (Proc.devRef .tc main_arg10)))
        (W (Proc.devRef .tc main_arg11)) (W (Proc.devRef .tc main_arg12)) (W (Proc.devRef .tc main_arg13)) (W (Proc.devRef .tc main_arg14)) (W (Proc.devRef .tc main_arg15)) (W (Proc.devRef .tc main_arg16)) := by
  rw [ops_split]
  simp only [after_append]
  rw [read6]
  rw [kept5 _ main_arg11 (by decide), kept5 _ main_arg12 (by decide), kept5 _ main_arg13 (by decide), kept5 _ main_arg14 (by decide), kept5 _ main_arg15 (by decide), kept5 _ main_arg16 (by decide)]
  rw [kept4 _ main_arg11 (by decide), kept4 _ main_arg12 (by decide), kept4 _ main_arg13 (by decide), kept4 _ main_arg14 (by decide), kept4 _ main_arg15 (by decide), kept4 _ main_arg16 (by decide)]
  rw [kept3 _ main_arg11 (by decide), kept3 _ main_arg12 (by decide), kept3 _ main_arg13 (by decide), kept3 _ main_arg14 (by decide), kept3 _ main_arg15 (by decide), kept3 _ main_arg16 (by decide)]
  rw [kept2 _ main_arg11 (by decide), kept2 _ main_arg12 (by decide), kept2 _ main_arg13 (by decide), kept2 _ main_arg14 (by decide), kept2 _ main_arg15 (by decide), kept2 _ main_arg16 (by decide)]
  rw [kept1 _ main_arg11 (by decide), kept1 _ main_arg12 (by decide), kept1 _ main_arg13 (by decide), kept1 _ main_arg14 (by decide), kept1 _ main_arg15 (by decide), kept1 _ main_arg16 (by decide)]
  rw [kept0 _ main_arg11 (by decide), kept0 _ main_arg12 (by decide), kept0 _ main_arg13 (by decide), kept0 _ main_arg14 (by decide), kept0 _ main_arg15 (by decide), kept0 _ main_arg16 (by decide)]
  rw [read5]
  rw [kept4 _ main_arg6 (by decide), kept4 _ main_arg9 (by decide), kept4 _ main_arg10 (by decide)]
  rw [kept3 _ main_arg6 (by decide), kept3 _ main_arg9 (by decide), kept3 _ main_arg10 (by decide)]
  rw [kept2 _ main_arg6 (by decide), kept2 _ main_arg9 (by decide), kept2 _ main_arg10 (by decide)]
  rw [kept1 _ main_arg6 (by decide), kept1 _ main_arg9 (by decide), kept1 _ main_arg10 (by decide)]
  rw [kept0 _ main_arg6 (by decide), kept0 _ main_arg9 (by decide), kept0 _ main_arg10 (by decide)]
  rw [read4]
  rw [kept3 _ main_arg1 (by decide), kept3 _ main_arg2 (by decide)]
  rw [kept2 _ main_arg1 (by decide), kept2 _ main_arg2 (by decide)]
  rw [kept1 _ main_arg1 (by decide), kept1 _ main_arg2 (by decide)]
  rw [kept0 _ main_arg1 (by decide), kept0 _ main_arg2 (by decide)]
  rw [read3]
  rw [kept2 _ main_arg5 (by decide)]
  rw [kept1 _ main_arg5 (by decide)]
  rw [kept0 _ main_arg5 (by decide)]
  rw [read2]
  rw [kept1 _ main_arg4 (by decide), kept1 _ main_arg7 (by decide), kept1 _ main_arg8 (by decide)]
  rw [kept0 _ main_arg4 (by decide), kept0 _ main_arg7 (by decide), kept0 _ main_arg8 (by decide)]
  rw [read1]
  rw [kept0 _ main_arg1 (by decide), kept0 _ main_arg2 (by decide)]
  rw [read0]

end Cert.ReferenceIdeal.Value

end
-- ==== Proof.Final.lean ====
/-
  The idealized kernel program's result is the reference's. Stage by stage the kernel's named functions are the
  reference's stage functions: the matrix products are the linear maps, the neighbourhood aggregation is the graph
  convolution, the affine map over the kernel's own column statistics is the one-pass batch normalisation, which on
  arrays of real numbers is the reference's two-pass one, and the head is the head. Every intermediate array is an
  array of real numbers because the arguments are (the precondition) and every stage maps real arrays to real arrays.
-/
import proofs.«119403_j19189913878709_1_alg».proof.Defs
import proofs.«119403_j19189913878709_1_alg».proof.Proof.KI.KDefs
import proofs.«119403_j19189913878709_1_alg».proof.Proof.KI.Bridge
import proofs.«119403_j19189913878709_1_alg».proof.Proof.KI.BridgeConv
import proofs.«119403_j19189913878709_1_alg».proof.Proof.Ref.Bridge
import proofs.«119403_j19189913878709_1_alg».proof.Proof.Ref.StagesReal
import proofs.«119403_j19189913878709_1_alg».proof.Proof.Ref.Finite
import proofs.«119403_j19189913878709_1_alg».proof.Proof.Ref.RefResult

set_option maxRecDepth 16384

noncomputable section

namespace Cert.KernelIdeal.Fr

open Idealize.ShloMosaic Idealize.ShloMosaic.ValueIdx

/-- A vector of 32 entries as a 1 × 32 array, read at column j. -/
theorem rowOf32_at (v : A32 (F := Ideal) Cert.KernelIdeal.S32) (j : Fin 32) :
    rowOf32 (F := Ideal) v (ix2 (0 : Fin 1) j) = v (ix1 j) := by
  unfold rowOf32
  exact shapeCast_apply v _ (ix2 (0 : Fin 1) j) (ix1 j) (by
    rw [Shape.rowMajor_val_two, Shape.rowMajor_val_one]; show j.val = 0 * 32 + j.val; omega)

/-- A vector of one entry as a 1 × 1 array, read at its entry. -/
theorem rowOf1_at (v : A32 (F := Ideal) Cert.KernelIdeal.S1) (j : Fin 1) :
    rowOf1 (F := Ideal) v (ix2 (0 : Fin 1) j) = v (ix1 j) := by
  unfold rowOf1
  exact shapeCast_apply v _ (ix2 (0 : Fin 1) j) (ix1 j) (by
    rw [Shape.rowMajor_val_two, Shape.rowMajor_val_one]; show j.val = 0 * 1 + j.val; omega)

end Cert.KernelIdeal.Fr

namespace Cert.Final

open Idealize.ShloMosaic Idealize.ShloMosaic.TcCoe Idealize.SL.Sem Idealize.ShloMosaic.ValueIdx
open Cert.KernelIdeal.Fr Cert.RefValue Cert.LibIdealReal

variable [hPre : Cert.Pre_finite_inputs.Facts]

section Stages
variable (m : (ℓ : Loc Cert.KernelIdeal.nD Cert.KernelIdeal.τ Cert.KernelIdeal.sig) → Buf (Elt Ideal) ℓ)
  (c : Dev Cert.KernelIdeal.nD)

/-- Under the precondition each of the fifteen float arguments is an array of real numbers. -/
theorem reals (hpre : Cert.Pre_KernelIdeal m) :
    RealV (ar0 m c) ∧ RealV (ar3 m c) ∧ RealV (ar4 m c) ∧ RealV (ar5 m c) ∧ RealV (ar6 m c) ∧ RealV (ar7 m c) ∧
      RealV (ar8 m c) ∧ RealV (ar9 m c) ∧ RealV (ar10 m c) ∧ RealV (ar11 m c) ∧ RealV (ar12 m c) ∧ RealV (ar13 m c) ∧
      RealV (ar14 m c) ∧ RealV (ar15 m c) ∧ RealV (ar16 m c) :=
  realV_of_pre _ _ _ _ _ _ _ _ _ _ _ _ _ _ _ _ _ (hpre c)

/-- First layer: the aggregate of x·W0 is the convolution of the first linear map. -/
theorem kAgg1_eq : kAgg1 m c = ConvR (F := Ideal) (ar1 m c) (ar2 m c) (Lin0 (F := Ideal) (ar0 m c) (ar3 m c)) := by
  unfold kAgg1 kNorm kSrc kDst kLin1
  rw [mm4_eq]
  exact agg_eq_conv (F := Ideal) _ _ _

theorem realV_kAgg1 (hpre : Cert.Pre_KernelIdeal m) : RealV (kAgg1 m c) := by
  obtain ⟨h0, h3, _⟩ := reals m c hpre
  rw [kAgg1_eq]; exact realV_ConvR _ _ (realV_Lin0 h0 h3)

/-- First layer: the activation is the reference's normalisation stage. -/
theorem kH1_eq (hpre : Cert.Pre_KernelIdeal m) :
    kH1 m c = BNReluR (F := Ideal) (kAgg1 m c) (ar4 m c) (ar7 m c) (ar8 m c) := by
  obtain ⟨_, _, h4, _, _, h7, h8, _⟩ := reals m c hpre
  unfold kH1 kSh1 kSc1 kS1 kQ1 kB1
  rw [aff_eq_kbn, kbn_eq (realV_kAgg1 m c hpre) h4 h7 h8, ← bnrelu_eq]

theorem realV_kH1 (hpre : Cert.Pre_KernelIdeal m) : RealV (kH1 m c) := by
  obtain ⟨_, _, h4, _, _, h7, h8, _⟩ := reals m c hpre
  rw [kH1_eq m c hpre]; exact realV_BNReluR (realV_kAgg1 m c hpre) h4 h7 h8

/-- Second layer. -/
theorem kAgg2_eq : kAgg2 m c = ConvR (F := Ideal) (ar1 m c) (ar2 m c) (Lin1 (F := Ideal) (kH1 m c) (ar5 m c)) := by
  unfold kAgg2 kNorm kSrc kDst kLin2
  rw [mm64_eq]
  exact agg_eq_conv (F := Ideal) _ _ _

theorem realV_kAgg2 (hpre : Cert.Pre_KernelIdeal m) : RealV (kAgg2 m c) := by
  obtain ⟨_, _, _, h5, _⟩ := reals m c hpre
  rw [kAgg2_eq]; exact realV_ConvR _ _ (realV_Lin1 (realV_kH1 m c hpre) h5)

theorem kH2_eq (hpre : Cert.Pre_KernelIdeal m) :
    kH2 m c = BNReluR (F := Ideal) (kAgg2 m c) (ar6 m c) (ar9 m c) (ar10 m c) := by
  obtain ⟨_, _, _, _, h6, _, _, h9, h10, _⟩ := reals m c hpre
  unfold kH2 kSh2 kSc2 kS2 kQ2 kB2
  rw [aff_eq_kbn, kbn_eq (realV_kAgg2 m c hpre) h6 h9 h10, ← bnrelu_eq]

/-- The head. -/
theorem kOut_eq : kOut m c
    = HeadR (F := Ideal) (kH2 m c) (ar11 m c) (ar12 m c) (ar13 m c) (ar14 m c) (ar15 m c) (ar16 m c) := by
  unfold kOut
  exact head_eq _ _ _ _ _ _ _ _ _ _ (fun k => rowOf64_at _ k) (fun k => rowOf32_at _ k) (fun k => rowOf1_at _ k)

/-- The kernel program's result as the composition of the reference's stage functions at the arguments. -/
theorem kOut_stages (hpre : Cert.Pre_KernelIdeal m) : kOut m c
    = HeadR (F := Ideal) (BNReluR (F := Ideal) (ConvR (F := Ideal) (ar1 m c) (ar2 m c)
          (Lin1 (F := Ideal) (BNReluR (F := Ideal) (ConvR (F := Ideal) (ar1 m c) (ar2 m c) (Lin0 (F := Ideal) (ar0 m c) (ar3 m c))) (ar4 m c) (ar7 m c) (ar8 m c)) (ar5 m c)))
          (ar6 m c) (ar9 m c) (ar10 m c))
        (ar11 m c) (ar12 m c) (ar13 m c) (ar14 m c) (ar15 m c) (ar16 m c) := by
  rw [kOut_eq, kH2_eq m c hpre, kAgg2_eq, kH1_eq m c hpre, kAgg1_eq]

end Stages

/-- THE RESULTS AGREE: from memories that agree on the seventeen arguments, the reference's result buffer after its
    operations holds the kernel program's result array. -/
theorem result_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16))
    (c : Dev Cert.KernelIdeal.nD) :
    StableHlo.after (Cert.ReferenceIdeal.Value.ops (F := Ideal)) (StableHlo.launchContents m' c)
        (Proc.devRef .tc Cert.ReferenceIdeal.main_v157) = kOut m c := by
  obtain ⟨e0, e1, e2, e3, e4, e5, e6, e7, e8, e9, e10, e11, e12, e13, e14, e15, e16⟩ := hagree c
  rw [Cert.ReferenceIdeal.Value.result_eq, kOut_stages m c hpre]
  have w0 : StableHlo.launchContents m' c (Proc.devRef .tc Cert.ReferenceIdeal.main_arg0) = ar0 m c := e0
  have w1 : StableHlo.launchContents m' c (Proc.devRef .tc Cert.ReferenceIdeal.main_arg1) = ar1 m c := e1
  have w2 : StableHlo.launchContents m' c (Proc.devRef .tc Cert.ReferenceIdeal.main_arg2) = ar2 m c := e2
  have w3 : StableHlo.launchContents m' c (Proc.devRef .tc Cert.ReferenceIdeal.main_arg3) = ar3 m c := e3
  have w4 : StableHlo.launchContents m' c (Proc.devRef .tc Cert.ReferenceIdeal.main_arg4) = ar4 m c := e4
  have w5 : StableHlo.launchContents m' c (Proc.devRef .tc Cert.ReferenceIdeal.main_arg5) = ar5 m c := e5
  have w6 : StableHlo.launchContents m' c (Proc.devRef .tc Cert.ReferenceIdeal.main_arg6) = ar6 m c := e6
  have w7 : StableHlo.launchContents m' c (Proc.devRef .tc Cert.ReferenceIdeal.main_arg7) = ar7 m c := e7
  have w8 : StableHlo.launchContents m' c (Proc.devRef .tc Cert.ReferenceIdeal.main_arg8) = ar8 m c := e8
  have w9 : StableHlo.launchContents m' c (Proc.devRef .tc Cert.ReferenceIdeal.main_arg9) = ar9 m c := e9
  have w10 : StableHlo.launchContents m' c (Proc.devRef .tc Cert.ReferenceIdeal.main_arg10) = ar10 m c := e10
  have w11 : StableHlo.launchContents m' c (Proc.devRef .tc Cert.ReferenceIdeal.main_arg11) = ar11 m c := e11
  have w12 : StableHlo.launchContents m' c (Proc.devRef .tc Cert.ReferenceIdeal.main_arg12) = ar12 m c := e12
  have w13 : StableHlo.launchContents m' c (Proc.devRef .tc Cert.ReferenceIdeal.main_arg13) = ar13 m c := e13
  have w14 : StableHlo.launchContents m' c (Proc.devRef .tc Cert.ReferenceIdeal.main_arg14) = ar14 m c := e14
  have w15 : StableHlo.launchContents m' c (Proc.devRef .tc Cert.ReferenceIdeal.main_arg15) = ar15 m c := e15
  have w16 : StableHlo.launchContents m' c (Proc.devRef .tc Cert.ReferenceIdeal.main_arg16) = ar16 m c := e16
  rw [w0, w1, w2, w3, w4, w5, w6, w7, w8, w9, w10, w11, w12, w13, w14, w15, w16]

end Cert.Final

end
-- ==== Proof.lean ====
/-
  A two-layer graph convolution network with batch normalisation and a three-layer head, as seven tiled kernels among
  host operations, against its plain array-level formulation.

  The three programs run, fault nowhere and leave their argument arrays as launched. The word-level kernel program and its
  idealization: the run of @main assembled from one record per kernel region (the five row-tiled pointwise / matrix-product
  regions each store their whole output block at every grid point; the two statistics regions carry two accumulator
  rows between grid points and store their outputs at the last point only), each region entered by splitting its arrays
  out of the held buffers and left by putting them back. The reference: a straight line of host operations.

  The idealized kernel's result equals the reference's on the extended reals: matrix products, the aggregation over the
  edges and the head are the same sums on both sides; the normalisation differs — column sums S and Q of the biased
  aggregate h, mean = S/n, var = Q/n − mean², h·scale + shift with scale = g·rsqrt(var + ε), shift = β − scale·mean, against
  the two-pass form g·(h − μ)·rsqrt(Σ(h − μ)²/n + ε) + β — and the two agree because every entry is a real number
  (the inputs are finite, and sums, products, the edge weights d^(−1/2) with d ≥ 1, and rsqrt of a positive number stay real).
  The ideal pass rewrote nothing, so the idealization claim has no conjunct.
-/
import proofs.«119403_j19189913878709_1_alg».proof.Defs
import proofs.«119403_j19189913878709_1_alg».proof.Proof.Gen.Kernel
import proofs.«119403_j19189913878709_1_alg».proof.Proof.Gen.KernelIdeal
import proofs.«119403_j19189913878709_1_alg».proof.Proof.Gen.ReferenceIdeal
import proofs.«119403_j19189913878709_1_alg».proof.Proof.Gen.Pre_finite_inputs
import proofs.«119403_j19189913878709_1_alg».proof.Proof.K.Run
import proofs.«119403_j19189913878709_1_alg».proof.Proof.KI.Value
import proofs.«119403_j19189913878709_1_alg».proof.Proof.Ref.RefFrame
import proofs.«119403_j19189913878709_1_alg».proof.Proof.Final

noncomputable section

namespace Cert.Proof

open Idealize.ShloMosaic Idealize.SL.Sem

theorem frame_k : Cert.frame_Kernel := fun m ρ _ => Cert.Kernel.Fr.frame m ρ
theorem frame_ki : Cert.frame_KernelIdeal := fun m ρ _ => Cert.KernelIdeal.Fr.frame m ρ
theorem frame_ri : Cert.frame_ReferenceIdeal := fun m ρ _ => Cert.ReferenceIdeal.Value.frameR (F := Ideal) m ρ

/-- Both idealized programs end with the same result array: the kernel program's run with its value, the reference's run
    read in stages, and the equality of the two values for memories that agree on finite arguments. -/
theorem algebraic : Cert.algebraic_KernelIdeal_ReferenceIdeal := by
  intro m ρ m' ρ' hpre hagree
  refine ⟨fun c => Cert.KernelIdeal.Fr.kOut m c, Cert.KernelIdeal.Fr.run_value m ρ, ?_⟩
  refine (θ_run Cert.ReferenceIdeal.defs _ _).mono (fun r h c => ⟨?_, ?_, ?_, ?_, ?_, ?_, ?_, ?_, ?_, ?_, ?_, ?_, ?_, ?_, ?_, ?_, ?_, ?_⟩)
    (Cert.ReferenceIdeal.Value.runR (F := Ideal) m' ρ')
  · exact (h c Cert.ReferenceIdeal.main_v157).trans (Cert.Final.result_eq m m' hpre hagree c)
  · exact (h c Cert.ReferenceIdeal.main_arg0).trans (Cert.ReferenceIdeal.Value.kept_arg0 _)
  · exact (h c Cert.ReferenceIdeal.main_arg1).trans (Cert.ReferenceIdeal.Value.kept_arg1 _)
  · exact (h c Cert.ReferenceIdeal.main_arg2).trans (Cert.ReferenceIdeal.Value.kept_arg2 _)
  · exact (h c Cert.ReferenceIdeal.main_arg3).trans (Cert.ReferenceIdeal.Value.kept_arg3 _)
  · exact (h c Cert.ReferenceIdeal.main_arg4).trans (Cert.ReferenceIdeal.Value.kept_arg4 _)
  · exact (h c Cert.ReferenceIdeal.main_arg5).trans (Cert.ReferenceIdeal.Value.kept_arg5 _)
  · exact (h c Cert.ReferenceIdeal.main_arg6).trans (Cert.ReferenceIdeal.Value.kept_arg6 _)
  · exact (h c Cert.ReferenceIdeal.main_arg7).trans (Cert.ReferenceIdeal.Value.kept_arg7 _)
  · exact (h c Cert.ReferenceIdeal.main_arg8).trans (Cert.ReferenceIdeal.Value.kept_arg8 _)
  · exact (h c Cert.ReferenceIdeal.main_arg9).trans (Cert.ReferenceIdeal.Value.kept_arg9 _)
  · exact (h c Cert.ReferenceIdeal.main_arg10).trans (Cert.ReferenceIdeal.Value.kept_arg10 _)
  · exact (h c Cert.ReferenceIdeal.main_arg11).trans (Cert.ReferenceIdeal.Value.kept_arg11 _)
  · exact (h c Cert.ReferenceIdeal.main_arg12).trans (Cert.ReferenceIdeal.Value.kept_arg12 _)
  · exact (h c Cert.ReferenceIdeal.main_arg13).trans (Cert.ReferenceIdeal.Value.kept_arg13 _)
  · exact (h c Cert.ReferenceIdeal.main_arg14).trans (Cert.ReferenceIdeal.Value.kept_arg14 _)
  · exact (h c Cert.ReferenceIdeal.main_arg15).trans (Cert.ReferenceIdeal.Value.kept_arg15 _)
  · exact (h c Cert.ReferenceIdeal.main_arg16).trans (Cert.ReferenceIdeal.Value.kept_arg16 _)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
